-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S128x40 .f32) (main_arg10 : FVec F S40 .f32) (main_v33 : IVec S_ 1) : IVec S_ 1 :=
  let main_v34 : FVec F S128x40 .f32 := Host.absf main_arg9
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg10
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg6 : FVec F S128 .f32) (main_arg7 : FVec F S128 .f32) (main_arg8 : FVec F S128 .f32) (main_arg9 : FVec F S128x40 .f32) (main_arg10 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S600000 32) (main_arg2 : IVec S600000 32) (main_arg3 : FVec F S128 .f32) (main_arg4 : FVec F S128 .f32) (main_arg5 : FVec F S128x128 .f32) (main_arg6 : FVec F S128 .f32) (main_arg7 : FVec F S128 .f32) (main_arg8 : FVec F S128 .f32) (main_arg9 : FVec F S128x40 .f32) (main_arg10 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S600000 : Shape := ⟨1, ![600000]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1x128 : Shape := ⟨2, ![1, 128]⟩
abbrev S1x40 : Shape := ⟨2, ![1, 40]⟩
abbrev S5000x128 : Shape := ⟨2, ![5000, 128]⟩
abbrev S5000x1 : Shape := ⟨2, ![5000, 1]⟩
abbrev S600000x128 : Shape := ⟨2, ![600000, 128]⟩
abbrev S50000x40 : Shape := ⟨2, ![50000, 40]⟩
abbrev S5000x40 : Shape := ⟨2, ![5000, 40]⟩

abbrev nBuf : Space → Nat
  | .hbm => 141
  | .vmem => 94
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S128x40, .f32⟩
  | 10 => ⟨S40, .f32⟩
  | 11 => ⟨S_, .f32⟩
  | 12 => ⟨S600000, .f32⟩
  | 13 => ⟨S_, .f32⟩
  | 14 => ⟨S50000, .f32⟩
  | 15 => ⟨S600000x1, .i32⟩
  | 16 => ⟨S50000, .f32⟩
  | 17 => ⟨S_, .f32⟩
  | 18 => ⟨S50000, .f32⟩
  | 19 => ⟨S50000, .f32⟩
  | 20 => ⟨S50000, .f32⟩
  | 21 => ⟨S50000x1, .f32⟩
  | 22 => ⟨S1x128, .f32⟩
  | 23 => ⟨S1x128, .f32⟩
  | 24 => ⟨S1x128, .f32⟩
  | 25 => ⟨S1x128, .f32⟩
  | 26 => ⟨S1x128, .f32⟩
  | 27 => ⟨S1x40, .f32⟩
  | 28 => ⟨S50000x128, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S_, .f32⟩
  | 39 => ⟨S50000x128, .f32⟩
  | 40 => ⟨S600000x1, .i32⟩
  | 41 => ⟨S50000x128, .f32⟩
  | 42 => ⟨S50000x128, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S1x128, .f32⟩
  | 53 => ⟨S50000x128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S_, .f32⟩
  | 64 => ⟨S50000x128, .f32⟩
  | 65 => ⟨S600000x1, .i32⟩
  | 66 => ⟨S50000x128, .f32⟩
  | 67 => ⟨S50000x128, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S1x128, .f32⟩
  | 77 => ⟨S1x128, .f32⟩
  | 78 => ⟨S50000x128, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .f32⟩
  | 88 => ⟨S_, .f32⟩
  | 89 => ⟨S50000x128, .f32⟩
  | 90 => ⟨S600000x1, .i32⟩
  | 91 => ⟨S50000x128, .f32⟩
  | 92 => ⟨S50000x128, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S1x128, .f32⟩
  | 102 => ⟨S1x128, .f32⟩
  | 103 => ⟨S50000x128, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x128, .f32⟩
  | 113 => ⟨S_, .f32⟩
  | 114 => ⟨S50000x128, .f32⟩
  | 115 => ⟨S600000x1, .i32⟩
  | 116 => ⟨S50000x128, .f32⟩
  | 117 => ⟨S50000x128, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S_, .f32⟩
  | 8 => ⟨S1x128, .f32⟩
  | 9 => ⟨S1x128, .f32⟩
  | 10 => ⟨S1x128, .f32⟩
  | 11 => ⟨S1x128, .f32⟩
  | 12 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x1, .f32⟩
  | .local _ .vmem, ⟨21, _⟩ => ⟨S5000x1, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x1, .f32⟩
  | .local _ .vmem, ⟨39, _⟩ => ⟨S5000x1, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x1, .f32⟩
  | .local _ .vmem, ⟨45, _⟩ => ⟨S5000x1, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S5000x1, .f32⟩
  | .local _ .vmem, ⟨57, _⟩ => ⟨S5000x1, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x1, .f32⟩
  | .local _ .vmem, ⟨63, _⟩ => ⟨S5000x1, .f32⟩
  | .local _ .vmem, ⟨64, _⟩ => ⟨S5000x128, .f32⟩
  | .local _ .vmem, ⟨65, _⟩ => ⟨S5000x128, .f32⟩
  | .local _ .vmem, ⟨66, _⟩ => ⟨S1x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S128x128, .f32⟩
  | .local _ .vmem, ⟨79, _⟩ => ⟨S1x128, .f32⟩
  | .local _ .vmem, ⟨80, _⟩ => ⟨S5000x128, .f32⟩
  | .local _ .vmem, ⟨81, _⟩ => ⟨S5000x128, .f32⟩
  | .local _ .vmem, ⟨82, _⟩ => ⟨S1x128, .f32⟩
  | .local _ .vmem, ⟨83, _⟩ => ⟨S1x128, .f32⟩
  | .local _ .vmem, ⟨84, _⟩ => ⟨S5000x128, .f32⟩
  | .local _ .vmem, ⟨85, _⟩ => ⟨S5000x128, .f32⟩
  | .local _ .vmem, ⟨86, _⟩ => ⟨S1x128, .f32⟩
  | .local _ .vmem, ⟨87, _⟩ => ⟨S1x128, .f32⟩
  | .local _ .vmem, ⟨88, _⟩ => ⟨S1x128, .f32⟩
  | .local _ .vmem, ⟨89, _⟩ => ⟨S1x128, .f32⟩
  | .local _ .vmem, ⟨90, _⟩ => ⟨S128x40, .f32⟩
  | .local _ .vmem, ⟨91, _⟩ => ⟨S1x40, .f32⟩
  | .local _ .vmem, ⟨92, _⟩ => ⟨S5000x40, .f32⟩
  | .local _ .vmem, ⟨93, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 94 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | _ => false

abbrev sig : RefSig :=
  ofTc nBuf bufTy 0 94 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v25_2 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43_0 : Ref sig .tc := ⟨.hbm, 67, rfl⟩
abbrev main_v43_1 : Ref sig .tc := ⟨.hbm, 68, rfl⟩
abbrev main_v43_2 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_v51 : Ref sig .tc := ⟨.hbm, 80, rfl⟩
abbrev main_v52 : Ref sig .tc := ⟨.hbm, 81, rfl⟩
abbrev main_c_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61_0 : Ref sig .tc := ⟨.hbm, 92, rfl⟩
abbrev main_v61_1 : Ref sig .tc := ⟨.hbm, 93, rfl⟩
abbrev main_v61_2 : Ref sig .tc := ⟨.hbm, 94, rfl⟩
abbrev main_cst_14 : Ref sig .tc := ⟨.hbm, 95, rfl⟩
abbrev main_v62 : Ref sig .tc := ⟨.hbm, 96, rfl⟩
abbrev main_v63 : Ref sig .tc := ⟨.hbm, 97, rfl⟩
abbrev main_cst_15 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_c_17 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_18 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79_0 : Ref sig .tc := ⟨.hbm, 117, rfl⟩
abbrev main_v79_1 : Ref sig .tc := ⟨.hbm, 118, rfl⟩
abbrev main_v79_2 : Ref sig .tc := ⟨.hbm, 119, rfl⟩
abbrev main_cst_19 : Ref sig .tc := ⟨.hbm, 120, rfl⟩
abbrev main_v80 : Ref sig .tc := ⟨.hbm, 121, rfl⟩
abbrev main_v81 : Ref sig .tc := ⟨.hbm, 122, rfl⟩
abbrev main_cst_20 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87_0 : Ref sig .tc := ⟨.hbm, 129, rfl⟩
abbrev main_v87_1 : Ref sig .tc := ⟨.hbm, 130, rfl⟩
abbrev main_v87_2 : Ref sig .tc := ⟨.hbm, 131, rfl⟩
abbrev main_cst_21 : Ref sig .tc := ⟨.hbm, 132, rfl⟩
abbrev main_v88 : Ref sig .tc := ⟨.hbm, 133, rfl⟩
abbrev main_v89 : Ref sig .tc := ⟨.hbm, 134, rfl⟩
abbrev main_cst_22 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc4_stg6_0 : Ref sig .tc := ⟨.vmem, 40, rfl⟩
abbrev cc4_stg6_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg5_0 : Ref sig .tc := ⟨.vmem, 56, rfl⟩
abbrev cc6_stg5_1 : Ref sig .tc := ⟨.vmem, 57, rfl⟩
abbrev cc6_stg6_0 : Ref sig .tc := ⟨.vmem, 58, rfl⟩
abbrev cc6_stg6_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg2_1 : Ref sig .tc := ⟨.vmem, 65, rfl⟩
abbrev cc7_stg3_0 : Ref sig .tc := ⟨.vmem, 66, rfl⟩
abbrev cc7_stg4_0 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg2_0 : Ref sig .tc := ⟨.vmem, 71, rfl⟩
abbrev cc8_stg3_0 : Ref sig .tc := ⟨.vmem, 72, rfl⟩
abbrev cc8_stg4_0 : Ref sig .tc := ⟨.vmem, 73, rfl⟩
abbrev cc8_stg5_0 : Ref sig .tc := ⟨.vmem, 74, rfl⟩
abbrev cc8_stg5_1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg2_0 : Ref sig .tc := ⟨.vmem, 79, rfl⟩
abbrev cc9_stg3_0 : Ref sig .tc := ⟨.vmem, 80, rfl⟩
abbrev cc9_stg3_1 : Ref sig .tc := ⟨.vmem, 81, rfl⟩
abbrev cc9_stg4_0 : Ref sig .tc := ⟨.vmem, 82, rfl⟩
abbrev cc9_stg5_0 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg2_0 : Ref sig .tc := ⟨.vmem, 87, rfl⟩
abbrev cc10_stg3_0 : Ref sig .tc := ⟨.vmem, 88, rfl⟩
abbrev cc10_stg4_0 : Ref sig .tc := ⟨.vmem, 89, rfl⟩
abbrev cc10_stg5_0 : Ref sig .tc := ⟨.vmem, 90, rfl⟩
abbrev cc10_stg6_0 : Ref sig .tc := ⟨.vmem, 91, rfl⟩
abbrev cc10_stg7_0 : Ref sig .tc := ⟨.vmem, 92, rfl⟩
abbrev cc10_stg7_1 : Ref sig .tc := ⟨.vmem, 93, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc4_sem6_0 : DmaSem sig := 40
abbrev cc4_sem6_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem4_0 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem4_0 : DmaSem sig := 55
abbrev cc6_sem5_0 : DmaSem sig := 56
abbrev cc6_sem5_1 : DmaSem sig := 57
abbrev cc6_sem6_0 : DmaSem sig := 58
abbrev cc6_sem6_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem2_1 : DmaSem sig := 65
abbrev cc7_sem3_0 : DmaSem sig := 66
abbrev cc7_sem4_0 : DmaSem sig := 67
abbrev cc8_sem0_0 : DmaSem sig := 68
abbrev cc8_sem0_1 : DmaSem sig := 69
abbrev cc8_sem1_0 : DmaSem sig := 70
abbrev cc8_sem2_0 : DmaSem sig := 71
abbrev cc8_sem3_0 : DmaSem sig := 72
abbrev cc8_sem4_0 : DmaSem sig := 73
abbrev cc8_sem5_0 : DmaSem sig := 74
abbrev cc8_sem5_1 : DmaSem sig := 75
abbrev cc9_sem0_0 : DmaSem sig := 76
abbrev cc9_sem0_1 : DmaSem sig := 77
abbrev cc9_sem1_0 : DmaSem sig := 78
abbrev cc9_sem2_0 : DmaSem sig := 79
abbrev cc9_sem3_0 : DmaSem sig := 80
abbrev cc9_sem3_1 : DmaSem sig := 81
abbrev cc9_sem4_0 : DmaSem sig := 82
abbrev cc9_sem5_0 : DmaSem sig := 83
abbrev cc10_sem0_0 : DmaSem sig := 84
abbrev cc10_sem0_1 : DmaSem sig := 85
abbrev cc10_sem1_0 : DmaSem sig := 86
abbrev cc10_sem2_0 : DmaSem sig := 87
abbrev cc10_sem3_0 : DmaSem sig := 88
abbrev cc10_sem4_0 : DmaSem sig := 89
abbrev cc10_sem5_0 : DmaSem sig := 90
abbrev cc10_sem6_0 : DmaSem sig := 91
abbrev cc10_sem7_0 : DmaSem sig := 92
abbrev cc10_sem7_1 : DmaSem sig := 93

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x40 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x40 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x40 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  shapeCasts_S128_S1x128 : S128.ShapeCasts S1x128
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  bcast_S_S1x128 : S_.BroadcastsInDim S1x128 (![] : Fin 0 → Fin S1x128.rank)
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S50000x1.size a
  hwx2_5 : ∀ i : grid2.Coords, EltTy.bits .f32 = 32 ∨ (Rect.block (s := S50000x1) S5000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S50000x1.size a
  hwx4_5 : ∀ i : grid4.Coords, EltTy.bits .f32 = 32 ∨ (Rect.block (s := S50000x1) S5000x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x1.size a ≤ S50000x1.size a
  hwx6_5 : ∀ i : grid6.Coords, EltTy.bits .f32 = 32 ∨ (Rect.block (s := S50000x1) S5000x1.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .f32 = 32 ∨ (Rect.block (s := S50000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S50000x128.size a
  hwx9_3 : ∀ i : grid9.Coords, EltTy.bits .f32 = 32 ∨ (Rect.block (s := S50000x128) S5000x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x40.size a ≤ S128x40.size a
  hwx10_5 : ∀ i : grid10.Coords, EltTy.bits .f32 = 32 ∨ (Rect.block (s := S128x40) S128x40.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x40.size a ≤ S1x40.size a
  hwx10_6 : ∀ i : grid10.Coords, EltTy.bits .f32 = 32 ∨ (Rect.block (s := S1x40) S1x40.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x40.size a ≤ S50000x40.size a
  hwx10_7 : ∀ i : grid10.Coords, EltTy.bits .f32 = 32 ∨ (Rect.block (s := S50000x40) S5000x40.size (cc10_transform_7 i) (hinb10_7 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S5000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v32) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43_0) S5000x128.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v43_1) S1x128.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43_2) S1x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v43_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v8) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v9) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v7) S5000x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v50) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v60) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v61_0) S5000x128.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v61_1) S1x128.size cc5_transform_3 reads5_3 true true 1 stage5_3 sem5_3
    hrank5 hreads5_3 hinb5_3 nbuf5_3 (Memref.isWhole_whole _) hwx5_3 hstage5_3

abbrev win5_4 : Pipeline.Window sig grid5 :=
  Pipeline.Window.ofSpec (Memref.whole main_v61_2) S1x128.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v61_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v63) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v67) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v8) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v9) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v7) S5000x1.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v68) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v78) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v7) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v79_0) S5000x128.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v79_1) S1x128.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v79_2) S1x128.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v79_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v81) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v85) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v8) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v9) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v86) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v86) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg5) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v10) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v87_0) S5000x128.size cc9_transform_3 reads9_3 true false 2 stage9_3 sem9_3
    hrank9 hreads9_3 hinb9_3 nbuf9_3 (Memref.isWhole_whole _) hwx9_3 hstage9_3

abbrev win9_4 : Pipeline.Window sig grid9 :=
  Pipeline.Window.ofSpec (Memref.whole main_v87_1) S1x128.size cc9_transform_4 reads9_4 true true 1 stage9_4 sem9_4
    hrank9 hreads9_4 hinb9_4 nbuf9_4 (Memref.isWhole_whole _) hwx9_4 hstage9_4

abbrev win9_5 : Pipeline.Window sig grid9 :=
  Pipeline.Window.ofSpec (Memref.whole main_v87_2) S1x128.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v87_0) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v89) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v93) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v11) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v12) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg9) S128x40.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v13) S1x40.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v94) S5000x40.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

class Facts : Prop extends Facts₀ where

variable [Facts]
-- ==== ReferenceIdeal.lean ====
abbrev S50000x128 : Shape := ⟨2, ![50000, 128]⟩
abbrev S600000 : Shape := ⟨1, ![600000]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S50000x40 : Shape := ⟨2, ![50000, 40]⟩
abbrev S1x40 : Shape := ⟨2, ![1, 40]⟩

abbrev nBuf : Space → Nat
  | .hbm => 330
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S128x40, .f32⟩
  | 10 => ⟨S40, .f32⟩
  | 11 => ⟨S_, .f32⟩
  | 12 => ⟨S600000, .f32⟩
  | 13 => ⟨S_, .f32⟩
  | 14 => ⟨S50000, .f32⟩
  | 15 => ⟨S600000x1, .i32⟩
  | 16 => ⟨S50000, .f32⟩
  | 17 => ⟨S_, .f32⟩
  | 18 => ⟨S50000, .f32⟩
  | 19 => ⟨S50000, .f32⟩
  | 20 => ⟨S50000, .f32⟩
  | 21 => ⟨S50000x1, .f32⟩
  | 22 => ⟨S50000x128, .f32⟩
  | 23 => ⟨S50000x128, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S50000x128, .f32⟩
  | 35 => ⟨S600000x1, .i32⟩
  | 36 => ⟨S50000x128, .f32⟩
  | 37 => ⟨S50000x128, .f32⟩
  | 38 => ⟨S50000x128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S50000x128, .f32⟩
  | 52 => ⟨S50000x128, .f32⟩
  | 53 => ⟨S50000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S50000x128, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .f32⟩
  | 97 => ⟨S_, .f32⟩
  | 98 => ⟨S50000x128, .f32⟩
  | 99 => ⟨S600000x1, .i32⟩
  | 100 => ⟨S50000x128, .f32⟩
  | 101 => ⟨S50000x128, .f32⟩
  | 102 => ⟨S50000x128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S128, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S50000x128, .f32⟩
  | 23 => ⟨S50000x128, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S50000x128, .f32⟩
  | 35 => ⟨S600000x1, .i32⟩
  | 36 => ⟨S50000x128, .f32⟩
  | 37 => ⟨S50000x128, .f32⟩
  | 38 => ⟨S50000x128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S50000x128, .f32⟩
  | 52 => ⟨S50000x128, .f32⟩
  | 53 => ⟨S50000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S50000x128, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .f32⟩
  | 97 => ⟨S_, .f32⟩
  | 98 => ⟨S50000x128, .f32⟩
  | 99 => ⟨S600000x1, .i32⟩
  | 100 => ⟨S50000x128, .f32⟩
  | 101 => ⟨S50000x128, .f32⟩
  | 102 => ⟨S50000x128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S50000x128, .f32⟩

abbrev hbmTy0_2 (i : Nat) : BufTy := match i % 128 with
  | 0 => ⟨S_, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S128, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S128, .f32⟩
  | 28 => ⟨S_, .f32⟩
  | 29 => ⟨S128, .f32⟩
  | 30 => ⟨S128, .f32⟩
  | 31 => ⟨S_, .i32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S50000x128, .f32⟩
  | 39 => ⟨S50000x128, .f32⟩
  | 40 => ⟨S50000x128, .f32⟩
  | 41 => ⟨S_, .f32⟩
  | 42 => ⟨S_, .f32⟩
  | 43 => ⟨S_, .f32⟩
  | 44 => ⟨S_, .f32⟩
  | 45 => ⟨S128, .f32⟩
  | 46 => ⟨S128, .f32⟩
  | 47 => ⟨S128, .f32⟩
  | 48 => ⟨S_, .f32⟩
  | 49 => ⟨S_, .i1⟩
  | 50 => ⟨S_, .f32⟩
  | 51 => ⟨S_, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S_, .f32⟩
  | 58 => ⟨S128, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S50000x40, .f32⟩
  | 71 => ⟨S1x40, .f32⟩
  | 72 => ⟨S50000x40, .f32⟩
  | 73 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_cst_3 : Ref sig .tc := ⟨.hbm, 61, rfl⟩
abbrev main_call0_v12 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst_7 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_call1_cst : Ref sig .tc := ⟨.hbm, 83, rfl⟩
abbrev main_call1_v0 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_c_8 : Ref sig .tc := ⟨.hbm, 88, rfl⟩
abbrev main_v44 : Ref sig .tc := ⟨.hbm, 89, rfl⟩
abbrev main_v45 : Ref sig .tc := ⟨.hbm, 90, rfl⟩
abbrev main_c_9 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_10 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_11 : Ref sig .tc := ⟨.hbm, 103, rfl⟩
abbrev main_v56 : Ref sig .tc := ⟨.hbm, 104, rfl⟩
abbrev main_cst_12 : Ref sig .tc := ⟨.hbm, 105, rfl⟩
abbrev main_v57 : Ref sig .tc := ⟨.hbm, 106, rfl⟩
abbrev main_v58 : Ref sig .tc := ⟨.hbm, 107, rfl⟩
abbrev main_c_13 : Ref sig .tc := ⟨.hbm, 108, rfl⟩
abbrev main_call2_cst : Ref sig .tc := ⟨.hbm, 109, rfl⟩
abbrev main_call2_v0 : Ref sig .tc := ⟨.hbm, 110, rfl⟩
abbrev main_call2_v1 : Ref sig .tc := ⟨.hbm, 111, rfl⟩
abbrev main_call2_cst_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_cst_1 : Ref sig .tc := ⟨.hbm, 119, rfl⟩
abbrev main_call2_v8 : Ref sig .tc := ⟨.hbm, 120, rfl⟩
abbrev main_call2_cst_2 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_cst_3 : Ref sig .tc := ⟨.hbm, 125, rfl⟩
abbrev main_call2_v12 : Ref sig .tc := ⟨.hbm, 126, rfl⟩
abbrev main_call2_cst_4 : Ref sig .tc := ⟨.hbm, 127, rfl⟩
abbrev main_call2_call0_v0 : Ref sig .tc := ⟨.hbm, 128, rfl⟩
abbrev main_call2_call0_v1 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_cst_14 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_call3_cst : Ref sig .tc := ⟨.hbm, 147, rfl⟩
abbrev main_call3_v0 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_c_15 : Ref sig .tc := ⟨.hbm, 152, rfl⟩
abbrev main_v78 : Ref sig .tc := ⟨.hbm, 153, rfl⟩
abbrev main_v79 : Ref sig .tc := ⟨.hbm, 154, rfl⟩
abbrev main_c_16 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_cst_17 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_cst_18 : Ref sig .tc := ⟨.hbm, 167, rfl⟩
abbrev main_v90 : Ref sig .tc := ⟨.hbm, 168, rfl⟩
abbrev main_cst_19 : Ref sig .tc := ⟨.hbm, 169, rfl⟩
abbrev main_v91 : Ref sig .tc := ⟨.hbm, 170, rfl⟩
abbrev main_v92 : Ref sig .tc := ⟨.hbm, 171, rfl⟩
abbrev main_c_20 : Ref sig .tc := ⟨.hbm, 172, rfl⟩
abbrev main_call4_cst : Ref sig .tc := ⟨.hbm, 173, rfl⟩
abbrev main_call4_v0 : Ref sig .tc := ⟨.hbm, 174, rfl⟩
abbrev main_call4_v1 : Ref sig .tc := ⟨.hbm, 175, rfl⟩
abbrev main_call4_cst_0 : Ref sig .tc := ⟨.hbm, 176, rfl⟩
abbrev main_call4_v2 : Ref sig .tc := ⟨.hbm, 177, rfl⟩
abbrev main_call4_v3 : Ref sig .tc := ⟨.hbm, 178, rfl⟩
abbrev main_call4_v4 : Ref sig .tc := ⟨.hbm, 179, rfl⟩
abbrev main_call4_v5 : Ref sig .tc := ⟨.hbm, 180, rfl⟩
abbrev main_call4_v6 : Ref sig .tc := ⟨.hbm, 181, rfl⟩
abbrev main_call4_v7 : Ref sig .tc := ⟨.hbm, 182, rfl⟩
abbrev main_call4_cst_1 : Ref sig .tc := ⟨.hbm, 183, rfl⟩
abbrev main_call4_v8 : Ref sig .tc := ⟨.hbm, 184, rfl⟩
abbrev main_call4_cst_2 : Ref sig .tc := ⟨.hbm, 185, rfl⟩
abbrev main_call4_v9 : Ref sig .tc := ⟨.hbm, 186, rfl⟩
abbrev main_call4_v10 : Ref sig .tc := ⟨.hbm, 187, rfl⟩
abbrev main_call4_v11 : Ref sig .tc := ⟨.hbm, 188, rfl⟩
abbrev main_call4_cst_3 : Ref sig .tc := ⟨.hbm, 189, rfl⟩
abbrev main_call4_v12 : Ref sig .tc := ⟨.hbm, 190, rfl⟩
abbrev main_call4_cst_4 : Ref sig .tc := ⟨.hbm, 191, rfl⟩
abbrev main_call4_call0_v0 : Ref sig .tc := ⟨.hbm, 192, rfl⟩
abbrev main_call4_call0_v1 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_cst_21 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_v102 : Ref sig .tc := ⟨.hbm, 204, rfl⟩
abbrev main_v103 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_v108 : Ref sig .tc := ⟨.hbm, 210, rfl⟩
abbrev main_call5_cst : Ref sig .tc := ⟨.hbm, 211, rfl⟩
abbrev main_call5_v0 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_c_22 : Ref sig .tc := ⟨.hbm, 216, rfl⟩
abbrev main_v112 : Ref sig .tc := ⟨.hbm, 217, rfl⟩
abbrev main_v113 : Ref sig .tc := ⟨.hbm, 218, rfl⟩
abbrev main_c_23 : Ref sig .tc := ⟨.hbm, 219, rfl⟩
abbrev main_v114 : Ref sig .tc := ⟨.hbm, 220, rfl⟩
abbrev main_v115 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩
abbrev main_cst_24 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_v122 : Ref sig .tc := ⟨.hbm, 229, rfl⟩
abbrev main_v123 : Ref sig .tc := ⟨.hbm, 230, rfl⟩
abbrev main_cst_25 : Ref sig .tc := ⟨.hbm, 231, rfl⟩
abbrev main_v124 : Ref sig .tc := ⟨.hbm, 232, rfl⟩
abbrev main_cst_26 : Ref sig .tc := ⟨.hbm, 233, rfl⟩
abbrev main_v125 : Ref sig .tc := ⟨.hbm, 234, rfl⟩
abbrev main_v126 : Ref sig .tc := ⟨.hbm, 235, rfl⟩
abbrev main_c_27 : Ref sig .tc := ⟨.hbm, 236, rfl⟩
abbrev main_call6_cst : Ref sig .tc := ⟨.hbm, 237, rfl⟩
abbrev main_call6_v0 : Ref sig .tc := ⟨.hbm, 238, rfl⟩
abbrev main_call6_v1 : Ref sig .tc := ⟨.hbm, 239, rfl⟩
abbrev main_call6_cst_0 : Ref sig .tc := ⟨.hbm, 240, rfl⟩
abbrev main_call6_v2 : Ref sig .tc := ⟨.hbm, 241, rfl⟩
abbrev main_call6_v3 : Ref sig .tc := ⟨.hbm, 242, rfl⟩
abbrev main_call6_v4 : Ref sig .tc := ⟨.hbm, 243, rfl⟩
abbrev main_call6_v5 : Ref sig .tc := ⟨.hbm, 244, rfl⟩
abbrev main_call6_v6 : Ref sig .tc := ⟨.hbm, 245, rfl⟩
abbrev main_call6_v7 : Ref sig .tc := ⟨.hbm, 246, rfl⟩
abbrev main_call6_cst_1 : Ref sig .tc := ⟨.hbm, 247, rfl⟩
abbrev main_call6_v8 : Ref sig .tc := ⟨.hbm, 248, rfl⟩
abbrev main_call6_cst_2 : Ref sig .tc := ⟨.hbm, 249, rfl⟩
abbrev main_call6_v9 : Ref sig .tc := ⟨.hbm, 250, rfl⟩
abbrev main_call6_v10 : Ref sig .tc := ⟨.hbm, 251, rfl⟩
abbrev main_call6_v11 : Ref sig .tc := ⟨.hbm, 252, rfl⟩
abbrev main_call6_cst_3 : Ref sig .tc := ⟨.hbm, 253, rfl⟩
abbrev main_call6_v12 : Ref sig .tc := ⟨.hbm, 254, rfl⟩
abbrev main_call6_cst_4 : Ref sig .tc := ⟨.hbm, 255, rfl⟩
abbrev main_call6_call0_v0 : Ref sig .tc := ⟨.hbm, 256, rfl⟩
abbrev main_call6_call0_v1 : Ref sig .tc := ⟨.hbm, 257, rfl⟩
abbrev main_v127 : Ref sig .tc := ⟨.hbm, 258, rfl⟩
abbrev main_v128 : Ref sig .tc := ⟨.hbm, 259, rfl⟩
abbrev main_v129 : Ref sig .tc := ⟨.hbm, 260, rfl⟩
abbrev main_v130 : Ref sig .tc := ⟨.hbm, 261, rfl⟩
abbrev main_cst_28 : Ref sig .tc := ⟨.hbm, 262, rfl⟩
abbrev main_v131 : Ref sig .tc := ⟨.hbm, 263, rfl⟩
abbrev main_v132 : Ref sig .tc := ⟨.hbm, 264, rfl⟩
abbrev main_v133 : Ref sig .tc := ⟨.hbm, 265, rfl⟩
abbrev main_v134 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_v139 : Ref sig .tc := ⟨.hbm, 271, rfl⟩
abbrev main_v140 : Ref sig .tc := ⟨.hbm, 272, rfl⟩
abbrev main_v141 : Ref sig .tc := ⟨.hbm, 273, rfl⟩
abbrev main_v142 : Ref sig .tc := ⟨.hbm, 274, rfl⟩
abbrev main_call7_cst : Ref sig .tc := ⟨.hbm, 275, rfl⟩
abbrev main_call7_v0 : Ref sig .tc := ⟨.hbm, 276, rfl⟩
abbrev main_v143 : Ref sig .tc := ⟨.hbm, 277, rfl⟩
abbrev main_v144 : Ref sig .tc := ⟨.hbm, 278, rfl⟩
abbrev main_v145 : Ref sig .tc := ⟨.hbm, 279, rfl⟩
abbrev main_v146 : Ref sig .tc := ⟨.hbm, 280, rfl⟩
abbrev main_v147 : Ref sig .tc := ⟨.hbm, 281, rfl⟩
abbrev main_cst_29 : Ref sig .tc := ⟨.hbm, 282, rfl⟩
abbrev main_v148 : Ref sig .tc := ⟨.hbm, 283, rfl⟩
abbrev main_cst_30 : Ref sig .tc := ⟨.hbm, 284, rfl⟩
abbrev main_v149 : Ref sig .tc := ⟨.hbm, 285, rfl⟩
abbrev main_v150 : Ref sig .tc := ⟨.hbm, 286, rfl⟩
abbrev main_c_31 : Ref sig .tc := ⟨.hbm, 287, rfl⟩
abbrev main_call8_cst : Ref sig .tc := ⟨.hbm, 288, rfl⟩
abbrev main_call8_v0 : Ref sig .tc := ⟨.hbm, 289, rfl⟩
abbrev main_call8_v1 : Ref sig .tc := ⟨.hbm, 290, rfl⟩
abbrev main_call8_cst_0 : Ref sig .tc := ⟨.hbm, 291, rfl⟩
abbrev main_call8_v2 : Ref sig .tc := ⟨.hbm, 292, rfl⟩
abbrev main_call8_v3 : Ref sig .tc := ⟨.hbm, 293, rfl⟩
abbrev main_call8_v4 : Ref sig .tc := ⟨.hbm, 294, rfl⟩
abbrev main_call8_v5 : Ref sig .tc := ⟨.hbm, 295, rfl⟩
abbrev main_call8_v6 : Ref sig .tc := ⟨.hbm, 296, rfl⟩
abbrev main_call8_v7 : Ref sig .tc := ⟨.hbm, 297, rfl⟩
abbrev main_call8_cst_1 : Ref sig .tc := ⟨.hbm, 298, rfl⟩
abbrev main_call8_v8 : Ref sig .tc := ⟨.hbm, 299, rfl⟩
abbrev main_call8_cst_2 : Ref sig .tc := ⟨.hbm, 300, rfl⟩
abbrev main_call8_v9 : Ref sig .tc := ⟨.hbm, 301, rfl⟩
abbrev main_call8_v10 : Ref sig .tc := ⟨.hbm, 302, rfl⟩
abbrev main_call8_v11 : Ref sig .tc := ⟨.hbm, 303, rfl⟩
abbrev main_call8_cst_3 : Ref sig .tc := ⟨.hbm, 304, rfl⟩
abbrev main_call8_v12 : Ref sig .tc := ⟨.hbm, 305, rfl⟩
abbrev main_call8_cst_4 : Ref sig .tc := ⟨.hbm, 306, rfl⟩
abbrev main_call8_call0_v0 : Ref sig .tc := ⟨.hbm, 307, rfl⟩
abbrev main_call8_call0_v1 : Ref sig .tc := ⟨.hbm, 308, rfl⟩
abbrev main_v151 : Ref sig .tc := ⟨.hbm, 309, rfl⟩
abbrev main_v152 : Ref sig .tc := ⟨.hbm, 310, rfl⟩
abbrev main_v153 : Ref sig .tc := ⟨.hbm, 311, rfl⟩
abbrev main_v154 : Ref sig .tc := ⟨.hbm, 312, rfl⟩
abbrev main_cst_32 : Ref sig .tc := ⟨.hbm, 313, rfl⟩
abbrev main_v155 : Ref sig .tc := ⟨.hbm, 314, rfl⟩
abbrev main_v156 : Ref sig .tc := ⟨.hbm, 315, rfl⟩
abbrev main_v157 : Ref sig .tc := ⟨.hbm, 316, rfl⟩
abbrev main_v158 : Ref sig .tc := ⟨.hbm, 317, rfl⟩
abbrev main_v159 : Ref sig .tc := ⟨.hbm, 318, rfl⟩
abbrev main_v160 : Ref sig .tc := ⟨.hbm, 319, rfl⟩
abbrev main_v161 : Ref sig .tc := ⟨.hbm, 320, rfl⟩
abbrev main_v162 : Ref sig .tc := ⟨.hbm, 321, rfl⟩
abbrev main_v163 : Ref sig .tc := ⟨.hbm, 322, rfl⟩
abbrev main_v164 : Ref sig .tc := ⟨.hbm, 323, rfl⟩
abbrev main_v165 : Ref sig .tc := ⟨.hbm, 324, rfl⟩
abbrev main_v166 : Ref sig .tc := ⟨.hbm, 325, rfl⟩
abbrev main_v167 : Ref sig .tc := ⟨.hbm, 326, rfl⟩
abbrev main_v168 : Ref sig .tc := ⟨.hbm, 327, rfl⟩
abbrev main_v169 : Ref sig .tc := ⟨.hbm, 328, rfl⟩
abbrev main_v170 : Ref sig .tc := ⟨.hbm, 329, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KRun.lean ====
/-
  The idealized kernel's run with its result array named.

  Every weakly fair execution of the program ends with each buffer the thread still holds at the contents of the last
  segment boundary; read at the result array this names the result (the boundary's contents there), and read at the
  eleven arguments it says they are as launched.
-/
import proofs.«113157_j3616362463713_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_named : θ_run defs (onTc (τ := τ) (main (F := F))) ⟨m, fun _ => 0, ρ⟩ (fun r => ∀ c : Dev nD,
      r.2.mem ((c.tc : Thread nD τ).loc main_v94) = W21 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v94 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c)⟩)

end Cert.KernelIdeal.KRun

end
-- ==== Proof.Spec.lean ====
/-
  The stages of the network as functions of whole arrays on the extended reals.

  A graph-convolution layer scales each node's feature row by that node's degree weight, sums neighbours' rows,
  scales again, and normalises every feature column over the 50000 nodes with that column's mean and variance
  before the rectifier; the head is a linear map, the same column normalisation, and a second linear map.
  Here each dense stage is written entry by entry:

    rowScale X n      (r,c) ↦ X(r,c) · n(r,0)
    colSum X          (0,c) ↦ Σ_r X(r,c)
    colSumSq X        (0,c) ↦ Σ_r X(r,c)²
    bn X μ v γ β      (r,c) ↦ (X(r,c) − μ(0,c)) · (v(0,c) + ε)^(−1/2) · γ(0,c) + β(0,c)
    bnRelu            max (bn …) 0
    bnReluScale       rowScale (bnRelu …) n
    linBias X W b     (r,c) ↦ Σ_k X(r,k)·W(k,c) + b(0,c)
    bnLin             linBias (bn …) W b
-/
import Idealize.ShloMosaic.Lib.ValueIdx
import Idealize.ShloMosaic.PureOps.Ideal

noncomputable section

open scoped BigOperators

namespace Cert.Spec

open Idealize.ShloMosaic Idealize.ShloMosaic.ValueIdx

/-- An a×b array of extended reals. -/
abbrev Mat (a b : Nat) := FVec Ideal ⟨2, ![a, b]⟩ .f32

/-- The variance offset ε as both programs print it. -/
abbrev eps : Ideal .f32 := Ideal.ofBits .f32 0x3727C5AC#32
/-- The float zero. -/
abbrev z32 : Ideal .f32 := Ideal.ofBits .f32 0x00000000#32

variable {M N K : Nat}

/-- Row r scaled by entry r of a column. -/
def rowScale (X : Mat M N) (n : Mat M 1) : Mat M N :=
  fun i => X i * n (ix2 ⟨(i 0).val, (i 0).isLt⟩ (0 : Fin 1))

theorem rowScale_ix2 (X : Mat M N) (n : Mat M 1) (r : Fin M) (c : Fin N) :
    rowScale X n (ix2 r c) = X (ix2 r c) * n (ix2 r (0 : Fin 1)) := rfl

/-- The sum of every column, as one row. -/
def colSum (X : Mat M N) : Mat 1 N :=
  fun j => ∑ r : Fin M, X (ix2 r ⟨(j 1).val, (j 1).isLt⟩)

theorem colSum_ix2 (X : Mat M N) (u : Fin 1) (c : Fin N) :
    colSum X (ix2 u c) = ∑ r : Fin M, X (ix2 r c) := rfl

/-- The sum of the squares of every column, as one row. -/
def colSumSq (X : Mat M N) : Mat 1 N :=
  fun j => ∑ r : Fin M, X (ix2 r ⟨(j 1).val, (j 1).isLt⟩) * X (ix2 r ⟨(j 1).val, (j 1).isLt⟩)

theorem colSumSq_ix2 (X : Mat M N) (u : Fin 1) (c : Fin N) :
    colSumSq X (ix2 u c) = ∑ r : Fin M, X (ix2 r c) * X (ix2 r c) := rfl

/-- One entry normalised: (x − μ)·(v + ε)^(−1/2)·γ + β. -/
def bn1 (x μ v γ β : EReal) : EReal := (x - μ) * Ideal.rsqrt (v + eps) * γ + β

/-- Every column normalised with its entry of the rows μ, v, γ, β. -/
def bn (X : Mat M N) (μ v γ β : Mat 1 N) : Mat M N :=
  fun i => bn1 (X i) (μ (ix2 (0 : Fin 1) ⟨(i 1).val, (i 1).isLt⟩)) (v (ix2 (0 : Fin 1) ⟨(i 1).val, (i 1).isLt⟩))
    (γ (ix2 (0 : Fin 1) ⟨(i 1).val, (i 1).isLt⟩)) (β (ix2 (0 : Fin 1) ⟨(i 1).val, (i 1).isLt⟩))

theorem bn_ix2 (X : Mat M N) (μ v γ β : Mat 1 N) (r : Fin M) (c : Fin N) :
    bn X μ v γ β (ix2 r c) = bn1 (X (ix2 r c)) (μ (ix2 (0 : Fin 1) c)) (v (ix2 (0 : Fin 1) c)) (γ (ix2 (0 : Fin 1) c)) (β (ix2 (0 : Fin 1) c)) := rfl

/-- Normalised, then the maximum with zero. -/
def bnRelu (X : Mat M N) (μ v γ β : Mat 1 N) : Mat M N := fun i => max (bn X μ v γ β i) z32

theorem bnRelu_ix2 (X : Mat M N) (μ v γ β : Mat 1 N) (r : Fin M) (c : Fin N) :
    bnRelu X μ v γ β (ix2 r c) = max (bn1 (X (ix2 r c)) (μ (ix2 (0 : Fin 1) c)) (v (ix2 (0 : Fin 1) c)) (γ (ix2 (0 : Fin 1) c)) (β (ix2 (0 : Fin 1) c))) z32 := rfl

/-- Normalised, rectified, and each row scaled by its entry of a column. -/
def bnReluScale (X : Mat M N) (μ v γ β : Mat 1 N) (n : Mat M 1) : Mat M N := rowScale (bnRelu X μ v γ β) n

theorem bnReluScale_ix2 (X : Mat M N) (μ v γ β : Mat 1 N) (n : Mat M 1) (r : Fin M) (c : Fin N) :
    bnReluScale X μ v γ β n (ix2 r c)
      = max (bn1 (X (ix2 r c)) (μ (ix2 (0 : Fin 1) c)) (v (ix2 (0 : Fin 1) c)) (γ (ix2 (0 : Fin 1) c)) (β (ix2 (0 : Fin 1) c))) z32
          * n (ix2 r (0 : Fin 1)) := rfl

/-- A linear map with a bias row: X·W + b. -/
def linBias (X : Mat M K) (W : Mat K N) (b : Mat 1 N) : Mat M N :=
  fun i => (∑ k : Fin K, X (ix2 ⟨(i 0).val, (i 0).isLt⟩ k) * W (ix2 k ⟨(i 1).val, (i 1).isLt⟩))
    + b (ix2 (0 : Fin 1) ⟨(i 1).val, (i 1).isLt⟩)

theorem linBias_ix2 (X : Mat M K) (W : Mat K N) (b : Mat 1 N) (r : Fin M) (c : Fin N) :
    linBias X W b (ix2 r c) = (∑ k : Fin K, X (ix2 r k) * W (ix2 k c)) + b (ix2 (0 : Fin 1) c) := rfl

/-- Column normalisation followed by a linear map with a bias row. -/
def bnLin (X : Mat M K) (μ v γ β : Mat 1 K) (W : Mat K N) (b : Mat 1 N) : Mat M N := linBias (bn X μ v γ β) W b

theorem bnLin_ix2 (X : Mat M K) (μ v γ β : Mat 1 K) (W : Mat K N) (b : Mat 1 N) (r : Fin M) (c : Fin N) :
    bnLin X μ v γ β W b (ix2 r c)
      = (∑ k : Fin K, bn1 (X (ix2 r k)) (μ (ix2 (0 : Fin 1) k)) (v (ix2 (0 : Fin 1) k)) (γ (ix2 (0 : Fin 1) k)) (β (ix2 (0 : Fin 1) k)) * W (ix2 k c))
          + b (ix2 (0 : Fin 1) c) := rfl

end Cert.Spec

end
-- ==== Proof.KDefs.lean ====
/-
  The host-side maps of the kernel program, as functions of whole arrays on the extended reals.

  nrmK  the degree column: a one is added at every edge's destination node, the count is raised to at least one,
        and its inverse square root is taken; read as a column of 50000 entries.
  aggK  the neighbour sum: an edge's source index is brought into range (a negative index counts from the end),
        the source rows are gathered, and each is added into the row of the edge's destination node, starting from zeros.
  rowK, rowK40  a vector read as a one-row array.
-/
import proofs.«113157_j3616362463713_1_alg».proof.KernelIdeal
import proofs.«113157_j3616362463713_1_alg».proof.Proof.Gen.KernelIdeal
import proofs.«113157_j3616362463713_1_alg».proof.Proof.Spec

noncomputable section

namespace Cert.KernelIdeal.KDefs

open Idealize.ShloMosaic Idealize.SL.Sem Cert.KernelIdeal Cert.KernelIdeal.Gen

/-- An edge-index array: 600000 integers. -/
abbrev Idx : Type := (⟨S600000, .i32⟩ : BufTy).Contents (Elt Ideal)

/-- The degree column from the edges' destination indices. -/
def nrmK (dst : Idx) : FVec Ideal S50000x1 .f32 :=
  shapeCast S50000x1
    (Host.rsqrt
      (maximumf
        (Host.scatterAdd scatter_S50000_S600000x1_S600000_n_0_0_1
          (broadcastInDim S50000 ![] bcast_S_S50000 (constant S_ .f32 0x00000000#32))
          (broadcastInDim S600000x1 ![0] bcast_S600000_S600000x1_0 dst)
          (broadcastInDim S600000 ![] bcast_S_S600000 (constant S_ .f32 0x3F800000#32)))
        (broadcastInDim S50000 ![] bcast_S_S50000 (constant S_ .f32 0x3F800000#32))))
    shapeCasts_S50000_S50000x1

/-- The neighbour sum of a node-feature array along the edges (src → dst). -/
def aggK (src dst : Idx) (p : FVec Ideal S50000x128 .f32) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 p
      (broadcastInDim S600000x1 ![0] bcast_S600000_S600000x1_0
        (select
          (cmpi .slt src (broadcastInDim S600000 ![] bcast_S_S600000 (constantI S_ 32 0#32)))
          (addi src (broadcastInDim S600000 ![] bcast_S_S600000 (constantI S_ 32 50000#32)))
          src)))

/-- A vector of 128 entries read as a 1×128 array. -/
def rowK (g : FVec Ideal S128 .f32) : FVec Ideal S1x128 .f32 := shapeCast S1x128 g shapeCasts_S128_S1x128

/-- A vector of 40 entries read as a 1×40 array. -/
def rowK40 (g : FVec Ideal S40 .f32) : FVec Ideal S1x40 .f32 := shapeCast S1x40 g shapeCasts_S40_S1x40

end Cert.KernelIdeal.KDefs

end
-- ==== Proof.SpecNet.lean ====
/-
  The whole network as a function of its arrays, in the two arrangements the two programs use.

  Both arrangements share the sparse neighbour sum (`agg`, any map of node-feature arrays) and the degree column `nrm`.
  A layer takes pre-scaled features p to  x = rowScale (agg p) nrm,  normalises the columns of x and rectifies.
  The arrangements differ only in the variance of a column of x over its M rows, with mean μ = (Σ_r x_r)/n:

    one keeps the sums  s = Σ_r x_r  and  ss = Σ_r x_r²  and takes  ss/n − μ²      (`kvar`),
    the other takes the mean of the squared deviations  (Σ_r (x_r − μ)²)/n         (`dvar`).

  The two agree on real columns when n is the number of rows.
-/
import proofs.«113157_j3616362463713_1_alg».proof.Proof.Spec

noncomputable section

open scoped BigOperators

namespace Cert.Spec

open Idealize.ShloMosaic Idealize.ShloMosaic.ValueIdx

variable {M N K : Nat}

/-- The number of nodes, 50000, as both programs print it. -/
abbrev n50k : Ideal .f32 := Ideal.ofBits .f32 0x47435000#32

/-- A row of column sums divided by the number of rows. -/
def kmean (s : Mat 1 N) : Mat 1 N := fun j => Ideal.div (s j) n50k

/-- Mean of squares minus square of the mean, from the rows of sums and of sums of squares. -/
def kvar (s ss : Mat 1 N) : Mat 1 N := fun j => Ideal.div (ss j) n50k - kmean s j * kmean s j

/-- Mean of the squared deviations from the column mean. -/
def dvar (X : Mat M N) : Mat 1 N :=
  fun j => Ideal.div (∑ r : Fin M, (X (ix2 r ⟨(j 1).val, (j 1).isLt⟩) - kmean (colSum X) j) * (X (ix2 r ⟨(j 1).val, (j 1).isLt⟩) - kmean (colSum X) j)) n50k

theorem dvar_ix2 (X : Mat M N) (u : Fin 1) (c : Fin N) :
    dvar X (ix2 u c) = Ideal.div (∑ r : Fin M, (X (ix2 r c) - kmean (colSum X) (ix2 u c)) * (X (ix2 r c) - kmean (colSum X) (ix2 u c))) n50k := rfl

/-- Column normalisation and rectifier with the variance from the two sums. -/
def kAct (X : Mat M N) (γ β : Mat 1 N) : Mat M N := bnRelu X (kmean (colSum X)) (kvar (colSum X) (colSumSq X)) γ β

/-- Column normalisation and rectifier with the variance from the squared deviations. -/
def dAct (X : Mat M N) (γ β : Mat 1 N) : Mat M N := bnRelu X (kmean (colSum X)) (dvar X) γ β

/-- The head with the variance from the two sums. -/
def kHead (H : Mat M K) (W1 : Mat K K) (b1 γ2 β2 : Mat 1 K) (W2 : Mat K N) (b2 : Mat 1 N) : Mat M N :=
  bnLin (linBias H W1 b1) (kmean (colSum (linBias H W1 b1))) (kvar (colSum (linBias H W1 b1)) (colSumSq (linBias H W1 b1))) γ2 β2 W2 b2

/-- The head with the variance from the squared deviations. -/
def dHead (H : Mat M K) (W1 : Mat K K) (b1 γ2 β2 : Mat 1 K) (W2 : Mat K N) (b2 : Mat 1 N) : Mat M N :=
  bnLin (linBias H W1 b1) (kmean (colSum (linBias H W1 b1))) (dvar (linBias H W1 b1)) γ2 β2 W2 b2

/-- Four layers and the head, variance from the two sums; the pre-scaling of the next layer is done right after the rectifier. -/
def kNet (agg : Mat M K → Mat M K) (nrm : Mat M 1) (h : Mat M K) (γ β : Mat 1 K) (W1 : Mat K K) (b1 γ2 β2 : Mat 1 K)
    (W2 : Mat K N) (b2 : Mat 1 N) : Mat M N :=
  let p0 := rowScale h nrm
  let p1 := rowScale (kAct (rowScale (agg p0) nrm) γ β) nrm
  let p2 := rowScale (kAct (rowScale (agg p1) nrm) γ β) nrm
  let p3 := rowScale (kAct (rowScale (agg p2) nrm) γ β) nrm
  let h4 := kAct (rowScale (agg p3) nrm) γ β
  kHead h4 W1 b1 γ2 β2 W2 b2

/-- Four layers and the head, variance from the squared deviations. -/
def dNet (agg : Mat M K → Mat M K) (nrm : Mat M 1) (h : Mat M K) (γ β : Mat 1 K) (W1 : Mat K K) (b1 γ2 β2 : Mat 1 K)
    (W2 : Mat K N) (b2 : Mat 1 N) : Mat M N :=
  let h1 := dAct (rowScale (agg (rowScale h nrm)) nrm) γ β
  let h2 := dAct (rowScale (agg (rowScale h1 nrm)) nrm) γ β
  let h3 := dAct (rowScale (agg (rowScale h2 nrm)) nrm) γ β
  let h4 := dAct (rowScale (agg (rowScale h3 nrm)) nrm) γ β
  dHead h4 W1 b1 γ2 β2 W2 b2

/-- Every entry is a real number. -/
def IsReal {s : Shape} (X : FVec Ideal s .f32) : Prop := ∀ i, X i ≠ ⊤ ∧ X i ≠ ⊥

end Cert.Spec

end
-- ==== Proof.KFin.lean ====
/-
  Every array the host side of the program hands to the dense stages has only real entries.

  The precondition says of each float argument array that all its entries have absolute value below +∞; on the
  extended reals that excludes +∞ and −∞, the only entries that are not real numbers.  From there:

    a gather returns, at every index, some entry of its operand, so it keeps reality;
    a scatter-add returns an operand entry plus a finite sum of update entries, and a finite sum of reals is real;
    the degree weight is the inverse square root of max(count, 1), a real number that is at least one, hence real;
    a reshape or a broadcast only re-reads entries.
-/
import proofs.«113157_j3616362463713_1_alg».proof.Defs
import proofs.«113157_j3616362463713_1_alg».proof.Proof.Gen.Pre_finite_inputs
import proofs.«113157_j3616362463713_1_alg».proof.Proof.KDefs
import proofs.«113157_j3616362463713_1_alg».proof.Proof.SpecNet
import Idealize.ShloMosaic.Lib.ReduceAll
import Idealize.ShloMosaic.Lib.IdealHost

open scoped BigOperators

open Idealize.ShloMosaic Cert.Spec

namespace Cert.KernelIdeal.KFin

/-! ## Real numbers among the extended reals -/

/-- The sum of two reals is real. -/
theorem real_add {x y : EReal} (hx : x ≠ ⊤ ∧ x ≠ ⊥) (hy : y ≠ ⊤ ∧ y ≠ ⊥) : x + y ≠ ⊤ ∧ x + y ≠ ⊥ :=
  ⟨EReal.add_ne_top hx.1 hy.1, EReal.add_ne_bot_iff.2 ⟨hx.2, hy.2⟩⟩

/-- A finite sum of reals is real. -/
theorem real_sum {ι : Type} (s : Finset ι) (f : ι → EReal) (h : ∀ j ∈ s, f j ≠ ⊤ ∧ f j ≠ ⊥) :
    (∑ j ∈ s, f j) ≠ ⊤ ∧ (∑ j ∈ s, f j) ≠ ⊥ := by
  classical
  induction s using Finset.induction_on with
  | empty => simp
  | insert a s ha ih =>
    rw [Finset.sum_insert ha]
    exact real_add (h a (Finset.mem_insert_self a s)) (ih fun j hj => h j (Finset.mem_insert_of_mem hj))

/-- The larger of two reals is real. -/
theorem real_max {x y : EReal} (hx : x ≠ ⊤ ∧ x ≠ ⊥) (hy : y ≠ ⊤ ∧ y ≠ ⊥) : max x y ≠ ⊤ ∧ max x y ≠ ⊥ := by
  rcases max_choice x y with h | h <;> rw [h] <;> assumption

/-- The inverse square root of a positive real is real. -/
theorem real_rsqrt {y : EReal} (hy : y ≠ ⊤ ∧ y ≠ ⊥) (hpos : 0 < y) : Ideal.rsqrt y ≠ ⊤ ∧ Ideal.rsqrt y ≠ ⊥ := by
  induction y using EReal.rec with
  | bot => exact absurd rfl hy.2
  | top => exact absurd rfl hy.1
  | coe r =>
    have hr : 0 < r := EReal.coe_pos.1 hpos
    rw [Ideal.rsqrt_coe, if_neg (not_lt.2 hr.le), if_neg hr.ne']
    exact ⟨EReal.coe_ne_top _, EReal.coe_ne_bot _⟩

/-- One is real. -/
theorem real_one : (1 : EReal) ≠ ⊤ ∧ (1 : EReal) ≠ ⊥ := by
  rw [show (1 : EReal) = ((1 : ℝ) : EReal) by norm_cast]
  exact ⟨EReal.coe_ne_top _, EReal.coe_ne_bot _⟩

/-- Zero is real. -/
theorem real_zero : (0 : EReal) ≠ ⊤ ∧ (0 : EReal) ≠ ⊥ := by
  rw [show (0 : EReal) = ((0 : ℝ) : EReal) by norm_cast]
  exact ⟨EReal.coe_ne_top _, EReal.coe_ne_bot _⟩

/-- An extended real whose absolute value is below +∞ is a real number. -/
theorem real_of_lt_inf (x : EReal)
    (h : FloatOps.cmpf (F := Ideal) (φ := .f32) .olt (FloatOps.hostAbsf x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | top => simp at h
  | coe r => exact ⟨EReal.coe_ne_top r, EReal.coe_ne_bot r⟩

/-! ## Operations that keep every entry real -/

/-- A broadcast re-reads entries of its operand. -/
theorem broadcastInDim_real {s t : Shape} (dims : Fin s.rank → Fin t.rank) (h : s.BroadcastsInDim t dims) (x : FVec Ideal s .f32)
    (hx : IsReal x) : IsReal (broadcastInDim t dims h x) := fun _ => hx _

/-- A reshape re-reads entries of its operand. -/
theorem shapeCast_real {s t : Shape} (h : s.ShapeCasts t) (x : FVec Ideal s .f32) (hx : IsReal x) :
    IsReal (shapeCast t x h) := fun _ => hx _

/-- A gather returns, at every index, an entry of its operand. -/
theorem gather_real {s si t : Shape} {w : Nat} (d : GatherDims s si t) (x : FVec Ideal s .f32) (idx : IVec si w) (hx : IsReal x) :
    IsReal (Host.gather d x idx) := fun _ => hx _

/-- The splat of the float zero. -/
theorem zeros_real {t : Shape} (h : (⟨0, ![]⟩ : Shape).BroadcastsInDim t ![]) :
    IsReal (broadcastInDim t ![] h (constant (F := Ideal) (⟨0, ![]⟩ : Shape) .f32 0x00000000#32)) := fun _ => by
  show Ideal.ofBits .f32 0x00000000#32 ≠ ⊤ ∧ Ideal.ofBits .f32 0x00000000#32 ≠ ⊥
  rw [Ideal.ofBits_zero_f32]; exact real_zero

/-- The splat of the float one. -/
theorem ones_real {t : Shape} (h : (⟨0, ![]⟩ : Shape).BroadcastsInDim t ![]) :
    IsReal (broadcastInDim t ![] h (constant (F := Ideal) (⟨0, ![]⟩ : Shape) .f32 0x3F800000#32)) := fun _ => by
  show Ideal.ofBits .f32 0x3F800000#32 ≠ ⊤ ∧ Ideal.ofBits .f32 0x3F800000#32 ≠ ⊥
  rw [Ideal.ofBits_one_f32]; exact real_one

/-- A scatter-add returns an operand entry plus a finite sum of update entries. -/
theorem scatterAdd_real {s si su : Shape} {w : Nat} (d : ScatterDims s si su) (x : FVec Ideal s .f32) (idx : IVec si w)
    (upd : FVec Ideal su .f32) (hx : IsReal x) (hu : IsReal upd) : IsReal (Host.scatterAdd d x idx upd) := fun i => by
  show Ideal.hostScatterAdd d x idx upd i ≠ ⊤ ∧ Ideal.hostScatterAdd d x idx upd i ≠ ⊥
  unfold Ideal.hostScatterAdd
  exact real_add (hx i) (real_sum _ _ fun j _ => hu j)

/-! ## The precondition -/

open Cert.Pre_finite_inputs in
/-- "All entries have absolute value below +∞", read back: every entry is a real number. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) :
    IsReal x := fun i =>
  haveI : Subsingleton S_.Idx := ⟨fun a b => funext fun d => d.elim0⟩
  real_of_lt_inf (x i) (Host.reduce_andi_all _ _ hr hu j h i)

open Cert.Pre_finite_inputs in
/-- The finiteness predicate holding says each of the nine float arrays has only real entries. -/
theorem fn_real [Cert.Pre_finite_inputs.Facts] (a0 : FVec Ideal S50000x128 .f32) (a1 a2 : IVec S600000 32) (a3 a4 : FVec Ideal S128 .f32)
    (a5 : FVec Ideal S128x128 .f32) (a6 a7 a8 : FVec Ideal S128 .f32) (a9 : FVec Ideal S128x40 .f32) (a10 : FVec Ideal S40 .f32)
    (h : fn (F := Ideal) a0 a1 a2 a3 a4 a5 a6 a7 a8 a9 a10 = fun _ => 1#1) :
    IsReal a0 ∧ IsReal a3 ∧ IsReal a4 ∧ IsReal a5 ∧ IsReal a6 ∧ IsReal a7 ∧ IsReal a8 ∧ IsReal a9 ∧ IsReal a10 := by
  have h0 := congrFun h ValueIdx.ix0
  dsimp only [fn, fn_part1, fn_part2] at h0
  simp only [andi, IntOp.andi_eq_one] at h0
  obtain ⟨⟨⟨⟨⟨⟨⟨⟨h0, h3⟩, h4⟩, h5⟩, h6⟩, h7⟩, h8⟩, h9⟩, h10⟩ := h0
  exact ⟨all_real _ _ _ _ _ h0, all_real _ _ _ _ _ h3, all_real _ _ _ _ _ h4, all_real _ _ _ _ _ h5, all_real _ _ _ _ _ h6,
    all_real _ _ _ _ _ h7, all_real _ _ _ _ _ h8, all_real _ _ _ _ _ h9, all_real _ _ _ _ _ h10⟩

/-- Under the precondition every float argument array of the program has only real entries. -/
theorem args_real [Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := Cert.Pre_finite_inputs.S50000x128) (m ((c.tc : Thread Cert.KernelIdeal.nD Cert.KernelIdeal.τ).loc Cert.KernelIdeal.main_arg0))
    ∧ IsReal (s := Cert.Pre_finite_inputs.S128) (m ((c.tc : Thread Cert.KernelIdeal.nD Cert.KernelIdeal.τ).loc Cert.KernelIdeal.main_arg3))
    ∧ IsReal (s := Cert.Pre_finite_inputs.S128) (m ((c.tc : Thread Cert.KernelIdeal.nD Cert.KernelIdeal.τ).loc Cert.KernelIdeal.main_arg4))
    ∧ IsReal (s := Cert.Pre_finite_inputs.S128x128) (m ((c.tc : Thread Cert.KernelIdeal.nD Cert.KernelIdeal.τ).loc Cert.KernelIdeal.main_arg5))
    ∧ IsReal (s := Cert.Pre_finite_inputs.S128) (m ((c.tc : Thread Cert.KernelIdeal.nD Cert.KernelIdeal.τ).loc Cert.KernelIdeal.main_arg6))
    ∧ IsReal (s := Cert.Pre_finite_inputs.S128) (m ((c.tc : Thread Cert.KernelIdeal.nD Cert.KernelIdeal.τ).loc Cert.KernelIdeal.main_arg7))
    ∧ IsReal (s := Cert.Pre_finite_inputs.S128) (m ((c.tc : Thread Cert.KernelIdeal.nD Cert.KernelIdeal.τ).loc Cert.KernelIdeal.main_arg8))
    ∧ IsReal (s := Cert.Pre_finite_inputs.S128x40) (m ((c.tc : Thread Cert.KernelIdeal.nD Cert.KernelIdeal.τ).loc Cert.KernelIdeal.main_arg9))
    ∧ IsReal (s := Cert.Pre_finite_inputs.S40) (m ((c.tc : Thread Cert.KernelIdeal.nD Cert.KernelIdeal.τ).loc Cert.KernelIdeal.main_arg10)) :=
  fn_real _ _ _ _ _ _ _ _ _ _ _ (hpre c)

/-! ## The host-side maps -/

open Cert.KernelIdeal Cert.KernelIdeal.Gen

/-- The neighbour sum of an array of reals is an array of reals. -/
theorem aggK_real (src dst : KDefs.Idx) (p : FVec Ideal S50000x128 .f32) (hp : IsReal p) : IsReal (KDefs.aggK src dst p) :=
  scatterAdd_real _ _ _ _ (zeros_real _) (gather_real _ _ _ hp)

/-- The inverse square root of the larger of a real entry and one is real: the larger is a real at least one. -/
theorem rsqrt_max_one_real {s : Shape} (D O : FVec Ideal s .f32) (hD : IsReal D) (hO : ∀ i, O i = 1) :
    IsReal (Host.rsqrt (maximumf D O)) := fun i => by
  show Ideal.rsqrt (max (D i) (O i)) ≠ ⊤ ∧ Ideal.rsqrt (max (D i) (O i)) ≠ ⊥
  rw [hO i]
  exact real_rsqrt (real_max (hD i) real_one) (lt_of_lt_of_le zero_lt_one (le_max_right _ _))

/-- The degree weights are real. -/
theorem nrmK_real (dst : KDefs.Idx) : IsReal (KDefs.nrmK dst) :=
  shapeCast_real _ _ (rsqrt_max_one_real _ _
    (scatterAdd_real _ _ _ _ (zeros_real bcast_S_S50000) (ones_real bcast_S_S600000))
    (fun _ => Ideal.ofBits_one_f32))

/-- A vector of reals read as a one-row array is an array of reals. -/
theorem rowK_real (g : FVec Ideal S128 .f32) (hg : IsReal g) : IsReal (KDefs.rowK g) := shapeCast_real _ _ hg

/-- A vector of reals read as a one-row array is an array of reals. -/
theorem rowK40_real (g : FVec Ideal S40 .f32) (hg : IsReal g) : IsReal (KDefs.rowK40 g) := shapeCast_real _ _ hg

end Cert.KernelIdeal.KFin
-- ==== Proof.KStart.lean ====
/-
  The start of the kernel program's run: the host stretch that prepares the degree column and the one-row
  parameter arrays, and the first region, which scales every node's feature row by its degree weight
  (the region's closed form is taken as a hypothesis).
  Stated as the contents of the buffers that later steps read, at the boundary after the first region.
-/
import proofs.«113157_j3616362463713_1_alg».proof.Proof.Gen.KernelIdeal.Frame
import proofs.«113157_j3616362463713_1_alg».proof.Proof.KDefs

set_option maxRecDepth 16384

noncomputable section

namespace Cert.KernelIdeal.KChain

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## After the first host stretch -/

theorem w1_arg0 : W1 (F := Ideal) m ρ c (Proc.devRef .tc main_arg0) = (m ((c : Thread nD τ).loc main_arg0)) :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem w1_arg1 : W1 (F := Ideal) m ρ c (Proc.devRef .tc main_arg1) = (m ((c : Thread nD τ).loc main_arg1)) :=
  (StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem w1_arg2 : W1 (F := Ideal) m ρ c (Proc.devRef .tc main_arg2) = (m ((c : Thread nD τ).loc main_arg2)) :=
  (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem w1_arg5 : W1 (F := Ideal) m ρ c (Proc.devRef .tc main_arg5) = (m ((c : Thread nD τ).loc main_arg5)) :=
  (StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem w1_arg9 : W1 (F := Ideal) m ρ c (Proc.devRef .tc main_arg9) = (m ((c : Thread nD τ).loc main_arg9)) :=
  (StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem w1_v7 : W1 (F := Ideal) m ρ c (Proc.devRef .tc main_v7) = KDefs.nrmK (m ((c : Thread nD τ).loc main_arg2)) := by
  show StableHlo.after hostOps0 (W0 m ρ c) (Proc.devRef .tc main_v7) = _
  after_results
  rfl
theorem w1_v8 : W1 (F := Ideal) m ρ c (Proc.devRef .tc main_v8) = KDefs.rowK (m ((c : Thread nD τ).loc main_arg3)) := by
  show StableHlo.after hostOps0 (W0 m ρ c) (Proc.devRef .tc main_v8) = _
  after_results
  rfl
theorem w1_v9 : W1 (F := Ideal) m ρ c (Proc.devRef .tc main_v9) = KDefs.rowK (m ((c : Thread nD τ).loc main_arg4)) := by
  show StableHlo.after hostOps0 (W0 m ρ c) (Proc.devRef .tc main_v9) = _
  after_results
  rfl
theorem w1_v10 : W1 (F := Ideal) m ρ c (Proc.devRef .tc main_v10) = KDefs.rowK (m ((c : Thread nD τ).loc main_arg6)) := by
  show StableHlo.after hostOps0 (W0 m ρ c) (Proc.devRef .tc main_v10) = _
  after_results
  rfl
theorem w1_v11 : W1 (F := Ideal) m ρ c (Proc.devRef .tc main_v11) = KDefs.rowK (m ((c : Thread nD τ).loc main_arg7)) := by
  show StableHlo.after hostOps0 (W0 m ρ c) (Proc.devRef .tc main_v11) = _
  after_results
  rfl
theorem w1_v12 : W1 (F := Ideal) m ρ c (Proc.devRef .tc main_v12) = KDefs.rowK (m ((c : Thread nD τ).loc main_arg8)) := by
  show StableHlo.after hostOps0 (W0 m ρ c) (Proc.devRef .tc main_v12) = _
  after_results
  rfl
theorem w1_v13 : W1 (F := Ideal) m ρ c (Proc.devRef .tc main_v13) = KDefs.rowK40 (m ((c : Thread nD τ).loc main_arg10)) := by
  show StableHlo.after hostOps0 (W0 m ρ c) (Proc.devRef .tc main_v13) = _
  after_results
  rfl

/-! ## After the first region -/

/-- The first region's output: the feature rows scaled by the degree weights. -/
theorem w2_v14
    (f0 : (dat0 (F := Ideal) (V1 m ρ) c).arrAt 2 cfg0.N
      = Cert.Spec.rowScale (M := 50000) (N := 128) (V1 m ρ c (Pipeline.arrRef spec0 0)) (V1 m ρ c (Pipeline.arrRef spec0 1))) :
    W2 (F := Ideal) m ρ c (Proc.devRef .tc main_v14)
    = Cert.Spec.rowScale (M := 50000) (N := 128) (m ((c : Thread nD τ).loc main_arg0)) (KDefs.nrmK (m ((c : Thread nD τ).loc main_arg2))) := by
  have e : W2 (F := Ideal) m ρ c (Proc.devRef .tc main_v14)
      = Cert.Spec.rowScale (M := 50000) (N := 128) (W1 (F := Ideal) m ρ c (Proc.devRef .tc main_arg0)) (W1 (F := Ideal) m ρ c (Proc.devRef .tc main_v7)) :=
    (W2_arr m ρ c 2).trans f0
  rw [e, w1_arg0, w1_v7]

theorem w2_v7 : W2 (F := Ideal) m ρ c (Proc.devRef .tc main_v7) = KDefs.nrmK (m ((c : Thread nD τ).loc main_arg2)) :=
  ((W2_arr m ρ c 1).trans (((dat0 (V1 m ρ) c).arrAt_in 1 rfl _).trans (A_eq0 (V1 m ρ) c 1))).trans (w1_v7 m ρ c)
theorem w2_v8 : W2 (F := Ideal) m ρ c (Proc.devRef .tc main_v8) = KDefs.rowK (m ((c : Thread nD τ).loc main_arg3)) :=
  (W2_of_ne m ρ c main_v8 (by decide)).trans (w1_v8 m ρ c)
theorem w2_v9 : W2 (F := Ideal) m ρ c (Proc.devRef .tc main_v9) = KDefs.rowK (m ((c : Thread nD τ).loc main_arg4)) :=
  (W2_of_ne m ρ c main_v9 (by decide)).trans (w1_v9 m ρ c)
theorem w2_v10 : W2 (F := Ideal) m ρ c (Proc.devRef .tc main_v10) = KDefs.rowK (m ((c : Thread nD τ).loc main_arg6)) :=
  (W2_of_ne m ρ c main_v10 (by decide)).trans (w1_v10 m ρ c)
theorem w2_v11 : W2 (F := Ideal) m ρ c (Proc.devRef .tc main_v11) = KDefs.rowK (m ((c : Thread nD τ).loc main_arg7)) :=
  (W2_of_ne m ρ c main_v11 (by decide)).trans (w1_v11 m ρ c)
theorem w2_v12 : W2 (F := Ideal) m ρ c (Proc.devRef .tc main_v12) = KDefs.rowK (m ((c : Thread nD τ).loc main_arg8)) :=
  (W2_of_ne m ρ c main_v12 (by decide)).trans (w1_v12 m ρ c)
theorem w2_v13 : W2 (F := Ideal) m ρ c (Proc.devRef .tc main_v13) = KDefs.rowK40 (m ((c : Thread nD τ).loc main_arg10)) :=
  (W2_of_ne m ρ c main_v13 (by decide)).trans (w1_v13 m ρ c)
theorem w2_arg1 : W2 (F := Ideal) m ρ c (Proc.devRef .tc main_arg1) = (m ((c : Thread nD τ).loc main_arg1)) :=
  (W2_of_ne m ρ c main_arg1 (by decide)).trans (w1_arg1 m ρ c)
theorem w2_arg2 : W2 (F := Ideal) m ρ c (Proc.devRef .tc main_arg2) = (m ((c : Thread nD τ).loc main_arg2)) :=
  (W2_of_ne m ρ c main_arg2 (by decide)).trans (w1_arg2 m ρ c)
theorem w2_arg5 : W2 (F := Ideal) m ρ c (Proc.devRef .tc main_arg5) = (m ((c : Thread nD τ).loc main_arg5)) :=
  (W2_of_ne m ρ c main_arg5 (by decide)).trans (w1_arg5 m ρ c)
theorem w2_arg9 : W2 (F := Ideal) m ρ c (Proc.devRef .tc main_arg9) = (m ((c : Thread nD τ).loc main_arg9)) :=
  (W2_of_ne m ρ c main_arg9 (by decide)).trans (w1_arg9 m ρ c)

end Cert.KernelIdeal.KChain

end
-- ==== Proof.KHost.lean ====
/-
  The host's mean and variance rows as the whole-array functions of the network's description.

  A row of column sums divided entry by entry by the splat of the node count is the row of means; the row of sums of
  squares divided the same way, less the square of the mean, is the variance in the arrangement that keeps the two sums.
-/
import proofs.«113157_j3616362463713_1_alg».proof.Proof.KDefs
import proofs.«113157_j3616362463713_1_alg».proof.Proof.SpecNet

noncomputable section

namespace Cert.KernelIdeal.KHost

open Idealize.ShloMosaic Idealize.SL.Sem Cert.KernelIdeal Cert.KernelIdeal.Gen

/-- The splat of the node count 50000 over one row of 128 entries. -/
abbrev cnt : FVec Ideal S1x128 .f32 := broadcastInDim S1x128 ![] bcast_S_S1x128 (constant (F := Ideal) S_ .f32 0x47435000#32)

/-- Sums divided by the node count: the means. -/
theorem kmean_eq (s : Cert.Spec.Mat 1 128) : Host.divf s cnt = Cert.Spec.kmean s := rfl

/-- Sums of squares divided by the node count, less the squared means: the variances. -/
theorem kvar_eq (s ss : Cert.Spec.Mat 1 128) :
    subf (Host.divf ss cnt) (mulf (Host.divf s cnt) (Host.divf s cnt)) = Cert.Spec.kvar s ss := rfl

end Cert.KernelIdeal.KHost

end
-- ==== Proof.KL1.lean ====
/-
  Graph-convolution layer 1 of the kernel program, from the boundary before its neighbour sum to the boundary after its
  normalisation region: the host sums the neighbours' rows, a region scales the rows and accumulates the column sums and
  sums of squares, the host forms the mean and variance rows, and a region normalises, rectifies and scales again.
  The two regions' closed forms are hypotheses of the layer's statement.
-/
import proofs.«113157_j3616362463713_1_alg».proof.Proof.Gen.KernelIdeal.Frame
import proofs.«113157_j3616362463713_1_alg».proof.Proof.KHost

set_option maxRecDepth 16384

noncomputable section

namespace Cert.KernelIdeal.KChain

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## What passes through the layer unchanged -/

theorem l1_h1_v7 : W3 (F := Ideal) m ρ c (Proc.devRef .tc main_v7) = W2 (F := Ideal) m ρ c (Proc.devRef .tc main_v7) :=
  StableHlo.after_of_forall_not_mem (b := Proc.devRef .tc main_v7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r1_v7 : W4 (F := Ideal) m ρ c (Proc.devRef .tc main_v7) = W3 (F := Ideal) m ρ c (Proc.devRef .tc main_v7) :=
  (W4_arr m ρ c 1).trans (((dat1 (V3 m ρ) c).arrAt_in 1 rfl _).trans (A_eq1 (V3 m ρ) c 1))
theorem l1_h2_v7 : W5 (F := Ideal) m ρ c (Proc.devRef .tc main_v7) = W4 (F := Ideal) m ρ c (Proc.devRef .tc main_v7) :=
  StableHlo.after_of_forall_not_mem (b := Proc.devRef .tc main_v7) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r2_v7 : W6 (F := Ideal) m ρ c (Proc.devRef .tc main_v7) = W5 (F := Ideal) m ρ c (Proc.devRef .tc main_v7) :=
  (W6_arr m ρ c 5).trans (((dat2 (V5 m ρ) c).arrAt_in 5 rfl _).trans (A_eq2 (V5 m ρ) c 5))
theorem l1_in_v7 : W5 (F := Ideal) m ρ c (Proc.devRef .tc main_v7) = W2 (F := Ideal) m ρ c (Proc.devRef .tc main_v7) :=
  (l1_h2_v7 m ρ c).trans ((l1_r1_v7 m ρ c).trans ((l1_h1_v7 m ρ c)))
theorem l1_keep_v7 : W6 (F := Ideal) m ρ c (Proc.devRef .tc main_v7) = W2 (F := Ideal) m ρ c (Proc.devRef .tc main_v7) :=
  (l1_r2_v7 m ρ c).trans ((l1_h2_v7 m ρ c).trans ((l1_r1_v7 m ρ c).trans ((l1_h1_v7 m ρ c))))

theorem l1_h1_v8 : W3 (F := Ideal) m ρ c (Proc.devRef .tc main_v8) = W2 (F := Ideal) m ρ c (Proc.devRef .tc main_v8) :=
  StableHlo.after_of_forall_not_mem (b := Proc.devRef .tc main_v8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r1_v8 : W4 (F := Ideal) m ρ c (Proc.devRef .tc main_v8) = W3 (F := Ideal) m ρ c (Proc.devRef .tc main_v8) :=
  W4_of_ne m ρ c main_v8 (by decide)
theorem l1_h2_v8 : W5 (F := Ideal) m ρ c (Proc.devRef .tc main_v8) = W4 (F := Ideal) m ρ c (Proc.devRef .tc main_v8) :=
  StableHlo.after_of_forall_not_mem (b := Proc.devRef .tc main_v8) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r2_v8 : W6 (F := Ideal) m ρ c (Proc.devRef .tc main_v8) = W5 (F := Ideal) m ρ c (Proc.devRef .tc main_v8) :=
  (W6_arr m ρ c 3).trans (((dat2 (V5 m ρ) c).arrAt_in 3 rfl _).trans (A_eq2 (V5 m ρ) c 3))
theorem l1_in_v8 : W5 (F := Ideal) m ρ c (Proc.devRef .tc main_v8) = W2 (F := Ideal) m ρ c (Proc.devRef .tc main_v8) :=
  (l1_h2_v8 m ρ c).trans ((l1_r1_v8 m ρ c).trans ((l1_h1_v8 m ρ c)))
theorem l1_keep_v8 : W6 (F := Ideal) m ρ c (Proc.devRef .tc main_v8) = W2 (F := Ideal) m ρ c (Proc.devRef .tc main_v8) :=
  (l1_r2_v8 m ρ c).trans ((l1_h2_v8 m ρ c).trans ((l1_r1_v8 m ρ c).trans ((l1_h1_v8 m ρ c))))

theorem l1_h1_v9 : W3 (F := Ideal) m ρ c (Proc.devRef .tc main_v9) = W2 (F := Ideal) m ρ c (Proc.devRef .tc main_v9) :=
  StableHlo.after_of_forall_not_mem (b := Proc.devRef .tc main_v9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r1_v9 : W4 (F := Ideal) m ρ c (Proc.devRef .tc main_v9) = W3 (F := Ideal) m ρ c (Proc.devRef .tc main_v9) :=
  W4_of_ne m ρ c main_v9 (by decide)
theorem l1_h2_v9 : W5 (F := Ideal) m ρ c (Proc.devRef .tc main_v9) = W4 (F := Ideal) m ρ c (Proc.devRef .tc main_v9) :=
  StableHlo.after_of_forall_not_mem (b := Proc.devRef .tc main_v9) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r2_v9 : W6 (F := Ideal) m ρ c (Proc.devRef .tc main_v9) = W5 (F := Ideal) m ρ c (Proc.devRef .tc main_v9) :=
  (W6_arr m ρ c 4).trans (((dat2 (V5 m ρ) c).arrAt_in 4 rfl _).trans (A_eq2 (V5 m ρ) c 4))
theorem l1_in_v9 : W5 (F := Ideal) m ρ c (Proc.devRef .tc main_v9) = W2 (F := Ideal) m ρ c (Proc.devRef .tc main_v9) :=
  (l1_h2_v9 m ρ c).trans ((l1_r1_v9 m ρ c).trans ((l1_h1_v9 m ρ c)))
theorem l1_keep_v9 : W6 (F := Ideal) m ρ c (Proc.devRef .tc main_v9) = W2 (F := Ideal) m ρ c (Proc.devRef .tc main_v9) :=
  (l1_r2_v9 m ρ c).trans ((l1_h2_v9 m ρ c).trans ((l1_r1_v9 m ρ c).trans ((l1_h1_v9 m ρ c))))

theorem l1_h1_v10 : W3 (F := Ideal) m ρ c (Proc.devRef .tc main_v10) = W2 (F := Ideal) m ρ c (Proc.devRef .tc main_v10) :=
  StableHlo.after_of_forall_not_mem (b := Proc.devRef .tc main_v10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r1_v10 : W4 (F := Ideal) m ρ c (Proc.devRef .tc main_v10) = W3 (F := Ideal) m ρ c (Proc.devRef .tc main_v10) :=
  W4_of_ne m ρ c main_v10 (by decide)
theorem l1_h2_v10 : W5 (F := Ideal) m ρ c (Proc.devRef .tc main_v10) = W4 (F := Ideal) m ρ c (Proc.devRef .tc main_v10) :=
  StableHlo.after_of_forall_not_mem (b := Proc.devRef .tc main_v10) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r2_v10 : W6 (F := Ideal) m ρ c (Proc.devRef .tc main_v10) = W5 (F := Ideal) m ρ c (Proc.devRef .tc main_v10) :=
  W6_of_ne m ρ c main_v10 (by decide)
theorem l1_keep_v10 : W6 (F := Ideal) m ρ c (Proc.devRef .tc main_v10) = W2 (F := Ideal) m ρ c (Proc.devRef .tc main_v10) :=
  (l1_r2_v10 m ρ c).trans ((l1_h2_v10 m ρ c).trans ((l1_r1_v10 m ρ c).trans ((l1_h1_v10 m ρ c))))

theorem l1_h1_v11 : W3 (F := Ideal) m ρ c (Proc.devRef .tc main_v11) = W2 (F := Ideal) m ρ c (Proc.devRef .tc main_v11) :=
  StableHlo.after_of_forall_not_mem (b := Proc.devRef .tc main_v11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r1_v11 : W4 (F := Ideal) m ρ c (Proc.devRef .tc main_v11) = W3 (F := Ideal) m ρ c (Proc.devRef .tc main_v11) :=
  W4_of_ne m ρ c main_v11 (by decide)
theorem l1_h2_v11 : W5 (F := Ideal) m ρ c (Proc.devRef .tc main_v11) = W4 (F := Ideal) m ρ c (Proc.devRef .tc main_v11) :=
  StableHlo.after_of_forall_not_mem (b := Proc.devRef .tc main_v11) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r2_v11 : W6 (F := Ideal) m ρ c (Proc.devRef .tc main_v11) = W5 (F := Ideal) m ρ c (Proc.devRef .tc main_v11) :=
  W6_of_ne m ρ c main_v11 (by decide)
theorem l1_keep_v11 : W6 (F := Ideal) m ρ c (Proc.devRef .tc main_v11) = W2 (F := Ideal) m ρ c (Proc.devRef .tc main_v11) :=
  (l1_r2_v11 m ρ c).trans ((l1_h2_v11 m ρ c).trans ((l1_r1_v11 m ρ c).trans ((l1_h1_v11 m ρ c))))

theorem l1_h1_v12 : W3 (F := Ideal) m ρ c (Proc.devRef .tc main_v12) = W2 (F := Ideal) m ρ c (Proc.devRef .tc main_v12) :=
  StableHlo.after_of_forall_not_mem (b := Proc.devRef .tc main_v12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r1_v12 : W4 (F := Ideal) m ρ c (Proc.devRef .tc main_v12) = W3 (F := Ideal) m ρ c (Proc.devRef .tc main_v12) :=
  W4_of_ne m ρ c main_v12 (by decide)
theorem l1_h2_v12 : W5 (F := Ideal) m ρ c (Proc.devRef .tc main_v12) = W4 (F := Ideal) m ρ c (Proc.devRef .tc main_v12) :=
  StableHlo.after_of_forall_not_mem (b := Proc.devRef .tc main_v12) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r2_v12 : W6 (F := Ideal) m ρ c (Proc.devRef .tc main_v12) = W5 (F := Ideal) m ρ c (Proc.devRef .tc main_v12) :=
  W6_of_ne m ρ c main_v12 (by decide)
theorem l1_keep_v12 : W6 (F := Ideal) m ρ c (Proc.devRef .tc main_v12) = W2 (F := Ideal) m ρ c (Proc.devRef .tc main_v12) :=
  (l1_r2_v12 m ρ c).trans ((l1_h2_v12 m ρ c).trans ((l1_r1_v12 m ρ c).trans ((l1_h1_v12 m ρ c))))

theorem l1_h1_v13 : W3 (F := Ideal) m ρ c (Proc.devRef .tc main_v13) = W2 (F := Ideal) m ρ c (Proc.devRef .tc main_v13) :=
  StableHlo.after_of_forall_not_mem (b := Proc.devRef .tc main_v13) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r1_v13 : W4 (F := Ideal) m ρ c (Proc.devRef .tc main_v13) = W3 (F := Ideal) m ρ c (Proc.devRef .tc main_v13) :=
  W4_of_ne m ρ c main_v13 (by decide)
theorem l1_h2_v13 : W5 (F := Ideal) m ρ c (Proc.devRef .tc main_v13) = W4 (F := Ideal) m ρ c (Proc.devRef .tc main_v13) :=
  StableHlo.after_of_forall_not_mem (b := Proc.devRef .tc main_v13) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r2_v13 : W6 (F := Ideal) m ρ c (Proc.devRef .tc main_v13) = W5 (F := Ideal) m ρ c (Proc.devRef .tc main_v13) :=
  W6_of_ne m ρ c main_v13 (by decide)
theorem l1_keep_v13 : W6 (F := Ideal) m ρ c (Proc.devRef .tc main_v13) = W2 (F := Ideal) m ρ c (Proc.devRef .tc main_v13) :=
  (l1_r2_v13 m ρ c).trans ((l1_h2_v13 m ρ c).trans ((l1_r1_v13 m ρ c).trans ((l1_h1_v13 m ρ c))))

theorem l1_h1_arg1 : W3 (F := Ideal) m ρ c (Proc.devRef .tc main_arg1) = W2 (F := Ideal) m ρ c (Proc.devRef .tc main_arg1) :=
  StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r1_arg1 : W4 (F := Ideal) m ρ c (Proc.devRef .tc main_arg1) = W3 (F := Ideal) m ρ c (Proc.devRef .tc main_arg1) :=
  W4_of_ne m ρ c main_arg1 (by decide)
theorem l1_h2_arg1 : W5 (F := Ideal) m ρ c (Proc.devRef .tc main_arg1) = W4 (F := Ideal) m ρ c (Proc.devRef .tc main_arg1) :=
  StableHlo.after_of_forall_not_mem (b := Proc.devRef .tc main_arg1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r2_arg1 : W6 (F := Ideal) m ρ c (Proc.devRef .tc main_arg1) = W5 (F := Ideal) m ρ c (Proc.devRef .tc main_arg1) :=
  W6_of_ne m ρ c main_arg1 (by decide)
theorem l1_keep_arg1 : W6 (F := Ideal) m ρ c (Proc.devRef .tc main_arg1) = W2 (F := Ideal) m ρ c (Proc.devRef .tc main_arg1) :=
  (l1_r2_arg1 m ρ c).trans ((l1_h2_arg1 m ρ c).trans ((l1_r1_arg1 m ρ c).trans ((l1_h1_arg1 m ρ c))))

theorem l1_h1_arg2 : W3 (F := Ideal) m ρ c (Proc.devRef .tc main_arg2) = W2 (F := Ideal) m ρ c (Proc.devRef .tc main_arg2) :=
  StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r1_arg2 : W4 (F := Ideal) m ρ c (Proc.devRef .tc main_arg2) = W3 (F := Ideal) m ρ c (Proc.devRef .tc main_arg2) :=
  W4_of_ne m ρ c main_arg2 (by decide)
theorem l1_h2_arg2 : W5 (F := Ideal) m ρ c (Proc.devRef .tc main_arg2) = W4 (F := Ideal) m ρ c (Proc.devRef .tc main_arg2) :=
  StableHlo.after_of_forall_not_mem (b := Proc.devRef .tc main_arg2) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r2_arg2 : W6 (F := Ideal) m ρ c (Proc.devRef .tc main_arg2) = W5 (F := Ideal) m ρ c (Proc.devRef .tc main_arg2) :=
  W6_of_ne m ρ c main_arg2 (by decide)
theorem l1_keep_arg2 : W6 (F := Ideal) m ρ c (Proc.devRef .tc main_arg2) = W2 (F := Ideal) m ρ c (Proc.devRef .tc main_arg2) :=
  (l1_r2_arg2 m ρ c).trans ((l1_h2_arg2 m ρ c).trans ((l1_r1_arg2 m ρ c).trans ((l1_h1_arg2 m ρ c))))

theorem l1_h1_arg5 : W3 (F := Ideal) m ρ c (Proc.devRef .tc main_arg5) = W2 (F := Ideal) m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r1_arg5 : W4 (F := Ideal) m ρ c (Proc.devRef .tc main_arg5) = W3 (F := Ideal) m ρ c (Proc.devRef .tc main_arg5) :=
  W4_of_ne m ρ c main_arg5 (by decide)
theorem l1_h2_arg5 : W5 (F := Ideal) m ρ c (Proc.devRef .tc main_arg5) = W4 (F := Ideal) m ρ c (Proc.devRef .tc main_arg5) :=
  StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r2_arg5 : W6 (F := Ideal) m ρ c (Proc.devRef .tc main_arg5) = W5 (F := Ideal) m ρ c (Proc.devRef .tc main_arg5) :=
  W6_of_ne m ρ c main_arg5 (by decide)
theorem l1_keep_arg5 : W6 (F := Ideal) m ρ c (Proc.devRef .tc main_arg5) = W2 (F := Ideal) m ρ c (Proc.devRef .tc main_arg5) :=
  (l1_r2_arg5 m ρ c).trans ((l1_h2_arg5 m ρ c).trans ((l1_r1_arg5 m ρ c).trans ((l1_h1_arg5 m ρ c))))

theorem l1_h1_arg9 : W3 (F := Ideal) m ρ c (Proc.devRef .tc main_arg9) = W2 (F := Ideal) m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r1_arg9 : W4 (F := Ideal) m ρ c (Proc.devRef .tc main_arg9) = W3 (F := Ideal) m ρ c (Proc.devRef .tc main_arg9) :=
  W4_of_ne m ρ c main_arg9 (by decide)
theorem l1_h2_arg9 : W5 (F := Ideal) m ρ c (Proc.devRef .tc main_arg9) = W4 (F := Ideal) m ρ c (Proc.devRef .tc main_arg9) :=
  StableHlo.after_of_forall_not_mem (b := Proc.devRef .tc main_arg9) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l1_r2_arg9 : W6 (F := Ideal) m ρ c (Proc.devRef .tc main_arg9) = W5 (F := Ideal) m ρ c (Proc.devRef .tc main_arg9) :=
  W6_of_ne m ρ c main_arg9 (by decide)
theorem l1_keep_arg9 : W6 (F := Ideal) m ρ c (Proc.devRef .tc main_arg9) = W2 (F := Ideal) m ρ c (Proc.devRef .tc main_arg9) :=
  (l1_r2_arg9 m ρ c).trans ((l1_h2_arg9 m ρ c).trans ((l1_r1_arg9 m ρ c).trans ((l1_h1_arg9 m ρ c))))

theorem l1_h2_v25_0 : W5 (F := Ideal) m ρ c (Proc.devRef .tc main_v25_0) = W4 (F := Ideal) m ρ c (Proc.devRef .tc main_v25_0) :=
  StableHlo.after_of_forall_not_mem (b := Proc.devRef .tc main_v25_0) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The layer's steps -/

/-- The neighbour sum. -/
theorem l1_agg : W3 (F := Ideal) m ρ c (Proc.devRef .tc main_v24)
    = KDefs.aggK (W2 (F := Ideal) m ρ c (Proc.devRef .tc main_arg1)) (W2 (F := Ideal) m ρ c (Proc.devRef .tc main_arg2)) (W2 (F := Ideal) m ρ c (Proc.devRef .tc main_v14)) := by
  show StableHlo.after hostOps1 (W2 m ρ c) (Proc.devRef .tc main_v24) = _
  after_results_simp
  rfl

/-- The scaled rows. -/
theorem l1_x
    (fx : (dat1 (F := Ideal) (V3 m ρ) c).arrAt 2 cfg1.N = Cert.Spec.rowScale (M := 50000) (N := 128) (V3 m ρ c (Pipeline.arrRef spec1 0)) (V3 m ρ c (Pipeline.arrRef spec1 1))) :
    W4 (F := Ideal) m ρ c (Proc.devRef .tc main_v25_0) = (Cert.Spec.rowScale (M := 50000) (N := 128) (W3 (F := Ideal) m ρ c (Proc.devRef .tc main_v24)) (W3 (F := Ideal) m ρ c (Proc.devRef .tc main_v7))) :=
  (W4_arr m ρ c 2).trans fx

/-- Their column sums. -/
theorem l1_s
    (fs : (dat1 (F := Ideal) (V3 m ρ) c).arrAt 3 cfg1.N = Cert.Spec.colSum (Cert.Spec.rowScale (M := 50000) (N := 128) (V3 m ρ c (Pipeline.arrRef spec1 0)) (V3 m ρ c (Pipeline.arrRef spec1 1)))) :
    W4 (F := Ideal) m ρ c (Proc.devRef .tc main_v25_1) = Cert.Spec.colSum (Cert.Spec.rowScale (M := 50000) (N := 128) (W3 (F := Ideal) m ρ c (Proc.devRef .tc main_v24)) (W3 (F := Ideal) m ρ c (Proc.devRef .tc main_v7))) :=
  (W4_arr m ρ c 3).trans fs

/-- Their column sums of squares. -/
theorem l1_ss
    (fss : (dat1 (F := Ideal) (V3 m ρ) c).arrAt 4 cfg1.N = Cert.Spec.colSumSq (Cert.Spec.rowScale (M := 50000) (N := 128) (V3 m ρ c (Pipeline.arrRef spec1 0)) (V3 m ρ c (Pipeline.arrRef spec1 1)))) :
    W4 (F := Ideal) m ρ c (Proc.devRef .tc main_v25_2) = Cert.Spec.colSumSq (Cert.Spec.rowScale (M := 50000) (N := 128) (W3 (F := Ideal) m ρ c (Proc.devRef .tc main_v24)) (W3 (F := Ideal) m ρ c (Proc.devRef .tc main_v7))) :=
  (W4_arr m ρ c 4).trans fss

/-- The mean row. -/
theorem l1_mean : W5 (F := Ideal) m ρ c (Proc.devRef .tc main_v27) = Cert.Spec.kmean (W4 (F := Ideal) m ρ c (Proc.devRef .tc main_v25_1)) := by
  have e : W5 (F := Ideal) m ρ c (Proc.devRef .tc main_v27) = Host.divf (W4 (F := Ideal) m ρ c (Proc.devRef .tc main_v25_1)) KHost.cnt := by
    show StableHlo.after hostOps2 (W4 m ρ c) (Proc.devRef .tc main_v27) = _
    after_results
    try rfl
  exact e.trans (KHost.kmean_eq _)

/-- The variance row. -/
theorem l1_var : W5 (F := Ideal) m ρ c (Proc.devRef .tc main_v31) = Cert.Spec.kvar (W4 (F := Ideal) m ρ c (Proc.devRef .tc main_v25_1)) (W4 (F := Ideal) m ρ c (Proc.devRef .tc main_v25_2)) := by
  have e : W5 (F := Ideal) m ρ c (Proc.devRef .tc main_v31)
      = subf (Host.divf (W4 (F := Ideal) m ρ c (Proc.devRef .tc main_v25_2)) KHost.cnt) (mulf (Host.divf (W4 (F := Ideal) m ρ c (Proc.devRef .tc main_v25_1)) KHost.cnt) (Host.divf (W4 (F := Ideal) m ρ c (Proc.devRef .tc main_v25_1)) KHost.cnt)) := by
    show StableHlo.after hostOps2 (W4 m ρ c) (Proc.devRef .tc main_v31) = _
    after_results
    try rfl
  exact e.trans (KHost.kvar_eq _ _)

/-- The normalisation region's output. -/
theorem l1_out
    (fB : (dat2 (F := Ideal) (V5 m ρ) c).arrAt 6 cfg2.N = Cert.Spec.bnReluScale (M := 50000) (N := 128) (V5 m ρ c (Pipeline.arrRef spec2 0)) (V5 m ρ c (Pipeline.arrRef spec2 1)) (V5 m ρ c (Pipeline.arrRef spec2 2)) (V5 m ρ c (Pipeline.arrRef spec2 3)) (V5 m ρ c (Pipeline.arrRef spec2 4)) (V5 m ρ c (Pipeline.arrRef spec2 5))) :
    W6 (F := Ideal) m ρ c (Proc.devRef .tc main_v32)
      = Cert.Spec.bnReluScale (M := 50000) (N := 128) (W5 (F := Ideal) m ρ c (Proc.devRef .tc main_v25_0)) (W5 (F := Ideal) m ρ c (Proc.devRef .tc main_v27)) (W5 (F := Ideal) m ρ c (Proc.devRef .tc main_v31)) (W5 (F := Ideal) m ρ c (Proc.devRef .tc main_v8)) (W5 (F := Ideal) m ρ c (Proc.devRef .tc main_v9)) (W5 (F := Ideal) m ρ c (Proc.devRef .tc main_v7)) :=
  (W6_arr m ρ c 6).trans fB

/-! ## The layer -/

/-- Layer 1: from the pre-scaled features p, the degree column n and the rows γ, β at the boundary before the layer
    to the next layer's pre-scaled features at the boundary after it. -/
theorem layer1
    (fx : (dat1 (F := Ideal) (V3 m ρ) c).arrAt 2 cfg1.N = Cert.Spec.rowScale (M := 50000) (N := 128) (V3 m ρ c (Pipeline.arrRef spec1 0)) (V3 m ρ c (Pipeline.arrRef spec1 1)))
    (fs : (dat1 (F := Ideal) (V3 m ρ) c).arrAt 3 cfg1.N = Cert.Spec.colSum (Cert.Spec.rowScale (M := 50000) (N := 128) (V3 m ρ c (Pipeline.arrRef spec1 0)) (V3 m ρ c (Pipeline.arrRef spec1 1))))
    (fss : (dat1 (F := Ideal) (V3 m ρ) c).arrAt 4 cfg1.N = Cert.Spec.colSumSq (Cert.Spec.rowScale (M := 50000) (N := 128) (V3 m ρ c (Pipeline.arrRef spec1 0)) (V3 m ρ c (Pipeline.arrRef spec1 1))))
    (fB : (dat2 (F := Ideal) (V5 m ρ) c).arrAt 6 cfg2.N = Cert.Spec.bnReluScale (M := 50000) (N := 128) (V5 m ρ c (Pipeline.arrRef spec2 0)) (V5 m ρ c (Pipeline.arrRef spec2 1)) (V5 m ρ c (Pipeline.arrRef spec2 2)) (V5 m ρ c (Pipeline.arrRef spec2 3)) (V5 m ρ c (Pipeline.arrRef spec2 4)) (V5 m ρ c (Pipeline.arrRef spec2 5)))
    (p : Cert.Spec.Mat 50000 128) (n : Cert.Spec.Mat 50000 1) (g b : Cert.Spec.Mat 1 128) (src dst : KDefs.Idx)
    (hp : W2 (F := Ideal) m ρ c (Proc.devRef .tc main_v14) = p) (hsrc : W2 (F := Ideal) m ρ c (Proc.devRef .tc main_arg1) = src) (hdst : W2 (F := Ideal) m ρ c (Proc.devRef .tc main_arg2) = dst)
    (hn : W2 (F := Ideal) m ρ c (Proc.devRef .tc main_v7) = n) (hg : W2 (F := Ideal) m ρ c (Proc.devRef .tc main_v8) = g) (hb : W2 (F := Ideal) m ρ c (Proc.devRef .tc main_v9) = b) :
    W6 (F := Ideal) m ρ c (Proc.devRef .tc main_v32)
      = Cert.Spec.rowScale (M := 50000) (N := 128) (Cert.Spec.kAct (Cert.Spec.rowScale (M := 50000) (N := 128) (KDefs.aggK src dst p) n) g b) n := by
  rw [l1_out m ρ c fB, l1_h2_v25_0, l1_mean, l1_var, l1_x m ρ c fx, l1_s m ρ c fs, l1_ss m ρ c fss, l1_agg,
    l1_h1_v7, l1_in_v8, l1_in_v9, l1_in_v7, hp, hsrc, hdst, hn, hg, hb]
  rfl

end Cert.KernelIdeal.KChain

end
-- ==== Proof.KL2.lean ====
/-
  Graph-convolution layer 2 of the kernel program, from the boundary before its neighbour sum to the boundary after its
  normalisation region: the host sums the neighbours' rows, a region scales the rows and accumulates the column sums and
  sums of squares, the host forms the mean and variance rows, and a region normalises, rectifies and scales again.
  The two regions' closed forms are hypotheses of the layer's statement.
-/
import proofs.«113157_j3616362463713_1_alg».proof.Proof.Gen.KernelIdeal.Frame
import proofs.«113157_j3616362463713_1_alg».proof.Proof.KHost

set_option maxRecDepth 16384

noncomputable section

namespace Cert.KernelIdeal.KChain

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## What passes through the layer unchanged -/

theorem l2_h3_v7 : W7 (F := Ideal) m ρ c (Proc.devRef .tc main_v7) = W6 (F := Ideal) m ρ c (Proc.devRef .tc main_v7) :=
  StableHlo.after_of_forall_not_mem (b := Proc.devRef .tc main_v7) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r3_v7 : W8 (F := Ideal) m ρ c (Proc.devRef .tc main_v7) = W7 (F := Ideal) m ρ c (Proc.devRef .tc main_v7) :=
  (W8_arr m ρ c 1).trans (((dat3 (V7 m ρ) c).arrAt_in 1 rfl _).trans (A_eq3 (V7 m ρ) c 1))
theorem l2_h4_v7 : W9 (F := Ideal) m ρ c (Proc.devRef .tc main_v7) = W8 (F := Ideal) m ρ c (Proc.devRef .tc main_v7) :=
  StableHlo.after_of_forall_not_mem (b := Proc.devRef .tc main_v7) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r4_v7 : W10 (F := Ideal) m ρ c (Proc.devRef .tc main_v7) = W9 (F := Ideal) m ρ c (Proc.devRef .tc main_v7) :=
  (W10_arr m ρ c 5).trans (((dat4 (V9 m ρ) c).arrAt_in 5 rfl _).trans (A_eq4 (V9 m ρ) c 5))
theorem l2_in_v7 : W9 (F := Ideal) m ρ c (Proc.devRef .tc main_v7) = W6 (F := Ideal) m ρ c (Proc.devRef .tc main_v7) :=
  (l2_h4_v7 m ρ c).trans ((l2_r3_v7 m ρ c).trans ((l2_h3_v7 m ρ c)))
theorem l2_keep_v7 : W10 (F := Ideal) m ρ c (Proc.devRef .tc main_v7) = W6 (F := Ideal) m ρ c (Proc.devRef .tc main_v7) :=
  (l2_r4_v7 m ρ c).trans ((l2_h4_v7 m ρ c).trans ((l2_r3_v7 m ρ c).trans ((l2_h3_v7 m ρ c))))

theorem l2_h3_v8 : W7 (F := Ideal) m ρ c (Proc.devRef .tc main_v8) = W6 (F := Ideal) m ρ c (Proc.devRef .tc main_v8) :=
  StableHlo.after_of_forall_not_mem (b := Proc.devRef .tc main_v8) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r3_v8 : W8 (F := Ideal) m ρ c (Proc.devRef .tc main_v8) = W7 (F := Ideal) m ρ c (Proc.devRef .tc main_v8) :=
  W8_of_ne m ρ c main_v8 (by decide)
theorem l2_h4_v8 : W9 (F := Ideal) m ρ c (Proc.devRef .tc main_v8) = W8 (F := Ideal) m ρ c (Proc.devRef .tc main_v8) :=
  StableHlo.after_of_forall_not_mem (b := Proc.devRef .tc main_v8) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r4_v8 : W10 (F := Ideal) m ρ c (Proc.devRef .tc main_v8) = W9 (F := Ideal) m ρ c (Proc.devRef .tc main_v8) :=
  (W10_arr m ρ c 3).trans (((dat4 (V9 m ρ) c).arrAt_in 3 rfl _).trans (A_eq4 (V9 m ρ) c 3))
theorem l2_in_v8 : W9 (F := Ideal) m ρ c (Proc.devRef .tc main_v8) = W6 (F := Ideal) m ρ c (Proc.devRef .tc main_v8) :=
  (l2_h4_v8 m ρ c).trans ((l2_r3_v8 m ρ c).trans ((l2_h3_v8 m ρ c)))
theorem l2_keep_v8 : W10 (F := Ideal) m ρ c (Proc.devRef .tc main_v8) = W6 (F := Ideal) m ρ c (Proc.devRef .tc main_v8) :=
  (l2_r4_v8 m ρ c).trans ((l2_h4_v8 m ρ c).trans ((l2_r3_v8 m ρ c).trans ((l2_h3_v8 m ρ c))))

theorem l2_h3_v9 : W7 (F := Ideal) m ρ c (Proc.devRef .tc main_v9) = W6 (F := Ideal) m ρ c (Proc.devRef .tc main_v9) :=
  StableHlo.after_of_forall_not_mem (b := Proc.devRef .tc main_v9) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r3_v9 : W8 (F := Ideal) m ρ c (Proc.devRef .tc main_v9) = W7 (F := Ideal) m ρ c (Proc.devRef .tc main_v9) :=
  W8_of_ne m ρ c main_v9 (by decide)
theorem l2_h4_v9 : W9 (F := Ideal) m ρ c (Proc.devRef .tc main_v9) = W8 (F := Ideal) m ρ c (Proc.devRef .tc main_v9) :=
  StableHlo.after_of_forall_not_mem (b := Proc.devRef .tc main_v9) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r4_v9 : W10 (F := Ideal) m ρ c (Proc.devRef .tc main_v9) = W9 (F := Ideal) m ρ c (Proc.devRef .tc main_v9) :=
  (W10_arr m ρ c 4).trans (((dat4 (V9 m ρ) c).arrAt_in 4 rfl _).trans (A_eq4 (V9 m ρ) c 4))
theorem l2_in_v9 : W9 (F := Ideal) m ρ c (Proc.devRef .tc main_v9) = W6 (F := Ideal) m ρ c (Proc.devRef .tc main_v9) :=
  (l2_h4_v9 m ρ c).trans ((l2_r3_v9 m ρ c).trans ((l2_h3_v9 m ρ c)))
theorem l2_keep_v9 : W10 (F := Ideal) m ρ c (Proc.devRef .tc main_v9) = W6 (F := Ideal) m ρ c (Proc.devRef .tc main_v9) :=
  (l2_r4_v9 m ρ c).trans ((l2_h4_v9 m ρ c).trans ((l2_r3_v9 m ρ c).trans ((l2_h3_v9 m ρ c))))

theorem l2_h3_v10 : W7 (F := Ideal) m ρ c (Proc.devRef .tc main_v10) = W6 (F := Ideal) m ρ c (Proc.devRef .tc main_v10) :=
  StableHlo.after_of_forall_not_mem (b := Proc.devRef .tc main_v10) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r3_v10 : W8 (F := Ideal) m ρ c (Proc.devRef .tc main_v10) = W7 (F := Ideal) m ρ c (Proc.devRef .tc main_v10) :=
  W8_of_ne m ρ c main_v10 (by decide)
theorem l2_h4_v10 : W9 (F := Ideal) m ρ c (Proc.devRef .tc main_v10) = W8 (F := Ideal) m ρ c (Proc.devRef .tc main_v10) :=
  StableHlo.after_of_forall_not_mem (b := Proc.devRef .tc main_v10) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r4_v10 : W10 (F := Ideal) m ρ c (Proc.devRef .tc main_v10) = W9 (F := Ideal) m ρ c (Proc.devRef .tc main_v10) :=
  W10_of_ne m ρ c main_v10 (by decide)
theorem l2_keep_v10 : W10 (F := Ideal) m ρ c (Proc.devRef .tc main_v10) = W6 (F := Ideal) m ρ c (Proc.devRef .tc main_v10) :=
  (l2_r4_v10 m ρ c).trans ((l2_h4_v10 m ρ c).trans ((l2_r3_v10 m ρ c).trans ((l2_h3_v10 m ρ c))))

theorem l2_h3_v11 : W7 (F := Ideal) m ρ c (Proc.devRef .tc main_v11) = W6 (F := Ideal) m ρ c (Proc.devRef .tc main_v11) :=
  StableHlo.after_of_forall_not_mem (b := Proc.devRef .tc main_v11) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r3_v11 : W8 (F := Ideal) m ρ c (Proc.devRef .tc main_v11) = W7 (F := Ideal) m ρ c (Proc.devRef .tc main_v11) :=
  W8_of_ne m ρ c main_v11 (by decide)
theorem l2_h4_v11 : W9 (F := Ideal) m ρ c (Proc.devRef .tc main_v11) = W8 (F := Ideal) m ρ c (Proc.devRef .tc main_v11) :=
  StableHlo.after_of_forall_not_mem (b := Proc.devRef .tc main_v11) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r4_v11 : W10 (F := Ideal) m ρ c (Proc.devRef .tc main_v11) = W9 (F := Ideal) m ρ c (Proc.devRef .tc main_v11) :=
  W10_of_ne m ρ c main_v11 (by decide)
theorem l2_keep_v11 : W10 (F := Ideal) m ρ c (Proc.devRef .tc main_v11) = W6 (F := Ideal) m ρ c (Proc.devRef .tc main_v11) :=
  (l2_r4_v11 m ρ c).trans ((l2_h4_v11 m ρ c).trans ((l2_r3_v11 m ρ c).trans ((l2_h3_v11 m ρ c))))

theorem l2_h3_v12 : W7 (F := Ideal) m ρ c (Proc.devRef .tc main_v12) = W6 (F := Ideal) m ρ c (Proc.devRef .tc main_v12) :=
  StableHlo.after_of_forall_not_mem (b := Proc.devRef .tc main_v12) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r3_v12 : W8 (F := Ideal) m ρ c (Proc.devRef .tc main_v12) = W7 (F := Ideal) m ρ c (Proc.devRef .tc main_v12) :=
  W8_of_ne m ρ c main_v12 (by decide)
theorem l2_h4_v12 : W9 (F := Ideal) m ρ c (Proc.devRef .tc main_v12) = W8 (F := Ideal) m ρ c (Proc.devRef .tc main_v12) :=
  StableHlo.after_of_forall_not_mem (b := Proc.devRef .tc main_v12) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r4_v12 : W10 (F := Ideal) m ρ c (Proc.devRef .tc main_v12) = W9 (F := Ideal) m ρ c (Proc.devRef .tc main_v12) :=
  W10_of_ne m ρ c main_v12 (by decide)
theorem l2_keep_v12 : W10 (F := Ideal) m ρ c (Proc.devRef .tc main_v12) = W6 (F := Ideal) m ρ c (Proc.devRef .tc main_v12) :=
  (l2_r4_v12 m ρ c).trans ((l2_h4_v12 m ρ c).trans ((l2_r3_v12 m ρ c).trans ((l2_h3_v12 m ρ c))))

theorem l2_h3_v13 : W7 (F := Ideal) m ρ c (Proc.devRef .tc main_v13) = W6 (F := Ideal) m ρ c (Proc.devRef .tc main_v13) :=
  StableHlo.after_of_forall_not_mem (b := Proc.devRef .tc main_v13) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r3_v13 : W8 (F := Ideal) m ρ c (Proc.devRef .tc main_v13) = W7 (F := Ideal) m ρ c (Proc.devRef .tc main_v13) :=
  W8_of_ne m ρ c main_v13 (by decide)
theorem l2_h4_v13 : W9 (F := Ideal) m ρ c (Proc.devRef .tc main_v13) = W8 (F := Ideal) m ρ c (Proc.devRef .tc main_v13) :=
  StableHlo.after_of_forall_not_mem (b := Proc.devRef .tc main_v13) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r4_v13 : W10 (F := Ideal) m ρ c (Proc.devRef .tc main_v13) = W9 (F := Ideal) m ρ c (Proc.devRef .tc main_v13) :=
  W10_of_ne m ρ c main_v13 (by decide)
theorem l2_keep_v13 : W10 (F := Ideal) m ρ c (Proc.devRef .tc main_v13) = W6 (F := Ideal) m ρ c (Proc.devRef .tc main_v13) :=
  (l2_r4_v13 m ρ c).trans ((l2_h4_v13 m ρ c).trans ((l2_r3_v13 m ρ c).trans ((l2_h3_v13 m ρ c))))

theorem l2_h3_arg1 : W7 (F := Ideal) m ρ c (Proc.devRef .tc main_arg1) = W6 (F := Ideal) m ρ c (Proc.devRef .tc main_arg1) :=
  StableHlo.after_of_forall_not_mem (b := Proc.devRef .tc main_arg1) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r3_arg1 : W8 (F := Ideal) m ρ c (Proc.devRef .tc main_arg1) = W7 (F := Ideal) m ρ c (Proc.devRef .tc main_arg1) :=
  W8_of_ne m ρ c main_arg1 (by decide)
theorem l2_h4_arg1 : W9 (F := Ideal) m ρ c (Proc.devRef .tc main_arg1) = W8 (F := Ideal) m ρ c (Proc.devRef .tc main_arg1) :=
  StableHlo.after_of_forall_not_mem (b := Proc.devRef .tc main_arg1) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r4_arg1 : W10 (F := Ideal) m ρ c (Proc.devRef .tc main_arg1) = W9 (F := Ideal) m ρ c (Proc.devRef .tc main_arg1) :=
  W10_of_ne m ρ c main_arg1 (by decide)
theorem l2_keep_arg1 : W10 (F := Ideal) m ρ c (Proc.devRef .tc main_arg1) = W6 (F := Ideal) m ρ c (Proc.devRef .tc main_arg1) :=
  (l2_r4_arg1 m ρ c).trans ((l2_h4_arg1 m ρ c).trans ((l2_r3_arg1 m ρ c).trans ((l2_h3_arg1 m ρ c))))

theorem l2_h3_arg2 : W7 (F := Ideal) m ρ c (Proc.devRef .tc main_arg2) = W6 (F := Ideal) m ρ c (Proc.devRef .tc main_arg2) :=
  StableHlo.after_of_forall_not_mem (b := Proc.devRef .tc main_arg2) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r3_arg2 : W8 (F := Ideal) m ρ c (Proc.devRef .tc main_arg2) = W7 (F := Ideal) m ρ c (Proc.devRef .tc main_arg2) :=
  W8_of_ne m ρ c main_arg2 (by decide)
theorem l2_h4_arg2 : W9 (F := Ideal) m ρ c (Proc.devRef .tc main_arg2) = W8 (F := Ideal) m ρ c (Proc.devRef .tc main_arg2) :=
  StableHlo.after_of_forall_not_mem (b := Proc.devRef .tc main_arg2) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r4_arg2 : W10 (F := Ideal) m ρ c (Proc.devRef .tc main_arg2) = W9 (F := Ideal) m ρ c (Proc.devRef .tc main_arg2) :=
  W10_of_ne m ρ c main_arg2 (by decide)
theorem l2_keep_arg2 : W10 (F := Ideal) m ρ c (Proc.devRef .tc main_arg2) = W6 (F := Ideal) m ρ c (Proc.devRef .tc main_arg2) :=
  (l2_r4_arg2 m ρ c).trans ((l2_h4_arg2 m ρ c).trans ((l2_r3_arg2 m ρ c).trans ((l2_h3_arg2 m ρ c))))

theorem l2_h3_arg5 : W7 (F := Ideal) m ρ c (Proc.devRef .tc main_arg5) = W6 (F := Ideal) m ρ c (Proc.devRef .tc main_arg5) :=
  StableHlo.after_of_forall_not_mem (b := Proc.devRef .tc main_arg5) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r3_arg5 : W8 (F := Ideal) m ρ c (Proc.devRef .tc main_arg5) = W7 (F := Ideal) m ρ c (Proc.devRef .tc main_arg5) :=
  W8_of_ne m ρ c main_arg5 (by decide)
theorem l2_h4_arg5 : W9 (F := Ideal) m ρ c (Proc.devRef .tc main_arg5) = W8 (F := Ideal) m ρ c (Proc.devRef .tc main_arg5) :=
  StableHlo.after_of_forall_not_mem (b := Proc.devRef .tc main_arg5) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r4_arg5 : W10 (F := Ideal) m ρ c (Proc.devRef .tc main_arg5) = W9 (F := Ideal) m ρ c (Proc.devRef .tc main_arg5) :=
  W10_of_ne m ρ c main_arg5 (by decide)
theorem l2_keep_arg5 : W10 (F := Ideal) m ρ c (Proc.devRef .tc main_arg5) = W6 (F := Ideal) m ρ c (Proc.devRef .tc main_arg5) :=
  (l2_r4_arg5 m ρ c).trans ((l2_h4_arg5 m ρ c).trans ((l2_r3_arg5 m ρ c).trans ((l2_h3_arg5 m ρ c))))

theorem l2_h3_arg9 : W7 (F := Ideal) m ρ c (Proc.devRef .tc main_arg9) = W6 (F := Ideal) m ρ c (Proc.devRef .tc main_arg9) :=
  StableHlo.after_of_forall_not_mem (b := Proc.devRef .tc main_arg9) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r3_arg9 : W8 (F := Ideal) m ρ c (Proc.devRef .tc main_arg9) = W7 (F := Ideal) m ρ c (Proc.devRef .tc main_arg9) :=
  W8_of_ne m ρ c main_arg9 (by decide)
theorem l2_h4_arg9 : W9 (F := Ideal) m ρ c (Proc.devRef .tc main_arg9) = W8 (F := Ideal) m ρ c (Proc.devRef .tc main_arg9) :=
  StableHlo.after_of_forall_not_mem (b := Proc.devRef .tc main_arg9) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l2_r4_arg9 : W10 (F := Ideal) m ρ c (Proc.devRef .tc main_arg9) = W9 (F := Ideal) m ρ c (Proc.devRef .tc main_arg9) :=
  W10_of_ne m ρ c main_arg9 (by decide)
theorem l2_keep_arg9 : W10 (F := Ideal) m ρ c (Proc.devRef .tc main_arg9) = W6 (F := Ideal) m ρ c (Proc.devRef .tc main_arg9) :=
  (l2_r4_arg9 m ρ c).trans ((l2_h4_arg9 m ρ c).trans ((l2_r3_arg9 m ρ c).trans ((l2_h3_arg9 m ρ c))))

theorem l2_h4_v43_0 : W9 (F := Ideal) m ρ c (Proc.devRef .tc main_v43_0) = W8 (F := Ideal) m ρ c (Proc.devRef .tc main_v43_0) :=
  StableHlo.after_of_forall_not_mem (b := Proc.devRef .tc main_v43_0) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The layer's steps -/

/-- The neighbour sum. -/
theorem l2_agg : W7 (F := Ideal) m ρ c (Proc.devRef .tc main_v42)
    = KDefs.aggK (W6 (F := Ideal) m ρ c (Proc.devRef .tc main_arg1)) (W6 (F := Ideal) m ρ c (Proc.devRef .tc main_arg2)) (W6 (F := Ideal) m ρ c (Proc.devRef .tc main_v32)) := by
  show StableHlo.after hostOps3 (W6 m ρ c) (Proc.devRef .tc main_v42) = _
  after_results_simp
  rfl

/-- The scaled rows. -/
theorem l2_x
    (fx : (dat3 (F := Ideal) (V7 m ρ) c).arrAt 2 cfg3.N = Cert.Spec.rowScale (M := 50000) (N := 128) (V7 m ρ c (Pipeline.arrRef spec3 0)) (V7 m ρ c (Pipeline.arrRef spec3 1))) :
    W8 (F := Ideal) m ρ c (Proc.devRef .tc main_v43_0) = (Cert.Spec.rowScale (M := 50000) (N := 128) (W7 (F := Ideal) m ρ c (Proc.devRef .tc main_v42)) (W7 (F := Ideal) m ρ c (Proc.devRef .tc main_v7))) :=
  (W8_arr m ρ c 2).trans fx

/-- Their column sums. -/
theorem l2_s
    (fs : (dat3 (F := Ideal) (V7 m ρ) c).arrAt 3 cfg3.N = Cert.Spec.colSum (Cert.Spec.rowScale (M := 50000) (N := 128) (V7 m ρ c (Pipeline.arrRef spec3 0)) (V7 m ρ c (Pipeline.arrRef spec3 1)))) :
    W8 (F := Ideal) m ρ c (Proc.devRef .tc main_v43_1) = Cert.Spec.colSum (Cert.Spec.rowScale (M := 50000) (N := 128) (W7 (F := Ideal) m ρ c (Proc.devRef .tc main_v42)) (W7 (F := Ideal) m ρ c (Proc.devRef .tc main_v7))) :=
  (W8_arr m ρ c 3).trans fs

/-- Their column sums of squares. -/
theorem l2_ss
    (fss : (dat3 (F := Ideal) (V7 m ρ) c).arrAt 4 cfg3.N = Cert.Spec.colSumSq (Cert.Spec.rowScale (M := 50000) (N := 128) (V7 m ρ c (Pipeline.arrRef spec3 0)) (V7 m ρ c (Pipeline.arrRef spec3 1)))) :
    W8 (F := Ideal) m ρ c (Proc.devRef .tc main_v43_2) = Cert.Spec.colSumSq (Cert.Spec.rowScale (M := 50000) (N := 128) (W7 (F := Ideal) m ρ c (Proc.devRef .tc main_v42)) (W7 (F := Ideal) m ρ c (Proc.devRef .tc main_v7))) :=
  (W8_arr m ρ c 4).trans fss

/-- The mean row. -/
theorem l2_mean : W9 (F := Ideal) m ρ c (Proc.devRef .tc main_v45) = Cert.Spec.kmean (W8 (F := Ideal) m ρ c (Proc.devRef .tc main_v43_1)) := by
  have e : W9 (F := Ideal) m ρ c (Proc.devRef .tc main_v45) = Host.divf (W8 (F := Ideal) m ρ c (Proc.devRef .tc main_v43_1)) KHost.cnt := by
    show StableHlo.after hostOps4 (W8 m ρ c) (Proc.devRef .tc main_v45) = _
    after_results
    try rfl
  exact e.trans (KHost.kmean_eq _)

/-- The variance row. -/
theorem l2_var : W9 (F := Ideal) m ρ c (Proc.devRef .tc main_v49) = Cert.Spec.kvar (W8 (F := Ideal) m ρ c (Proc.devRef .tc main_v43_1)) (W8 (F := Ideal) m ρ c (Proc.devRef .tc main_v43_2)) := by
  have e : W9 (F := Ideal) m ρ c (Proc.devRef .tc main_v49)
      = subf (Host.divf (W8 (F := Ideal) m ρ c (Proc.devRef .tc main_v43_2)) KHost.cnt) (mulf (Host.divf (W8 (F := Ideal) m ρ c (Proc.devRef .tc main_v43_1)) KHost.cnt) (Host.divf (W8 (F := Ideal) m ρ c (Proc.devRef .tc main_v43_1)) KHost.cnt)) := by
    show StableHlo.after hostOps4 (W8 m ρ c) (Proc.devRef .tc main_v49) = _
    after_results
    try rfl
  exact e.trans (KHost.kvar_eq _ _)

/-- The normalisation region's output. -/
theorem l2_out
    (fB : (dat4 (F := Ideal) (V9 m ρ) c).arrAt 6 cfg4.N = Cert.Spec.bnReluScale (M := 50000) (N := 128) (V9 m ρ c (Pipeline.arrRef spec4 0)) (V9 m ρ c (Pipeline.arrRef spec4 1)) (V9 m ρ c (Pipeline.arrRef spec4 2)) (V9 m ρ c (Pipeline.arrRef spec4 3)) (V9 m ρ c (Pipeline.arrRef spec4 4)) (V9 m ρ c (Pipeline.arrRef spec4 5))) :
    W10 (F := Ideal) m ρ c (Proc.devRef .tc main_v50)
      = Cert.Spec.bnReluScale (M := 50000) (N := 128) (W9 (F := Ideal) m ρ c (Proc.devRef .tc main_v43_0)) (W9 (F := Ideal) m ρ c (Proc.devRef .tc main_v45)) (W9 (F := Ideal) m ρ c (Proc.devRef .tc main_v49)) (W9 (F := Ideal) m ρ c (Proc.devRef .tc main_v8)) (W9 (F := Ideal) m ρ c (Proc.devRef .tc main_v9)) (W9 (F := Ideal) m ρ c (Proc.devRef .tc main_v7)) :=
  (W10_arr m ρ c 6).trans fB

/-! ## The layer -/

/-- Layer 2: from the pre-scaled features p, the degree column n and the rows γ, β at the boundary before the layer
    to the next layer's pre-scaled features at the boundary after it. -/
theorem layer2
    (fx : (dat3 (F := Ideal) (V7 m ρ) c).arrAt 2 cfg3.N = Cert.Spec.rowScale (M := 50000) (N := 128) (V7 m ρ c (Pipeline.arrRef spec3 0)) (V7 m ρ c (Pipeline.arrRef spec3 1)))
    (fs : (dat3 (F := Ideal) (V7 m ρ) c).arrAt 3 cfg3.N = Cert.Spec.colSum (Cert.Spec.rowScale (M := 50000) (N := 128) (V7 m ρ c (Pipeline.arrRef spec3 0)) (V7 m ρ c (Pipeline.arrRef spec3 1))))
    (fss : (dat3 (F := Ideal) (V7 m ρ) c).arrAt 4 cfg3.N = Cert.Spec.colSumSq (Cert.Spec.rowScale (M := 50000) (N := 128) (V7 m ρ c (Pipeline.arrRef spec3 0)) (V7 m ρ c (Pipeline.arrRef spec3 1))))
    (fB : (dat4 (F := Ideal) (V9 m ρ) c).arrAt 6 cfg4.N = Cert.Spec.bnReluScale (M := 50000) (N := 128) (V9 m ρ c (Pipeline.arrRef spec4 0)) (V9 m ρ c (Pipeline.arrRef spec4 1)) (V9 m ρ c (Pipeline.arrRef spec4 2)) (V9 m ρ c (Pipeline.arrRef spec4 3)) (V9 m ρ c (Pipeline.arrRef spec4 4)) (V9 m ρ c (Pipeline.arrRef spec4 5)))
    (p : Cert.Spec.Mat 50000 128) (n : Cert.Spec.Mat 50000 1) (g b : Cert.Spec.Mat 1 128) (src dst : KDefs.Idx)
    (hp : W6 (F := Ideal) m ρ c (Proc.devRef .tc main_v32) = p) (hsrc : W6 (F := Ideal) m ρ c (Proc.devRef .tc main_arg1) = src) (hdst : W6 (F := Ideal) m ρ c (Proc.devRef .tc main_arg2) = dst)
    (hn : W6 (F := Ideal) m ρ c (Proc.devRef .tc main_v7) = n) (hg : W6 (F := Ideal) m ρ c (Proc.devRef .tc main_v8) = g) (hb : W6 (F := Ideal) m ρ c (Proc.devRef .tc main_v9) = b) :
    W10 (F := Ideal) m ρ c (Proc.devRef .tc main_v50)
      = Cert.Spec.rowScale (M := 50000) (N := 128) (Cert.Spec.kAct (Cert.Spec.rowScale (M := 50000) (N := 128) (KDefs.aggK src dst p) n) g b) n := by
  rw [l2_out m ρ c fB, l2_h4_v43_0, l2_mean, l2_var, l2_x m ρ c fx, l2_s m ρ c fs, l2_ss m ρ c fss, l2_agg,
    l2_h3_v7, l2_in_v8, l2_in_v9, l2_in_v7, hp, hsrc, hdst, hn, hg, hb]
  rfl

end Cert.KernelIdeal.KChain

end
-- ==== Proof.KL3.lean ====
/-
  Graph-convolution layer 3 of the kernel program, from the boundary before its neighbour sum to the boundary after its
  normalisation region: the host sums the neighbours' rows, a region scales the rows and accumulates the column sums and
  sums of squares, the host forms the mean and variance rows, and a region normalises, rectifies and scales again.
  The two regions' closed forms are hypotheses of the layer's statement.
-/
import proofs.«113157_j3616362463713_1_alg».proof.Proof.Gen.KernelIdeal.Frame
import proofs.«113157_j3616362463713_1_alg».proof.Proof.KHost

set_option maxRecDepth 16384

noncomputable section

namespace Cert.KernelIdeal.KChain

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## What passes through the layer unchanged -/

theorem l3_h5_v7 : W11 (F := Ideal) m ρ c (Proc.devRef .tc main_v7) = W10 (F := Ideal) m ρ c (Proc.devRef .tc main_v7) :=
  StableHlo.after_of_forall_not_mem (b := Proc.devRef .tc main_v7) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r5_v7 : W12 (F := Ideal) m ρ c (Proc.devRef .tc main_v7) = W11 (F := Ideal) m ρ c (Proc.devRef .tc main_v7) :=
  (W12_arr m ρ c 1).trans (((dat5 (V11 m ρ) c).arrAt_in 1 rfl _).trans (A_eq5 (V11 m ρ) c 1))
theorem l3_h6_v7 : W13 (F := Ideal) m ρ c (Proc.devRef .tc main_v7) = W12 (F := Ideal) m ρ c (Proc.devRef .tc main_v7) :=
  StableHlo.after_of_forall_not_mem (b := Proc.devRef .tc main_v7) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r6_v7 : W14 (F := Ideal) m ρ c (Proc.devRef .tc main_v7) = W13 (F := Ideal) m ρ c (Proc.devRef .tc main_v7) :=
  (W14_arr m ρ c 5).trans (((dat6 (V13 m ρ) c).arrAt_in 5 rfl _).trans (A_eq6 (V13 m ρ) c 5))
theorem l3_in_v7 : W13 (F := Ideal) m ρ c (Proc.devRef .tc main_v7) = W10 (F := Ideal) m ρ c (Proc.devRef .tc main_v7) :=
  (l3_h6_v7 m ρ c).trans ((l3_r5_v7 m ρ c).trans ((l3_h5_v7 m ρ c)))
theorem l3_keep_v7 : W14 (F := Ideal) m ρ c (Proc.devRef .tc main_v7) = W10 (F := Ideal) m ρ c (Proc.devRef .tc main_v7) :=
  (l3_r6_v7 m ρ c).trans ((l3_h6_v7 m ρ c).trans ((l3_r5_v7 m ρ c).trans ((l3_h5_v7 m ρ c))))

theorem l3_h5_v8 : W11 (F := Ideal) m ρ c (Proc.devRef .tc main_v8) = W10 (F := Ideal) m ρ c (Proc.devRef .tc main_v8) :=
  StableHlo.after_of_forall_not_mem (b := Proc.devRef .tc main_v8) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r5_v8 : W12 (F := Ideal) m ρ c (Proc.devRef .tc main_v8) = W11 (F := Ideal) m ρ c (Proc.devRef .tc main_v8) :=
  W12_of_ne m ρ c main_v8 (by decide)
theorem l3_h6_v8 : W13 (F := Ideal) m ρ c (Proc.devRef .tc main_v8) = W12 (F := Ideal) m ρ c (Proc.devRef .tc main_v8) :=
  StableHlo.after_of_forall_not_mem (b := Proc.devRef .tc main_v8) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r6_v8 : W14 (F := Ideal) m ρ c (Proc.devRef .tc main_v8) = W13 (F := Ideal) m ρ c (Proc.devRef .tc main_v8) :=
  (W14_arr m ρ c 3).trans (((dat6 (V13 m ρ) c).arrAt_in 3 rfl _).trans (A_eq6 (V13 m ρ) c 3))
theorem l3_in_v8 : W13 (F := Ideal) m ρ c (Proc.devRef .tc main_v8) = W10 (F := Ideal) m ρ c (Proc.devRef .tc main_v8) :=
  (l3_h6_v8 m ρ c).trans ((l3_r5_v8 m ρ c).trans ((l3_h5_v8 m ρ c)))
theorem l3_keep_v8 : W14 (F := Ideal) m ρ c (Proc.devRef .tc main_v8) = W10 (F := Ideal) m ρ c (Proc.devRef .tc main_v8) :=
  (l3_r6_v8 m ρ c).trans ((l3_h6_v8 m ρ c).trans ((l3_r5_v8 m ρ c).trans ((l3_h5_v8 m ρ c))))

theorem l3_h5_v9 : W11 (F := Ideal) m ρ c (Proc.devRef .tc main_v9) = W10 (F := Ideal) m ρ c (Proc.devRef .tc main_v9) :=
  StableHlo.after_of_forall_not_mem (b := Proc.devRef .tc main_v9) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r5_v9 : W12 (F := Ideal) m ρ c (Proc.devRef .tc main_v9) = W11 (F := Ideal) m ρ c (Proc.devRef .tc main_v9) :=
  W12_of_ne m ρ c main_v9 (by decide)
theorem l3_h6_v9 : W13 (F := Ideal) m ρ c (Proc.devRef .tc main_v9) = W12 (F := Ideal) m ρ c (Proc.devRef .tc main_v9) :=
  StableHlo.after_of_forall_not_mem (b := Proc.devRef .tc main_v9) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r6_v9 : W14 (F := Ideal) m ρ c (Proc.devRef .tc main_v9) = W13 (F := Ideal) m ρ c (Proc.devRef .tc main_v9) :=
  (W14_arr m ρ c 4).trans (((dat6 (V13 m ρ) c).arrAt_in 4 rfl _).trans (A_eq6 (V13 m ρ) c 4))
theorem l3_in_v9 : W13 (F := Ideal) m ρ c (Proc.devRef .tc main_v9) = W10 (F := Ideal) m ρ c (Proc.devRef .tc main_v9) :=
  (l3_h6_v9 m ρ c).trans ((l3_r5_v9 m ρ c).trans ((l3_h5_v9 m ρ c)))
theorem l3_keep_v9 : W14 (F := Ideal) m ρ c (Proc.devRef .tc main_v9) = W10 (F := Ideal) m ρ c (Proc.devRef .tc main_v9) :=
  (l3_r6_v9 m ρ c).trans ((l3_h6_v9 m ρ c).trans ((l3_r5_v9 m ρ c).trans ((l3_h5_v9 m ρ c))))

theorem l3_h5_v10 : W11 (F := Ideal) m ρ c (Proc.devRef .tc main_v10) = W10 (F := Ideal) m ρ c (Proc.devRef .tc main_v10) :=
  StableHlo.after_of_forall_not_mem (b := Proc.devRef .tc main_v10) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r5_v10 : W12 (F := Ideal) m ρ c (Proc.devRef .tc main_v10) = W11 (F := Ideal) m ρ c (Proc.devRef .tc main_v10) :=
  W12_of_ne m ρ c main_v10 (by decide)
theorem l3_h6_v10 : W13 (F := Ideal) m ρ c (Proc.devRef .tc main_v10) = W12 (F := Ideal) m ρ c (Proc.devRef .tc main_v10) :=
  StableHlo.after_of_forall_not_mem (b := Proc.devRef .tc main_v10) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r6_v10 : W14 (F := Ideal) m ρ c (Proc.devRef .tc main_v10) = W13 (F := Ideal) m ρ c (Proc.devRef .tc main_v10) :=
  W14_of_ne m ρ c main_v10 (by decide)
theorem l3_keep_v10 : W14 (F := Ideal) m ρ c (Proc.devRef .tc main_v10) = W10 (F := Ideal) m ρ c (Proc.devRef .tc main_v10) :=
  (l3_r6_v10 m ρ c).trans ((l3_h6_v10 m ρ c).trans ((l3_r5_v10 m ρ c).trans ((l3_h5_v10 m ρ c))))

theorem l3_h5_v11 : W11 (F := Ideal) m ρ c (Proc.devRef .tc main_v11) = W10 (F := Ideal) m ρ c (Proc.devRef .tc main_v11) :=
  StableHlo.after_of_forall_not_mem (b := Proc.devRef .tc main_v11) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r5_v11 : W12 (F := Ideal) m ρ c (Proc.devRef .tc main_v11) = W11 (F := Ideal) m ρ c (Proc.devRef .tc main_v11) :=
  W12_of_ne m ρ c main_v11 (by decide)
theorem l3_h6_v11 : W13 (F := Ideal) m ρ c (Proc.devRef .tc main_v11) = W12 (F := Ideal) m ρ c (Proc.devRef .tc main_v11) :=
  StableHlo.after_of_forall_not_mem (b := Proc.devRef .tc main_v11) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r6_v11 : W14 (F := Ideal) m ρ c (Proc.devRef .tc main_v11) = W13 (F := Ideal) m ρ c (Proc.devRef .tc main_v11) :=
  W14_of_ne m ρ c main_v11 (by decide)
theorem l3_keep_v11 : W14 (F := Ideal) m ρ c (Proc.devRef .tc main_v11) = W10 (F := Ideal) m ρ c (Proc.devRef .tc main_v11) :=
  (l3_r6_v11 m ρ c).trans ((l3_h6_v11 m ρ c).trans ((l3_r5_v11 m ρ c).trans ((l3_h5_v11 m ρ c))))

theorem l3_h5_v12 : W11 (F := Ideal) m ρ c (Proc.devRef .tc main_v12) = W10 (F := Ideal) m ρ c (Proc.devRef .tc main_v12) :=
  StableHlo.after_of_forall_not_mem (b := Proc.devRef .tc main_v12) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r5_v12 : W12 (F := Ideal) m ρ c (Proc.devRef .tc main_v12) = W11 (F := Ideal) m ρ c (Proc.devRef .tc main_v12) :=
  W12_of_ne m ρ c main_v12 (by decide)
theorem l3_h6_v12 : W13 (F := Ideal) m ρ c (Proc.devRef .tc main_v12) = W12 (F := Ideal) m ρ c (Proc.devRef .tc main_v12) :=
  StableHlo.after_of_forall_not_mem (b := Proc.devRef .tc main_v12) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r6_v12 : W14 (F := Ideal) m ρ c (Proc.devRef .tc main_v12) = W13 (F := Ideal) m ρ c (Proc.devRef .tc main_v12) :=
  W14_of_ne m ρ c main_v12 (by decide)
theorem l3_keep_v12 : W14 (F := Ideal) m ρ c (Proc.devRef .tc main_v12) = W10 (F := Ideal) m ρ c (Proc.devRef .tc main_v12) :=
  (l3_r6_v12 m ρ c).trans ((l3_h6_v12 m ρ c).trans ((l3_r5_v12 m ρ c).trans ((l3_h5_v12 m ρ c))))

theorem l3_h5_v13 : W11 (F := Ideal) m ρ c (Proc.devRef .tc main_v13) = W10 (F := Ideal) m ρ c (Proc.devRef .tc main_v13) :=
  StableHlo.after_of_forall_not_mem (b := Proc.devRef .tc main_v13) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r5_v13 : W12 (F := Ideal) m ρ c (Proc.devRef .tc main_v13) = W11 (F := Ideal) m ρ c (Proc.devRef .tc main_v13) :=
  W12_of_ne m ρ c main_v13 (by decide)
theorem l3_h6_v13 : W13 (F := Ideal) m ρ c (Proc.devRef .tc main_v13) = W12 (F := Ideal) m ρ c (Proc.devRef .tc main_v13) :=
  StableHlo.after_of_forall_not_mem (b := Proc.devRef .tc main_v13) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r6_v13 : W14 (F := Ideal) m ρ c (Proc.devRef .tc main_v13) = W13 (F := Ideal) m ρ c (Proc.devRef .tc main_v13) :=
  W14_of_ne m ρ c main_v13 (by decide)
theorem l3_keep_v13 : W14 (F := Ideal) m ρ c (Proc.devRef .tc main_v13) = W10 (F := Ideal) m ρ c (Proc.devRef .tc main_v13) :=
  (l3_r6_v13 m ρ c).trans ((l3_h6_v13 m ρ c).trans ((l3_r5_v13 m ρ c).trans ((l3_h5_v13 m ρ c))))

theorem l3_h5_arg1 : W11 (F := Ideal) m ρ c (Proc.devRef .tc main_arg1) = W10 (F := Ideal) m ρ c (Proc.devRef .tc main_arg1) :=
  StableHlo.after_of_forall_not_mem (b := Proc.devRef .tc main_arg1) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r5_arg1 : W12 (F := Ideal) m ρ c (Proc.devRef .tc main_arg1) = W11 (F := Ideal) m ρ c (Proc.devRef .tc main_arg1) :=
  W12_of_ne m ρ c main_arg1 (by decide)
theorem l3_h6_arg1 : W13 (F := Ideal) m ρ c (Proc.devRef .tc main_arg1) = W12 (F := Ideal) m ρ c (Proc.devRef .tc main_arg1) :=
  StableHlo.after_of_forall_not_mem (b := Proc.devRef .tc main_arg1) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r6_arg1 : W14 (F := Ideal) m ρ c (Proc.devRef .tc main_arg1) = W13 (F := Ideal) m ρ c (Proc.devRef .tc main_arg1) :=
  W14_of_ne m ρ c main_arg1 (by decide)
theorem l3_keep_arg1 : W14 (F := Ideal) m ρ c (Proc.devRef .tc main_arg1) = W10 (F := Ideal) m ρ c (Proc.devRef .tc main_arg1) :=
  (l3_r6_arg1 m ρ c).trans ((l3_h6_arg1 m ρ c).trans ((l3_r5_arg1 m ρ c).trans ((l3_h5_arg1 m ρ c))))

theorem l3_h5_arg2 : W11 (F := Ideal) m ρ c (Proc.devRef .tc main_arg2) = W10 (F := Ideal) m ρ c (Proc.devRef .tc main_arg2) :=
  StableHlo.after_of_forall_not_mem (b := Proc.devRef .tc main_arg2) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r5_arg2 : W12 (F := Ideal) m ρ c (Proc.devRef .tc main_arg2) = W11 (F := Ideal) m ρ c (Proc.devRef .tc main_arg2) :=
  W12_of_ne m ρ c main_arg2 (by decide)
theorem l3_h6_arg2 : W13 (F := Ideal) m ρ c (Proc.devRef .tc main_arg2) = W12 (F := Ideal) m ρ c (Proc.devRef .tc main_arg2) :=
  StableHlo.after_of_forall_not_mem (b := Proc.devRef .tc main_arg2) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r6_arg2 : W14 (F := Ideal) m ρ c (Proc.devRef .tc main_arg2) = W13 (F := Ideal) m ρ c (Proc.devRef .tc main_arg2) :=
  W14_of_ne m ρ c main_arg2 (by decide)
theorem l3_keep_arg2 : W14 (F := Ideal) m ρ c (Proc.devRef .tc main_arg2) = W10 (F := Ideal) m ρ c (Proc.devRef .tc main_arg2) :=
  (l3_r6_arg2 m ρ c).trans ((l3_h6_arg2 m ρ c).trans ((l3_r5_arg2 m ρ c).trans ((l3_h5_arg2 m ρ c))))

theorem l3_h5_arg5 : W11 (F := Ideal) m ρ c (Proc.devRef .tc main_arg5) = W10 (F := Ideal) m ρ c (Proc.devRef .tc main_arg5) :=
  StableHlo.after_of_forall_not_mem (b := Proc.devRef .tc main_arg5) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r5_arg5 : W12 (F := Ideal) m ρ c (Proc.devRef .tc main_arg5) = W11 (F := Ideal) m ρ c (Proc.devRef .tc main_arg5) :=
  W12_of_ne m ρ c main_arg5 (by decide)
theorem l3_h6_arg5 : W13 (F := Ideal) m ρ c (Proc.devRef .tc main_arg5) = W12 (F := Ideal) m ρ c (Proc.devRef .tc main_arg5) :=
  StableHlo.after_of_forall_not_mem (b := Proc.devRef .tc main_arg5) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r6_arg5 : W14 (F := Ideal) m ρ c (Proc.devRef .tc main_arg5) = W13 (F := Ideal) m ρ c (Proc.devRef .tc main_arg5) :=
  W14_of_ne m ρ c main_arg5 (by decide)
theorem l3_keep_arg5 : W14 (F := Ideal) m ρ c (Proc.devRef .tc main_arg5) = W10 (F := Ideal) m ρ c (Proc.devRef .tc main_arg5) :=
  (l3_r6_arg5 m ρ c).trans ((l3_h6_arg5 m ρ c).trans ((l3_r5_arg5 m ρ c).trans ((l3_h5_arg5 m ρ c))))

theorem l3_h5_arg9 : W11 (F := Ideal) m ρ c (Proc.devRef .tc main_arg9) = W10 (F := Ideal) m ρ c (Proc.devRef .tc main_arg9) :=
  StableHlo.after_of_forall_not_mem (b := Proc.devRef .tc main_arg9) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r5_arg9 : W12 (F := Ideal) m ρ c (Proc.devRef .tc main_arg9) = W11 (F := Ideal) m ρ c (Proc.devRef .tc main_arg9) :=
  W12_of_ne m ρ c main_arg9 (by decide)
theorem l3_h6_arg9 : W13 (F := Ideal) m ρ c (Proc.devRef .tc main_arg9) = W12 (F := Ideal) m ρ c (Proc.devRef .tc main_arg9) :=
  StableHlo.after_of_forall_not_mem (b := Proc.devRef .tc main_arg9) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l3_r6_arg9 : W14 (F := Ideal) m ρ c (Proc.devRef .tc main_arg9) = W13 (F := Ideal) m ρ c (Proc.devRef .tc main_arg9) :=
  W14_of_ne m ρ c main_arg9 (by decide)
theorem l3_keep_arg9 : W14 (F := Ideal) m ρ c (Proc.devRef .tc main_arg9) = W10 (F := Ideal) m ρ c (Proc.devRef .tc main_arg9) :=
  (l3_r6_arg9 m ρ c).trans ((l3_h6_arg9 m ρ c).trans ((l3_r5_arg9 m ρ c).trans ((l3_h5_arg9 m ρ c))))

theorem l3_h6_v61_0 : W13 (F := Ideal) m ρ c (Proc.devRef .tc main_v61_0) = W12 (F := Ideal) m ρ c (Proc.devRef .tc main_v61_0) :=
  StableHlo.after_of_forall_not_mem (b := Proc.devRef .tc main_v61_0) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The layer's steps -/

/-- The neighbour sum. -/
theorem l3_agg : W11 (F := Ideal) m ρ c (Proc.devRef .tc main_v60)
    = KDefs.aggK (W10 (F := Ideal) m ρ c (Proc.devRef .tc main_arg1)) (W10 (F := Ideal) m ρ c (Proc.devRef .tc main_arg2)) (W10 (F := Ideal) m ρ c (Proc.devRef .tc main_v50)) := by
  show StableHlo.after hostOps5 (W10 m ρ c) (Proc.devRef .tc main_v60) = _
  after_results_simp
  rfl

/-- The scaled rows. -/
theorem l3_x
    (fx : (dat5 (F := Ideal) (V11 m ρ) c).arrAt 2 cfg5.N = Cert.Spec.rowScale (M := 50000) (N := 128) (V11 m ρ c (Pipeline.arrRef spec5 0)) (V11 m ρ c (Pipeline.arrRef spec5 1))) :
    W12 (F := Ideal) m ρ c (Proc.devRef .tc main_v61_0) = (Cert.Spec.rowScale (M := 50000) (N := 128) (W11 (F := Ideal) m ρ c (Proc.devRef .tc main_v60)) (W11 (F := Ideal) m ρ c (Proc.devRef .tc main_v7))) :=
  (W12_arr m ρ c 2).trans fx

/-- Their column sums. -/
theorem l3_s
    (fs : (dat5 (F := Ideal) (V11 m ρ) c).arrAt 3 cfg5.N = Cert.Spec.colSum (Cert.Spec.rowScale (M := 50000) (N := 128) (V11 m ρ c (Pipeline.arrRef spec5 0)) (V11 m ρ c (Pipeline.arrRef spec5 1)))) :
    W12 (F := Ideal) m ρ c (Proc.devRef .tc main_v61_1) = Cert.Spec.colSum (Cert.Spec.rowScale (M := 50000) (N := 128) (W11 (F := Ideal) m ρ c (Proc.devRef .tc main_v60)) (W11 (F := Ideal) m ρ c (Proc.devRef .tc main_v7))) :=
  (W12_arr m ρ c 3).trans fs

/-- Their column sums of squares. -/
theorem l3_ss
    (fss : (dat5 (F := Ideal) (V11 m ρ) c).arrAt 4 cfg5.N = Cert.Spec.colSumSq (Cert.Spec.rowScale (M := 50000) (N := 128) (V11 m ρ c (Pipeline.arrRef spec5 0)) (V11 m ρ c (Pipeline.arrRef spec5 1)))) :
    W12 (F := Ideal) m ρ c (Proc.devRef .tc main_v61_2) = Cert.Spec.colSumSq (Cert.Spec.rowScale (M := 50000) (N := 128) (W11 (F := Ideal) m ρ c (Proc.devRef .tc main_v60)) (W11 (F := Ideal) m ρ c (Proc.devRef .tc main_v7))) :=
  (W12_arr m ρ c 4).trans fss

/-- The mean row. -/
theorem l3_mean : W13 (F := Ideal) m ρ c (Proc.devRef .tc main_v63) = Cert.Spec.kmean (W12 (F := Ideal) m ρ c (Proc.devRef .tc main_v61_1)) := by
  have e : W13 (F := Ideal) m ρ c (Proc.devRef .tc main_v63) = Host.divf (W12 (F := Ideal) m ρ c (Proc.devRef .tc main_v61_1)) KHost.cnt := by
    show StableHlo.after hostOps6 (W12 m ρ c) (Proc.devRef .tc main_v63) = _
    after_results
    try rfl
  exact e.trans (KHost.kmean_eq _)

/-- The variance row. -/
theorem l3_var : W13 (F := Ideal) m ρ c (Proc.devRef .tc main_v67) = Cert.Spec.kvar (W12 (F := Ideal) m ρ c (Proc.devRef .tc main_v61_1)) (W12 (F := Ideal) m ρ c (Proc.devRef .tc main_v61_2)) := by
  have e : W13 (F := Ideal) m ρ c (Proc.devRef .tc main_v67)
      = subf (Host.divf (W12 (F := Ideal) m ρ c (Proc.devRef .tc main_v61_2)) KHost.cnt) (mulf (Host.divf (W12 (F := Ideal) m ρ c (Proc.devRef .tc main_v61_1)) KHost.cnt) (Host.divf (W12 (F := Ideal) m ρ c (Proc.devRef .tc main_v61_1)) KHost.cnt)) := by
    show StableHlo.after hostOps6 (W12 m ρ c) (Proc.devRef .tc main_v67) = _
    after_results
    try rfl
  exact e.trans (KHost.kvar_eq _ _)

/-- The normalisation region's output. -/
theorem l3_out
    (fB : (dat6 (F := Ideal) (V13 m ρ) c).arrAt 6 cfg6.N = Cert.Spec.bnReluScale (M := 50000) (N := 128) (V13 m ρ c (Pipeline.arrRef spec6 0)) (V13 m ρ c (Pipeline.arrRef spec6 1)) (V13 m ρ c (Pipeline.arrRef spec6 2)) (V13 m ρ c (Pipeline.arrRef spec6 3)) (V13 m ρ c (Pipeline.arrRef spec6 4)) (V13 m ρ c (Pipeline.arrRef spec6 5))) :
    W14 (F := Ideal) m ρ c (Proc.devRef .tc main_v68)
      = Cert.Spec.bnReluScale (M := 50000) (N := 128) (W13 (F := Ideal) m ρ c (Proc.devRef .tc main_v61_0)) (W13 (F := Ideal) m ρ c (Proc.devRef .tc main_v63)) (W13 (F := Ideal) m ρ c (Proc.devRef .tc main_v67)) (W13 (F := Ideal) m ρ c (Proc.devRef .tc main_v8)) (W13 (F := Ideal) m ρ c (Proc.devRef .tc main_v9)) (W13 (F := Ideal) m ρ c (Proc.devRef .tc main_v7)) :=
  (W14_arr m ρ c 6).trans fB

/-! ## The layer -/

/-- Layer 3: from the pre-scaled features p, the degree column n and the rows γ, β at the boundary before the layer
    to the next layer's pre-scaled features at the boundary after it. -/
theorem layer3
    (fx : (dat5 (F := Ideal) (V11 m ρ) c).arrAt 2 cfg5.N = Cert.Spec.rowScale (M := 50000) (N := 128) (V11 m ρ c (Pipeline.arrRef spec5 0)) (V11 m ρ c (Pipeline.arrRef spec5 1)))
    (fs : (dat5 (F := Ideal) (V11 m ρ) c).arrAt 3 cfg5.N = Cert.Spec.colSum (Cert.Spec.rowScale (M := 50000) (N := 128) (V11 m ρ c (Pipeline.arrRef spec5 0)) (V11 m ρ c (Pipeline.arrRef spec5 1))))
    (fss : (dat5 (F := Ideal) (V11 m ρ) c).arrAt 4 cfg5.N = Cert.Spec.colSumSq (Cert.Spec.rowScale (M := 50000) (N := 128) (V11 m ρ c (Pipeline.arrRef spec5 0)) (V11 m ρ c (Pipeline.arrRef spec5 1))))
    (fB : (dat6 (F := Ideal) (V13 m ρ) c).arrAt 6 cfg6.N = Cert.Spec.bnReluScale (M := 50000) (N := 128) (V13 m ρ c (Pipeline.arrRef spec6 0)) (V13 m ρ c (Pipeline.arrRef spec6 1)) (V13 m ρ c (Pipeline.arrRef spec6 2)) (V13 m ρ c (Pipeline.arrRef spec6 3)) (V13 m ρ c (Pipeline.arrRef spec6 4)) (V13 m ρ c (Pipeline.arrRef spec6 5)))
    (p : Cert.Spec.Mat 50000 128) (n : Cert.Spec.Mat 50000 1) (g b : Cert.Spec.Mat 1 128) (src dst : KDefs.Idx)
    (hp : W10 (F := Ideal) m ρ c (Proc.devRef .tc main_v50) = p) (hsrc : W10 (F := Ideal) m ρ c (Proc.devRef .tc main_arg1) = src) (hdst : W10 (F := Ideal) m ρ c (Proc.devRef .tc main_arg2) = dst)
    (hn : W10 (F := Ideal) m ρ c (Proc.devRef .tc main_v7) = n) (hg : W10 (F := Ideal) m ρ c (Proc.devRef .tc main_v8) = g) (hb : W10 (F := Ideal) m ρ c (Proc.devRef .tc main_v9) = b) :
    W14 (F := Ideal) m ρ c (Proc.devRef .tc main_v68)
      = Cert.Spec.rowScale (M := 50000) (N := 128) (Cert.Spec.kAct (Cert.Spec.rowScale (M := 50000) (N := 128) (KDefs.aggK src dst p) n) g b) n := by
  rw [l3_out m ρ c fB, l3_h6_v61_0, l3_mean, l3_var, l3_x m ρ c fx, l3_s m ρ c fs, l3_ss m ρ c fss, l3_agg,
    l3_h5_v7, l3_in_v8, l3_in_v9, l3_in_v7, hp, hsrc, hdst, hn, hg, hb]
  rfl

end Cert.KernelIdeal.KChain

end
-- ==== Proof.KL4.lean ====
/-
  Graph-convolution layer 4 of the kernel program, from the boundary before its neighbour sum to the boundary after its
  normalisation region: the host sums the neighbours' rows, a region scales the rows and accumulates the column sums and
  sums of squares, the host forms the mean and variance rows, and a region normalises and rectifies.
  The two regions' closed forms are hypotheses of the layer's statement.
-/
import proofs.«113157_j3616362463713_1_alg».proof.Proof.Gen.KernelIdeal.Frame
import proofs.«113157_j3616362463713_1_alg».proof.Proof.KHost

set_option maxRecDepth 16384

noncomputable section

namespace Cert.KernelIdeal.KChain

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## What passes through the layer unchanged -/

theorem l4_h7_v7 : W15 (F := Ideal) m ρ c (Proc.devRef .tc main_v7) = W14 (F := Ideal) m ρ c (Proc.devRef .tc main_v7) :=
  StableHlo.after_of_forall_not_mem (b := Proc.devRef .tc main_v7) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r7_v7 : W16 (F := Ideal) m ρ c (Proc.devRef .tc main_v7) = W15 (F := Ideal) m ρ c (Proc.devRef .tc main_v7) :=
  (W16_arr m ρ c 1).trans (((dat7 (V15 m ρ) c).arrAt_in 1 rfl _).trans (A_eq7 (V15 m ρ) c 1))
theorem l4_h8_v7 : W17 (F := Ideal) m ρ c (Proc.devRef .tc main_v7) = W16 (F := Ideal) m ρ c (Proc.devRef .tc main_v7) :=
  StableHlo.after_of_forall_not_mem (b := Proc.devRef .tc main_v7) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_in_v7 : W17 (F := Ideal) m ρ c (Proc.devRef .tc main_v7) = W14 (F := Ideal) m ρ c (Proc.devRef .tc main_v7) :=
  (l4_h8_v7 m ρ c).trans ((l4_r7_v7 m ρ c).trans ((l4_h7_v7 m ρ c)))

theorem l4_h7_v8 : W15 (F := Ideal) m ρ c (Proc.devRef .tc main_v8) = W14 (F := Ideal) m ρ c (Proc.devRef .tc main_v8) :=
  StableHlo.after_of_forall_not_mem (b := Proc.devRef .tc main_v8) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r7_v8 : W16 (F := Ideal) m ρ c (Proc.devRef .tc main_v8) = W15 (F := Ideal) m ρ c (Proc.devRef .tc main_v8) :=
  W16_of_ne m ρ c main_v8 (by decide)
theorem l4_h8_v8 : W17 (F := Ideal) m ρ c (Proc.devRef .tc main_v8) = W16 (F := Ideal) m ρ c (Proc.devRef .tc main_v8) :=
  StableHlo.after_of_forall_not_mem (b := Proc.devRef .tc main_v8) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_in_v8 : W17 (F := Ideal) m ρ c (Proc.devRef .tc main_v8) = W14 (F := Ideal) m ρ c (Proc.devRef .tc main_v8) :=
  (l4_h8_v8 m ρ c).trans ((l4_r7_v8 m ρ c).trans ((l4_h7_v8 m ρ c)))

theorem l4_h7_v9 : W15 (F := Ideal) m ρ c (Proc.devRef .tc main_v9) = W14 (F := Ideal) m ρ c (Proc.devRef .tc main_v9) :=
  StableHlo.after_of_forall_not_mem (b := Proc.devRef .tc main_v9) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r7_v9 : W16 (F := Ideal) m ρ c (Proc.devRef .tc main_v9) = W15 (F := Ideal) m ρ c (Proc.devRef .tc main_v9) :=
  W16_of_ne m ρ c main_v9 (by decide)
theorem l4_h8_v9 : W17 (F := Ideal) m ρ c (Proc.devRef .tc main_v9) = W16 (F := Ideal) m ρ c (Proc.devRef .tc main_v9) :=
  StableHlo.after_of_forall_not_mem (b := Proc.devRef .tc main_v9) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_in_v9 : W17 (F := Ideal) m ρ c (Proc.devRef .tc main_v9) = W14 (F := Ideal) m ρ c (Proc.devRef .tc main_v9) :=
  (l4_h8_v9 m ρ c).trans ((l4_r7_v9 m ρ c).trans ((l4_h7_v9 m ρ c)))

theorem l4_h7_v10 : W15 (F := Ideal) m ρ c (Proc.devRef .tc main_v10) = W14 (F := Ideal) m ρ c (Proc.devRef .tc main_v10) :=
  StableHlo.after_of_forall_not_mem (b := Proc.devRef .tc main_v10) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r7_v10 : W16 (F := Ideal) m ρ c (Proc.devRef .tc main_v10) = W15 (F := Ideal) m ρ c (Proc.devRef .tc main_v10) :=
  W16_of_ne m ρ c main_v10 (by decide)
theorem l4_h8_v10 : W17 (F := Ideal) m ρ c (Proc.devRef .tc main_v10) = W16 (F := Ideal) m ρ c (Proc.devRef .tc main_v10) :=
  StableHlo.after_of_forall_not_mem (b := Proc.devRef .tc main_v10) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r8_v10 : W18 (F := Ideal) m ρ c (Proc.devRef .tc main_v10) = W17 (F := Ideal) m ρ c (Proc.devRef .tc main_v10) :=
  W18_of_ne m ρ c main_v10 (by decide)
theorem l4_keep_v10 : W18 (F := Ideal) m ρ c (Proc.devRef .tc main_v10) = W14 (F := Ideal) m ρ c (Proc.devRef .tc main_v10) :=
  (l4_r8_v10 m ρ c).trans ((l4_h8_v10 m ρ c).trans ((l4_r7_v10 m ρ c).trans ((l4_h7_v10 m ρ c))))

theorem l4_h7_v11 : W15 (F := Ideal) m ρ c (Proc.devRef .tc main_v11) = W14 (F := Ideal) m ρ c (Proc.devRef .tc main_v11) :=
  StableHlo.after_of_forall_not_mem (b := Proc.devRef .tc main_v11) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r7_v11 : W16 (F := Ideal) m ρ c (Proc.devRef .tc main_v11) = W15 (F := Ideal) m ρ c (Proc.devRef .tc main_v11) :=
  W16_of_ne m ρ c main_v11 (by decide)
theorem l4_h8_v11 : W17 (F := Ideal) m ρ c (Proc.devRef .tc main_v11) = W16 (F := Ideal) m ρ c (Proc.devRef .tc main_v11) :=
  StableHlo.after_of_forall_not_mem (b := Proc.devRef .tc main_v11) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r8_v11 : W18 (F := Ideal) m ρ c (Proc.devRef .tc main_v11) = W17 (F := Ideal) m ρ c (Proc.devRef .tc main_v11) :=
  W18_of_ne m ρ c main_v11 (by decide)
theorem l4_keep_v11 : W18 (F := Ideal) m ρ c (Proc.devRef .tc main_v11) = W14 (F := Ideal) m ρ c (Proc.devRef .tc main_v11) :=
  (l4_r8_v11 m ρ c).trans ((l4_h8_v11 m ρ c).trans ((l4_r7_v11 m ρ c).trans ((l4_h7_v11 m ρ c))))

theorem l4_h7_v12 : W15 (F := Ideal) m ρ c (Proc.devRef .tc main_v12) = W14 (F := Ideal) m ρ c (Proc.devRef .tc main_v12) :=
  StableHlo.after_of_forall_not_mem (b := Proc.devRef .tc main_v12) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r7_v12 : W16 (F := Ideal) m ρ c (Proc.devRef .tc main_v12) = W15 (F := Ideal) m ρ c (Proc.devRef .tc main_v12) :=
  W16_of_ne m ρ c main_v12 (by decide)
theorem l4_h8_v12 : W17 (F := Ideal) m ρ c (Proc.devRef .tc main_v12) = W16 (F := Ideal) m ρ c (Proc.devRef .tc main_v12) :=
  StableHlo.after_of_forall_not_mem (b := Proc.devRef .tc main_v12) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r8_v12 : W18 (F := Ideal) m ρ c (Proc.devRef .tc main_v12) = W17 (F := Ideal) m ρ c (Proc.devRef .tc main_v12) :=
  W18_of_ne m ρ c main_v12 (by decide)
theorem l4_keep_v12 : W18 (F := Ideal) m ρ c (Proc.devRef .tc main_v12) = W14 (F := Ideal) m ρ c (Proc.devRef .tc main_v12) :=
  (l4_r8_v12 m ρ c).trans ((l4_h8_v12 m ρ c).trans ((l4_r7_v12 m ρ c).trans ((l4_h7_v12 m ρ c))))

theorem l4_h7_v13 : W15 (F := Ideal) m ρ c (Proc.devRef .tc main_v13) = W14 (F := Ideal) m ρ c (Proc.devRef .tc main_v13) :=
  StableHlo.after_of_forall_not_mem (b := Proc.devRef .tc main_v13) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r7_v13 : W16 (F := Ideal) m ρ c (Proc.devRef .tc main_v13) = W15 (F := Ideal) m ρ c (Proc.devRef .tc main_v13) :=
  W16_of_ne m ρ c main_v13 (by decide)
theorem l4_h8_v13 : W17 (F := Ideal) m ρ c (Proc.devRef .tc main_v13) = W16 (F := Ideal) m ρ c (Proc.devRef .tc main_v13) :=
  StableHlo.after_of_forall_not_mem (b := Proc.devRef .tc main_v13) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r8_v13 : W18 (F := Ideal) m ρ c (Proc.devRef .tc main_v13) = W17 (F := Ideal) m ρ c (Proc.devRef .tc main_v13) :=
  W18_of_ne m ρ c main_v13 (by decide)
theorem l4_keep_v13 : W18 (F := Ideal) m ρ c (Proc.devRef .tc main_v13) = W14 (F := Ideal) m ρ c (Proc.devRef .tc main_v13) :=
  (l4_r8_v13 m ρ c).trans ((l4_h8_v13 m ρ c).trans ((l4_r7_v13 m ρ c).trans ((l4_h7_v13 m ρ c))))

theorem l4_h7_arg5 : W15 (F := Ideal) m ρ c (Proc.devRef .tc main_arg5) = W14 (F := Ideal) m ρ c (Proc.devRef .tc main_arg5) :=
  StableHlo.after_of_forall_not_mem (b := Proc.devRef .tc main_arg5) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r7_arg5 : W16 (F := Ideal) m ρ c (Proc.devRef .tc main_arg5) = W15 (F := Ideal) m ρ c (Proc.devRef .tc main_arg5) :=
  W16_of_ne m ρ c main_arg5 (by decide)
theorem l4_h8_arg5 : W17 (F := Ideal) m ρ c (Proc.devRef .tc main_arg5) = W16 (F := Ideal) m ρ c (Proc.devRef .tc main_arg5) :=
  StableHlo.after_of_forall_not_mem (b := Proc.devRef .tc main_arg5) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r8_arg5 : W18 (F := Ideal) m ρ c (Proc.devRef .tc main_arg5) = W17 (F := Ideal) m ρ c (Proc.devRef .tc main_arg5) :=
  W18_of_ne m ρ c main_arg5 (by decide)
theorem l4_keep_arg5 : W18 (F := Ideal) m ρ c (Proc.devRef .tc main_arg5) = W14 (F := Ideal) m ρ c (Proc.devRef .tc main_arg5) :=
  (l4_r8_arg5 m ρ c).trans ((l4_h8_arg5 m ρ c).trans ((l4_r7_arg5 m ρ c).trans ((l4_h7_arg5 m ρ c))))

theorem l4_h7_arg9 : W15 (F := Ideal) m ρ c (Proc.devRef .tc main_arg9) = W14 (F := Ideal) m ρ c (Proc.devRef .tc main_arg9) :=
  StableHlo.after_of_forall_not_mem (b := Proc.devRef .tc main_arg9) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r7_arg9 : W16 (F := Ideal) m ρ c (Proc.devRef .tc main_arg9) = W15 (F := Ideal) m ρ c (Proc.devRef .tc main_arg9) :=
  W16_of_ne m ρ c main_arg9 (by decide)
theorem l4_h8_arg9 : W17 (F := Ideal) m ρ c (Proc.devRef .tc main_arg9) = W16 (F := Ideal) m ρ c (Proc.devRef .tc main_arg9) :=
  StableHlo.after_of_forall_not_mem (b := Proc.devRef .tc main_arg9) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem l4_r8_arg9 : W18 (F := Ideal) m ρ c (Proc.devRef .tc main_arg9) = W17 (F := Ideal) m ρ c (Proc.devRef .tc main_arg9) :=
  W18_of_ne m ρ c main_arg9 (by decide)
theorem l4_keep_arg9 : W18 (F := Ideal) m ρ c (Proc.devRef .tc main_arg9) = W14 (F := Ideal) m ρ c (Proc.devRef .tc main_arg9) :=
  (l4_r8_arg9 m ρ c).trans ((l4_h8_arg9 m ρ c).trans ((l4_r7_arg9 m ρ c).trans ((l4_h7_arg9 m ρ c))))

theorem l4_h8_v79_0 : W17 (F := Ideal) m ρ c (Proc.devRef .tc main_v79_0) = W16 (F := Ideal) m ρ c (Proc.devRef .tc main_v79_0) :=
  StableHlo.after_of_forall_not_mem (b := Proc.devRef .tc main_v79_0) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The layer's steps -/

/-- The neighbour sum. -/
theorem l4_agg : W15 (F := Ideal) m ρ c (Proc.devRef .tc main_v78)
    = KDefs.aggK (W14 (F := Ideal) m ρ c (Proc.devRef .tc main_arg1)) (W14 (F := Ideal) m ρ c (Proc.devRef .tc main_arg2)) (W14 (F := Ideal) m ρ c (Proc.devRef .tc main_v68)) := by
  show StableHlo.after hostOps7 (W14 m ρ c) (Proc.devRef .tc main_v78) = _
  after_results_simp
  rfl

/-- The scaled rows. -/
theorem l4_x
    (fx : (dat7 (F := Ideal) (V15 m ρ) c).arrAt 2 cfg7.N = Cert.Spec.rowScale (M := 50000) (N := 128) (V15 m ρ c (Pipeline.arrRef spec7 0)) (V15 m ρ c (Pipeline.arrRef spec7 1))) :
    W16 (F := Ideal) m ρ c (Proc.devRef .tc main_v79_0) = (Cert.Spec.rowScale (M := 50000) (N := 128) (W15 (F := Ideal) m ρ c (Proc.devRef .tc main_v78)) (W15 (F := Ideal) m ρ c (Proc.devRef .tc main_v7))) :=
  (W16_arr m ρ c 2).trans fx

/-- Their column sums. -/
theorem l4_s
    (fs : (dat7 (F := Ideal) (V15 m ρ) c).arrAt 3 cfg7.N = Cert.Spec.colSum (Cert.Spec.rowScale (M := 50000) (N := 128) (V15 m ρ c (Pipeline.arrRef spec7 0)) (V15 m ρ c (Pipeline.arrRef spec7 1)))) :
    W16 (F := Ideal) m ρ c (Proc.devRef .tc main_v79_1) = Cert.Spec.colSum (Cert.Spec.rowScale (M := 50000) (N := 128) (W15 (F := Ideal) m ρ c (Proc.devRef .tc main_v78)) (W15 (F := Ideal) m ρ c (Proc.devRef .tc main_v7))) :=
  (W16_arr m ρ c 3).trans fs

/-- Their column sums of squares. -/
theorem l4_ss
    (fss : (dat7 (F := Ideal) (V15 m ρ) c).arrAt 4 cfg7.N = Cert.Spec.colSumSq (Cert.Spec.rowScale (M := 50000) (N := 128) (V15 m ρ c (Pipeline.arrRef spec7 0)) (V15 m ρ c (Pipeline.arrRef spec7 1)))) :
    W16 (F := Ideal) m ρ c (Proc.devRef .tc main_v79_2) = Cert.Spec.colSumSq (Cert.Spec.rowScale (M := 50000) (N := 128) (W15 (F := Ideal) m ρ c (Proc.devRef .tc main_v78)) (W15 (F := Ideal) m ρ c (Proc.devRef .tc main_v7))) :=
  (W16_arr m ρ c 4).trans fss

/-- The mean row. -/
theorem l4_mean : W17 (F := Ideal) m ρ c (Proc.devRef .tc main_v81) = Cert.Spec.kmean (W16 (F := Ideal) m ρ c (Proc.devRef .tc main_v79_1)) := by
  have e : W17 (F := Ideal) m ρ c (Proc.devRef .tc main_v81) = Host.divf (W16 (F := Ideal) m ρ c (Proc.devRef .tc main_v79_1)) KHost.cnt := by
    show StableHlo.after hostOps8 (W16 m ρ c) (Proc.devRef .tc main_v81) = _
    after_results
    try rfl
  exact e.trans (KHost.kmean_eq _)

/-- The variance row. -/
theorem l4_var : W17 (F := Ideal) m ρ c (Proc.devRef .tc main_v85) = Cert.Spec.kvar (W16 (F := Ideal) m ρ c (Proc.devRef .tc main_v79_1)) (W16 (F := Ideal) m ρ c (Proc.devRef .tc main_v79_2)) := by
  have e : W17 (F := Ideal) m ρ c (Proc.devRef .tc main_v85)
      = subf (Host.divf (W16 (F := Ideal) m ρ c (Proc.devRef .tc main_v79_2)) KHost.cnt) (mulf (Host.divf (W16 (F := Ideal) m ρ c (Proc.devRef .tc main_v79_1)) KHost.cnt) (Host.divf (W16 (F := Ideal) m ρ c (Proc.devRef .tc main_v79_1)) KHost.cnt)) := by
    show StableHlo.after hostOps8 (W16 m ρ c) (Proc.devRef .tc main_v85) = _
    after_results
    try rfl
  exact e.trans (KHost.kvar_eq _ _)

/-- The normalisation region's output. -/
theorem l4_out
    (fB : (dat8 (F := Ideal) (V17 m ρ) c).arrAt 5 cfg8.N = Cert.Spec.bnRelu (M := 50000) (N := 128) (V17 m ρ c (Pipeline.arrRef spec8 0)) (V17 m ρ c (Pipeline.arrRef spec8 1)) (V17 m ρ c (Pipeline.arrRef spec8 2)) (V17 m ρ c (Pipeline.arrRef spec8 3)) (V17 m ρ c (Pipeline.arrRef spec8 4))) :
    W18 (F := Ideal) m ρ c (Proc.devRef .tc main_v86)
      = Cert.Spec.bnRelu (M := 50000) (N := 128) (W17 (F := Ideal) m ρ c (Proc.devRef .tc main_v79_0)) (W17 (F := Ideal) m ρ c (Proc.devRef .tc main_v81)) (W17 (F := Ideal) m ρ c (Proc.devRef .tc main_v85)) (W17 (F := Ideal) m ρ c (Proc.devRef .tc main_v8)) (W17 (F := Ideal) m ρ c (Proc.devRef .tc main_v9)) :=
  (W18_arr m ρ c 5).trans fB

/-! ## The layer -/

/-- Layer 4: from the pre-scaled features p, the degree column n and the rows γ, β at the boundary before the layer
    to the rectified normalised features at the boundary after it. -/
theorem layer4
    (fx : (dat7 (F := Ideal) (V15 m ρ) c).arrAt 2 cfg7.N = Cert.Spec.rowScale (M := 50000) (N := 128) (V15 m ρ c (Pipeline.arrRef spec7 0)) (V15 m ρ c (Pipeline.arrRef spec7 1)))
    (fs : (dat7 (F := Ideal) (V15 m ρ) c).arrAt 3 cfg7.N = Cert.Spec.colSum (Cert.Spec.rowScale (M := 50000) (N := 128) (V15 m ρ c (Pipeline.arrRef spec7 0)) (V15 m ρ c (Pipeline.arrRef spec7 1))))
    (fss : (dat7 (F := Ideal) (V15 m ρ) c).arrAt 4 cfg7.N = Cert.Spec.colSumSq (Cert.Spec.rowScale (M := 50000) (N := 128) (V15 m ρ c (Pipeline.arrRef spec7 0)) (V15 m ρ c (Pipeline.arrRef spec7 1))))
    (fB : (dat8 (F := Ideal) (V17 m ρ) c).arrAt 5 cfg8.N = Cert.Spec.bnRelu (M := 50000) (N := 128) (V17 m ρ c (Pipeline.arrRef spec8 0)) (V17 m ρ c (Pipeline.arrRef spec8 1)) (V17 m ρ c (Pipeline.arrRef spec8 2)) (V17 m ρ c (Pipeline.arrRef spec8 3)) (V17 m ρ c (Pipeline.arrRef spec8 4)))
    (p : Cert.Spec.Mat 50000 128) (n : Cert.Spec.Mat 50000 1) (g b : Cert.Spec.Mat 1 128) (src dst : KDefs.Idx)
    (hp : W14 (F := Ideal) m ρ c (Proc.devRef .tc main_v68) = p) (hsrc : W14 (F := Ideal) m ρ c (Proc.devRef .tc main_arg1) = src) (hdst : W14 (F := Ideal) m ρ c (Proc.devRef .tc main_arg2) = dst)
    (hn : W14 (F := Ideal) m ρ c (Proc.devRef .tc main_v7) = n) (hg : W14 (F := Ideal) m ρ c (Proc.devRef .tc main_v8) = g) (hb : W14 (F := Ideal) m ρ c (Proc.devRef .tc main_v9) = b) :
    W18 (F := Ideal) m ρ c (Proc.devRef .tc main_v86)
      = Cert.Spec.kAct (Cert.Spec.rowScale (M := 50000) (N := 128) (KDefs.aggK src dst p) n) g b := by
  rw [l4_out m ρ c fB, l4_h8_v79_0, l4_mean, l4_var, l4_x m ρ c fx, l4_s m ρ c fs, l4_ss m ρ c fss, l4_agg,
    l4_h7_v7, l4_in_v8, l4_in_v9, hp, hsrc, hdst, hn, hg, hb]
  rfl

end Cert.KernelIdeal.KChain

end
-- ==== Proof.KHeadC.lean ====
/-
  The head of the kernel program, from the boundary after the last layer to the end: a region applies the first linear
  map with its bias and accumulates the column sums and sums of squares of the result, the host forms the mean and
  variance rows, and the last region normalises the columns and applies the second linear map with its bias.
  The two regions' closed forms are hypotheses of the statement.
-/
import proofs.«113157_j3616362463713_1_alg».proof.Proof.Gen.KernelIdeal.Frame
import proofs.«113157_j3616362463713_1_alg».proof.Proof.KHost

set_option maxRecDepth 16384

noncomputable section

namespace Cert.KernelIdeal.KChain

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## What passes through unchanged -/

theorem hd_r9_v11 : W19 (F := Ideal) m ρ c (Proc.devRef .tc main_v11) = W18 (F := Ideal) m ρ c (Proc.devRef .tc main_v11) :=
  W19_of_ne m ρ c main_v11 (by decide)
theorem hd_h10_v11 : W20 (F := Ideal) m ρ c (Proc.devRef .tc main_v11) = W19 (F := Ideal) m ρ c (Proc.devRef .tc main_v11) :=
  StableHlo.after_of_forall_not_mem (b := Proc.devRef .tc main_v11) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hd_in_v11 : W20 (F := Ideal) m ρ c (Proc.devRef .tc main_v11) = W18 (F := Ideal) m ρ c (Proc.devRef .tc main_v11) :=
  (hd_h10_v11 m ρ c).trans ((hd_r9_v11 m ρ c))

theorem hd_r9_v12 : W19 (F := Ideal) m ρ c (Proc.devRef .tc main_v12) = W18 (F := Ideal) m ρ c (Proc.devRef .tc main_v12) :=
  W19_of_ne m ρ c main_v12 (by decide)
theorem hd_h10_v12 : W20 (F := Ideal) m ρ c (Proc.devRef .tc main_v12) = W19 (F := Ideal) m ρ c (Proc.devRef .tc main_v12) :=
  StableHlo.after_of_forall_not_mem (b := Proc.devRef .tc main_v12) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hd_in_v12 : W20 (F := Ideal) m ρ c (Proc.devRef .tc main_v12) = W18 (F := Ideal) m ρ c (Proc.devRef .tc main_v12) :=
  (hd_h10_v12 m ρ c).trans ((hd_r9_v12 m ρ c))

theorem hd_r9_v13 : W19 (F := Ideal) m ρ c (Proc.devRef .tc main_v13) = W18 (F := Ideal) m ρ c (Proc.devRef .tc main_v13) :=
  W19_of_ne m ρ c main_v13 (by decide)
theorem hd_h10_v13 : W20 (F := Ideal) m ρ c (Proc.devRef .tc main_v13) = W19 (F := Ideal) m ρ c (Proc.devRef .tc main_v13) :=
  StableHlo.after_of_forall_not_mem (b := Proc.devRef .tc main_v13) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hd_in_v13 : W20 (F := Ideal) m ρ c (Proc.devRef .tc main_v13) = W18 (F := Ideal) m ρ c (Proc.devRef .tc main_v13) :=
  (hd_h10_v13 m ρ c).trans ((hd_r9_v13 m ρ c))

theorem hd_r9_arg9 : W19 (F := Ideal) m ρ c (Proc.devRef .tc main_arg9) = W18 (F := Ideal) m ρ c (Proc.devRef .tc main_arg9) :=
  W19_of_ne m ρ c main_arg9 (by decide)
theorem hd_h10_arg9 : W20 (F := Ideal) m ρ c (Proc.devRef .tc main_arg9) = W19 (F := Ideal) m ρ c (Proc.devRef .tc main_arg9) :=
  StableHlo.after_of_forall_not_mem (b := Proc.devRef .tc main_arg9) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hd_in_arg9 : W20 (F := Ideal) m ρ c (Proc.devRef .tc main_arg9) = W18 (F := Ideal) m ρ c (Proc.devRef .tc main_arg9) :=
  (hd_h10_arg9 m ρ c).trans ((hd_r9_arg9 m ρ c))

theorem hd_h10_v87_0 : W20 (F := Ideal) m ρ c (Proc.devRef .tc main_v87_0) = W19 (F := Ideal) m ρ c (Proc.devRef .tc main_v87_0) :=
  StableHlo.after_of_forall_not_mem (b := Proc.devRef .tc main_v87_0) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The steps -/

/-- The first linear map with its bias. -/
theorem hd_y
    (f9x : (dat9 (F := Ideal) (V18 m ρ) c).arrAt 3 cfg9.N = Cert.Spec.linBias (M := 50000) (K := 128) (N := 128) (V18 m ρ c (Pipeline.arrRef spec9 0)) (V18 m ρ c (Pipeline.arrRef spec9 1)) (V18 m ρ c (Pipeline.arrRef spec9 2))) :
    W19 (F := Ideal) m ρ c (Proc.devRef .tc main_v87_0) = (Cert.Spec.linBias (M := 50000) (K := 128) (N := 128) (W18 (F := Ideal) m ρ c (Proc.devRef .tc main_v86)) (W18 (F := Ideal) m ρ c (Proc.devRef .tc main_arg5)) (W18 (F := Ideal) m ρ c (Proc.devRef .tc main_v10))) :=
  (W19_arr m ρ c 3).trans f9x

/-- Its column sums. -/
theorem hd_s
    (f9s : (dat9 (F := Ideal) (V18 m ρ) c).arrAt 4 cfg9.N = Cert.Spec.colSum (Cert.Spec.linBias (M := 50000) (K := 128) (N := 128) (V18 m ρ c (Pipeline.arrRef spec9 0)) (V18 m ρ c (Pipeline.arrRef spec9 1)) (V18 m ρ c (Pipeline.arrRef spec9 2)))) :
    W19 (F := Ideal) m ρ c (Proc.devRef .tc main_v87_1) = Cert.Spec.colSum (Cert.Spec.linBias (M := 50000) (K := 128) (N := 128) (W18 (F := Ideal) m ρ c (Proc.devRef .tc main_v86)) (W18 (F := Ideal) m ρ c (Proc.devRef .tc main_arg5)) (W18 (F := Ideal) m ρ c (Proc.devRef .tc main_v10))) :=
  (W19_arr m ρ c 4).trans f9s

/-- Its column sums of squares. -/
theorem hd_ss
    (f9ss : (dat9 (F := Ideal) (V18 m ρ) c).arrAt 5 cfg9.N = Cert.Spec.colSumSq (Cert.Spec.linBias (M := 50000) (K := 128) (N := 128) (V18 m ρ c (Pipeline.arrRef spec9 0)) (V18 m ρ c (Pipeline.arrRef spec9 1)) (V18 m ρ c (Pipeline.arrRef spec9 2)))) :
    W19 (F := Ideal) m ρ c (Proc.devRef .tc main_v87_2) = Cert.Spec.colSumSq (Cert.Spec.linBias (M := 50000) (K := 128) (N := 128) (W18 (F := Ideal) m ρ c (Proc.devRef .tc main_v86)) (W18 (F := Ideal) m ρ c (Proc.devRef .tc main_arg5)) (W18 (F := Ideal) m ρ c (Proc.devRef .tc main_v10))) :=
  (W19_arr m ρ c 5).trans f9ss

/-- The mean row. -/
theorem hd_mean : W20 (F := Ideal) m ρ c (Proc.devRef .tc main_v89) = Cert.Spec.kmean (W19 (F := Ideal) m ρ c (Proc.devRef .tc main_v87_1)) := by
  have e : W20 (F := Ideal) m ρ c (Proc.devRef .tc main_v89) = Host.divf (W19 (F := Ideal) m ρ c (Proc.devRef .tc main_v87_1)) KHost.cnt := by
    show StableHlo.after hostOps10 (W19 m ρ c) (Proc.devRef .tc main_v89) = _
    after_results
    try rfl
  exact e.trans (KHost.kmean_eq _)

/-- The variance row. -/
theorem hd_var : W20 (F := Ideal) m ρ c (Proc.devRef .tc main_v93) = Cert.Spec.kvar (W19 (F := Ideal) m ρ c (Proc.devRef .tc main_v87_1)) (W19 (F := Ideal) m ρ c (Proc.devRef .tc main_v87_2)) := by
  have e : W20 (F := Ideal) m ρ c (Proc.devRef .tc main_v93)
      = subf (Host.divf (W19 (F := Ideal) m ρ c (Proc.devRef .tc main_v87_2)) KHost.cnt) (mulf (Host.divf (W19 (F := Ideal) m ρ c (Proc.devRef .tc main_v87_1)) KHost.cnt) (Host.divf (W19 (F := Ideal) m ρ c (Proc.devRef .tc main_v87_1)) KHost.cnt)) := by
    show StableHlo.after hostOps10 (W19 m ρ c) (Proc.devRef .tc main_v93) = _
    after_results
    try rfl
  exact e.trans (KHost.kvar_eq _ _)

/-- The last region's output. -/
theorem hd_out
    (f10 : (dat10 (F := Ideal) (V20 m ρ) c).arrAt 7 cfg10.N = Cert.Spec.bnLin (M := 50000) (K := 128) (N := 40) (V20 m ρ c (Pipeline.arrRef spec10 0)) (V20 m ρ c (Pipeline.arrRef spec10 1)) (V20 m ρ c (Pipeline.arrRef spec10 2)) (V20 m ρ c (Pipeline.arrRef spec10 3)) (V20 m ρ c (Pipeline.arrRef spec10 4)) (V20 m ρ c (Pipeline.arrRef spec10 5)) (V20 m ρ c (Pipeline.arrRef spec10 6))) :
    W21 (F := Ideal) m ρ c (Proc.devRef .tc main_v94)
      = Cert.Spec.bnLin (M := 50000) (K := 128) (N := 40) (W20 (F := Ideal) m ρ c (Proc.devRef .tc main_v87_0)) (W20 (F := Ideal) m ρ c (Proc.devRef .tc main_v89)) (W20 (F := Ideal) m ρ c (Proc.devRef .tc main_v93)) (W20 (F := Ideal) m ρ c (Proc.devRef .tc main_v11)) (W20 (F := Ideal) m ρ c (Proc.devRef .tc main_v12)) (W20 (F := Ideal) m ρ c (Proc.devRef .tc main_arg9)) (W20 (F := Ideal) m ρ c (Proc.devRef .tc main_v13)) :=
  (W21_arr m ρ c 7).trans f10

/-! ## The head -/

/-- From the last layer's features H and the head's parameter arrays at the boundary after the last layer to the result. -/
theorem head
    (f9x : (dat9 (F := Ideal) (V18 m ρ) c).arrAt 3 cfg9.N = Cert.Spec.linBias (M := 50000) (K := 128) (N := 128) (V18 m ρ c (Pipeline.arrRef spec9 0)) (V18 m ρ c (Pipeline.arrRef spec9 1)) (V18 m ρ c (Pipeline.arrRef spec9 2)))
    (f9s : (dat9 (F := Ideal) (V18 m ρ) c).arrAt 4 cfg9.N = Cert.Spec.colSum (Cert.Spec.linBias (M := 50000) (K := 128) (N := 128) (V18 m ρ c (Pipeline.arrRef spec9 0)) (V18 m ρ c (Pipeline.arrRef spec9 1)) (V18 m ρ c (Pipeline.arrRef spec9 2))))
    (f9ss : (dat9 (F := Ideal) (V18 m ρ) c).arrAt 5 cfg9.N = Cert.Spec.colSumSq (Cert.Spec.linBias (M := 50000) (K := 128) (N := 128) (V18 m ρ c (Pipeline.arrRef spec9 0)) (V18 m ρ c (Pipeline.arrRef spec9 1)) (V18 m ρ c (Pipeline.arrRef spec9 2))))
    (f10 : (dat10 (F := Ideal) (V20 m ρ) c).arrAt 7 cfg10.N = Cert.Spec.bnLin (M := 50000) (K := 128) (N := 40) (V20 m ρ c (Pipeline.arrRef spec10 0)) (V20 m ρ c (Pipeline.arrRef spec10 1)) (V20 m ρ c (Pipeline.arrRef spec10 2)) (V20 m ρ c (Pipeline.arrRef spec10 3)) (V20 m ρ c (Pipeline.arrRef spec10 4)) (V20 m ρ c (Pipeline.arrRef spec10 5)) (V20 m ρ c (Pipeline.arrRef spec10 6)))
    (H : Cert.Spec.Mat 50000 128) (A1 : Cert.Spec.Mat 128 128) (b1 g2 be2 : Cert.Spec.Mat 1 128) (A2 : Cert.Spec.Mat 128 40) (b2 : Cert.Spec.Mat 1 40)
    (hH : W18 (F := Ideal) m ρ c (Proc.devRef .tc main_v86) = H) (hA1 : W18 (F := Ideal) m ρ c (Proc.devRef .tc main_arg5) = A1) (hb1 : W18 (F := Ideal) m ρ c (Proc.devRef .tc main_v10) = b1)
    (hg2 : W18 (F := Ideal) m ρ c (Proc.devRef .tc main_v11) = g2) (hbe2 : W18 (F := Ideal) m ρ c (Proc.devRef .tc main_v12) = be2) (hA2 : W18 (F := Ideal) m ρ c (Proc.devRef .tc main_arg9) = A2) (hb2 : W18 (F := Ideal) m ρ c (Proc.devRef .tc main_v13) = b2) :
    W21 (F := Ideal) m ρ c (Proc.devRef .tc main_v94) = Cert.Spec.kHead H A1 b1 g2 be2 A2 b2 := by
  rw [hd_out m ρ c f10, hd_h10_v87_0, hd_mean, hd_var, hd_y m ρ c f9x, hd_s m ρ c f9s, hd_ss m ρ c f9ss,
    hd_in_v11, hd_in_v12, hd_in_v13, hd_in_arg9, hH, hA1, hb1, hg2, hbe2, hA2, hb2]
  rfl

end Cert.KernelIdeal.KChain

end
-- ==== Proof.Reg0.lean ====
/-
  Region 0 scales each row of the node features by that node's degree weight.
  Stated for the whole arrays: what the region's output arrays hold when it ends, as functions of the arrays it is entered with.

  The 50000 rows are cut into 10 blocks of 5000 consecutive rows; point t of the grid reads rows 5000·t … 5000·t+4999 of
  the features and of the weight column, multiplies entry (p,q) of the feature block by entry (p,0) of the weight block,
  and writes the product back to the same rows of the output. Entry (r,q) of the output is therefore written by point
  r / 5000 and holds X(r,q)·n(r,0): the blocks are the restrictions of one function of the whole arrays, and they
  cover every row.
-/
import proofs.«113157_j3616362463713_1_alg».proof.Proof.Gen.KernelIdeal.Frame
import proofs.«113157_j3616362463713_1_alg».proof.Proof.Spec
import Idealize.ShloMosaic.Lib.ValueLayout
import Idealize.ShloMosaic.Lib.Pipeline.Value

set_option maxRecDepth 16384

noncomputable section

namespace Cert.KernelIdeal.Reg

open Idealize.ShloMosaic Idealize.ShloMosaic.TcCoe Idealize.SL.Sem Cert.KernelIdeal Cert.KernelIdeal.Gen
open Idealize.ShloMosaic.ValueIdx

/-- The zero offsets of a whole-block access, as a constant function. -/
theorem r0_hz : (![0, 0] : Fin 2 → Nat) = fun _ => 0 := funext fun a => by fin_cases a <;> rfl

/-- A column [a,1] broadcast along the lanes to [a,b] reads, at (p,c), the column's entry p. -/
theorem r0_bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's product at entry (p,q) of a block: the feature entry times the weight of row p; when the two blocks
    hold row r of the whole arrays at their row p, this is entry (r,q) of the row-scaled array. -/
theorem r0_point (X : Cert.Spec.Mat 50000 128) (n : Cert.Spec.Mat 50000 1)
    (x0 : Vec Ideal S5000x128 .f32) (x1 : Vec Ideal S5000x1 .f32) (p : Fin 5000) (q : Fin 128) (r : Fin 50000)
    (h0 : x0 (ix2 p q) = X (ix2 r q)) (h1 : x1 (ix2 p (0 : Fin 1)) = n (ix2 r (0 : Fin 1))) :
    k0_pay1 (F := Ideal) x0 x1 (ix2 p q) = Cert.Spec.rowScale X n (ix2 r q) := by
  unfold k0_pay1
  rw [Cert.Spec.rowScale_ix2, mulf_apply, r0_bcastCol_apply, shapeCast_self, h0, h1]

/-- Every window's block index at point t: block row t, block column 0. -/
theorem r0_idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is rows 5000·t … 5000·t+4999 of the row-scaled array. -/
theorem r0_flushed (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal)
          (Cert.Spec.rowScale (M := 50000) (N := 128) (V c (Pipeline.arrRef spec0 0)) (V c (Pipeline.arrRef spec0 1))) := by
  show (cfg0.win 2).cut (grid0.coords t) ((dat0 V c).after 2 t) = _
  rw [after0_2]
  unfold out0_2
  rw [View.canon_unit_zero r0_hz]
  simp only [View.ld_unit_zero (S := S5000x128) r0_hz, View.ld_unit_zero (S := S5000x1) r0_hz]
  obtain ⟨e0, e1, e2, e3, e4, e5⟩ := r0_idx t
  have hN : grid0.N = 10 := N_0
  have ht : t.val < 10 := hN ▸ t.isLt
  funext j
  obtain ⟨p, q, rfl⟩ : ∃ (p : Fin 5000) (q : Fin 128), j = ix2 p q := ⟨j 0, j 1, eq_ix2 j⟩
  have hr : t.val * 5000 + p.val < 50000 := by have := p.isLt; omega
  show k0_pay1 (F := Ideal) (iblk0 V c 0 t) (iblk0 V c 1 t) (ix2 p q)
    = Cert.Spec.rowScale (M := 50000) (N := 128) (V c (Pipeline.arrRef spec0 0)) (V c (Pipeline.arrRef spec0 1))
        (((cfg0.win 2).blk t).view.emb (ix2 p q))
  have he : ((cfg0.win 2).blk t).view.emb (ix2 p q) = ix2 (⟨t.val * 5000 + p.val, hr⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [he]
  refine r0_point (V c (Pipeline.arrRef spec0 0)) (V c (Pipeline.arrRef spec0 1)) (iblk0 V c 0 t) (iblk0 V c 1 t) p q
    ⟨t.val * 5000 + p.val, hr⟩ ?_ ?_
  · show V c (Pipeline.arrRef spec0 0) (((cfg0.win 0).blk t).view.emb (ix2 p q)) = _
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * q.val = q.val; omega
  · show V c (Pipeline.arrRef spec0 1) (((cfg0.win 1).blk t).view.emb (ix2 p (0 : Fin 1))) = _
    refine congrArg _ ?_
    funext a; apply Fin.ext
    match a with
    | ⟨0, _⟩ => show win0_1.index t (0 : Fin 2) * 5000 + 1 * p.val = t.val * 5000 + p.val; omega
    | ⟨1, _⟩ => show win0_1.index t (1 : Fin 2) * 1 + 1 * 0 = 0; omega

/-- A row-and-column index is in point t's output block exactly when each coordinate is in the block's range. -/
theorem r0_mem_blk (t : Fin cfg0.N) (i : S50000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v14).slice (win0_2.rect t)).set ↔ _
  rw [View.set_slice_whole, Rect.mem_set_unit]
  exact Iff.rfl

/-- Row r lies in the block of point r / 5000: the ten blocks cover the array. -/
theorem r0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  have hlt : (i 0).val / 5000 < grid0.N := by rw [hN]; omega
  obtain ⟨e0, e1, e2, e3, e4, e5⟩ := r0_idx ⟨(i 0).val / 5000, hlt⟩
  refine ⟨⟨(i 0).val / 5000, hlt⟩, flush0_2 _, ?_⟩
  rw [r0_mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    rw [e5]
    omega

theorem final0 (V : (c : Dev nD) → (b : Ref sig .tc) → Buf (Elt Ideal) ((c : Thread nD τ).loc b)) (c : Dev nD) :
    (dat0 (F := Ideal) V c).arrAt 2 cfg0.N
      = Cert.Spec.rowScale (M := 50000) (N := 128) (V c (Pipeline.arrRef spec0 0)) (V c (Pipeline.arrRef spec0 1)) :=
  (dat0 (F := Ideal) V c).arrAt_eq_of_cover 2
    (Cert.Spec.rowScale (M := 50000) (N := 128) (V c (Pipeline.arrRef spec0 0)) (V c (Pipeline.arrRef spec0 1)))
    (fun t _ => r0_flushed V c t) r0_cover

end Cert.KernelIdeal.Reg

end
-- ==== Proof.LibBlockSum.lean ====
/-
  A sum over the rows of an array cut into equal blocks.

  When T·B rows are cut into T consecutive blocks of B rows, row t·B + q is row q of block t, and a sum over all rows is
  the sum over the blocks of each block's own sum. A running total that starts at zero and adds one block's sum at a time
  therefore holds, after the first n blocks, the sum over the rows below n·B, and after all T blocks the sum over every row.
  Stated for any commutative additive monoid.
-/
import Mathlib.Data.Fintype.BigOperators
import Mathlib.Logic.Equiv.Fin.Basic

open scoped BigOperators

namespace Cert.LibBlockSum

variable {M : Type*} [AddCommMonoid M]

/-- Row q of block t lies among the T·B rows. -/
theorem row_lt {T B : Nat} (t : Fin T) (q : Fin B) : t.val * B + q.val < T * B :=
  calc t.val * B + q.val < t.val * B + B := Nat.add_lt_add_left q.isLt _
    _ = (t.val + 1) * B := (Nat.succ_mul _ _).symm
    _ ≤ T * B := Nat.mul_le_mul_right B t.isLt

/-- Row q of block t lies among the N rows when N = T·B. -/
theorem row_lt_of_eq {T B N : Nat} (h : T * B = N) (t : Fin T) (q : Fin B) : t.val * B + q.val < N :=
  h ▸ row_lt t q

/-- A sum over T·B rows is the sum over the T blocks of the sum over each block's B rows. -/
theorem sum_blocks {T B : Nat} (f : Fin (T * B) → M) :
    ∑ r : Fin (T * B), f r = ∑ t : Fin T, ∑ q : Fin B, f ⟨t.val * B + q.val, row_lt t q⟩ := by
  rw [← (finProdFinEquiv (m := T) (n := B)).sum_comp, Fintype.sum_prod_type]
  refine Finset.sum_congr rfl fun t _ => Finset.sum_congr rfl fun q _ => congrArg f (Fin.ext ?_)
  show q.val + B * t.val = t.val * B + q.val
  rw [Nat.mul_comm, Nat.add_comm]

/-- The same with the number of rows given as a literal N = T·B. -/
theorem sum_blocks_of_eq {T B N : Nat} (h : T * B = N) (f : Fin N → M) :
    ∑ r : Fin N, f r = ∑ t : Fin T, ∑ q : Fin B, f ⟨t.val * B + q.val, row_lt_of_eq h t q⟩ := by
  subst h
  exact sum_blocks f

/-- The total of the first n of T block values (a block past the last counts as zero). -/
def upTo {T : Nat} (g : Fin T → M) (n : Nat) : M :=
  ∑ k ∈ Finset.range n, if h : k < T then g ⟨k, h⟩ else 0

/-- Before any block the total is zero. -/
theorem upTo_zero {T : Nat} (g : Fin T → M) : upTo g 0 = 0 := Finset.sum_range_zero _

/-- Adding block n to the total of the first n blocks gives the total of the first n + 1. -/
theorem upTo_succ {T : Nat} (g : Fin T → M) (n : Nat) (hn : n < T) : upTo g (n + 1) = upTo g n + g ⟨n, hn⟩ := by
  unfold upTo
  rw [Finset.sum_range_succ, dif_pos hn]

/-- The first block alone. -/
theorem upTo_one {T : Nat} (g : Fin T → M) (h0 : 0 < T) : upTo g 1 = g ⟨0, h0⟩ := by
  rw [upTo_succ g 0 h0, upTo_zero, zero_add]

/-- After all T blocks the total is the sum over the blocks. -/
theorem upTo_all {T : Nat} (g : Fin T → M) : upTo g T = ∑ t : Fin T, g t := by
  unfold upTo
  rw [Finset.sum_fin_eq_sum_range]

/-- After all T blocks of B rows the running total of the blocks' sums is the sum over all N = T·B rows. -/
theorem upTo_blocks {T B N : Nat} (h : T * B = N) (f : Fin N → M) :
    upTo (fun t : Fin T => ∑ q : Fin B, f ⟨t.val * B + q.val, row_lt_of_eq h t q⟩) T = ∑ r : Fin N, f r := by
  rw [upTo_all, sum_blocks_of_eq h f]

end Cert.LibBlockSum
-- ==== Proof.Reg1.lean ====
/-
  Region 1: rows scaled by the degree weights, and the column sums and column sums of squares of the result, accumulated over the ten blocks of 5000 rows.
  Stated for the whole arrays: what the region's output arrays hold when it ends, as functions of the arrays it is entered with.

  The region visits ten points; at point t it loads rows 5000·t … 5000·t + 4999 of the features X and of the weight
  column n, writes back the same rows of x = X · n (each row times its weight), and adds that block's column sums
  Σ_p x(p,d) and column sums of squares Σ_p x(p,d)² to two one-row accumulators, which are set to zero at the first
  point and written back once, after the last. So the first output is x, entry by entry; and by induction on the point
  the accumulators hold, after point t, the sums over the rows of the first t + 1 blocks, hence after the last point
  the sums over all 50000 rows: a sum over the rows is the sum over the blocks of each block's sum.
-/
import proofs.«113157_j3616362463713_1_alg».proof.Proof.Gen.KernelIdeal.Frame
import proofs.«113157_j3616362463713_1_alg».proof.Proof.Spec
import proofs.«113157_j3616362463713_1_alg».proof.Proof.LibBlockSum
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Reg

open Idealize.ShloMosaic Idealize.ShloMosaic.TcCoe Idealize.SL.Sem Cert.KernelIdeal Cert.KernelIdeal.Gen
open Idealize.ShloMosaic.ValueIdx
open Idealize.ShloMosaic.Pipeline (Dat)

section Pieces

variable {F : FTy → Type} [FloatOps F]

/-- The zero offsets of a store or load of a whole block. -/
theorem r1_hz : (![0, 0] : Fin 2 → Nat) = fun _ => 0 := funext fun a => by fin_cases a <;> rfl

/-! ## What each case of the body leaves in each output block, as the body's arithmetic of the blocks it loads -/

/-- At the first point the scaled rows are the product of the two loaded blocks. -/
theorem r1_out_A_2 (c : Dev nD) (i : grid1.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S5000x1 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  sl_unfold_words
  rw [View.canon_unit_zero r1_hz]
  simp only [View.readAt_eq_ld, h1.read_unread, h2.read_unread, h4.read_unread, h5.read_unread,
    View.ld_unit_zero (S := S5000x128) r1_hz, View.ld_unit_zero (S := S5000x1) r1_hz, View.ld_unit_zero (S := S1x128) r1_hz]

/-- At the first point the sum accumulator is first set to zero, read back, and the block's column sums added. -/
theorem r1_out_A_3 (c : Dev nD) (i : grid1.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S5000x1 .f32) :
    out1_A_3 c i a1 h1 a2 h2 a3 h3 a4 h4 a5 h5 hc x0 x1 = k1_pay4 x0 x1 (k1_pay1 (F := F)) := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x128) r1_hz, View.readCov_unit_zero (S := S1x128) _ r1_hz]
  simp only [View.readAt_eq_ld, h1.read_unread, h2.read_unread, h4.read_unread, h5.read_unread,
    View.ld_unit_zero (S := S5000x128) r1_hz, View.ld_unit_zero (S := S5000x1) r1_hz, View.ld_unit_zero (S := S1x128) r1_hz]

/-- At the first point the sum-of-squares accumulator likewise starts from zero. -/
theorem r1_out_A_4 (c : Dev nD) (i : grid1.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S5000x1 .f32) :
    out1_A_4 c i a1 h1 a2 h2 a3 h3 a4 h4 a5 h5 hc x0 x1 = k1_pay5 x0 x1 (k1_pay2 (F := F)) := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x128) r1_hz, View.readCov_unit_zero (S := S1x128) _ r1_hz]
  simp only [View.readAt_eq_ld, h1.read_unread, h2.read_unread, h4.read_unread, h5.read_unread,
    View.ld_unit_zero (S := S5000x128) r1_hz, View.ld_unit_zero (S := S5000x1) r1_hz, View.ld_unit_zero (S := S1x128) r1_hz]

/-- At a later point the scaled rows are again the product of the two loaded blocks. -/
theorem r1_out_B_2 (c : Dev nD) (i : grid1.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S5000x1 .f32) (xo3 xo4 : Vec F S1x128 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  sl_unfold_words
  rw [View.canon_unit_zero r1_hz]
  simp only [View.readAt_eq_ld, h1.read_unread, h2.read_unread, h4.read_unread, h5.read_unread,
    View.ld_unit_zero (S := S5000x128) r1_hz, View.ld_unit_zero (S := S5000x1) r1_hz, View.ld_unit_zero (S := S1x128) r1_hz]

/-- At a later point the block's column sums are added to what the accumulator held. -/
theorem r1_out_B_3 (c : Dev nD) (i : grid1.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S5000x1 .f32) (xo3 xo4 : Vec F S1x128 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  sl_unfold_words
  rw [View.canon_unit_zero r1_hz]
  simp only [View.readAt_eq_ld, h1.read_unread, h2.read_unread, h4.read_unread, h5.read_unread,
    View.ld_unit_zero (S := S5000x128) r1_hz, View.ld_unit_zero (S := S5000x1) r1_hz, View.ld_unit_zero (S := S1x128) r1_hz]

/-- At a later point the block's column sums of squares are added to what the accumulator held. -/
theorem r1_out_B_4 (c : Dev nD) (i : grid1.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S5000x1 .f32) (xo3 xo4 : Vec F S1x128 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  sl_unfold_words
  rw [View.canon_unit_zero r1_hz]
  simp only [View.readAt_eq_ld, h1.read_unread, h2.read_unread, h4.read_unread, h5.read_unread,
    View.ld_unit_zero (S := S5000x128) r1_hz, View.ld_unit_zero (S := S5000x1) r1_hz, View.ld_unit_zero (S := S1x128) r1_hz]

end Pieces

section Values

/-! ## The body's arithmetic read at an entry, on the extended reals -/

/-- A column [a,1] repeated along b columns reads, at (p, d), the column at p. -/
theorem r1_bcol {α : Type} {a b : ℕ} (v : (⟨2, ![a, 1]⟩ : Shape).Idx → α) (h : (⟨2, ![a, 1]⟩ : Shape).Broadcasts ⟨2, ![a, b]⟩)
    (p : Fin a) (d : Fin b) : broadcastTo ⟨2, ![a, b]⟩ v h (ix2 p d) = v (ix2 p (0 : Fin 1)) := by
  refine broadcastTo_apply v h (ix2 p d) (ix2 p (0 : Fin 1)) fun ax => ?_
  match ax with
  | ⟨0, _⟩ =>
    show p.val = if a = 1 then 0 else p.val
    split
    · have := p.isLt; omega
    · rfl
  | ⟨1, _⟩ => rfl

/-- The reduced index d with row k put back is (k, d). -/
theorem r1_lift {m n : ℕ} (h : (⟨2, ![m, n]⟩ : Shape).Reduces [0] (⟨1, ![n]⟩ : Shape)) (d : Fin n)
    (k : Fin ((⟨2, ![m, n]⟩ : Shape).size 0)) : h.lift (ix1 d) k = ix2 (⟨k.val, k.isLt⟩ : Fin m) d := by
  funext ax; apply Fin.ext
  fin_cases ax <;> rfl

/-- The sum over the rows of a block, read at column d. -/
theorem r1_rowsum (src : FVec Ideal S5000x128 .f32) (d : Fin 128) :
    multiReduction (F := Ideal) .add [0] S128 src 0x00000000#32 reduces_S5000x128_S128 (.inl rfl) rfl (ix1 d)
      = ∑ k : Fin 5000, src (ix2 k d) := by
  refine (Ideal.multiReduction_add_single src 0x00000000#32 reduces_S5000x128_S128 (.inl rfl) rfl (ix1 d)).trans ?_
  exact Finset.sum_congr rfl fun k _ => congrArg src (r1_lift reduces_S5000x128_S128 d k)

/-- The scaled block at (p, d): the entry times its row's weight. -/
theorem r1_pay3_apply (x0 : FVec Ideal S5000x128 .f32) (x1 : FVec Ideal S5000x1 .f32) (p : Fin 5000) (d : Fin 128) :
    k1_pay3 (F := Ideal) x0 x1 (ix2 p d) = x0 (ix2 p d) * x1 (ix2 p (0 : Fin 1)) := by
  show mulf (shapeCast S5000x128 x0 shapeCasts_S5000x128_S5000x128)
      (broadcastTo S5000x128 (shapeCast S5000x1 x1 shapeCasts_S5000x1_S5000x1) broadcasts_S5000x1_S5000x128) (ix2 p d) = _
  rw [mulf_apply, shapeCast_self, shapeCast_self, r1_bcol]

/-- The zero block reads the real number zero. -/
theorem r1_pay1_apply (u : Fin 1) (d : Fin 128) : k1_pay1 (F := Ideal) (ix2 u d) = 0 := by
  show broadcast S1x128 (Scalar.ofBits (F := Ideal) .f32 0x00000000#32) (ix2 u d) = 0
  rw [broadcast_apply]
  exact Ideal.ofBits_zero_f32

theorem r1_pay2_apply (u : Fin 1) (d : Fin 128) : k1_pay2 (F := Ideal) (ix2 u d) = 0 := by
  show broadcast S1x128 (Scalar.ofBits (F := Ideal) .f32 0x00000000#32) (ix2 u d) = 0
  rw [broadcast_apply]
  exact Ideal.ofBits_zero_f32

/-- The sum accumulator's new value at column d: what it held plus the block's column sum. -/
theorem r1_pay4_apply (x0 : FVec Ideal S5000x128 .f32) (x1 : FVec Ideal S5000x1 .f32) (acc : FVec Ideal S1x128 .f32)
    (u : Fin 1) (d : Fin 128) :
    k1_pay4 (F := Ideal) x0 x1 acc (ix2 u d)
      = acc (ix2 u d) + ∑ k : Fin 5000, x0 (ix2 k d) * x1 (ix2 k (0 : Fin 1)) := by
  show addf (shapeCast S1x128 acc shapeCasts_S1x128_S1x128)
      (shapeCast S1x128 (multiReduction (F := Ideal) .add [0] S128 (k1_pay3 x0 x1) 0x00000000#32 reduces_S5000x128_S128 (.inl rfl) rfl)
        shapeCasts_S128_S1x128) (ix2 u d) = _
  rw [addf_apply, shapeCast_self, shapeCast_a_1a_apply]
  refine congrArg (fun z => acc (ix2 u d) + z) ?_
  refine (r1_rowsum (k1_pay3 x0 x1) d).trans ?_
  exact Finset.sum_congr rfl fun k _ => r1_pay3_apply x0 x1 k d

/-- The sum-of-squares accumulator's new value at column d: what it held plus the block's column sum of squares. -/
theorem r1_pay5_apply (x0 : FVec Ideal S5000x128 .f32) (x1 : FVec Ideal S5000x1 .f32) (acc : FVec Ideal S1x128 .f32)
    (u : Fin 1) (d : Fin 128) :
    k1_pay5 (F := Ideal) x0 x1 acc (ix2 u d)
      = acc (ix2 u d) + ∑ k : Fin 5000, (x0 (ix2 k d) * x1 (ix2 k (0 : Fin 1))) * (x0 (ix2 k d) * x1 (ix2 k (0 : Fin 1))) := by
  show addf (shapeCast S1x128 acc shapeCasts_S1x128_S1x128)
      (shapeCast S1x128 (multiReduction (F := Ideal) .add [0] S128 (mulf (k1_pay3 x0 x1) (k1_pay3 x0 x1)) 0x00000000#32 reduces_S5000x128_S128 (.inl rfl) rfl)
        shapeCasts_S128_S1x128) (ix2 u d) = _
  rw [addf_apply, shapeCast_self, shapeCast_a_1a_apply]
  refine congrArg (fun z => acc (ix2 u d) + z) ?_
  refine (r1_rowsum (mulf (k1_pay3 x0 x1) (k1_pay3 x0 x1)) d).trans ?_
  exact Finset.sum_congr rfl fun k _ => by rw [mulf_apply, r1_pay3_apply]

/-! ## The blocks: block t of a row-tiled array is its rows 5000·t … 5000·t + 4999 -/

/-- The printed index maps over the grid: the row-tiled windows' block index is the point, the accumulators' is zero. -/
theorem r1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row p of block t is row 5000·t + p of the array. -/
theorem r1_row_lt (t : Fin cfg1.N) (p : Fin 5000) : t.val * 5000 + p.val < 50000 := by
  have hN : t.val < 10 := lt_of_lt_of_eq t.isLt (show cfg1.N = 10 from N_1)
  have := p.isLt
  omega

variable (V : (c : Dev nD) → (b : Ref sig .tc) → Buf (Elt Ideal) ((c : Thread nD τ).loc b))

/-- The features' block at point t, entry (p, d): the array at (5000·t + p, d). -/
theorem r1_iblk0_apply (c : Dev nD) (t : Fin cfg1.N) (p : Fin 5000) (d : Fin 128) :
    iblk1 (F := Ideal) V c 0 t (ix2 p d)
      = V c (Pipeline.arrRef spec1 0) (ix2 (⟨t.val * 5000 + p.val, r1_row_lt t p⟩ : Fin 50000) d) := by
  show V c (Pipeline.arrRef spec1 0) (((cfg1.win 0).blk t).view.emb (ix2 p d)) = _
  refine congrArg (V c (Pipeline.arrRef spec1 0)) (funext fun a => Fin.ext ?_)
  obtain ⟨e0, e1, -⟩ := r1_idx t
  match a with
  | ⟨0, _⟩ => show win1_0.index t (0 : Fin 2) * 5000 + 1 * p.val = t.val * 5000 + p.val; rw [e0]; omega
  | ⟨1, _⟩ => show win1_0.index t (1 : Fin 2) * 128 + 1 * d.val = d.val; rw [e1]; omega

/-- The weights' block at point t, entry (p, 0): the column at row 5000·t + p. -/
theorem r1_iblk1_apply (c : Dev nD) (t : Fin cfg1.N) (p : Fin 5000) :
    iblk1 (F := Ideal) V c 1 t (ix2 p (0 : Fin 1))
      = V c (Pipeline.arrRef spec1 1) (ix2 (⟨t.val * 5000 + p.val, r1_row_lt t p⟩ : Fin 50000) (0 : Fin 1)) := by
  show V c (Pipeline.arrRef spec1 1) (((cfg1.win 1).blk t).view.emb (ix2 p (0 : Fin 1))) = _
  refine congrArg (V c (Pipeline.arrRef spec1 1)) (funext fun a => Fin.ext ?_)
  obtain ⟨-, -, e0, e1, -⟩ := r1_idx t
  match a with
  | ⟨0, _⟩ => show win1_1.index t (0 : Fin 2) * 5000 + 1 * p.val = t.val * 5000 + p.val; rw [e0]; omega
  | ⟨1, _⟩ => show win1_1.index t (1 : Fin 2) * 1 + 1 * 0 = 0; rw [e1]

/-! ## What the outputs hold after each point -/

/-- After every point the scaled-rows block is the product of that point's two input blocks. -/
theorem r1_outs_x (c : Dev nD) (t : Fin cfg1.N) :
    (outsAt1 (F := Ideal) V c t.val t.isLt).1 = k1_pay3 (iblk1 V c 0 t) (iblk1 V c 1 t) := by
  by_cases h0 : t.val % 10 = 0
  · rw [outsAt1_A V c t h0]; dsimp only
    exact r1_out_A_2 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)
  · rw [outsAt1_B V c t h0]; dsimp only
    exact r1_out_B_2 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t)
      (outsAt1 V c (t.val - 1) (Nat.lt_of_le_of_lt (Nat.sub_le _ _) t.isLt)).2.1 (outsAt1 V c (t.val - 1) (Nat.lt_of_le_of_lt (Nat.sub_le _ _) t.isLt)).2.2

/-- After the first point the sum accumulator is the zero block plus that point's column sums. -/
theorem r1_outs_s_A (c : Dev nD) (t : Fin cfg1.N) (h0 : t.val % 10 = 0) :
    (outsAt1 (F := Ideal) V c t.val t.isLt).2.1 = k1_pay4 (iblk1 V c 0 t) (iblk1 V c 1 t) (k1_pay1 (F := Ideal)) := by
  rw [outsAt1_A V c t h0]; dsimp only
  exact r1_out_A_3 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)

/-- After a later point the sum accumulator is what the point before left plus this point's column sums. -/
theorem r1_outs_s_B (c : Dev nD) (t : Fin cfg1.N) (h0 : ¬t.val % 10 = 0) :
    (outsAt1 (F := Ideal) V c t.val t.isLt).2.1 = k1_pay4 (iblk1 V c 0 t) (iblk1 V c 1 t) (outsAt1 V c (t.val - 1) (Nat.lt_of_le_of_lt (Nat.sub_le _ _) t.isLt)).2.1 := by
  rw [outsAt1_B V c t h0]; dsimp only
  exact r1_out_B_3 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t)
    (outsAt1 V c (t.val - 1) (Nat.lt_of_le_of_lt (Nat.sub_le _ _) t.isLt)).2.1 (outsAt1 V c (t.val - 1) (Nat.lt_of_le_of_lt (Nat.sub_le _ _) t.isLt)).2.2

/-- After the first point the sum-of-squares accumulator is the zero block plus that point's column sums of squares. -/
theorem r1_outs_ss_A (c : Dev nD) (t : Fin cfg1.N) (h0 : t.val % 10 = 0) :
    (outsAt1 (F := Ideal) V c t.val t.isLt).2.2 = k1_pay5 (iblk1 V c 0 t) (iblk1 V c 1 t) (k1_pay2 (F := Ideal)) := by
  rw [outsAt1_A V c t h0]; dsimp only
  exact r1_out_A_4 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)

/-- After a later point the sum-of-squares accumulator is what the point before left plus this point's sums of squares. -/
theorem r1_outs_ss_B (c : Dev nD) (t : Fin cfg1.N) (h0 : ¬t.val % 10 = 0) :
    (outsAt1 (F := Ideal) V c t.val t.isLt).2.2 = k1_pay5 (iblk1 V c 0 t) (iblk1 V c 1 t) (outsAt1 V c (t.val - 1) (Nat.lt_of_le_of_lt (Nat.sub_le _ _) t.isLt)).2.2 := by
  rw [outsAt1_B V c t h0]; dsimp only
  exact r1_out_B_4 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t)
    (outsAt1 V c (t.val - 1) (Nat.lt_of_le_of_lt (Nat.sub_le _ _) t.isLt)).2.1 (outsAt1 V c (t.val - 1) (Nat.lt_of_le_of_lt (Nat.sub_le _ _) t.isLt)).2.2

/-- The rows scaled by their weights, as a function of the two arrays the region is entered with. -/
abbrev r1_x (c : Dev nD) : Cert.Spec.Mat 50000 128 :=
  Cert.Spec.rowScale (M := 50000) (N := 128) (V c (Pipeline.arrRef spec1 0)) (V c (Pipeline.arrRef spec1 1))

/-- Ten blocks of 5000 rows are the 50000 rows. -/
theorem r1_hNB : cfg1.N * 5000 = 50000 := by rw [show cfg1.N = 10 from N_1]

/-- The column sum of block t of the scaled rows, from two blocks that hold rows 5000·t … of the two arrays. -/
theorem r1_blocksum (c : Dev nD) (t : Fin cfg1.N) (d : Fin 128) (x0 : FVec Ideal S5000x128 .f32) (x1 : FVec Ideal S5000x1 .f32)
    (h0 : ∀ (k : Fin 5000) (d : Fin 128), x0 (ix2 k d)
      = V c (Pipeline.arrRef spec1 0) (ix2 (⟨t.val * 5000 + k.val, r1_row_lt t k⟩ : Fin 50000) d))
    (h1 : ∀ k : Fin 5000, x1 (ix2 k (0 : Fin 1))
      = V c (Pipeline.arrRef spec1 1) (ix2 (⟨t.val * 5000 + k.val, r1_row_lt t k⟩ : Fin 50000) (0 : Fin 1))) :
    ∑ k : Fin 5000, x0 (ix2 k d) * x1 (ix2 k (0 : Fin 1))
      = ∑ k : Fin 5000, r1_x V c (ix2 (⟨t.val * 5000 + k.val, Cert.LibBlockSum.row_lt_of_eq r1_hNB t k⟩ : Fin 50000) d) :=
  Finset.sum_congr rfl fun k _ => by rw [h0, h1]; rfl

/-- The column sum of squares of block t of the scaled rows, likewise. -/
theorem r1_blocksumsq (c : Dev nD) (t : Fin cfg1.N) (d : Fin 128) (x0 : FVec Ideal S5000x128 .f32) (x1 : FVec Ideal S5000x1 .f32)
    (h0 : ∀ (k : Fin 5000) (d : Fin 128), x0 (ix2 k d)
      = V c (Pipeline.arrRef spec1 0) (ix2 (⟨t.val * 5000 + k.val, r1_row_lt t k⟩ : Fin 50000) d))
    (h1 : ∀ k : Fin 5000, x1 (ix2 k (0 : Fin 1))
      = V c (Pipeline.arrRef spec1 1) (ix2 (⟨t.val * 5000 + k.val, r1_row_lt t k⟩ : Fin 50000) (0 : Fin 1))) :
    ∑ k : Fin 5000, (x0 (ix2 k d) * x1 (ix2 k (0 : Fin 1))) * (x0 (ix2 k d) * x1 (ix2 k (0 : Fin 1)))
      = ∑ k : Fin 5000, r1_x V c (ix2 (⟨t.val * 5000 + k.val, Cert.LibBlockSum.row_lt_of_eq r1_hNB t k⟩ : Fin 50000) d)
          * r1_x V c (ix2 (⟨t.val * 5000 + k.val, Cert.LibBlockSum.row_lt_of_eq r1_hNB t k⟩ : Fin 50000) d) :=
  Finset.sum_congr rfl fun k _ => by rw [h0, h1]; rfl

/-- THE INVARIANT of the sum accumulator: after point n it holds, at column d, the sum of the column over the rows of
    the first n + 1 blocks. By induction on the point: the first point starts from zero, every later point adds its block. -/
theorem r1_acc_s (c : Dev nD) (d : Fin 128) (u : Fin 1) : ∀ (n : ℕ) (hn : n < cfg1.N),
    (outsAt1 (F := Ideal) V c n hn).2.1 (ix2 u d)
      = Cert.LibBlockSum.upTo (fun t : Fin cfg1.N => ∑ k : Fin 5000,
          r1_x V c (ix2 (⟨t.val * 5000 + k.val, Cert.LibBlockSum.row_lt_of_eq r1_hNB t k⟩ : Fin 50000) d)) (n + 1)
  | 0, hn => by
    refine (congrFun (r1_outs_s_A V c ⟨0, hn⟩ rfl) (ix2 u d)).trans ?_
    refine (r1_pay4_apply (iblk1 V c 0 ⟨0, hn⟩) (iblk1 V c 1 ⟨0, hn⟩) k1_pay1 u d).trans ?_
    rw [r1_pay1_apply, zero_add, Cert.LibBlockSum.upTo_one _ hn]
    exact r1_blocksum V c ⟨0, hn⟩ d (iblk1 V c 0 ⟨0, hn⟩) (iblk1 V c 1 ⟨0, hn⟩) (r1_iblk0_apply V c ⟨0, hn⟩) (r1_iblk1_apply V c ⟨0, hn⟩)
  | n + 1, hn => by
    have hN : cfg1.N = 10 := N_1
    have hB : ¬(⟨n + 1, hn⟩ : Fin cfg1.N).val % 10 = 0 := by dsimp only; omega
    refine (congrFun (r1_outs_s_B V c ⟨n + 1, hn⟩ hB) (ix2 u d)).trans ?_
    refine (r1_pay4_apply (iblk1 V c 0 ⟨n + 1, hn⟩) (iblk1 V c 1 ⟨n + 1, hn⟩) (outsAt1 V c n (Nat.lt_of_succ_lt hn)).2.1 u d).trans ?_
    rw [Cert.LibBlockSum.upTo_succ _ (n + 1) hn, r1_acc_s c d u n (Nat.lt_of_succ_lt hn)]
    exact congrArg _ (r1_blocksum V c ⟨n + 1, hn⟩ d (iblk1 V c 0 ⟨n + 1, hn⟩) (iblk1 V c 1 ⟨n + 1, hn⟩)
      (r1_iblk0_apply V c ⟨n + 1, hn⟩) (r1_iblk1_apply V c ⟨n + 1, hn⟩))

/-- THE INVARIANT of the sum-of-squares accumulator, the same with squares. -/
theorem r1_acc_ss (c : Dev nD) (d : Fin 128) (u : Fin 1) : ∀ (n : ℕ) (hn : n < cfg1.N),
    (outsAt1 (F := Ideal) V c n hn).2.2 (ix2 u d)
      = Cert.LibBlockSum.upTo (fun t : Fin cfg1.N => ∑ k : Fin 5000,
          r1_x V c (ix2 (⟨t.val * 5000 + k.val, Cert.LibBlockSum.row_lt_of_eq r1_hNB t k⟩ : Fin 50000) d)
            * r1_x V c (ix2 (⟨t.val * 5000 + k.val, Cert.LibBlockSum.row_lt_of_eq r1_hNB t k⟩ : Fin 50000) d)) (n + 1)
  | 0, hn => by
    refine (congrFun (r1_outs_ss_A V c ⟨0, hn⟩ rfl) (ix2 u d)).trans ?_
    refine (r1_pay5_apply (iblk1 V c 0 ⟨0, hn⟩) (iblk1 V c 1 ⟨0, hn⟩) k1_pay2 u d).trans ?_
    rw [r1_pay2_apply, zero_add, Cert.LibBlockSum.upTo_one _ hn]
    exact r1_blocksumsq V c ⟨0, hn⟩ d (iblk1 V c 0 ⟨0, hn⟩) (iblk1 V c 1 ⟨0, hn⟩) (r1_iblk0_apply V c ⟨0, hn⟩) (r1_iblk1_apply V c ⟨0, hn⟩)
  | n + 1, hn => by
    have hN : cfg1.N = 10 := N_1
    have hB : ¬(⟨n + 1, hn⟩ : Fin cfg1.N).val % 10 = 0 := by dsimp only; omega
    refine (congrFun (r1_outs_ss_B V c ⟨n + 1, hn⟩ hB) (ix2 u d)).trans ?_
    refine (r1_pay5_apply (iblk1 V c 0 ⟨n + 1, hn⟩) (iblk1 V c 1 ⟨n + 1, hn⟩) (outsAt1 V c n (Nat.lt_of_succ_lt hn)).2.2 u d).trans ?_
    rw [Cert.LibBlockSum.upTo_succ _ (n + 1) hn, r1_acc_ss c d u n (Nat.lt_of_succ_lt hn)]
    exact congrArg _ (r1_blocksumsq V c ⟨n + 1, hn⟩ d (iblk1 V c 0 ⟨n + 1, hn⟩) (iblk1 V c 1 ⟨n + 1, hn⟩)
      (r1_iblk0_apply V c ⟨n + 1, hn⟩) (r1_iblk1_apply V c ⟨n + 1, hn⟩))

/-! ## From the blocks to the arrays -/

/-- WHAT POINT t WRITES BACK to the scaled rows' array is block t of the scaled rows of the whole arrays. -/
theorem r1_flushed_x (c : Dev nD) (t : Fin cfg1.N) :
    (dat1 (F := Ideal) V c).flushed 2 t = ((cfg1.win 2).blk t).view.read (Elt Ideal) (r1_x V c) := by
  show (cfg1.win 2).cut (grid1.coords t) ((dat1 V c).after 2 t) = _
  rw [after1_2, r1_outs_x]
  funext j
  obtain ⟨p, d, rfl⟩ : ∃ (p : Fin 5000) (d : Fin 128), j = ix2 p d := ⟨j 0, j 1, eq_ix2 j⟩
  show k1_pay3 (iblk1 V c 0 t) (iblk1 V c 1 t) (ix2 p d) = r1_x V c (((cfg1.win 2).blk t).view.emb (ix2 p d))
  refine (r1_pay3_apply (iblk1 V c 0 t) (iblk1 V c 1 t) p d).trans ?_
  rw [r1_iblk0_apply, r1_iblk1_apply]
  have he : ((cfg1.win 2).blk t).view.emb (ix2 p d) = ix2 (⟨t.val * 5000 + p.val, r1_row_lt t p⟩ : Fin 50000) d := by
    funext a; apply Fin.ext
    obtain ⟨-, -, -, -, e0, e1, -⟩ := r1_idx t
    match a with
    | ⟨0, _⟩ => show win1_2.index t (0 : Fin 2) * 5000 + 1 * p.val = t.val * 5000 + p.val; rw [e0]; omega
    | ⟨1, _⟩ => show win1_2.index t (1 : Fin 2) * 128 + 1 * d.val = d.val; rw [e1]; omega
  rw [he]
  rfl

/-- An index of the scaled rows' array is in point t's block iff each coordinate is in the block's range on its axis. -/
theorem r1_mem_blk2 (t : Fin cfg1.N) (i : S50000x128.Idx) :
    i ∈ ((cfg1.win 2).blk t).view.set
      ↔ ∀ a : Fin 2, win1_2.index t a * S5000x128.size a ≤ (i a).val ∧ (i a).val < win1_2.index t a * S5000x128.size a + S5000x128.size a := by
  show i ∈ ((View.whole main_v25_0).slice (win1_2.rect t)).set ↔ _
  rw [View.set_slice_whole, Rect.mem_set_unit]
  exact Iff.rfl

/-- An index of an accumulator's array is in its one block iff each coordinate is in the block's range on its axis. -/
theorem r1_mem_blk3 (t : Fin cfg1.N) (i : S1x128.Idx) :
    i ∈ ((cfg1.win 3).blk t).view.set
      ↔ ∀ a : Fin 2, win1_3.index t a * S1x128.size a ≤ (i a).val ∧ (i a).val < win1_3.index t a * S1x128.size a + S1x128.size a := by
  show i ∈ ((View.whole main_v25_1).slice (win1_3.rect t)).set ↔ _
  rw [View.set_slice_whole, Rect.mem_set_unit]
  exact Iff.rfl

theorem r1_mem_blk4 (t : Fin cfg1.N) (i : S1x128.Idx) :
    i ∈ ((cfg1.win 4).blk t).view.set
      ↔ ∀ a : Fin 2, win1_4.index t a * S1x128.size a ≤ (i a).val ∧ (i a).val < win1_4.index t a * S1x128.size a + S1x128.size a := by
  show i ∈ ((View.whole main_v25_2).slice (win1_4.rect t)).set ↔ _
  rw [View.set_slice_whole, Rect.mem_set_unit]
  exact Iff.rfl

/-- The last point. -/
theorem r1_last_lt : 9 < cfg1.N := by rw [show cfg1.N = 10 from N_1]; decide

/-- One block of an accumulator's array is the whole array: reading any row G through it at (u, d) reads G at (0, d). -/
theorem r1_read_blk3 (t : Fin cfg1.N) (G : Cert.Spec.Mat 1 128) (u : Fin 1) (d : Fin 128) :
    ((cfg1.win 3).blk t).view.read (Elt Ideal) G (ix2 u d) = G (ix2 (0 : Fin 1) d) := by
  show G (((cfg1.win 3).blk t).view.emb (ix2 u d)) = _
  refine congrArg G (funext fun a => Fin.ext ?_)
  obtain ⟨-, -, -, -, -, -, e0, e1, -⟩ := r1_idx t
  match a with
  | ⟨0, _⟩ => show win1_3.index t (0 : Fin 2) * 1 + 1 * u.val = 0; rw [e0]; omega
  | ⟨1, _⟩ => show win1_3.index t (1 : Fin 2) * 128 + 1 * d.val = d.val; rw [e1]; omega

theorem r1_flushed_s (c : Dev nD) (t : Fin cfg1.N) (hf : (cfg1.win 3).flush t = true) :
    (dat1 (F := Ideal) V c).flushed 3 t = ((cfg1.win 3).blk t).view.read (Elt Ideal) (Cert.Spec.colSum (r1_x V c)) := by
  have hN : cfg1.N = 10 := N_1
  have h9 : t.val + 1 = cfg1.N := by have := (flush1_3 t).mp hf; have := t.isLt; omega
  show (cfg1.win 3).cut (grid1.coords t) ((dat1 V c).after 3 t) = _
  rw [after1_3]
  funext j
  obtain ⟨u, d, rfl⟩ : ∃ (u : Fin 1) (d : Fin 128), j = ix2 u d := ⟨j 0, j 1, eq_ix2 j⟩
  refine Eq.trans ?_ (r1_read_blk3 t (Cert.Spec.colSum (r1_x V c)) u d).symm
  rw [Cert.Spec.colSum_ix2]
  show (outsAt1 V c t.val t.isLt).2.1 (ix2 u d) = _
  rw [r1_acc_s V c d u t.val t.isLt, h9]
  exact Cert.LibBlockSum.upTo_blocks r1_hNB (fun r : Fin 50000 => r1_x V c (ix2 r d))

/-- One block of an accumulator's array is the whole array: reading any row G through it at (u, d) reads G at (0, d). -/
theorem r1_read_blk4 (t : Fin cfg1.N) (G : Cert.Spec.Mat 1 128) (u : Fin 1) (d : Fin 128) :
    ((cfg1.win 4).blk t).view.read (Elt Ideal) G (ix2 u d) = G (ix2 (0 : Fin 1) d) := by
  show G (((cfg1.win 4).blk t).view.emb (ix2 u d)) = _
  refine congrArg G (funext fun a => Fin.ext ?_)
  obtain ⟨-, -, -, -, -, -, -, -, e0, e1⟩ := r1_idx t
  match a with
  | ⟨0, _⟩ => show win1_4.index t (0 : Fin 2) * 1 + 1 * u.val = 0; rw [e0]; omega
  | ⟨1, _⟩ => show win1_4.index t (1 : Fin 2) * 128 + 1 * d.val = d.val; rw [e1]; omega

theorem r1_flushed_ss (c : Dev nD) (t : Fin cfg1.N) (hf : (cfg1.win 4).flush t = true) :
    (dat1 (F := Ideal) V c).flushed 4 t = ((cfg1.win 4).blk t).view.read (Elt Ideal) (Cert.Spec.colSumSq (r1_x V c)) := by
  have hN : cfg1.N = 10 := N_1
  have h9 : t.val + 1 = cfg1.N := by have := (flush1_4 t).mp hf; have := t.isLt; omega
  show (cfg1.win 4).cut (grid1.coords t) ((dat1 V c).after 4 t) = _
  rw [after1_4]
  funext j
  obtain ⟨u, d, rfl⟩ : ∃ (u : Fin 1) (d : Fin 128), j = ix2 u d := ⟨j 0, j 1, eq_ix2 j⟩
  refine Eq.trans ?_ (r1_read_blk4 t (Cert.Spec.colSumSq (r1_x V c)) u d).symm
  rw [Cert.Spec.colSumSq_ix2]
  show (outsAt1 V c t.val t.isLt).2.2 (ix2 u d) = _
  rw [r1_acc_ss V c d u t.val t.isLt, h9]
  exact Cert.LibBlockSum.upTo_blocks r1_hNB (fun r : Fin 50000 => r1_x V c (ix2 r d) * r1_x V c (ix2 r d))

end Values

/-! ## The three output arrays when the region ends -/

theorem final1_x (V : (c : Dev nD) → (b : Ref sig .tc) → Buf (Elt Ideal) ((c : Thread nD τ).loc b)) (c : Dev nD) :
    (dat1 (F := Ideal) V c).arrAt 2 cfg1.N
      = Cert.Spec.rowScale (M := 50000) (N := 128) (V c (Pipeline.arrRef spec1 0)) (V c (Pipeline.arrRef spec1 1)) :=
  (dat1 (F := Ideal) V c).arrAt_eq_of_cover 2 (r1_x V c) (fun t _ => r1_flushed_x V c t) fun i => by
    have hi0 : (i 0).val < 50000 := (i 0).isLt
    have hi1 : (i 1).val < 128 := (i 1).isLt
    have hlt : (i 0).val / 5000 < cfg1.N := by rw [show cfg1.N = 10 from N_1]; omega
    refine ⟨⟨(i 0).val / 5000, hlt⟩, flush1_2 _, ?_⟩
    rw [r1_mem_blk2]
    obtain ⟨-, -, -, -, e0, e1, -⟩ := r1_idx ⟨(i 0).val / 5000, hlt⟩
    intro a
    match a with
    | ⟨0, _⟩ =>
      show win1_2.index ⟨(i 0).val / 5000, hlt⟩ (0 : Fin 2) * 5000 ≤ (i 0).val
        ∧ (i 0).val < win1_2.index ⟨(i 0).val / 5000, hlt⟩ (0 : Fin 2) * 5000 + 5000
      rw [e0]; dsimp only; omega
    | ⟨1, _⟩ =>
      show win1_2.index ⟨(i 0).val / 5000, hlt⟩ (1 : Fin 2) * 128 ≤ (i 1).val
        ∧ (i 1).val < win1_2.index ⟨(i 0).val / 5000, hlt⟩ (1 : Fin 2) * 128 + 128
      rw [e1]; omega

theorem final1_s (V : (c : Dev nD) → (b : Ref sig .tc) → Buf (Elt Ideal) ((c : Thread nD τ).loc b)) (c : Dev nD) :
    (dat1 (F := Ideal) V c).arrAt 3 cfg1.N
      = Cert.Spec.colSum (Cert.Spec.rowScale (M := 50000) (N := 128) (V c (Pipeline.arrRef spec1 0)) (V c (Pipeline.arrRef spec1 1))) :=
  (dat1 (F := Ideal) V c).arrAt_eq_of_cover 3 (Cert.Spec.colSum (r1_x V c)) (r1_flushed_s V c) fun i => by
    have hi0 : (i 0).val < 1 := (i 0).isLt
    have hi1 : (i 1).val < 128 := (i 1).isLt
    refine ⟨⟨9, r1_last_lt⟩, (flush1_3 _).mpr rfl, ?_⟩
    rw [r1_mem_blk3]
    obtain ⟨-, -, -, -, -, -, e0, e1, -⟩ := r1_idx ⟨9, r1_last_lt⟩
    intro a
    match a with
    | ⟨0, _⟩ =>
      show win1_3.index ⟨9, r1_last_lt⟩ (0 : Fin 2) * 1 ≤ (i 0).val ∧ (i 0).val < win1_3.index ⟨9, r1_last_lt⟩ (0 : Fin 2) * 1 + 1
      rw [e0]; omega
    | ⟨1, _⟩ =>
      show win1_3.index ⟨9, r1_last_lt⟩ (1 : Fin 2) * 128 ≤ (i 1).val ∧ (i 1).val < win1_3.index ⟨9, r1_last_lt⟩ (1 : Fin 2) * 128 + 128
      rw [e1]; omega

theorem final1_ss (V : (c : Dev nD) → (b : Ref sig .tc) → Buf (Elt Ideal) ((c : Thread nD τ).loc b)) (c : Dev nD) :
    (dat1 (F := Ideal) V c).arrAt 4 cfg1.N
      = Cert.Spec.colSumSq (Cert.Spec.rowScale (M := 50000) (N := 128) (V c (Pipeline.arrRef spec1 0)) (V c (Pipeline.arrRef spec1 1))) :=
  (dat1 (F := Ideal) V c).arrAt_eq_of_cover 4 (Cert.Spec.colSumSq (r1_x V c)) (r1_flushed_ss V c) fun i => by
    have hi0 : (i 0).val < 1 := (i 0).isLt
    have hi1 : (i 1).val < 128 := (i 1).isLt
    refine ⟨⟨9, r1_last_lt⟩, (flush1_4 _).mpr rfl, ?_⟩
    rw [r1_mem_blk4]
    obtain ⟨-, -, -, -, -, -, -, -, e0, e1⟩ := r1_idx ⟨9, r1_last_lt⟩
    intro a
    match a with
    | ⟨0, _⟩ =>
      show win1_4.index ⟨9, r1_last_lt⟩ (0 : Fin 2) * 1 ≤ (i 0).val ∧ (i 0).val < win1_4.index ⟨9, r1_last_lt⟩ (0 : Fin 2) * 1 + 1
      rw [e0]; omega
    | ⟨1, _⟩ =>
      show win1_4.index ⟨9, r1_last_lt⟩ (1 : Fin 2) * 128 ≤ (i 1).val ∧ (i 1).val < win1_4.index ⟨9, r1_last_lt⟩ (1 : Fin 2) * 128 + 128
      rw [e1]; omega

end Cert.KernelIdeal.Reg

end
-- ==== Proof.Reg2.lean ====
/-
  Region 2: every column normalised with its mean and variance rows, rectified, and each row scaled by its degree weight.
  Stated for the whole arrays: what the region's output arrays hold when it ends, as functions of the arrays it is entered with.

  The 50000 rows are cut into 10 blocks of 5000 consecutive rows; point t of the grid reads rows 5000·t … 5000·t+4999 of
  the features and of the weight column, and the whole of the four rows μ, v, γ, β. Entry (p,q) of its result is
  max ((x(p,q) − μ(0,q))·(v(0,q) + ε)^(−1/2)·γ(0,q) + β(0,q)) 0 · n(p,0), which depends on the block's own row p only; it is
  written back to the same rows of the output. Entry (r,q) of the output is therefore written by point r / 5000: the
  blocks are the restrictions of one function of the whole arrays, and they cover every row.
-/
import proofs.«113157_j3616362463713_1_alg».proof.Proof.Gen.KernelIdeal.Frame
import proofs.«113157_j3616362463713_1_alg».proof.Proof.Spec
import Idealize.ShloMosaic.Lib.ValueLayout
import Idealize.ShloMosaic.Lib.Pipeline.Value

set_option maxRecDepth 16384

noncomputable section

namespace Cert.KernelIdeal.Reg

open Idealize.ShloMosaic Idealize.ShloMosaic.TcCoe Idealize.SL.Sem Cert.KernelIdeal Cert.KernelIdeal.Gen
open Idealize.ShloMosaic.ValueIdx

/-- The zero offsets of a whole-block access, as a constant function. -/
theorem r2_hz : (![0, 0] : Fin 2 → Nat) = fun _ => 0 := funext fun a => by fin_cases a <;> rfl

/-- The reciprocal square root of an array reads, at an index, the reciprocal square root of the entry. -/
theorem r2_rsqrt_apply {s : Shape} {φ : FTy} (a : FVec Ideal s φ) (i : s.Idx) : rsqrt a i = Ideal.rsqrt (a i) := rfl

/-- A column [a,1] broadcast along the lanes to [a,b] reads, at (p,c), the column's entry p. -/
theorem r2_bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's result at entry (p,q) of a block: the normalised and rectified feature entry times the weight of row p;
    when the row-tiled blocks hold row r of the whole arrays at their row p, this is entry (r,q) of the whole-array stage. -/
theorem r2_point (X : Cert.Spec.Mat 50000 128) (μ v γ β : Cert.Spec.Mat 1 128) (n : Cert.Spec.Mat 50000 1)
    (x0 : Vec Ideal S5000x128 .f32) (x1 x2 x3 x4 : Vec Ideal S1x128 .f32) (x5 : Vec Ideal S5000x1 .f32)
    (p : Fin 5000) (q : Fin 128) (r : Fin 50000)
    (h0 : x0 (ix2 p q) = X (ix2 r q)) (h1 : x1 (ix2 (0 : Fin 1) q) = μ (ix2 (0 : Fin 1) q))
    (h2 : x2 (ix2 (0 : Fin 1) q) = v (ix2 (0 : Fin 1) q)) (h3 : x3 (ix2 (0 : Fin 1) q) = γ (ix2 (0 : Fin 1) q))
    (h4 : x4 (ix2 (0 : Fin 1) q) = β (ix2 (0 : Fin 1) q)) (h5 : x5 (ix2 p (0 : Fin 1)) = n (ix2 r (0 : Fin 1))) :
    k2_pay1 (F := Ideal) x0 x1 x2 x3 x4 x5 (ix2 p q) = Cert.Spec.bnReluScale X μ v γ β n (ix2 r q) := by
  unfold k2_pay1
  rw [Cert.Spec.bnReluScale_ix2, mulf_apply, r2_bcastCol_apply, shapeCast_self, maximumf_apply, broadcast_apply, addf_apply,
    mulf_apply, mulf_apply, subf_apply, shapeCast_self, broadcastTo_1b_ab_apply, shapeCast_self,
    broadcastTo_1b_ab_apply, r2_rsqrt_apply, addf_apply, shapeCast_self, broadcast_apply,
    broadcastTo_1b_ab_apply, shapeCast_self, broadcastTo_1b_ab_apply, shapeCast_self, h0, h1, h2, h3, h4, h5]
  rfl

/-- Every window's block index at point t: block row t for the row-tiled windows, the one block for the four rows. -/
theorem r2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The feature block at point t holds, at its row p, row 5000·t + p of the array. -/
theorem r2_blk0 (V : (c : Dev nD) → (b : Ref sig .tc) → Buf (Elt Ideal) ((c : Thread nD τ).loc b)) (c : Dev nD)
    (t : Fin cfg2.N) (p : Fin 5000) (q : Fin 128) (r : Fin 50000) (hr : r.val = t.val * 5000 + p.val) :
    iblk2 (F := Ideal) V c 0 t (ix2 p q) = V c (Pipeline.arrRef spec2 0) (ix2 r q) := by
  obtain ⟨e0, e1, e2, e3, e4, e5, e6, e7, e8, e9, e10, e11, e12, e13⟩ := r2_idx t
  show V c (Pipeline.arrRef spec2 0) (((cfg2.win 0).blk t).view.emb (ix2 p q)) = _
  refine congrArg _ ?_
  funext a; apply Fin.ext
  match a with
  | ⟨0, _⟩ => show win2_0.index t (0 : Fin 2) * 5000 + 1 * p.val = r.val; omega
  | ⟨1, _⟩ => show win2_0.index t (1 : Fin 2) * 128 + 1 * q.val = q.val; omega

/-- The block of the row μ at every point is the whole row. -/
theorem r2_blk1 (V : (c : Dev nD) → (b : Ref sig .tc) → Buf (Elt Ideal) ((c : Thread nD τ).loc b)) (c : Dev nD)
    (t : Fin cfg2.N) (q : Fin 128) :
    iblk2 (F := Ideal) V c 1 t (ix2 (0 : Fin 1) q) = V c (Pipeline.arrRef spec2 1) (ix2 (0 : Fin 1) q) := by
  obtain ⟨e0, e1, e2, e3, e4, e5, e6, e7, e8, e9, e10, e11, e12, e13⟩ := r2_idx t
  show V c (Pipeline.arrRef spec2 1) (((cfg2.win 1).blk t).view.emb (ix2 (0 : Fin 1) q)) = _
  refine congrArg _ ?_
  funext a; apply Fin.ext
  match a with
  | ⟨0, _⟩ => show win2_1.index t (0 : Fin 2) * 1 + 1 * 0 = 0; omega
  | ⟨1, _⟩ => show win2_1.index t (1 : Fin 2) * 128 + 1 * q.val = q.val; omega

/-- The block of the row v at every point is the whole row. -/
theorem r2_blk2 (V : (c : Dev nD) → (b : Ref sig .tc) → Buf (Elt Ideal) ((c : Thread nD τ).loc b)) (c : Dev nD)
    (t : Fin cfg2.N) (q : Fin 128) :
    iblk2 (F := Ideal) V c 2 t (ix2 (0 : Fin 1) q) = V c (Pipeline.arrRef spec2 2) (ix2 (0 : Fin 1) q) := by
  obtain ⟨e0, e1, e2, e3, e4, e5, e6, e7, e8, e9, e10, e11, e12, e13⟩ := r2_idx t
  show V c (Pipeline.arrRef spec2 2) (((cfg2.win 2).blk t).view.emb (ix2 (0 : Fin 1) q)) = _
  refine congrArg _ ?_
  funext a; apply Fin.ext
  match a with
  | ⟨0, _⟩ => show win2_2.index t (0 : Fin 2) * 1 + 1 * 0 = 0; omega
  | ⟨1, _⟩ => show win2_2.index t (1 : Fin 2) * 128 + 1 * q.val = q.val; omega

/-- The block of the row γ at every point is the whole row. -/
theorem r2_blk3 (V : (c : Dev nD) → (b : Ref sig .tc) → Buf (Elt Ideal) ((c : Thread nD τ).loc b)) (c : Dev nD)
    (t : Fin cfg2.N) (q : Fin 128) :
    iblk2 (F := Ideal) V c 3 t (ix2 (0 : Fin 1) q) = V c (Pipeline.arrRef spec2 3) (ix2 (0 : Fin 1) q) := by
  obtain ⟨e0, e1, e2, e3, e4, e5, e6, e7, e8, e9, e10, e11, e12, e13⟩ := r2_idx t
  show V c (Pipeline.arrRef spec2 3) (((cfg2.win 3).blk t).view.emb (ix2 (0 : Fin 1) q)) = _
  refine congrArg _ ?_
  funext a; apply Fin.ext
  match a with
  | ⟨0, _⟩ => show win2_3.index t (0 : Fin 2) * 1 + 1 * 0 = 0; omega
  | ⟨1, _⟩ => show win2_3.index t (1 : Fin 2) * 128 + 1 * q.val = q.val; omega

/-- The block of the row β at every point is the whole row. -/
theorem r2_blk4 (V : (c : Dev nD) → (b : Ref sig .tc) → Buf (Elt Ideal) ((c : Thread nD τ).loc b)) (c : Dev nD)
    (t : Fin cfg2.N) (q : Fin 128) :
    iblk2 (F := Ideal) V c 4 t (ix2 (0 : Fin 1) q) = V c (Pipeline.arrRef spec2 4) (ix2 (0 : Fin 1) q) := by
  obtain ⟨e0, e1, e2, e3, e4, e5, e6, e7, e8, e9, e10, e11, e12, e13⟩ := r2_idx t
  show V c (Pipeline.arrRef spec2 4) (((cfg2.win 4).blk t).view.emb (ix2 (0 : Fin 1) q)) = _
  refine congrArg _ ?_
  funext a; apply Fin.ext
  match a with
  | ⟨0, _⟩ => show win2_4.index t (0 : Fin 2) * 1 + 1 * 0 = 0; omega
  | ⟨1, _⟩ => show win2_4.index t (1 : Fin 2) * 128 + 1 * q.val = q.val; omega

/-- The weight column's block at point t holds, at its row p, row 5000·t + p of the column. -/
theorem r2_blk5 (V : (c : Dev nD) → (b : Ref sig .tc) → Buf (Elt Ideal) ((c : Thread nD τ).loc b)) (c : Dev nD)
    (t : Fin cfg2.N) (p : Fin 5000) (r : Fin 50000) (hr : r.val = t.val * 5000 + p.val) :
    iblk2 (F := Ideal) V c 5 t (ix2 p (0 : Fin 1)) = V c (Pipeline.arrRef spec2 5) (ix2 r (0 : Fin 1)) := by
  obtain ⟨e0, e1, e2, e3, e4, e5, e6, e7, e8, e9, e10, e11, e12, e13⟩ := r2_idx t
  show V c (Pipeline.arrRef spec2 5) (((cfg2.win 5).blk t).view.emb (ix2 p (0 : Fin 1))) = _
  refine congrArg _ ?_
  funext a; apply Fin.ext
  match a with
  | ⟨0, _⟩ => show win2_5.index t (0 : Fin 2) * 5000 + 1 * p.val = r.val; omega
  | ⟨1, _⟩ => show win2_5.index t (1 : Fin 2) * 1 + 1 * 0 = 0; omega

/-- Entry (p,q) of the output block at point t sits at row 5000·t + p, column q of the output array. -/
theorem r2_embOut (t : Fin cfg2.N) (p : Fin 5000) (q : Fin 128) (r : Fin 50000) (hr : r.val = t.val * 5000 + p.val) :
    ((cfg2.win 6).blk t).view.emb (ix2 p q) = ix2 r q := by
  obtain ⟨e0, e1, e2, e3, e4, e5, e6, e7, e8, e9, e10, e11, e12, e13⟩ := r2_idx t
  funext a; apply Fin.ext
  match a with
  | ⟨0, _⟩ => show win2_6.index t (0 : Fin 2) * 5000 + 1 * p.val = r.val; omega
  | ⟨1, _⟩ => show win2_6.index t (1 : Fin 2) * 128 + 1 * q.val = q.val; omega

/-- What point t writes back is rows 5000·t … 5000·t+4999 of the whole-array stage. -/
theorem r2_flushed (V : (c : Dev nD) → (b : Ref sig .tc) → Buf (Elt Ideal) ((c : Thread nD τ).loc b)) (c : Dev nD)
    (t : Fin cfg2.N) :
    (dat2 (F := Ideal) V c).flushed 6 t
      = ((cfg2.win 6).blk t).view.read (Elt Ideal)
          (Cert.Spec.bnReluScale (M := 50000) (N := 128) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero r2_hz]
  simp only [View.ld_unit_zero (S := S5000x128) r2_hz, View.ld_unit_zero (S := S1x128) r2_hz, View.ld_unit_zero (S := S5000x1) r2_hz]
  have hN : grid2.N = 10 := N_2
  have ht : t.val < 10 := hN ▸ t.isLt
  funext j
  obtain ⟨p, q, rfl⟩ : ∃ (p : Fin 5000) (q : Fin 128), j = ix2 p q := ⟨j 0, j 1, eq_ix2 j⟩
  have hr : t.val * 5000 + p.val < 50000 := by have := p.isLt; omega
  show k2_pay1 (F := Ideal) (iblk2 V c 0 t) (iblk2 V c 1 t) (iblk2 V c 2 t) (iblk2 V c 3 t) (iblk2 V c 4 t) (iblk2 V c 5 t) (ix2 p q)
    = Cert.Spec.bnReluScale (M := 50000) (N := 128) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))
        (((cfg2.win 6).blk t).view.emb (ix2 p q))
  rw [r2_embOut t p q (⟨t.val * 5000 + p.val, hr⟩ : Fin 50000) rfl]
  exact r2_point (V c (Pipeline.arrRef spec2 0)) (V c (Pipeline.arrRef spec2 1))
    (V c (Pipeline.arrRef spec2 2)) (V c (Pipeline.arrRef spec2 3)) (V c (Pipeline.arrRef spec2 4)) (V c (Pipeline.arrRef spec2 5))
    (iblk2 V c 0 t) (iblk2 V c 1 t) (iblk2 V c 2 t) (iblk2 V c 3 t) (iblk2 V c 4 t) (iblk2 V c 5 t) p q
    (⟨t.val * 5000 + p.val, hr⟩ : Fin 50000) (r2_blk0 V c t p q (⟨t.val * 5000 + p.val, hr⟩ : Fin 50000) rfl) (r2_blk1 V c t q) (r2_blk2 V c t q) (r2_blk3 V c t q)
    (r2_blk4 V c t q) (r2_blk5 V c t p (⟨t.val * 5000 + p.val, hr⟩ : Fin 50000) rfl)

/-- A row-and-column index is in point t's output block exactly when each coordinate is in the block's range. -/
theorem r2_mem_blk (t : Fin cfg2.N) (i : S50000x128.Idx) :
    i ∈ ((cfg2.win 6).blk t).view.set
      ↔ ∀ a : Fin 2, win2_6.index t a * S5000x128.size a ≤ (i a).val
          ∧ (i a).val < win2_6.index t a * S5000x128.size a + S5000x128.size a := by
  show i ∈ ((View.whole main_v32).slice (win2_6.rect t)).set ↔ _
  rw [View.set_slice_whole, Rect.mem_set_unit]
  exact Iff.rfl

/-- Row r lies in the block of point r / 5000: the ten blocks cover the array. -/
theorem r2_cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : grid2.N = 10 := N_2
  have hlt : (i 0).val / 5000 < grid2.N := by rw [hN]; omega
  obtain ⟨e0, e1, e2, e3, e4, e5, e6, e7, e8, e9, e10, e11, e12, e13⟩ := r2_idx ⟨(i 0).val / 5000, hlt⟩
  refine ⟨⟨(i 0).val / 5000, hlt⟩, flush2_6 _, ?_⟩
  rw [r2_mem_blk]
  intro a
  match a with
  | ⟨0, _⟩ =>
    show win2_6.index ⟨(i 0).val / 5000, hlt⟩ (0 : Fin 2) * 5000 ≤ (i 0).val
      ∧ (i 0).val < win2_6.index ⟨(i 0).val / 5000, hlt⟩ (0 : Fin 2) * 5000 + 5000
    rw [e12]
    show (i 0).val / 5000 * 5000 ≤ (i 0).val ∧ (i 0).val < (i 0).val / 5000 * 5000 + 5000
    omega
  | ⟨1, _⟩ =>
    show win2_6.index ⟨(i 0).val / 5000, hlt⟩ (1 : Fin 2) * 128 ≤ (i 1).val
      ∧ (i 1).val < win2_6.index ⟨(i 0).val / 5000, hlt⟩ (1 : Fin 2) * 128 + 128
    rw [e13]
    omega

theorem final2 (V : (c : Dev nD) → (b : Ref sig .tc) → Buf (Elt Ideal) ((c : Thread nD τ).loc b)) (c : Dev nD) :
    (dat2 (F := Ideal) V c).arrAt 6 cfg2.N
      = Cert.Spec.bnReluScale (M := 50000) (N := 128) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 (F := Ideal) V c).arrAt_eq_of_cover 6
    (Cert.Spec.bnReluScale (M := 50000) (N := 128) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)))
    (fun t _ => r2_flushed V c t) r2_cover

end Cert.KernelIdeal.Reg

end
-- ==== Proof.Reg3.lean ====
/-
  Region 3: rows scaled by the degree weights, and the column sums and column sums of squares of the result, accumulated over the ten blocks of 5000 rows.
  Stated for the whole arrays: what the region's output arrays hold when it ends, as functions of the arrays it is entered with.

  The region visits ten points; at point t it loads rows 5000·t … 5000·t + 4999 of the features X and of the weight
  column n, writes back the same rows of x = X · n (each row times its weight), and adds that block's column sums
  Σ_p x(p,d) and column sums of squares Σ_p x(p,d)² to two one-row accumulators, which are set to zero at the first
  point and written back once, after the last. So the first output is x, entry by entry; and by induction on the point
  the accumulators hold, after point t, the sums over the rows of the first t + 1 blocks, hence after the last point
  the sums over all 50000 rows: a sum over the rows is the sum over the blocks of each block's sum.
-/
import proofs.«113157_j3616362463713_1_alg».proof.Proof.Gen.KernelIdeal.Frame
import proofs.«113157_j3616362463713_1_alg».proof.Proof.Spec
import proofs.«113157_j3616362463713_1_alg».proof.Proof.LibBlockSum
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Reg

open Idealize.ShloMosaic Idealize.ShloMosaic.TcCoe Idealize.SL.Sem Cert.KernelIdeal Cert.KernelIdeal.Gen
open Idealize.ShloMosaic.ValueIdx
open Idealize.ShloMosaic.Pipeline (Dat)

section Pieces

variable {F : FTy → Type} [FloatOps F]

/-- The zero offsets of a store or load of a whole block. -/
theorem r3_hz : (![0, 0] : Fin 2 → Nat) = fun _ => 0 := funext fun a => by fin_cases a <;> rfl

/-! ## What each case of the body leaves in each output block, as the body's arithmetic of the blocks it loads -/

/-- At the first point the scaled rows are the product of the two loaded blocks. -/
theorem r3_out_A_2 (c : Dev nD) (i : grid3.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond3_0 i) (x0 : Vec F S5000x128 .f32) (x1 : Vec F S5000x1 .f32) :
    out3_A_2 c i a1 h1 a2 h2 a3 h3 a4 h4 a5 h5 hc x0 x1 = k3_pay3 x0 x1 := by
  unfold out3_A_2
  rw [View.read_writes_eq_canon _ _ _ (cover3_A_2 c i a1 h1 a2 h2 a3 h3 a4 h4 a5 h5 hc x0 x1)]
  unfold kernelRun3_A
  dsimp only
  sl_unfold_words
  rw [View.canon_unit_zero r3_hz]
  simp only [View.readAt_eq_ld, h1.read_unread, h2.read_unread, h4.read_unread, h5.read_unread,
    View.ld_unit_zero (S := S5000x128) r3_hz, View.ld_unit_zero (S := S5000x1) r3_hz, View.ld_unit_zero (S := S1x128) r3_hz]

/-- At the first point the sum accumulator is first set to zero, read back, and the block's column sums added. -/
theorem r3_out_A_3 (c : Dev nD) (i : grid3.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond3_0 i) (x0 : Vec F S5000x128 .f32) (x1 : Vec F S5000x1 .f32) :
    out3_A_3 c i a1 h1 a2 h2 a3 h3 a4 h4 a5 h5 hc x0 x1 = k3_pay4 x0 x1 (k3_pay1 (F := F)) := by
  unfold out3_A_3
  rw [View.read_writes_eq_canon _ _ _ (cover3_A_3 c i a1 h1 a2 h2 a3 h3 a4 h4 a5 h5 hc x0 x1)]
  unfold kernelRun3_A
  dsimp only
  sl_unfold_words
  rw [View.canon_cons_unit_zero (S := S1x128) r3_hz, View.readCov_unit_zero (S := S1x128) _ r3_hz]
  simp only [View.readAt_eq_ld, h1.read_unread, h2.read_unread, h4.read_unread, h5.read_unread,
    View.ld_unit_zero (S := S5000x128) r3_hz, View.ld_unit_zero (S := S5000x1) r3_hz, View.ld_unit_zero (S := S1x128) r3_hz]

/-- At the first point the sum-of-squares accumulator likewise starts from zero. -/
theorem r3_out_A_4 (c : Dev nD) (i : grid3.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond3_0 i) (x0 : Vec F S5000x128 .f32) (x1 : Vec F S5000x1 .f32) :
    out3_A_4 c i a1 h1 a2 h2 a3 h3 a4 h4 a5 h5 hc x0 x1 = k3_pay5 x0 x1 (k3_pay2 (F := F)) := by
  unfold out3_A_4
  rw [View.read_writes_eq_canon _ _ _ (cover3_A_4 c i a1 h1 a2 h2 a3 h3 a4 h4 a5 h5 hc x0 x1)]
  unfold kernelRun3_A
  dsimp only
  sl_unfold_words
  rw [View.canon_cons_unit_zero (S := S1x128) r3_hz, View.readCov_unit_zero (S := S1x128) _ r3_hz]
  simp only [View.readAt_eq_ld, h1.read_unread, h2.read_unread, h4.read_unread, h5.read_unread,
    View.ld_unit_zero (S := S5000x128) r3_hz, View.ld_unit_zero (S := S5000x1) r3_hz, View.ld_unit_zero (S := S1x128) r3_hz]

/-- At a later point the scaled rows are again the product of the two loaded blocks. -/
theorem r3_out_B_2 (c : Dev nD) (i : grid3.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond3_0 i) (x0 : Vec F S5000x128 .f32) (x1 : Vec F S5000x1 .f32) (xo3 xo4 : Vec F S1x128 .f32) :
    out3_B_2 c i a1 h1 a2 h2 a3 h3 a4 h4 a5 h5 hc x0 x1 xo3 xo4 = k3_pay3 x0 x1 := by
  unfold out3_B_2
  rw [View.read_writes_eq_canon _ _ _ (cover3_B_2 c i a1 h1 a2 h2 a3 h3 a4 h4 a5 h5 hc x0 x1 xo3 xo4)]
  unfold kernelRun3_B
  dsimp only
  sl_unfold_words
  rw [View.canon_unit_zero r3_hz]
  simp only [View.readAt_eq_ld, h1.read_unread, h2.read_unread, h4.read_unread, h5.read_unread,
    View.ld_unit_zero (S := S5000x128) r3_hz, View.ld_unit_zero (S := S5000x1) r3_hz, View.ld_unit_zero (S := S1x128) r3_hz]

/-- At a later point the block's column sums are added to what the accumulator held. -/
theorem r3_out_B_3 (c : Dev nD) (i : grid3.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond3_0 i) (x0 : Vec F S5000x128 .f32) (x1 : Vec F S5000x1 .f32) (xo3 xo4 : Vec F S1x128 .f32) :
    out3_B_3 c i a1 h1 a2 h2 a3 h3 a4 h4 a5 h5 hc x0 x1 xo3 xo4 = k3_pay4 x0 x1 xo3 := by
  unfold out3_B_3
  rw [View.read_writes_eq_canon _ _ _ (cover3_B_3 c i a1 h1 a2 h2 a3 h3 a4 h4 a5 h5 hc x0 x1 xo3 xo4)]
  unfold kernelRun3_B
  dsimp only
  sl_unfold_words
  rw [View.canon_unit_zero r3_hz]
  simp only [View.readAt_eq_ld, h1.read_unread, h2.read_unread, h4.read_unread, h5.read_unread,
    View.ld_unit_zero (S := S5000x128) r3_hz, View.ld_unit_zero (S := S5000x1) r3_hz, View.ld_unit_zero (S := S1x128) r3_hz]

/-- At a later point the block's column sums of squares are added to what the accumulator held. -/
theorem r3_out_B_4 (c : Dev nD) (i : grid3.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond3_0 i) (x0 : Vec F S5000x128 .f32) (x1 : Vec F S5000x1 .f32) (xo3 xo4 : Vec F S1x128 .f32) :
    out3_B_4 c i a1 h1 a2 h2 a3 h3 a4 h4 a5 h5 hc x0 x1 xo3 xo4 = k3_pay5 x0 x1 xo4 := by
  unfold out3_B_4
  rw [View.read_writes_eq_canon _ _ _ (cover3_B_4 c i a1 h1 a2 h2 a3 h3 a4 h4 a5 h5 hc x0 x1 xo3 xo4)]
  unfold kernelRun3_B
  dsimp only
  sl_unfold_words
  rw [View.canon_unit_zero r3_hz]
  simp only [View.readAt_eq_ld, h1.read_unread, h2.read_unread, h4.read_unread, h5.read_unread,
    View.ld_unit_zero (S := S5000x128) r3_hz, View.ld_unit_zero (S := S5000x1) r3_hz, View.ld_unit_zero (S := S1x128) r3_hz]

end Pieces

section Values

/-! ## The body's arithmetic read at an entry, on the extended reals -/

/-- A column [a,1] repeated along b columns reads, at (p, d), the column at p. -/
theorem r3_bcol {α : Type} {a b : ℕ} (v : (⟨2, ![a, 1]⟩ : Shape).Idx → α) (h : (⟨2, ![a, 1]⟩ : Shape).Broadcasts ⟨2, ![a, b]⟩)
    (p : Fin a) (d : Fin b) : broadcastTo ⟨2, ![a, b]⟩ v h (ix2 p d) = v (ix2 p (0 : Fin 1)) := by
  refine broadcastTo_apply v h (ix2 p d) (ix2 p (0 : Fin 1)) fun ax => ?_
  match ax with
  | ⟨0, _⟩ =>
    show p.val = if a = 1 then 0 else p.val
    split
    · have := p.isLt; omega
    · rfl
  | ⟨1, _⟩ => rfl

/-- The reduced index d with row k put back is (k, d). -/
theorem r3_lift {m n : ℕ} (h : (⟨2, ![m, n]⟩ : Shape).Reduces [0] (⟨1, ![n]⟩ : Shape)) (d : Fin n)
    (k : Fin ((⟨2, ![m, n]⟩ : Shape).size 0)) : h.lift (ix1 d) k = ix2 (⟨k.val, k.isLt⟩ : Fin m) d := by
  funext ax; apply Fin.ext
  fin_cases ax <;> rfl

/-- The sum over the rows of a block, read at column d. -/
theorem r3_rowsum (src : FVec Ideal S5000x128 .f32) (d : Fin 128) :
    multiReduction (F := Ideal) .add [0] S128 src 0x00000000#32 reduces_S5000x128_S128 (.inl rfl) rfl (ix1 d)
      = ∑ k : Fin 5000, src (ix2 k d) := by
  refine (Ideal.multiReduction_add_single src 0x00000000#32 reduces_S5000x128_S128 (.inl rfl) rfl (ix1 d)).trans ?_
  exact Finset.sum_congr rfl fun k _ => congrArg src (r3_lift reduces_S5000x128_S128 d k)

/-- The scaled block at (p, d): the entry times its row's weight. -/
theorem r3_pay3_apply (x0 : FVec Ideal S5000x128 .f32) (x1 : FVec Ideal S5000x1 .f32) (p : Fin 5000) (d : Fin 128) :
    k3_pay3 (F := Ideal) x0 x1 (ix2 p d) = x0 (ix2 p d) * x1 (ix2 p (0 : Fin 1)) := by
  show mulf (shapeCast S5000x128 x0 shapeCasts_S5000x128_S5000x128)
      (broadcastTo S5000x128 (shapeCast S5000x1 x1 shapeCasts_S5000x1_S5000x1) broadcasts_S5000x1_S5000x128) (ix2 p d) = _
  rw [mulf_apply, shapeCast_self, shapeCast_self, r3_bcol]

/-- The zero block reads the real number zero. -/
theorem r3_pay1_apply (u : Fin 1) (d : Fin 128) : k3_pay1 (F := Ideal) (ix2 u d) = 0 := by
  show broadcast S1x128 (Scalar.ofBits (F := Ideal) .f32 0x00000000#32) (ix2 u d) = 0
  rw [broadcast_apply]
  exact Ideal.ofBits_zero_f32

theorem r3_pay2_apply (u : Fin 1) (d : Fin 128) : k3_pay2 (F := Ideal) (ix2 u d) = 0 := by
  show broadcast S1x128 (Scalar.ofBits (F := Ideal) .f32 0x00000000#32) (ix2 u d) = 0
  rw [broadcast_apply]
  exact Ideal.ofBits_zero_f32

/-- The sum accumulator's new value at column d: what it held plus the block's column sum. -/
theorem r3_pay4_apply (x0 : FVec Ideal S5000x128 .f32) (x1 : FVec Ideal S5000x1 .f32) (acc : FVec Ideal S1x128 .f32)
    (u : Fin 1) (d : Fin 128) :
    k3_pay4 (F := Ideal) x0 x1 acc (ix2 u d)
      = acc (ix2 u d) + ∑ k : Fin 5000, x0 (ix2 k d) * x1 (ix2 k (0 : Fin 1)) := by
  show addf (shapeCast S1x128 acc shapeCasts_S1x128_S1x128)
      (shapeCast S1x128 (multiReduction (F := Ideal) .add [0] S128 (k3_pay3 x0 x1) 0x00000000#32 reduces_S5000x128_S128 (.inl rfl) rfl)
        shapeCasts_S128_S1x128) (ix2 u d) = _
  rw [addf_apply, shapeCast_self, shapeCast_a_1a_apply]
  refine congrArg (fun z => acc (ix2 u d) + z) ?_
  refine (r3_rowsum (k3_pay3 x0 x1) d).trans ?_
  exact Finset.sum_congr rfl fun k _ => r3_pay3_apply x0 x1 k d

/-- The sum-of-squares accumulator's new value at column d: what it held plus the block's column sum of squares. -/
theorem r3_pay5_apply (x0 : FVec Ideal S5000x128 .f32) (x1 : FVec Ideal S5000x1 .f32) (acc : FVec Ideal S1x128 .f32)
    (u : Fin 1) (d : Fin 128) :
    k3_pay5 (F := Ideal) x0 x1 acc (ix2 u d)
      = acc (ix2 u d) + ∑ k : Fin 5000, (x0 (ix2 k d) * x1 (ix2 k (0 : Fin 1))) * (x0 (ix2 k d) * x1 (ix2 k (0 : Fin 1))) := by
  show addf (shapeCast S1x128 acc shapeCasts_S1x128_S1x128)
      (shapeCast S1x128 (multiReduction (F := Ideal) .add [0] S128 (mulf (k3_pay3 x0 x1) (k3_pay3 x0 x1)) 0x00000000#32 reduces_S5000x128_S128 (.inl rfl) rfl)
        shapeCasts_S128_S1x128) (ix2 u d) = _
  rw [addf_apply, shapeCast_self, shapeCast_a_1a_apply]
  refine congrArg (fun z => acc (ix2 u d) + z) ?_
  refine (r3_rowsum (mulf (k3_pay3 x0 x1) (k3_pay3 x0 x1)) d).trans ?_
  exact Finset.sum_congr rfl fun k _ => by rw [mulf_apply, r3_pay3_apply]

/-! ## The blocks: block t of a row-tiled array is its rows 5000·t … 5000·t + 4999 -/

/-- The printed index maps over the grid: the row-tiled windows' block index is the point, the accumulators' is zero. -/
theorem r3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row p of block t is row 5000·t + p of the array. -/
theorem r3_row_lt (t : Fin cfg3.N) (p : Fin 5000) : t.val * 5000 + p.val < 50000 := by
  have hN : t.val < 10 := lt_of_lt_of_eq t.isLt (show cfg3.N = 10 from N_3)
  have := p.isLt
  omega

variable (V : (c : Dev nD) → (b : Ref sig .tc) → Buf (Elt Ideal) ((c : Thread nD τ).loc b))

/-- The features' block at point t, entry (p, d): the array at (5000·t + p, d). -/
theorem r3_iblk0_apply (c : Dev nD) (t : Fin cfg3.N) (p : Fin 5000) (d : Fin 128) :
    iblk3 (F := Ideal) V c 0 t (ix2 p d)
      = V c (Pipeline.arrRef spec3 0) (ix2 (⟨t.val * 5000 + p.val, r3_row_lt t p⟩ : Fin 50000) d) := by
  show V c (Pipeline.arrRef spec3 0) (((cfg3.win 0).blk t).view.emb (ix2 p d)) = _
  refine congrArg (V c (Pipeline.arrRef spec3 0)) (funext fun a => Fin.ext ?_)
  obtain ⟨e0, e1, -⟩ := r3_idx t
  match a with
  | ⟨0, _⟩ => show win3_0.index t (0 : Fin 2) * 5000 + 1 * p.val = t.val * 5000 + p.val; rw [e0]; omega
  | ⟨1, _⟩ => show win3_0.index t (1 : Fin 2) * 128 + 1 * d.val = d.val; rw [e1]; omega

/-- The weights' block at point t, entry (p, 0): the column at row 5000·t + p. -/
theorem r3_iblk1_apply (c : Dev nD) (t : Fin cfg3.N) (p : Fin 5000) :
    iblk3 (F := Ideal) V c 1 t (ix2 p (0 : Fin 1))
      = V c (Pipeline.arrRef spec3 1) (ix2 (⟨t.val * 5000 + p.val, r3_row_lt t p⟩ : Fin 50000) (0 : Fin 1)) := by
  show V c (Pipeline.arrRef spec3 1) (((cfg3.win 1).blk t).view.emb (ix2 p (0 : Fin 1))) = _
  refine congrArg (V c (Pipeline.arrRef spec3 1)) (funext fun a => Fin.ext ?_)
  obtain ⟨-, -, e0, e1, -⟩ := r3_idx t
  match a with
  | ⟨0, _⟩ => show win3_1.index t (0 : Fin 2) * 5000 + 1 * p.val = t.val * 5000 + p.val; rw [e0]; omega
  | ⟨1, _⟩ => show win3_1.index t (1 : Fin 2) * 1 + 1 * 0 = 0; rw [e1]

/-! ## What the outputs hold after each point -/

/-- After every point the scaled-rows block is the product of that point's two input blocks. -/
theorem r3_outs_x (c : Dev nD) (t : Fin cfg3.N) :
    (outsAt3 (F := Ideal) V c t.val t.isLt).1 = k3_pay3 (iblk3 V c 0 t) (iblk3 V c 1 t) := by
  by_cases h0 : t.val % 10 = 0
  · rw [outsAt3_A V c t h0]; dsimp only
    exact r3_out_A_2 (F := Ideal) c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t)
  · rw [outsAt3_B V c t h0]; dsimp only
    exact r3_out_B_2 (F := Ideal) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t)
      (outsAt3 V c (t.val - 1) (Nat.lt_of_le_of_lt (Nat.sub_le _ _) t.isLt)).2.1 (outsAt3 V c (t.val - 1) (Nat.lt_of_le_of_lt (Nat.sub_le _ _) t.isLt)).2.2

/-- After the first point the sum accumulator is the zero block plus that point's column sums. -/
theorem r3_outs_s_A (c : Dev nD) (t : Fin cfg3.N) (h0 : t.val % 10 = 0) :
    (outsAt3 (F := Ideal) V c t.val t.isLt).2.1 = k3_pay4 (iblk3 V c 0 t) (iblk3 V c 1 t) (k3_pay1 (F := Ideal)) := by
  rw [outsAt3_A V c t h0]; dsimp only
  exact r3_out_A_3 (F := Ideal) c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t)

/-- After a later point the sum accumulator is what the point before left plus this point's column sums. -/
theorem r3_outs_s_B (c : Dev nD) (t : Fin cfg3.N) (h0 : ¬t.val % 10 = 0) :
    (outsAt3 (F := Ideal) V c t.val t.isLt).2.1 = k3_pay4 (iblk3 V c 0 t) (iblk3 V c 1 t) (outsAt3 V c (t.val - 1) (Nat.lt_of_le_of_lt (Nat.sub_le _ _) t.isLt)).2.1 := by
  rw [outsAt3_B V c t h0]; dsimp only
  exact r3_out_B_3 (F := Ideal) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t)
    (outsAt3 V c (t.val - 1) (Nat.lt_of_le_of_lt (Nat.sub_le _ _) t.isLt)).2.1 (outsAt3 V c (t.val - 1) (Nat.lt_of_le_of_lt (Nat.sub_le _ _) t.isLt)).2.2

/-- After the first point the sum-of-squares accumulator is the zero block plus that point's column sums of squares. -/
theorem r3_outs_ss_A (c : Dev nD) (t : Fin cfg3.N) (h0 : t.val % 10 = 0) :
    (outsAt3 (F := Ideal) V c t.val t.isLt).2.2 = k3_pay5 (iblk3 V c 0 t) (iblk3 V c 1 t) (k3_pay2 (F := Ideal)) := by
  rw [outsAt3_A V c t h0]; dsimp only
  exact r3_out_A_4 (F := Ideal) c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t)

/-- After a later point the sum-of-squares accumulator is what the point before left plus this point's sums of squares. -/
theorem r3_outs_ss_B (c : Dev nD) (t : Fin cfg3.N) (h0 : ¬t.val % 10 = 0) :
    (outsAt3 (F := Ideal) V c t.val t.isLt).2.2 = k3_pay5 (iblk3 V c 0 t) (iblk3 V c 1 t) (outsAt3 V c (t.val - 1) (Nat.lt_of_le_of_lt (Nat.sub_le _ _) t.isLt)).2.2 := by
  rw [outsAt3_B V c t h0]; dsimp only
  exact r3_out_B_4 (F := Ideal) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t)
    (outsAt3 V c (t.val - 1) (Nat.lt_of_le_of_lt (Nat.sub_le _ _) t.isLt)).2.1 (outsAt3 V c (t.val - 1) (Nat.lt_of_le_of_lt (Nat.sub_le _ _) t.isLt)).2.2

/-- The rows scaled by their weights, as a function of the two arrays the region is entered with. -/
abbrev r3_x (c : Dev nD) : Cert.Spec.Mat 50000 128 :=
  Cert.Spec.rowScale (M := 50000) (N := 128) (V c (Pipeline.arrRef spec3 0)) (V c (Pipeline.arrRef spec3 1))

/-- Ten blocks of 5000 rows are the 50000 rows. -/
theorem r3_hNB : cfg3.N * 5000 = 50000 := by rw [show cfg3.N = 10 from N_3]

/-- The column sum of block t of the scaled rows, from two blocks that hold rows 5000·t … of the two arrays. -/
theorem r3_blocksum (c : Dev nD) (t : Fin cfg3.N) (d : Fin 128) (x0 : FVec Ideal S5000x128 .f32) (x1 : FVec Ideal S5000x1 .f32)
    (h0 : ∀ (k : Fin 5000) (d : Fin 128), x0 (ix2 k d)
      = V c (Pipeline.arrRef spec3 0) (ix2 (⟨t.val * 5000 + k.val, r3_row_lt t k⟩ : Fin 50000) d))
    (h1 : ∀ k : Fin 5000, x1 (ix2 k (0 : Fin 1))
      = V c (Pipeline.arrRef spec3 1) (ix2 (⟨t.val * 5000 + k.val, r3_row_lt t k⟩ : Fin 50000) (0 : Fin 1))) :
    ∑ k : Fin 5000, x0 (ix2 k d) * x1 (ix2 k (0 : Fin 1))
      = ∑ k : Fin 5000, r3_x V c (ix2 (⟨t.val * 5000 + k.val, Cert.LibBlockSum.row_lt_of_eq r3_hNB t k⟩ : Fin 50000) d) :=
  Finset.sum_congr rfl fun k _ => by rw [h0, h1]; rfl

/-- The column sum of squares of block t of the scaled rows, likewise. -/
theorem r3_blocksumsq (c : Dev nD) (t : Fin cfg3.N) (d : Fin 128) (x0 : FVec Ideal S5000x128 .f32) (x1 : FVec Ideal S5000x1 .f32)
    (h0 : ∀ (k : Fin 5000) (d : Fin 128), x0 (ix2 k d)
      = V c (Pipeline.arrRef spec3 0) (ix2 (⟨t.val * 5000 + k.val, r3_row_lt t k⟩ : Fin 50000) d))
    (h1 : ∀ k : Fin 5000, x1 (ix2 k (0 : Fin 1))
      = V c (Pipeline.arrRef spec3 1) (ix2 (⟨t.val * 5000 + k.val, r3_row_lt t k⟩ : Fin 50000) (0 : Fin 1))) :
    ∑ k : Fin 5000, (x0 (ix2 k d) * x1 (ix2 k (0 : Fin 1))) * (x0 (ix2 k d) * x1 (ix2 k (0 : Fin 1)))
      = ∑ k : Fin 5000, r3_x V c (ix2 (⟨t.val * 5000 + k.val, Cert.LibBlockSum.row_lt_of_eq r3_hNB t k⟩ : Fin 50000) d)
          * r3_x V c (ix2 (⟨t.val * 5000 + k.val, Cert.LibBlockSum.row_lt_of_eq r3_hNB t k⟩ : Fin 50000) d) :=
  Finset.sum_congr rfl fun k _ => by rw [h0, h1]; rfl

/-- THE INVARIANT of the sum accumulator: after point n it holds, at column d, the sum of the column over the rows of
    the first n + 1 blocks. By induction on the point: the first point starts from zero, every later point adds its block. -/
theorem r3_acc_s (c : Dev nD) (d : Fin 128) (u : Fin 1) : ∀ (n : ℕ) (hn : n < cfg3.N),
    (outsAt3 (F := Ideal) V c n hn).2.1 (ix2 u d)
      = Cert.LibBlockSum.upTo (fun t : Fin cfg3.N => ∑ k : Fin 5000,
          r3_x V c (ix2 (⟨t.val * 5000 + k.val, Cert.LibBlockSum.row_lt_of_eq r3_hNB t k⟩ : Fin 50000) d)) (n + 1)
  | 0, hn => by
    refine (congrFun (r3_outs_s_A V c ⟨0, hn⟩ rfl) (ix2 u d)).trans ?_
    refine (r3_pay4_apply (iblk3 V c 0 ⟨0, hn⟩) (iblk3 V c 1 ⟨0, hn⟩) k3_pay1 u d).trans ?_
    rw [r3_pay1_apply, zero_add, Cert.LibBlockSum.upTo_one _ hn]
    exact r3_blocksum V c ⟨0, hn⟩ d (iblk3 V c 0 ⟨0, hn⟩) (iblk3 V c 1 ⟨0, hn⟩) (r3_iblk0_apply V c ⟨0, hn⟩) (r3_iblk1_apply V c ⟨0, hn⟩)
  | n + 1, hn => by
    have hN : cfg3.N = 10 := N_3
    have hB : ¬(⟨n + 1, hn⟩ : Fin cfg3.N).val % 10 = 0 := by dsimp only; omega
    refine (congrFun (r3_outs_s_B V c ⟨n + 1, hn⟩ hB) (ix2 u d)).trans ?_
    refine (r3_pay4_apply (iblk3 V c 0 ⟨n + 1, hn⟩) (iblk3 V c 1 ⟨n + 1, hn⟩) (outsAt3 V c n (Nat.lt_of_succ_lt hn)).2.1 u d).trans ?_
    rw [Cert.LibBlockSum.upTo_succ _ (n + 1) hn, r3_acc_s c d u n (Nat.lt_of_succ_lt hn)]
    exact congrArg _ (r3_blocksum V c ⟨n + 1, hn⟩ d (iblk3 V c 0 ⟨n + 1, hn⟩) (iblk3 V c 1 ⟨n + 1, hn⟩)
      (r3_iblk0_apply V c ⟨n + 1, hn⟩) (r3_iblk1_apply V c ⟨n + 1, hn⟩))

/-- THE INVARIANT of the sum-of-squares accumulator, the same with squares. -/
theorem r3_acc_ss (c : Dev nD) (d : Fin 128) (u : Fin 1) : ∀ (n : ℕ) (hn : n < cfg3.N),
    (outsAt3 (F := Ideal) V c n hn).2.2 (ix2 u d)
      = Cert.LibBlockSum.upTo (fun t : Fin cfg3.N => ∑ k : Fin 5000,
          r3_x V c (ix2 (⟨t.val * 5000 + k.val, Cert.LibBlockSum.row_lt_of_eq r3_hNB t k⟩ : Fin 50000) d)
            * r3_x V c (ix2 (⟨t.val * 5000 + k.val, Cert.LibBlockSum.row_lt_of_eq r3_hNB t k⟩ : Fin 50000) d)) (n + 1)
  | 0, hn => by
    refine (congrFun (r3_outs_ss_A V c ⟨0, hn⟩ rfl) (ix2 u d)).trans ?_
    refine (r3_pay5_apply (iblk3 V c 0 ⟨0, hn⟩) (iblk3 V c 1 ⟨0, hn⟩) k3_pay2 u d).trans ?_
    rw [r3_pay2_apply, zero_add, Cert.LibBlockSum.upTo_one _ hn]
    exact r3_blocksumsq V c ⟨0, hn⟩ d (iblk3 V c 0 ⟨0, hn⟩) (iblk3 V c 1 ⟨0, hn⟩) (r3_iblk0_apply V c ⟨0, hn⟩) (r3_iblk1_apply V c ⟨0, hn⟩)
  | n + 1, hn => by
    have hN : cfg3.N = 10 := N_3
    have hB : ¬(⟨n + 1, hn⟩ : Fin cfg3.N).val % 10 = 0 := by dsimp only; omega
    refine (congrFun (r3_outs_ss_B V c ⟨n + 1, hn⟩ hB) (ix2 u d)).trans ?_
    refine (r3_pay5_apply (iblk3 V c 0 ⟨n + 1, hn⟩) (iblk3 V c 1 ⟨n + 1, hn⟩) (outsAt3 V c n (Nat.lt_of_succ_lt hn)).2.2 u d).trans ?_
    rw [Cert.LibBlockSum.upTo_succ _ (n + 1) hn, r3_acc_ss c d u n (Nat.lt_of_succ_lt hn)]
    exact congrArg _ (r3_blocksumsq V c ⟨n + 1, hn⟩ d (iblk3 V c 0 ⟨n + 1, hn⟩) (iblk3 V c 1 ⟨n + 1, hn⟩)
      (r3_iblk0_apply V c ⟨n + 1, hn⟩) (r3_iblk1_apply V c ⟨n + 1, hn⟩))

/-! ## From the blocks to the arrays -/

/-- WHAT POINT t WRITES BACK to the scaled rows' array is block t of the scaled rows of the whole arrays. -/
theorem r3_flushed_x (c : Dev nD) (t : Fin cfg3.N) :
    (dat3 (F := Ideal) V c).flushed 2 t = ((cfg3.win 2).blk t).view.read (Elt Ideal) (r3_x V c) := by
  show (cfg3.win 2).cut (grid3.coords t) ((dat3 V c).after 2 t) = _
  rw [after3_2, r3_outs_x]
  funext j
  obtain ⟨p, d, rfl⟩ : ∃ (p : Fin 5000) (d : Fin 128), j = ix2 p d := ⟨j 0, j 1, eq_ix2 j⟩
  show k3_pay3 (iblk3 V c 0 t) (iblk3 V c 1 t) (ix2 p d) = r3_x V c (((cfg3.win 2).blk t).view.emb (ix2 p d))
  refine (r3_pay3_apply (iblk3 V c 0 t) (iblk3 V c 1 t) p d).trans ?_
  rw [r3_iblk0_apply, r3_iblk1_apply]
  have he : ((cfg3.win 2).blk t).view.emb (ix2 p d) = ix2 (⟨t.val * 5000 + p.val, r3_row_lt t p⟩ : Fin 50000) d := by
    funext a; apply Fin.ext
    obtain ⟨-, -, -, -, e0, e1, -⟩ := r3_idx t
    match a with
    | ⟨0, _⟩ => show win3_2.index t (0 : Fin 2) * 5000 + 1 * p.val = t.val * 5000 + p.val; rw [e0]; omega
    | ⟨1, _⟩ => show win3_2.index t (1 : Fin 2) * 128 + 1 * d.val = d.val; rw [e1]; omega
  rw [he]
  rfl

/-- An index of the scaled rows' array is in point t's block iff each coordinate is in the block's range on its axis. -/
theorem r3_mem_blk2 (t : Fin cfg3.N) (i : S50000x128.Idx) :
    i ∈ ((cfg3.win 2).blk t).view.set
      ↔ ∀ a : Fin 2, win3_2.index t a * S5000x128.size a ≤ (i a).val ∧ (i a).val < win3_2.index t a * S5000x128.size a + S5000x128.size a := by
  show i ∈ ((View.whole main_v43_0).slice (win3_2.rect t)).set ↔ _
  rw [View.set_slice_whole, Rect.mem_set_unit]
  exact Iff.rfl

/-- An index of an accumulator's array is in its one block iff each coordinate is in the block's range on its axis. -/
theorem r3_mem_blk3 (t : Fin cfg3.N) (i : S1x128.Idx) :
    i ∈ ((cfg3.win 3).blk t).view.set
      ↔ ∀ a : Fin 2, win3_3.index t a * S1x128.size a ≤ (i a).val ∧ (i a).val < win3_3.index t a * S1x128.size a + S1x128.size a := by
  show i ∈ ((View.whole main_v43_1).slice (win3_3.rect t)).set ↔ _
  rw [View.set_slice_whole, Rect.mem_set_unit]
  exact Iff.rfl

theorem r3_mem_blk4 (t : Fin cfg3.N) (i : S1x128.Idx) :
    i ∈ ((cfg3.win 4).blk t).view.set
      ↔ ∀ a : Fin 2, win3_4.index t a * S1x128.size a ≤ (i a).val ∧ (i a).val < win3_4.index t a * S1x128.size a + S1x128.size a := by
  show i ∈ ((View.whole main_v43_2).slice (win3_4.rect t)).set ↔ _
  rw [View.set_slice_whole, Rect.mem_set_unit]
  exact Iff.rfl

/-- The last point. -/
theorem r3_last_lt : 9 < cfg3.N := by rw [show cfg3.N = 10 from N_3]; decide

/-- One block of an accumulator's array is the whole array: reading any row G through it at (u, d) reads G at (0, d). -/
theorem r3_read_blk3 (t : Fin cfg3.N) (G : Cert.Spec.Mat 1 128) (u : Fin 1) (d : Fin 128) :
    ((cfg3.win 3).blk t).view.read (Elt Ideal) G (ix2 u d) = G (ix2 (0 : Fin 1) d) := by
  show G (((cfg3.win 3).blk t).view.emb (ix2 u d)) = _
  refine congrArg G (funext fun a => Fin.ext ?_)
  obtain ⟨-, -, -, -, -, -, e0, e1, -⟩ := r3_idx t
  match a with
  | ⟨0, _⟩ => show win3_3.index t (0 : Fin 2) * 1 + 1 * u.val = 0; rw [e0]; omega
  | ⟨1, _⟩ => show win3_3.index t (1 : Fin 2) * 128 + 1 * d.val = d.val; rw [e1]; omega

theorem r3_flushed_s (c : Dev nD) (t : Fin cfg3.N) (hf : (cfg3.win 3).flush t = true) :
    (dat3 (F := Ideal) V c).flushed 3 t = ((cfg3.win 3).blk t).view.read (Elt Ideal) (Cert.Spec.colSum (r3_x V c)) := by
  have hN : cfg3.N = 10 := N_3
  have h9 : t.val + 1 = cfg3.N := by have := (flush3_3 t).mp hf; have := t.isLt; omega
  show (cfg3.win 3).cut (grid3.coords t) ((dat3 V c).after 3 t) = _
  rw [after3_3]
  funext j
  obtain ⟨u, d, rfl⟩ : ∃ (u : Fin 1) (d : Fin 128), j = ix2 u d := ⟨j 0, j 1, eq_ix2 j⟩
  refine Eq.trans ?_ (r3_read_blk3 t (Cert.Spec.colSum (r3_x V c)) u d).symm
  rw [Cert.Spec.colSum_ix2]
  show (outsAt3 V c t.val t.isLt).2.1 (ix2 u d) = _
  rw [r3_acc_s V c d u t.val t.isLt, h9]
  exact Cert.LibBlockSum.upTo_blocks r3_hNB (fun r : Fin 50000 => r3_x V c (ix2 r d))

/-- One block of an accumulator's array is the whole array: reading any row G through it at (u, d) reads G at (0, d). -/
theorem r3_read_blk4 (t : Fin cfg3.N) (G : Cert.Spec.Mat 1 128) (u : Fin 1) (d : Fin 128) :
    ((cfg3.win 4).blk t).view.read (Elt Ideal) G (ix2 u d) = G (ix2 (0 : Fin 1) d) := by
  show G (((cfg3.win 4).blk t).view.emb (ix2 u d)) = _
  refine congrArg G (funext fun a => Fin.ext ?_)
  obtain ⟨-, -, -, -, -, -, -, -, e0, e1⟩ := r3_idx t
  match a with
  | ⟨0, _⟩ => show win3_4.index t (0 : Fin 2) * 1 + 1 * u.val = 0; rw [e0]; omega
  | ⟨1, _⟩ => show win3_4.index t (1 : Fin 2) * 128 + 1 * d.val = d.val; rw [e1]; omega

theorem r3_flushed_ss (c : Dev nD) (t : Fin cfg3.N) (hf : (cfg3.win 4).flush t = true) :
    (dat3 (F := Ideal) V c).flushed 4 t = ((cfg3.win 4).blk t).view.read (Elt Ideal) (Cert.Spec.colSumSq (r3_x V c)) := by
  have hN : cfg3.N = 10 := N_3
  have h9 : t.val + 1 = cfg3.N := by have := (flush3_4 t).mp hf; have := t.isLt; omega
  show (cfg3.win 4).cut (grid3.coords t) ((dat3 V c).after 4 t) = _
  rw [after3_4]
  funext j
  obtain ⟨u, d, rfl⟩ : ∃ (u : Fin 1) (d : Fin 128), j = ix2 u d := ⟨j 0, j 1, eq_ix2 j⟩
  refine Eq.trans ?_ (r3_read_blk4 t (Cert.Spec.colSumSq (r3_x V c)) u d).symm
  rw [Cert.Spec.colSumSq_ix2]
  show (outsAt3 V c t.val t.isLt).2.2 (ix2 u d) = _
  rw [r3_acc_ss V c d u t.val t.isLt, h9]
  exact Cert.LibBlockSum.upTo_blocks r3_hNB (fun r : Fin 50000 => r3_x V c (ix2 r d) * r3_x V c (ix2 r d))

end Values

/-! ## The three output arrays when the region ends -/

theorem final3_x (V : (c : Dev nD) → (b : Ref sig .tc) → Buf (Elt Ideal) ((c : Thread nD τ).loc b)) (c : Dev nD) :
    (dat3 (F := Ideal) V c).arrAt 2 cfg3.N
      = Cert.Spec.rowScale (M := 50000) (N := 128) (V c (Pipeline.arrRef spec3 0)) (V c (Pipeline.arrRef spec3 1)) :=
  (dat3 (F := Ideal) V c).arrAt_eq_of_cover 2 (r3_x V c) (fun t _ => r3_flushed_x V c t) fun i => by
    have hi0 : (i 0).val < 50000 := (i 0).isLt
    have hi1 : (i 1).val < 128 := (i 1).isLt
    have hlt : (i 0).val / 5000 < cfg3.N := by rw [show cfg3.N = 10 from N_3]; omega
    refine ⟨⟨(i 0).val / 5000, hlt⟩, flush3_2 _, ?_⟩
    rw [r3_mem_blk2]
    obtain ⟨-, -, -, -, e0, e1, -⟩ := r3_idx ⟨(i 0).val / 5000, hlt⟩
    intro a
    match a with
    | ⟨0, _⟩ =>
      show win3_2.index ⟨(i 0).val / 5000, hlt⟩ (0 : Fin 2) * 5000 ≤ (i 0).val
        ∧ (i 0).val < win3_2.index ⟨(i 0).val / 5000, hlt⟩ (0 : Fin 2) * 5000 + 5000
      rw [e0]; dsimp only; omega
    | ⟨1, _⟩ =>
      show win3_2.index ⟨(i 0).val / 5000, hlt⟩ (1 : Fin 2) * 128 ≤ (i 1).val
        ∧ (i 1).val < win3_2.index ⟨(i 0).val / 5000, hlt⟩ (1 : Fin 2) * 128 + 128
      rw [e1]; omega

theorem final3_s (V : (c : Dev nD) → (b : Ref sig .tc) → Buf (Elt Ideal) ((c : Thread nD τ).loc b)) (c : Dev nD) :
    (dat3 (F := Ideal) V c).arrAt 3 cfg3.N
      = Cert.Spec.colSum (Cert.Spec.rowScale (M := 50000) (N := 128) (V c (Pipeline.arrRef spec3 0)) (V c (Pipeline.arrRef spec3 1))) :=
  (dat3 (F := Ideal) V c).arrAt_eq_of_cover 3 (Cert.Spec.colSum (r3_x V c)) (r3_flushed_s V c) fun i => by
    have hi0 : (i 0).val < 1 := (i 0).isLt
    have hi1 : (i 1).val < 128 := (i 1).isLt
    refine ⟨⟨9, r3_last_lt⟩, (flush3_3 _).mpr rfl, ?_⟩
    rw [r3_mem_blk3]
    obtain ⟨-, -, -, -, -, -, e0, e1, -⟩ := r3_idx ⟨9, r3_last_lt⟩
    intro a
    match a with
    | ⟨0, _⟩ =>
      show win3_3.index ⟨9, r3_last_lt⟩ (0 : Fin 2) * 1 ≤ (i 0).val ∧ (i 0).val < win3_3.index ⟨9, r3_last_lt⟩ (0 : Fin 2) * 1 + 1
      rw [e0]; omega
    | ⟨1, _⟩ =>
      show win3_3.index ⟨9, r3_last_lt⟩ (1 : Fin 2) * 128 ≤ (i 1).val ∧ (i 1).val < win3_3.index ⟨9, r3_last_lt⟩ (1 : Fin 2) * 128 + 128
      rw [e1]; omega

theorem final3_ss (V : (c : Dev nD) → (b : Ref sig .tc) → Buf (Elt Ideal) ((c : Thread nD τ).loc b)) (c : Dev nD) :
    (dat3 (F := Ideal) V c).arrAt 4 cfg3.N
      = Cert.Spec.colSumSq (Cert.Spec.rowScale (M := 50000) (N := 128) (V c (Pipeline.arrRef spec3 0)) (V c (Pipeline.arrRef spec3 1))) :=
  (dat3 (F := Ideal) V c).arrAt_eq_of_cover 4 (Cert.Spec.colSumSq (r3_x V c)) (r3_flushed_ss V c) fun i => by
    have hi0 : (i 0).val < 1 := (i 0).isLt
    have hi1 : (i 1).val < 128 := (i 1).isLt
    refine ⟨⟨9, r3_last_lt⟩, (flush3_4 _).mpr rfl, ?_⟩
    rw [r3_mem_blk4]
    obtain ⟨-, -, -, -, -, -, -, -, e0, e1⟩ := r3_idx ⟨9, r3_last_lt⟩
    intro a
    match a with
    | ⟨0, _⟩ =>
      show win3_4.index ⟨9, r3_last_lt⟩ (0 : Fin 2) * 1 ≤ (i 0).val ∧ (i 0).val < win3_4.index ⟨9, r3_last_lt⟩ (0 : Fin 2) * 1 + 1
      rw [e0]; omega
    | ⟨1, _⟩ =>
      show win3_4.index ⟨9, r3_last_lt⟩ (1 : Fin 2) * 128 ≤ (i 1).val ∧ (i 1).val < win3_4.index ⟨9, r3_last_lt⟩ (1 : Fin 2) * 128 + 128
      rw [e1]; omega

end Cert.KernelIdeal.Reg

end
-- ==== Proof.Reg4.lean ====
/-
  Region 4: every column normalised with its mean and variance rows, rectified, and each row scaled by its degree weight.
  Stated for the whole arrays: what the region's output arrays hold when it ends, as functions of the arrays it is entered with.

  The 50000 rows are cut into 10 blocks of 5000 consecutive rows; point t of the grid reads rows 5000·t … 5000·t+4999 of
  the features and of the weight column, and the whole of the four rows μ, v, γ, β. Entry (p,q) of its result is
  max ((x(p,q) − μ(0,q))·(v(0,q) + ε)^(−1/2)·γ(0,q) + β(0,q)) 0 · n(p,0), which depends on the block's own row p only; it is
  written back to the same rows of the output. Entry (r,q) of the output is therefore written by point r / 5000: the
  blocks are the restrictions of one function of the whole arrays, and they cover every row.
-/
import proofs.«113157_j3616362463713_1_alg».proof.Proof.Gen.KernelIdeal.Frame
import proofs.«113157_j3616362463713_1_alg».proof.Proof.Spec
import Idealize.ShloMosaic.Lib.ValueLayout
import Idealize.ShloMosaic.Lib.Pipeline.Value

set_option maxRecDepth 16384

noncomputable section

namespace Cert.KernelIdeal.Reg

open Idealize.ShloMosaic Idealize.ShloMosaic.TcCoe Idealize.SL.Sem Cert.KernelIdeal Cert.KernelIdeal.Gen
open Idealize.ShloMosaic.ValueIdx

/-- The zero offsets of a whole-block access, as a constant function. -/
theorem r4_hz : (![0, 0] : Fin 2 → Nat) = fun _ => 0 := funext fun a => by fin_cases a <;> rfl

/-- The reciprocal square root of an array reads, at an index, the reciprocal square root of the entry. -/
theorem r4_rsqrt_apply {s : Shape} {φ : FTy} (a : FVec Ideal s φ) (i : s.Idx) : rsqrt a i = Ideal.rsqrt (a i) := rfl

/-- A column [a,1] broadcast along the lanes to [a,b] reads, at (p,c), the column's entry p. -/
theorem r4_bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's result at entry (p,q) of a block: the normalised and rectified feature entry times the weight of row p;
    when the row-tiled blocks hold row r of the whole arrays at their row p, this is entry (r,q) of the whole-array stage. -/
theorem r4_point (X : Cert.Spec.Mat 50000 128) (μ v γ β : Cert.Spec.Mat 1 128) (n : Cert.Spec.Mat 50000 1)
    (x0 : Vec Ideal S5000x128 .f32) (x1 x2 x3 x4 : Vec Ideal S1x128 .f32) (x5 : Vec Ideal S5000x1 .f32)
    (p : Fin 5000) (q : Fin 128) (r : Fin 50000)
    (h0 : x0 (ix2 p q) = X (ix2 r q)) (h1 : x1 (ix2 (0 : Fin 1) q) = μ (ix2 (0 : Fin 1) q))
    (h2 : x2 (ix2 (0 : Fin 1) q) = v (ix2 (0 : Fin 1) q)) (h3 : x3 (ix2 (0 : Fin 1) q) = γ (ix2 (0 : Fin 1) q))
    (h4 : x4 (ix2 (0 : Fin 1) q) = β (ix2 (0 : Fin 1) q)) (h5 : x5 (ix2 p (0 : Fin 1)) = n (ix2 r (0 : Fin 1))) :
    k4_pay1 (F := Ideal) x0 x1 x2 x3 x4 x5 (ix2 p q) = Cert.Spec.bnReluScale X μ v γ β n (ix2 r q) := by
  unfold k4_pay1
  rw [Cert.Spec.bnReluScale_ix2, mulf_apply, r4_bcastCol_apply, shapeCast_self, maximumf_apply, broadcast_apply, addf_apply,
    mulf_apply, mulf_apply, subf_apply, shapeCast_self, broadcastTo_1b_ab_apply, shapeCast_self,
    broadcastTo_1b_ab_apply, r4_rsqrt_apply, addf_apply, shapeCast_self, broadcast_apply,
    broadcastTo_1b_ab_apply, shapeCast_self, broadcastTo_1b_ab_apply, shapeCast_self, h0, h1, h2, h3, h4, h5]
  rfl

/-- Every window's block index at point t: block row t for the row-tiled windows, the one block for the four rows. -/
theorem r4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- The feature block at point t holds, at its row p, row 5000·t + p of the array. -/
theorem r4_blk0 (V : (c : Dev nD) → (b : Ref sig .tc) → Buf (Elt Ideal) ((c : Thread nD τ).loc b)) (c : Dev nD)
    (t : Fin cfg4.N) (p : Fin 5000) (q : Fin 128) (r : Fin 50000) (hr : r.val = t.val * 5000 + p.val) :
    iblk4 (F := Ideal) V c 0 t (ix2 p q) = V c (Pipeline.arrRef spec4 0) (ix2 r q) := by
  obtain ⟨e0, e1, e2, e3, e4, e5, e6, e7, e8, e9, e10, e11, e12, e13⟩ := r4_idx t
  show V c (Pipeline.arrRef spec4 0) (((cfg4.win 0).blk t).view.emb (ix2 p q)) = _
  refine congrArg _ ?_
  funext a; apply Fin.ext
  match a with
  | ⟨0, _⟩ => show win4_0.index t (0 : Fin 2) * 5000 + 1 * p.val = r.val; omega
  | ⟨1, _⟩ => show win4_0.index t (1 : Fin 2) * 128 + 1 * q.val = q.val; omega

/-- The block of the row μ at every point is the whole row. -/
theorem r4_blk1 (V : (c : Dev nD) → (b : Ref sig .tc) → Buf (Elt Ideal) ((c : Thread nD τ).loc b)) (c : Dev nD)
    (t : Fin cfg4.N) (q : Fin 128) :
    iblk4 (F := Ideal) V c 1 t (ix2 (0 : Fin 1) q) = V c (Pipeline.arrRef spec4 1) (ix2 (0 : Fin 1) q) := by
  obtain ⟨e0, e1, e2, e3, e4, e5, e6, e7, e8, e9, e10, e11, e12, e13⟩ := r4_idx t
  show V c (Pipeline.arrRef spec4 1) (((cfg4.win 1).blk t).view.emb (ix2 (0 : Fin 1) q)) = _
  refine congrArg _ ?_
  funext a; apply Fin.ext
  match a with
  | ⟨0, _⟩ => show win4_1.index t (0 : Fin 2) * 1 + 1 * 0 = 0; omega
  | ⟨1, _⟩ => show win4_1.index t (1 : Fin 2) * 128 + 1 * q.val = q.val; omega

/-- The block of the row v at every point is the whole row. -/
theorem r4_blk2 (V : (c : Dev nD) → (b : Ref sig .tc) → Buf (Elt Ideal) ((c : Thread nD τ).loc b)) (c : Dev nD)
    (t : Fin cfg4.N) (q : Fin 128) :
    iblk4 (F := Ideal) V c 2 t (ix2 (0 : Fin 1) q) = V c (Pipeline.arrRef spec4 2) (ix2 (0 : Fin 1) q) := by
  obtain ⟨e0, e1, e2, e3, e4, e5, e6, e7, e8, e9, e10, e11, e12, e13⟩ := r4_idx t
  show V c (Pipeline.arrRef spec4 2) (((cfg4.win 2).blk t).view.emb (ix2 (0 : Fin 1) q)) = _
  refine congrArg _ ?_
  funext a; apply Fin.ext
  match a with
  | ⟨0, _⟩ => show win4_2.index t (0 : Fin 2) * 1 + 1 * 0 = 0; omega
  | ⟨1, _⟩ => show win4_2.index t (1 : Fin 2) * 128 + 1 * q.val = q.val; omega

/-- The block of the row γ at every point is the whole row. -/
theorem r4_blk3 (V : (c : Dev nD) → (b : Ref sig .tc) → Buf (Elt Ideal) ((c : Thread nD τ).loc b)) (c : Dev nD)
    (t : Fin cfg4.N) (q : Fin 128) :
    iblk4 (F := Ideal) V c 3 t (ix2 (0 : Fin 1) q) = V c (Pipeline.arrRef spec4 3) (ix2 (0 : Fin 1) q) := by
  obtain ⟨e0, e1, e2, e3, e4, e5, e6, e7, e8, e9, e10, e11, e12, e13⟩ := r4_idx t
  show V c (Pipeline.arrRef spec4 3) (((cfg4.win 3).blk t).view.emb (ix2 (0 : Fin 1) q)) = _
  refine congrArg _ ?_
  funext a; apply Fin.ext
  match a with
  | ⟨0, _⟩ => show win4_3.index t (0 : Fin 2) * 1 + 1 * 0 = 0; omega
  | ⟨1, _⟩ => show win4_3.index t (1 : Fin 2) * 128 + 1 * q.val = q.val; omega

/-- The block of the row β at every point is the whole row. -/
theorem r4_blk4 (V : (c : Dev nD) → (b : Ref sig .tc) → Buf (Elt Ideal) ((c : Thread nD τ).loc b)) (c : Dev nD)
    (t : Fin cfg4.N) (q : Fin 128) :
    iblk4 (F := Ideal) V c 4 t (ix2 (0 : Fin 1) q) = V c (Pipeline.arrRef spec4 4) (ix2 (0 : Fin 1) q) := by
  obtain ⟨e0, e1, e2, e3, e4, e5, e6, e7, e8, e9, e10, e11, e12, e13⟩ := r4_idx t
  show V c (Pipeline.arrRef spec4 4) (((cfg4.win 4).blk t).view.emb (ix2 (0 : Fin 1) q)) = _
  refine congrArg _ ?_
  funext a; apply Fin.ext
  match a with
  | ⟨0, _⟩ => show win4_4.index t (0 : Fin 2) * 1 + 1 * 0 = 0; omega
  | ⟨1, _⟩ => show win4_4.index t (1 : Fin 2) * 128 + 1 * q.val = q.val; omega

/-- The weight column's block at point t holds, at its row p, row 5000·t + p of the column. -/
theorem r4_blk5 (V : (c : Dev nD) → (b : Ref sig .tc) → Buf (Elt Ideal) ((c : Thread nD τ).loc b)) (c : Dev nD)
    (t : Fin cfg4.N) (p : Fin 5000) (r : Fin 50000) (hr : r.val = t.val * 5000 + p.val) :
    iblk4 (F := Ideal) V c 5 t (ix2 p (0 : Fin 1)) = V c (Pipeline.arrRef spec4 5) (ix2 r (0 : Fin 1)) := by
  obtain ⟨e0, e1, e2, e3, e4, e5, e6, e7, e8, e9, e10, e11, e12, e13⟩ := r4_idx t
  show V c (Pipeline.arrRef spec4 5) (((cfg4.win 5).blk t).view.emb (ix2 p (0 : Fin 1))) = _
  refine congrArg _ ?_
  funext a; apply Fin.ext
  match a with
  | ⟨0, _⟩ => show win4_5.index t (0 : Fin 2) * 5000 + 1 * p.val = r.val; omega
  | ⟨1, _⟩ => show win4_5.index t (1 : Fin 2) * 1 + 1 * 0 = 0; omega

/-- Entry (p,q) of the output block at point t sits at row 5000·t + p, column q of the output array. -/
theorem r4_embOut (t : Fin cfg4.N) (p : Fin 5000) (q : Fin 128) (r : Fin 50000) (hr : r.val = t.val * 5000 + p.val) :
    ((cfg4.win 6).blk t).view.emb (ix2 p q) = ix2 r q := by
  obtain ⟨e0, e1, e2, e3, e4, e5, e6, e7, e8, e9, e10, e11, e12, e13⟩ := r4_idx t
  funext a; apply Fin.ext
  match a with
  | ⟨0, _⟩ => show win4_6.index t (0 : Fin 2) * 5000 + 1 * p.val = r.val; omega
  | ⟨1, _⟩ => show win4_6.index t (1 : Fin 2) * 128 + 1 * q.val = q.val; omega

set_option maxHeartbeats 1000000 in
/-- What point t writes back is rows 5000·t … 5000·t+4999 of the whole-array stage. -/
theorem r4_flushed (V : (c : Dev nD) → (b : Ref sig .tc) → Buf (Elt Ideal) ((c : Thread nD τ).loc b)) (c : Dev nD)
    (t : Fin cfg4.N) :
    (dat4 (F := Ideal) V c).flushed 6 t
      = ((cfg4.win 6).blk t).view.read (Elt Ideal)
          (Cert.Spec.bnReluScale (M := 50000) (N := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  show (cfg4.win 6).cut (grid4.coords t) ((dat4 V c).after 6 t) = _
  rw [after4_6]
  unfold out4_6
  rw [View.canon_unit_zero r4_hz]
  simp only [View.ld_unit_zero (S := S5000x128) r4_hz, View.ld_unit_zero (S := S1x128) r4_hz, View.ld_unit_zero (S := S5000x1) r4_hz]
  have hN : grid4.N = 10 := N_4
  have ht : t.val < 10 := hN ▸ t.isLt
  funext j
  obtain ⟨p, q, rfl⟩ : ∃ (p : Fin 5000) (q : Fin 128), j = ix2 p q := ⟨j 0, j 1, eq_ix2 j⟩
  have hr : t.val * 5000 + p.val < 50000 := by have := p.isLt; omega
  show k4_pay1 (F := Ideal) (iblk4 V c 0 t) (iblk4 V c 1 t) (iblk4 V c 2 t) (iblk4 V c 3 t) (iblk4 V c 4 t) (iblk4 V c 5 t) (ix2 p q)
    = Cert.Spec.bnReluScale (M := 50000) (N := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))
        (((cfg4.win 6).blk t).view.emb (ix2 p q))
  rw [r4_embOut t p q (⟨t.val * 5000 + p.val, hr⟩ : Fin 50000) rfl]
  exact r4_point (V c (Pipeline.arrRef spec4 0)) (V c (Pipeline.arrRef spec4 1))
    (V c (Pipeline.arrRef spec4 2)) (V c (Pipeline.arrRef spec4 3)) (V c (Pipeline.arrRef spec4 4)) (V c (Pipeline.arrRef spec4 5))
    (iblk4 V c 0 t) (iblk4 V c 1 t) (iblk4 V c 2 t) (iblk4 V c 3 t) (iblk4 V c 4 t) (iblk4 V c 5 t) p q
    (⟨t.val * 5000 + p.val, hr⟩ : Fin 50000) (r4_blk0 V c t p q (⟨t.val * 5000 + p.val, hr⟩ : Fin 50000) rfl) (r4_blk1 V c t q) (r4_blk2 V c t q) (r4_blk3 V c t q)
    (r4_blk4 V c t q) (r4_blk5 V c t p (⟨t.val * 5000 + p.val, hr⟩ : Fin 50000) rfl)

/-- A row-and-column index is in point t's output block exactly when each coordinate is in the block's range. -/
theorem r4_mem_blk (t : Fin cfg4.N) (i : S50000x128.Idx) :
    i ∈ ((cfg4.win 6).blk t).view.set
      ↔ ∀ a : Fin 2, win4_6.index t a * S5000x128.size a ≤ (i a).val
          ∧ (i a).val < win4_6.index t a * S5000x128.size a + S5000x128.size a := by
  show i ∈ ((View.whole main_v50).slice (win4_6.rect t)).set ↔ _
  rw [View.set_slice_whole, Rect.mem_set_unit]
  exact Iff.rfl

/-- Row r lies in the block of point r / 5000: the ten blocks cover the array. -/
theorem r4_cover (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  have hN : grid4.N = 10 := N_4
  have hlt : (i 0).val / 5000 < grid4.N := by rw [hN]; omega
  obtain ⟨e0, e1, e2, e3, e4, e5, e6, e7, e8, e9, e10, e11, e12, e13⟩ := r4_idx ⟨(i 0).val / 5000, hlt⟩
  refine ⟨⟨(i 0).val / 5000, hlt⟩, flush4_6 _, ?_⟩
  rw [r4_mem_blk]
  intro a
  match a with
  | ⟨0, _⟩ =>
    show win4_6.index ⟨(i 0).val / 5000, hlt⟩ (0 : Fin 2) * 5000 ≤ (i 0).val
      ∧ (i 0).val < win4_6.index ⟨(i 0).val / 5000, hlt⟩ (0 : Fin 2) * 5000 + 5000
    rw [e12]
    show (i 0).val / 5000 * 5000 ≤ (i 0).val ∧ (i 0).val < (i 0).val / 5000 * 5000 + 5000
    omega
  | ⟨1, _⟩ =>
    show win4_6.index ⟨(i 0).val / 5000, hlt⟩ (1 : Fin 2) * 128 ≤ (i 1).val
      ∧ (i 1).val < win4_6.index ⟨(i 0).val / 5000, hlt⟩ (1 : Fin 2) * 128 + 128
    rw [e13]
    omega

theorem final4 (V : (c : Dev nD) → (b : Ref sig .tc) → Buf (Elt Ideal) ((c : Thread nD τ).loc b)) (c : Dev nD) :
    (dat4 (F := Ideal) V c).arrAt 6 cfg4.N
      = Cert.Spec.bnReluScale (M := 50000) (N := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 (F := Ideal) V c).arrAt_eq_of_cover 6
    (Cert.Spec.bnReluScale (M := 50000) (N := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)))
    (fun t _ => r4_flushed V c t) r4_cover

end Cert.KernelIdeal.Reg

end
-- ==== Proof.Reg5.lean ====
/-
  Region 5: rows scaled by the degree weights, and the column sums and column sums of squares of the result, accumulated over the ten blocks of 5000 rows.
  Stated for the whole arrays: what the region's output arrays hold when it ends, as functions of the arrays it is entered with.

  The region visits ten points; at point t it loads rows 5000·t … 5000·t + 4999 of the features X and of the weight
  column n, writes back the same rows of x = X · n (each row times its weight), and adds that block's column sums
  Σ_p x(p,d) and column sums of squares Σ_p x(p,d)² to two one-row accumulators, which are set to zero at the first
  point and written back once, after the last. So the first output is x, entry by entry; and by induction on the point
  the accumulators hold, after point t, the sums over the rows of the first t + 1 blocks, hence after the last point
  the sums over all 50000 rows: a sum over the rows is the sum over the blocks of each block's sum.
-/
import proofs.«113157_j3616362463713_1_alg».proof.Proof.Gen.KernelIdeal.Frame
import proofs.«113157_j3616362463713_1_alg».proof.Proof.Spec
import proofs.«113157_j3616362463713_1_alg».proof.Proof.LibBlockSum
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Reg

open Idealize.ShloMosaic Idealize.ShloMosaic.TcCoe Idealize.SL.Sem Cert.KernelIdeal Cert.KernelIdeal.Gen
open Idealize.ShloMosaic.ValueIdx
open Idealize.ShloMosaic.Pipeline (Dat)

section Pieces

variable {F : FTy → Type} [FloatOps F]

/-- The zero offsets of a store or load of a whole block. -/
theorem r5_hz : (![0, 0] : Fin 2 → Nat) = fun _ => 0 := funext fun a => by fin_cases a <;> rfl

/-! ## What each case of the body leaves in each output block, as the body's arithmetic of the blocks it loads -/

/-- At the first point the scaled rows are the product of the two loaded blocks. -/
theorem r5_out_A_2 (c : Dev nD) (i : grid5.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond5_0 i) (x0 : Vec F S5000x128 .f32) (x1 : Vec F S5000x1 .f32) :
    out5_A_2 c i a1 h1 a2 h2 a3 h3 a4 h4 a5 h5 hc x0 x1 = k5_pay3 x0 x1 := by
  unfold out5_A_2
  rw [View.read_writes_eq_canon _ _ _ (cover5_A_2 c i a1 h1 a2 h2 a3 h3 a4 h4 a5 h5 hc x0 x1)]
  unfold kernelRun5_A
  dsimp only
  sl_unfold_words
  rw [View.canon_unit_zero r5_hz]
  simp only [View.readAt_eq_ld, h1.read_unread, h2.read_unread, h4.read_unread, h5.read_unread,
    View.ld_unit_zero (S := S5000x128) r5_hz, View.ld_unit_zero (S := S5000x1) r5_hz, View.ld_unit_zero (S := S1x128) r5_hz]

/-- At the first point the sum accumulator is first set to zero, read back, and the block's column sums added. -/
theorem r5_out_A_3 (c : Dev nD) (i : grid5.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond5_0 i) (x0 : Vec F S5000x128 .f32) (x1 : Vec F S5000x1 .f32) :
    out5_A_3 c i a1 h1 a2 h2 a3 h3 a4 h4 a5 h5 hc x0 x1 = k5_pay4 x0 x1 (k5_pay1 (F := F)) := by
  unfold out5_A_3
  rw [View.read_writes_eq_canon _ _ _ (cover5_A_3 c i a1 h1 a2 h2 a3 h3 a4 h4 a5 h5 hc x0 x1)]
  unfold kernelRun5_A
  dsimp only
  sl_unfold_words
  rw [View.canon_cons_unit_zero (S := S1x128) r5_hz, View.readCov_unit_zero (S := S1x128) _ r5_hz]
  simp only [View.readAt_eq_ld, h1.read_unread, h2.read_unread, h4.read_unread, h5.read_unread,
    View.ld_unit_zero (S := S5000x128) r5_hz, View.ld_unit_zero (S := S5000x1) r5_hz, View.ld_unit_zero (S := S1x128) r5_hz]

/-- At the first point the sum-of-squares accumulator likewise starts from zero. -/
theorem r5_out_A_4 (c : Dev nD) (i : grid5.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond5_0 i) (x0 : Vec F S5000x128 .f32) (x1 : Vec F S5000x1 .f32) :
    out5_A_4 c i a1 h1 a2 h2 a3 h3 a4 h4 a5 h5 hc x0 x1 = k5_pay5 x0 x1 (k5_pay2 (F := F)) := by
  unfold out5_A_4
  rw [View.read_writes_eq_canon _ _ _ (cover5_A_4 c i a1 h1 a2 h2 a3 h3 a4 h4 a5 h5 hc x0 x1)]
  unfold kernelRun5_A
  dsimp only
  sl_unfold_words
  rw [View.canon_cons_unit_zero (S := S1x128) r5_hz, View.readCov_unit_zero (S := S1x128) _ r5_hz]
  simp only [View.readAt_eq_ld, h1.read_unread, h2.read_unread, h4.read_unread, h5.read_unread,
    View.ld_unit_zero (S := S5000x128) r5_hz, View.ld_unit_zero (S := S5000x1) r5_hz, View.ld_unit_zero (S := S1x128) r5_hz]

/-- At a later point the scaled rows are again the product of the two loaded blocks. -/
theorem r5_out_B_2 (c : Dev nD) (i : grid5.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond5_0 i) (x0 : Vec F S5000x128 .f32) (x1 : Vec F S5000x1 .f32) (xo3 xo4 : Vec F S1x128 .f32) :
    out5_B_2 c i a1 h1 a2 h2 a3 h3 a4 h4 a5 h5 hc x0 x1 xo3 xo4 = k5_pay3 x0 x1 := by
  unfold out5_B_2
  rw [View.read_writes_eq_canon _ _ _ (cover5_B_2 c i a1 h1 a2 h2 a3 h3 a4 h4 a5 h5 hc x0 x1 xo3 xo4)]
  unfold kernelRun5_B
  dsimp only
  sl_unfold_words
  rw [View.canon_unit_zero r5_hz]
  simp only [View.readAt_eq_ld, h1.read_unread, h2.read_unread, h4.read_unread, h5.read_unread,
    View.ld_unit_zero (S := S5000x128) r5_hz, View.ld_unit_zero (S := S5000x1) r5_hz, View.ld_unit_zero (S := S1x128) r5_hz]

/-- At a later point the block's column sums are added to what the accumulator held. -/
theorem r5_out_B_3 (c : Dev nD) (i : grid5.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond5_0 i) (x0 : Vec F S5000x128 .f32) (x1 : Vec F S5000x1 .f32) (xo3 xo4 : Vec F S1x128 .f32) :
    out5_B_3 c i a1 h1 a2 h2 a3 h3 a4 h4 a5 h5 hc x0 x1 xo3 xo4 = k5_pay4 x0 x1 xo3 := by
  unfold out5_B_3
  rw [View.read_writes_eq_canon _ _ _ (cover5_B_3 c i a1 h1 a2 h2 a3 h3 a4 h4 a5 h5 hc x0 x1 xo3 xo4)]
  unfold kernelRun5_B
  dsimp only
  sl_unfold_words
  rw [View.canon_unit_zero r5_hz]
  simp only [View.readAt_eq_ld, h1.read_unread, h2.read_unread, h4.read_unread, h5.read_unread,
    View.ld_unit_zero (S := S5000x128) r5_hz, View.ld_unit_zero (S := S5000x1) r5_hz, View.ld_unit_zero (S := S1x128) r5_hz]

/-- At a later point the block's column sums of squares are added to what the accumulator held. -/
theorem r5_out_B_4 (c : Dev nD) (i : grid5.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond5_0 i) (x0 : Vec F S5000x128 .f32) (x1 : Vec F S5000x1 .f32) (xo3 xo4 : Vec F S1x128 .f32) :
    out5_B_4 c i a1 h1 a2 h2 a3 h3 a4 h4 a5 h5 hc x0 x1 xo3 xo4 = k5_pay5 x0 x1 xo4 := by
  unfold out5_B_4
  rw [View.read_writes_eq_canon _ _ _ (cover5_B_4 c i a1 h1 a2 h2 a3 h3 a4 h4 a5 h5 hc x0 x1 xo3 xo4)]
  unfold kernelRun5_B
  dsimp only
  sl_unfold_words
  rw [View.canon_unit_zero r5_hz]
  simp only [View.readAt_eq_ld, h1.read_unread, h2.read_unread, h4.read_unread, h5.read_unread,
    View.ld_unit_zero (S := S5000x128) r5_hz, View.ld_unit_zero (S := S5000x1) r5_hz, View.ld_unit_zero (S := S1x128) r5_hz]

end Pieces

section Values

/-! ## The body's arithmetic read at an entry, on the extended reals -/

/-- A column [a,1] repeated along b columns reads, at (p, d), the column at p. -/
theorem r5_bcol {α : Type} {a b : ℕ} (v : (⟨2, ![a, 1]⟩ : Shape).Idx → α) (h : (⟨2, ![a, 1]⟩ : Shape).Broadcasts ⟨2, ![a, b]⟩)
    (p : Fin a) (d : Fin b) : broadcastTo ⟨2, ![a, b]⟩ v h (ix2 p d) = v (ix2 p (0 : Fin 1)) := by
  refine broadcastTo_apply v h (ix2 p d) (ix2 p (0 : Fin 1)) fun ax => ?_
  match ax with
  | ⟨0, _⟩ =>
    show p.val = if a = 1 then 0 else p.val
    split
    · have := p.isLt; omega
    · rfl
  | ⟨1, _⟩ => rfl

/-- The reduced index d with row k put back is (k, d). -/
theorem r5_lift {m n : ℕ} (h : (⟨2, ![m, n]⟩ : Shape).Reduces [0] (⟨1, ![n]⟩ : Shape)) (d : Fin n)
    (k : Fin ((⟨2, ![m, n]⟩ : Shape).size 0)) : h.lift (ix1 d) k = ix2 (⟨k.val, k.isLt⟩ : Fin m) d := by
  funext ax; apply Fin.ext
  fin_cases ax <;> rfl

/-- The sum over the rows of a block, read at column d. -/
theorem r5_rowsum (src : FVec Ideal S5000x128 .f32) (d : Fin 128) :
    multiReduction (F := Ideal) .add [0] S128 src 0x00000000#32 reduces_S5000x128_S128 (.inl rfl) rfl (ix1 d)
      = ∑ k : Fin 5000, src (ix2 k d) := by
  refine (Ideal.multiReduction_add_single src 0x00000000#32 reduces_S5000x128_S128 (.inl rfl) rfl (ix1 d)).trans ?_
  exact Finset.sum_congr rfl fun k _ => congrArg src (r5_lift reduces_S5000x128_S128 d k)

/-- The scaled block at (p, d): the entry times its row's weight. -/
theorem r5_pay3_apply (x0 : FVec Ideal S5000x128 .f32) (x1 : FVec Ideal S5000x1 .f32) (p : Fin 5000) (d : Fin 128) :
    k5_pay3 (F := Ideal) x0 x1 (ix2 p d) = x0 (ix2 p d) * x1 (ix2 p (0 : Fin 1)) := by
  show mulf (shapeCast S5000x128 x0 shapeCasts_S5000x128_S5000x128)
      (broadcastTo S5000x128 (shapeCast S5000x1 x1 shapeCasts_S5000x1_S5000x1) broadcasts_S5000x1_S5000x128) (ix2 p d) = _
  rw [mulf_apply, shapeCast_self, shapeCast_self, r5_bcol]

/-- The zero block reads the real number zero. -/
theorem r5_pay1_apply (u : Fin 1) (d : Fin 128) : k5_pay1 (F := Ideal) (ix2 u d) = 0 := by
  show broadcast S1x128 (Scalar.ofBits (F := Ideal) .f32 0x00000000#32) (ix2 u d) = 0
  rw [broadcast_apply]
  exact Ideal.ofBits_zero_f32

theorem r5_pay2_apply (u : Fin 1) (d : Fin 128) : k5_pay2 (F := Ideal) (ix2 u d) = 0 := by
  show broadcast S1x128 (Scalar.ofBits (F := Ideal) .f32 0x00000000#32) (ix2 u d) = 0
  rw [broadcast_apply]
  exact Ideal.ofBits_zero_f32

/-- The sum accumulator's new value at column d: what it held plus the block's column sum. -/
theorem r5_pay4_apply (x0 : FVec Ideal S5000x128 .f32) (x1 : FVec Ideal S5000x1 .f32) (acc : FVec Ideal S1x128 .f32)
    (u : Fin 1) (d : Fin 128) :
    k5_pay4 (F := Ideal) x0 x1 acc (ix2 u d)
      = acc (ix2 u d) + ∑ k : Fin 5000, x0 (ix2 k d) * x1 (ix2 k (0 : Fin 1)) := by
  show addf (shapeCast S1x128 acc shapeCasts_S1x128_S1x128)
      (shapeCast S1x128 (multiReduction (F := Ideal) .add [0] S128 (k5_pay3 x0 x1) 0x00000000#32 reduces_S5000x128_S128 (.inl rfl) rfl)
        shapeCasts_S128_S1x128) (ix2 u d) = _
  rw [addf_apply, shapeCast_self, shapeCast_a_1a_apply]
  refine congrArg (fun z => acc (ix2 u d) + z) ?_
  refine (r5_rowsum (k5_pay3 x0 x1) d).trans ?_
  exact Finset.sum_congr rfl fun k _ => r5_pay3_apply x0 x1 k d

/-- The sum-of-squares accumulator's new value at column d: what it held plus the block's column sum of squares. -/
theorem r5_pay5_apply (x0 : FVec Ideal S5000x128 .f32) (x1 : FVec Ideal S5000x1 .f32) (acc : FVec Ideal S1x128 .f32)
    (u : Fin 1) (d : Fin 128) :
    k5_pay5 (F := Ideal) x0 x1 acc (ix2 u d)
      = acc (ix2 u d) + ∑ k : Fin 5000, (x0 (ix2 k d) * x1 (ix2 k (0 : Fin 1))) * (x0 (ix2 k d) * x1 (ix2 k (0 : Fin 1))) := by
  show addf (shapeCast S1x128 acc shapeCasts_S1x128_S1x128)
      (shapeCast S1x128 (multiReduction (F := Ideal) .add [0] S128 (mulf (k5_pay3 x0 x1) (k5_pay3 x0 x1)) 0x00000000#32 reduces_S5000x128_S128 (.inl rfl) rfl)
        shapeCasts_S128_S1x128) (ix2 u d) = _
  rw [addf_apply, shapeCast_self, shapeCast_a_1a_apply]
  refine congrArg (fun z => acc (ix2 u d) + z) ?_
  refine (r5_rowsum (mulf (k5_pay3 x0 x1) (k5_pay3 x0 x1)) d).trans ?_
  exact Finset.sum_congr rfl fun k _ => by rw [mulf_apply, r5_pay3_apply]

/-! ## The blocks: block t of a row-tiled array is its rows 5000·t … 5000·t + 4999 -/

/-- The printed index maps over the grid: the row-tiled windows' block index is the point, the accumulators' is zero. -/
theorem r5_idx : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Row p of block t is row 5000·t + p of the array. -/
theorem r5_row_lt (t : Fin cfg5.N) (p : Fin 5000) : t.val * 5000 + p.val < 50000 := by
  have hN : t.val < 10 := lt_of_lt_of_eq t.isLt (show cfg5.N = 10 from N_5)
  have := p.isLt
  omega

variable (V : (c : Dev nD) → (b : Ref sig .tc) → Buf (Elt Ideal) ((c : Thread nD τ).loc b))

/-- The features' block at point t, entry (p, d): the array at (5000·t + p, d). -/
theorem r5_iblk0_apply (c : Dev nD) (t : Fin cfg5.N) (p : Fin 5000) (d : Fin 128) :
    iblk5 (F := Ideal) V c 0 t (ix2 p d)
      = V c (Pipeline.arrRef spec5 0) (ix2 (⟨t.val * 5000 + p.val, r5_row_lt t p⟩ : Fin 50000) d) := by
  show V c (Pipeline.arrRef spec5 0) (((cfg5.win 0).blk t).view.emb (ix2 p d)) = _
  refine congrArg (V c (Pipeline.arrRef spec5 0)) (funext fun a => Fin.ext ?_)
  obtain ⟨e0, e1, -⟩ := r5_idx t
  match a with
  | ⟨0, _⟩ => show win5_0.index t (0 : Fin 2) * 5000 + 1 * p.val = t.val * 5000 + p.val; rw [e0]; omega
  | ⟨1, _⟩ => show win5_0.index t (1 : Fin 2) * 128 + 1 * d.val = d.val; rw [e1]; omega

/-- The weights' block at point t, entry (p, 0): the column at row 5000·t + p. -/
theorem r5_iblk1_apply (c : Dev nD) (t : Fin cfg5.N) (p : Fin 5000) :
    iblk5 (F := Ideal) V c 1 t (ix2 p (0 : Fin 1))
      = V c (Pipeline.arrRef spec5 1) (ix2 (⟨t.val * 5000 + p.val, r5_row_lt t p⟩ : Fin 50000) (0 : Fin 1)) := by
  show V c (Pipeline.arrRef spec5 1) (((cfg5.win 1).blk t).view.emb (ix2 p (0 : Fin 1))) = _
  refine congrArg (V c (Pipeline.arrRef spec5 1)) (funext fun a => Fin.ext ?_)
  obtain ⟨-, -, e0, e1, -⟩ := r5_idx t
  match a with
  | ⟨0, _⟩ => show win5_1.index t (0 : Fin 2) * 5000 + 1 * p.val = t.val * 5000 + p.val; rw [e0]; omega
  | ⟨1, _⟩ => show win5_1.index t (1 : Fin 2) * 1 + 1 * 0 = 0; rw [e1]

/-! ## What the outputs hold after each point -/

/-- After every point the scaled-rows block is the product of that point's two input blocks. -/
theorem r5_outs_x (c : Dev nD) (t : Fin cfg5.N) :
    (outsAt5 (F := Ideal) V c t.val t.isLt).1 = k5_pay3 (iblk5 V c 0 t) (iblk5 V c 1 t) := by
  by_cases h0 : t.val % 10 = 0
  · rw [outsAt5_A V c t h0]; dsimp only
    exact r5_out_A_2 (F := Ideal) c (grid5.coords t) (ms5_0 t) (hs5_0 t) (ms5_1 t) (hs5_1 t) (ms5_2 t) (hs5_2 t) (ms5_3 t) (hs5_3 t) (ms5_4 t) (hs5_4 t) ((hcond5_0 t).mpr h0) (iblk5 V c 0 t) (iblk5 V c 1 t)
  · rw [outsAt5_B V c t h0]; dsimp only
    exact r5_out_B_2 (F := Ideal) c (grid5.coords t) (ms5_0 t) (hs5_0 t) (ms5_1 t) (hs5_1 t) (ms5_2 t) (hs5_2 t) (ms5_3 t) (hs5_3 t) (ms5_4 t) (hs5_4 t) (fun h => h0 ((hcond5_0 t).mp h)) (iblk5 V c 0 t) (iblk5 V c 1 t)
      (outsAt5 V c (t.val - 1) (Nat.lt_of_le_of_lt (Nat.sub_le _ _) t.isLt)).2.1 (outsAt5 V c (t.val - 1) (Nat.lt_of_le_of_lt (Nat.sub_le _ _) t.isLt)).2.2

/-- After the first point the sum accumulator is the zero block plus that point's column sums. -/
theorem r5_outs_s_A (c : Dev nD) (t : Fin cfg5.N) (h0 : t.val % 10 = 0) :
    (outsAt5 (F := Ideal) V c t.val t.isLt).2.1 = k5_pay4 (iblk5 V c 0 t) (iblk5 V c 1 t) (k5_pay1 (F := Ideal)) := by
  rw [outsAt5_A V c t h0]; dsimp only
  exact r5_out_A_3 (F := Ideal) c (grid5.coords t) (ms5_0 t) (hs5_0 t) (ms5_1 t) (hs5_1 t) (ms5_2 t) (hs5_2 t) (ms5_3 t) (hs5_3 t) (ms5_4 t) (hs5_4 t) ((hcond5_0 t).mpr h0) (iblk5 V c 0 t) (iblk5 V c 1 t)

/-- After a later point the sum accumulator is what the point before left plus this point's column sums. -/
theorem r5_outs_s_B (c : Dev nD) (t : Fin cfg5.N) (h0 : ¬t.val % 10 = 0) :
    (outsAt5 (F := Ideal) V c t.val t.isLt).2.1 = k5_pay4 (iblk5 V c 0 t) (iblk5 V c 1 t) (outsAt5 V c (t.val - 1) (Nat.lt_of_le_of_lt (Nat.sub_le _ _) t.isLt)).2.1 := by
  rw [outsAt5_B V c t h0]; dsimp only
  exact r5_out_B_3 (F := Ideal) c (grid5.coords t) (ms5_0 t) (hs5_0 t) (ms5_1 t) (hs5_1 t) (ms5_2 t) (hs5_2 t) (ms5_3 t) (hs5_3 t) (ms5_4 t) (hs5_4 t) (fun h => h0 ((hcond5_0 t).mp h)) (iblk5 V c 0 t) (iblk5 V c 1 t)
    (outsAt5 V c (t.val - 1) (Nat.lt_of_le_of_lt (Nat.sub_le _ _) t.isLt)).2.1 (outsAt5 V c (t.val - 1) (Nat.lt_of_le_of_lt (Nat.sub_le _ _) t.isLt)).2.2

/-- After the first point the sum-of-squares accumulator is the zero block plus that point's column sums of squares. -/
theorem r5_outs_ss_A (c : Dev nD) (t : Fin cfg5.N) (h0 : t.val % 10 = 0) :
    (outsAt5 (F := Ideal) V c t.val t.isLt).2.2 = k5_pay5 (iblk5 V c 0 t) (iblk5 V c 1 t) (k5_pay2 (F := Ideal)) := by
  rw [outsAt5_A V c t h0]; dsimp only
  exact r5_out_A_4 (F := Ideal) c (grid5.coords t) (ms5_0 t) (hs5_0 t) (ms5_1 t) (hs5_1 t) (ms5_2 t) (hs5_2 t) (ms5_3 t) (hs5_3 t) (ms5_4 t) (hs5_4 t) ((hcond5_0 t).mpr h0) (iblk5 V c 0 t) (iblk5 V c 1 t)

/-- After a later point the sum-of-squares accumulator is what the point before left plus this point's sums of squares. -/
theorem r5_outs_ss_B (c : Dev nD) (t : Fin cfg5.N) (h0 : ¬t.val % 10 = 0) :
    (outsAt5 (F := Ideal) V c t.val t.isLt).2.2 = k5_pay5 (iblk5 V c 0 t) (iblk5 V c 1 t) (outsAt5 V c (t.val - 1) (Nat.lt_of_le_of_lt (Nat.sub_le _ _) t.isLt)).2.2 := by
  rw [outsAt5_B V c t h0]; dsimp only
  exact r5_out_B_4 (F := Ideal) c (grid5.coords t) (ms5_0 t) (hs5_0 t) (ms5_1 t) (hs5_1 t) (ms5_2 t) (hs5_2 t) (ms5_3 t) (hs5_3 t) (ms5_4 t) (hs5_4 t) (fun h => h0 ((hcond5_0 t).mp h)) (iblk5 V c 0 t) (iblk5 V c 1 t)
    (outsAt5 V c (t.val - 1) (Nat.lt_of_le_of_lt (Nat.sub_le _ _) t.isLt)).2.1 (outsAt5 V c (t.val - 1) (Nat.lt_of_le_of_lt (Nat.sub_le _ _) t.isLt)).2.2

/-- The rows scaled by their weights, as a function of the two arrays the region is entered with. -/
abbrev r5_x (c : Dev nD) : Cert.Spec.Mat 50000 128 :=
  Cert.Spec.rowScale (M := 50000) (N := 128) (V c (Pipeline.arrRef spec5 0)) (V c (Pipeline.arrRef spec5 1))

/-- Ten blocks of 5000 rows are the 50000 rows. -/
theorem r5_hNB : cfg5.N * 5000 = 50000 := by rw [show cfg5.N = 10 from N_5]

/-- The column sum of block t of the scaled rows, from two blocks that hold rows 5000·t … of the two arrays. -/
theorem r5_blocksum (c : Dev nD) (t : Fin cfg5.N) (d : Fin 128) (x0 : FVec Ideal S5000x128 .f32) (x1 : FVec Ideal S5000x1 .f32)
    (h0 : ∀ (k : Fin 5000) (d : Fin 128), x0 (ix2 k d)
      = V c (Pipeline.arrRef spec5 0) (ix2 (⟨t.val * 5000 + k.val, r5_row_lt t k⟩ : Fin 50000) d))
    (h1 : ∀ k : Fin 5000, x1 (ix2 k (0 : Fin 1))
      = V c (Pipeline.arrRef spec5 1) (ix2 (⟨t.val * 5000 + k.val, r5_row_lt t k⟩ : Fin 50000) (0 : Fin 1))) :
    ∑ k : Fin 5000, x0 (ix2 k d) * x1 (ix2 k (0 : Fin 1))
      = ∑ k : Fin 5000, r5_x V c (ix2 (⟨t.val * 5000 + k.val, Cert.LibBlockSum.row_lt_of_eq r5_hNB t k⟩ : Fin 50000) d) :=
  Finset.sum_congr rfl fun k _ => by rw [h0, h1]; rfl

/-- The column sum of squares of block t of the scaled rows, likewise. -/
theorem r5_blocksumsq (c : Dev nD) (t : Fin cfg5.N) (d : Fin 128) (x0 : FVec Ideal S5000x128 .f32) (x1 : FVec Ideal S5000x1 .f32)
    (h0 : ∀ (k : Fin 5000) (d : Fin 128), x0 (ix2 k d)
      = V c (Pipeline.arrRef spec5 0) (ix2 (⟨t.val * 5000 + k.val, r5_row_lt t k⟩ : Fin 50000) d))
    (h1 : ∀ k : Fin 5000, x1 (ix2 k (0 : Fin 1))
      = V c (Pipeline.arrRef spec5 1) (ix2 (⟨t.val * 5000 + k.val, r5_row_lt t k⟩ : Fin 50000) (0 : Fin 1))) :
    ∑ k : Fin 5000, (x0 (ix2 k d) * x1 (ix2 k (0 : Fin 1))) * (x0 (ix2 k d) * x1 (ix2 k (0 : Fin 1)))
      = ∑ k : Fin 5000, r5_x V c (ix2 (⟨t.val * 5000 + k.val, Cert.LibBlockSum.row_lt_of_eq r5_hNB t k⟩ : Fin 50000) d)
          * r5_x V c (ix2 (⟨t.val * 5000 + k.val, Cert.LibBlockSum.row_lt_of_eq r5_hNB t k⟩ : Fin 50000) d) :=
  Finset.sum_congr rfl fun k _ => by rw [h0, h1]; rfl

/-- THE INVARIANT of the sum accumulator: after point n it holds, at column d, the sum of the column over the rows of
    the first n + 1 blocks. By induction on the point: the first point starts from zero, every later point adds its block. -/
theorem r5_acc_s (c : Dev nD) (d : Fin 128) (u : Fin 1) : ∀ (n : ℕ) (hn : n < cfg5.N),
    (outsAt5 (F := Ideal) V c n hn).2.1 (ix2 u d)
      = Cert.LibBlockSum.upTo (fun t : Fin cfg5.N => ∑ k : Fin 5000,
          r5_x V c (ix2 (⟨t.val * 5000 + k.val, Cert.LibBlockSum.row_lt_of_eq r5_hNB t k⟩ : Fin 50000) d)) (n + 1)
  | 0, hn => by
    refine (congrFun (r5_outs_s_A V c ⟨0, hn⟩ rfl) (ix2 u d)).trans ?_
    refine (r5_pay4_apply (iblk5 V c 0 ⟨0, hn⟩) (iblk5 V c 1 ⟨0, hn⟩) k5_pay1 u d).trans ?_
    rw [r5_pay1_apply, zero_add, Cert.LibBlockSum.upTo_one _ hn]
    exact r5_blocksum V c ⟨0, hn⟩ d (iblk5 V c 0 ⟨0, hn⟩) (iblk5 V c 1 ⟨0, hn⟩) (r5_iblk0_apply V c ⟨0, hn⟩) (r5_iblk1_apply V c ⟨0, hn⟩)
  | n + 1, hn => by
    have hN : cfg5.N = 10 := N_5
    have hB : ¬(⟨n + 1, hn⟩ : Fin cfg5.N).val % 10 = 0 := by dsimp only; omega
    refine (congrFun (r5_outs_s_B V c ⟨n + 1, hn⟩ hB) (ix2 u d)).trans ?_
    refine (r5_pay4_apply (iblk5 V c 0 ⟨n + 1, hn⟩) (iblk5 V c 1 ⟨n + 1, hn⟩) (outsAt5 V c n (Nat.lt_of_succ_lt hn)).2.1 u d).trans ?_
    rw [Cert.LibBlockSum.upTo_succ _ (n + 1) hn, r5_acc_s c d u n (Nat.lt_of_succ_lt hn)]
    exact congrArg _ (r5_blocksum V c ⟨n + 1, hn⟩ d (iblk5 V c 0 ⟨n + 1, hn⟩) (iblk5 V c 1 ⟨n + 1, hn⟩)
      (r5_iblk0_apply V c ⟨n + 1, hn⟩) (r5_iblk1_apply V c ⟨n + 1, hn⟩))

/-- THE INVARIANT of the sum-of-squares accumulator, the same with squares. -/
theorem r5_acc_ss (c : Dev nD) (d : Fin 128) (u : Fin 1) : ∀ (n : ℕ) (hn : n < cfg5.N),
    (outsAt5 (F := Ideal) V c n hn).2.2 (ix2 u d)
      = Cert.LibBlockSum.upTo (fun t : Fin cfg5.N => ∑ k : Fin 5000,
          r5_x V c (ix2 (⟨t.val * 5000 + k.val, Cert.LibBlockSum.row_lt_of_eq r5_hNB t k⟩ : Fin 50000) d)
            * r5_x V c (ix2 (⟨t.val * 5000 + k.val, Cert.LibBlockSum.row_lt_of_eq r5_hNB t k⟩ : Fin 50000) d)) (n + 1)
  | 0, hn => by
    refine (congrFun (r5_outs_ss_A V c ⟨0, hn⟩ rfl) (ix2 u d)).trans ?_
    refine (r5_pay5_apply (iblk5 V c 0 ⟨0, hn⟩) (iblk5 V c 1 ⟨0, hn⟩) k5_pay2 u d).trans ?_
    rw [r5_pay2_apply, zero_add, Cert.LibBlockSum.upTo_one _ hn]
    exact r5_blocksumsq V c ⟨0, hn⟩ d (iblk5 V c 0 ⟨0, hn⟩) (iblk5 V c 1 ⟨0, hn⟩) (r5_iblk0_apply V c ⟨0, hn⟩) (r5_iblk1_apply V c ⟨0, hn⟩)
  | n + 1, hn => by
    have hN : cfg5.N = 10 := N_5
    have hB : ¬(⟨n + 1, hn⟩ : Fin cfg5.N).val % 10 = 0 := by dsimp only; omega
    refine (congrFun (r5_outs_ss_B V c ⟨n + 1, hn⟩ hB) (ix2 u d)).trans ?_
    refine (r5_pay5_apply (iblk5 V c 0 ⟨n + 1, hn⟩) (iblk5 V c 1 ⟨n + 1, hn⟩) (outsAt5 V c n (Nat.lt_of_succ_lt hn)).2.2 u d).trans ?_
    rw [Cert.LibBlockSum.upTo_succ _ (n + 1) hn, r5_acc_ss c d u n (Nat.lt_of_succ_lt hn)]
    exact congrArg _ (r5_blocksumsq V c ⟨n + 1, hn⟩ d (iblk5 V c 0 ⟨n + 1, hn⟩) (iblk5 V c 1 ⟨n + 1, hn⟩)
      (r5_iblk0_apply V c ⟨n + 1, hn⟩) (r5_iblk1_apply V c ⟨n + 1, hn⟩))

/-! ## From the blocks to the arrays -/

/-- WHAT POINT t WRITES BACK to the scaled rows' array is block t of the scaled rows of the whole arrays. -/
theorem r5_flushed_x (c : Dev nD) (t : Fin cfg5.N) :
    (dat5 (F := Ideal) V c).flushed 2 t = ((cfg5.win 2).blk t).view.read (Elt Ideal) (r5_x V c) := by
  show (cfg5.win 2).cut (grid5.coords t) ((dat5 V c).after 2 t) = _
  rw [after5_2, r5_outs_x]
  funext j
  obtain ⟨p, d, rfl⟩ : ∃ (p : Fin 5000) (d : Fin 128), j = ix2 p d := ⟨j 0, j 1, eq_ix2 j⟩
  show k5_pay3 (iblk5 V c 0 t) (iblk5 V c 1 t) (ix2 p d) = r5_x V c (((cfg5.win 2).blk t).view.emb (ix2 p d))
  refine (r5_pay3_apply (iblk5 V c 0 t) (iblk5 V c 1 t) p d).trans ?_
  rw [r5_iblk0_apply, r5_iblk1_apply]
  have he : ((cfg5.win 2).blk t).view.emb (ix2 p d) = ix2 (⟨t.val * 5000 + p.val, r5_row_lt t p⟩ : Fin 50000) d := by
    funext a; apply Fin.ext
    obtain ⟨-, -, -, -, e0, e1, -⟩ := r5_idx t
    match a with
    | ⟨0, _⟩ => show win5_2.index t (0 : Fin 2) * 5000 + 1 * p.val = t.val * 5000 + p.val; rw [e0]; omega
    | ⟨1, _⟩ => show win5_2.index t (1 : Fin 2) * 128 + 1 * d.val = d.val; rw [e1]; omega
  rw [he]
  rfl

/-- An index of the scaled rows' array is in point t's block iff each coordinate is in the block's range on its axis. -/
theorem r5_mem_blk2 (t : Fin cfg5.N) (i : S50000x128.Idx) :
    i ∈ ((cfg5.win 2).blk t).view.set
      ↔ ∀ a : Fin 2, win5_2.index t a * S5000x128.size a ≤ (i a).val ∧ (i a).val < win5_2.index t a * S5000x128.size a + S5000x128.size a := by
  show i ∈ ((View.whole main_v61_0).slice (win5_2.rect t)).set ↔ _
  rw [View.set_slice_whole, Rect.mem_set_unit]
  exact Iff.rfl

/-- An index of an accumulator's array is in its one block iff each coordinate is in the block's range on its axis. -/
theorem r5_mem_blk3 (t : Fin cfg5.N) (i : S1x128.Idx) :
    i ∈ ((cfg5.win 3).blk t).view.set
      ↔ ∀ a : Fin 2, win5_3.index t a * S1x128.size a ≤ (i a).val ∧ (i a).val < win5_3.index t a * S1x128.size a + S1x128.size a := by
  show i ∈ ((View.whole main_v61_1).slice (win5_3.rect t)).set ↔ _
  rw [View.set_slice_whole, Rect.mem_set_unit]
  exact Iff.rfl

theorem r5_mem_blk4 (t : Fin cfg5.N) (i : S1x128.Idx) :
    i ∈ ((cfg5.win 4).blk t).view.set
      ↔ ∀ a : Fin 2, win5_4.index t a * S1x128.size a ≤ (i a).val ∧ (i a).val < win5_4.index t a * S1x128.size a + S1x128.size a := by
  show i ∈ ((View.whole main_v61_2).slice (win5_4.rect t)).set ↔ _
  rw [View.set_slice_whole, Rect.mem_set_unit]
  exact Iff.rfl

/-- The last point. -/
theorem r5_last_lt : 9 < cfg5.N := by rw [show cfg5.N = 10 from N_5]; decide

/-- One block of an accumulator's array is the whole array: reading any row G through it at (u, d) reads G at (0, d). -/
theorem r5_read_blk3 (t : Fin cfg5.N) (G : Cert.Spec.Mat 1 128) (u : Fin 1) (d : Fin 128) :
    ((cfg5.win 3).blk t).view.read (Elt Ideal) G (ix2 u d) = G (ix2 (0 : Fin 1) d) := by
  show G (((cfg5.win 3).blk t).view.emb (ix2 u d)) = _
  refine congrArg G (funext fun a => Fin.ext ?_)
  obtain ⟨-, -, -, -, -, -, e0, e1, -⟩ := r5_idx t
  match a with
  | ⟨0, _⟩ => show win5_3.index t (0 : Fin 2) * 1 + 1 * u.val = 0; rw [e0]; omega
  | ⟨1, _⟩ => show win5_3.index t (1 : Fin 2) * 128 + 1 * d.val = d.val; rw [e1]; omega

theorem r5_flushed_s (c : Dev nD) (t : Fin cfg5.N) (hf : (cfg5.win 3).flush t = true) :
    (dat5 (F := Ideal) V c).flushed 3 t = ((cfg5.win 3).blk t).view.read (Elt Ideal) (Cert.Spec.colSum (r5_x V c)) := by
  have hN : cfg5.N = 10 := N_5
  have h9 : t.val + 1 = cfg5.N := by have := (flush5_3 t).mp hf; have := t.isLt; omega
  show (cfg5.win 3).cut (grid5.coords t) ((dat5 V c).after 3 t) = _
  rw [after5_3]
  funext j
  obtain ⟨u, d, rfl⟩ : ∃ (u : Fin 1) (d : Fin 128), j = ix2 u d := ⟨j 0, j 1, eq_ix2 j⟩
  refine Eq.trans ?_ (r5_read_blk3 t (Cert.Spec.colSum (r5_x V c)) u d).symm
  rw [Cert.Spec.colSum_ix2]
  show (outsAt5 V c t.val t.isLt).2.1 (ix2 u d) = _
  rw [r5_acc_s V c d u t.val t.isLt, h9]
  exact Cert.LibBlockSum.upTo_blocks r5_hNB (fun r : Fin 50000 => r5_x V c (ix2 r d))

/-- One block of an accumulator's array is the whole array: reading any row G through it at (u, d) reads G at (0, d). -/
theorem r5_read_blk4 (t : Fin cfg5.N) (G : Cert.Spec.Mat 1 128) (u : Fin 1) (d : Fin 128) :
    ((cfg5.win 4).blk t).view.read (Elt Ideal) G (ix2 u d) = G (ix2 (0 : Fin 1) d) := by
  show G (((cfg5.win 4).blk t).view.emb (ix2 u d)) = _
  refine congrArg G (funext fun a => Fin.ext ?_)
  obtain ⟨-, -, -, -, -, -, -, -, e0, e1⟩ := r5_idx t
  match a with
  | ⟨0, _⟩ => show win5_4.index t (0 : Fin 2) * 1 + 1 * u.val = 0; rw [e0]; omega
  | ⟨1, _⟩ => show win5_4.index t (1 : Fin 2) * 128 + 1 * d.val = d.val; rw [e1]; omega

theorem r5_flushed_ss (c : Dev nD) (t : Fin cfg5.N) (hf : (cfg5.win 4).flush t = true) :
    (dat5 (F := Ideal) V c).flushed 4 t = ((cfg5.win 4).blk t).view.read (Elt Ideal) (Cert.Spec.colSumSq (r5_x V c)) := by
  have hN : cfg5.N = 10 := N_5
  have h9 : t.val + 1 = cfg5.N := by have := (flush5_4 t).mp hf; have := t.isLt; omega
  show (cfg5.win 4).cut (grid5.coords t) ((dat5 V c).after 4 t) = _
  rw [after5_4]
  funext j
  obtain ⟨u, d, rfl⟩ : ∃ (u : Fin 1) (d : Fin 128), j = ix2 u d := ⟨j 0, j 1, eq_ix2 j⟩
  refine Eq.trans ?_ (r5_read_blk4 t (Cert.Spec.colSumSq (r5_x V c)) u d).symm
  rw [Cert.Spec.colSumSq_ix2]
  show (outsAt5 V c t.val t.isLt).2.2 (ix2 u d) = _
  rw [r5_acc_ss V c d u t.val t.isLt, h9]
  exact Cert.LibBlockSum.upTo_blocks r5_hNB (fun r : Fin 50000 => r5_x V c (ix2 r d) * r5_x V c (ix2 r d))

end Values

/-! ## The three output arrays when the region ends -/

theorem final5_x (V : (c : Dev nD) → (b : Ref sig .tc) → Buf (Elt Ideal) ((c : Thread nD τ).loc b)) (c : Dev nD) :
    (dat5 (F := Ideal) V c).arrAt 2 cfg5.N
      = Cert.Spec.rowScale (M := 50000) (N := 128) (V c (Pipeline.arrRef spec5 0)) (V c (Pipeline.arrRef spec5 1)) :=
  (dat5 (F := Ideal) V c).arrAt_eq_of_cover 2 (r5_x V c) (fun t _ => r5_flushed_x V c t) fun i => by
    have hi0 : (i 0).val < 50000 := (i 0).isLt
    have hi1 : (i 1).val < 128 := (i 1).isLt
    have hlt : (i 0).val / 5000 < cfg5.N := by rw [show cfg5.N = 10 from N_5]; omega
    refine ⟨⟨(i 0).val / 5000, hlt⟩, flush5_2 _, ?_⟩
    rw [r5_mem_blk2]
    obtain ⟨-, -, -, -, e0, e1, -⟩ := r5_idx ⟨(i 0).val / 5000, hlt⟩
    intro a
    match a with
    | ⟨0, _⟩ =>
      show win5_2.index ⟨(i 0).val / 5000, hlt⟩ (0 : Fin 2) * 5000 ≤ (i 0).val
        ∧ (i 0).val < win5_2.index ⟨(i 0).val / 5000, hlt⟩ (0 : Fin 2) * 5000 + 5000
      rw [e0]; dsimp only; omega
    | ⟨1, _⟩ =>
      show win5_2.index ⟨(i 0).val / 5000, hlt⟩ (1 : Fin 2) * 128 ≤ (i 1).val
        ∧ (i 1).val < win5_2.index ⟨(i 0).val / 5000, hlt⟩ (1 : Fin 2) * 128 + 128
      rw [e1]; omega

theorem final5_s (V : (c : Dev nD) → (b : Ref sig .tc) → Buf (Elt Ideal) ((c : Thread nD τ).loc b)) (c : Dev nD) :
    (dat5 (F := Ideal) V c).arrAt 3 cfg5.N
      = Cert.Spec.colSum (Cert.Spec.rowScale (M := 50000) (N := 128) (V c (Pipeline.arrRef spec5 0)) (V c (Pipeline.arrRef spec5 1))) :=
  (dat5 (F := Ideal) V c).arrAt_eq_of_cover 3 (Cert.Spec.colSum (r5_x V c)) (r5_flushed_s V c) fun i => by
    have hi0 : (i 0).val < 1 := (i 0).isLt
    have hi1 : (i 1).val < 128 := (i 1).isLt
    refine ⟨⟨9, r5_last_lt⟩, (flush5_3 _).mpr rfl, ?_⟩
    rw [r5_mem_blk3]
    obtain ⟨-, -, -, -, -, -, e0, e1, -⟩ := r5_idx ⟨9, r5_last_lt⟩
    intro a
    match a with
    | ⟨0, _⟩ =>
      show win5_3.index ⟨9, r5_last_lt⟩ (0 : Fin 2) * 1 ≤ (i 0).val ∧ (i 0).val < win5_3.index ⟨9, r5_last_lt⟩ (0 : Fin 2) * 1 + 1
      rw [e0]; omega
    | ⟨1, _⟩ =>
      show win5_3.index ⟨9, r5_last_lt⟩ (1 : Fin 2) * 128 ≤ (i 1).val ∧ (i 1).val < win5_3.index ⟨9, r5_last_lt⟩ (1 : Fin 2) * 128 + 128
      rw [e1]; omega

theorem final5_ss (V : (c : Dev nD) → (b : Ref sig .tc) → Buf (Elt Ideal) ((c : Thread nD τ).loc b)) (c : Dev nD) :
    (dat5 (F := Ideal) V c).arrAt 4 cfg5.N
      = Cert.Spec.colSumSq (Cert.Spec.rowScale (M := 50000) (N := 128) (V c (Pipeline.arrRef spec5 0)) (V c (Pipeline.arrRef spec5 1))) :=
  (dat5 (F := Ideal) V c).arrAt_eq_of_cover 4 (Cert.Spec.colSumSq (r5_x V c)) (r5_flushed_ss V c) fun i => by
    have hi0 : (i 0).val < 1 := (i 0).isLt
    have hi1 : (i 1).val < 128 := (i 1).isLt
    refine ⟨⟨9, r5_last_lt⟩, (flush5_4 _).mpr rfl, ?_⟩
    rw [r5_mem_blk4]
    obtain ⟨-, -, -, -, -, -, -, -, e0, e1⟩ := r5_idx ⟨9, r5_last_lt⟩
    intro a
    match a with
    | ⟨0, _⟩ =>
      show win5_4.index ⟨9, r5_last_lt⟩ (0 : Fin 2) * 1 ≤ (i 0).val ∧ (i 0).val < win5_4.index ⟨9, r5_last_lt⟩ (0 : Fin 2) * 1 + 1
      rw [e0]; omega
    | ⟨1, _⟩ =>
      show win5_4.index ⟨9, r5_last_lt⟩ (1 : Fin 2) * 128 ≤ (i 1).val ∧ (i 1).val < win5_4.index ⟨9, r5_last_lt⟩ (1 : Fin 2) * 128 + 128
      rw [e1]; omega

end Cert.KernelIdeal.Reg

end
-- ==== Proof.Reg6.lean ====
/-
  Region 6: every column normalised with its mean and variance rows, rectified, and each row scaled by its degree weight.
  Stated for the whole arrays: what the region's output arrays hold when it ends, as functions of the arrays it is entered with.

  The 50000 rows are cut into 10 blocks of 5000 consecutive rows; point t of the grid reads rows 5000·t … 5000·t+4999 of
  the features and of the weight column, and the whole of the four rows μ, v, γ, β. Entry (p,q) of its result is
  max ((x(p,q) − μ(0,q))·(v(0,q) + ε)^(−1/2)·γ(0,q) + β(0,q)) 0 · n(p,0), which depends on the block's own row p only; it is
  written back to the same rows of the output. Entry (r,q) of the output is therefore written by point r / 5000: the
  blocks are the restrictions of one function of the whole arrays, and they cover every row.
-/
import proofs.«113157_j3616362463713_1_alg».proof.Proof.Gen.KernelIdeal.Frame
import proofs.«113157_j3616362463713_1_alg».proof.Proof.Spec
import Idealize.ShloMosaic.Lib.ValueLayout
import Idealize.ShloMosaic.Lib.Pipeline.Value

set_option maxRecDepth 16384

noncomputable section

namespace Cert.KernelIdeal.Reg

open Idealize.ShloMosaic Idealize.ShloMosaic.TcCoe Idealize.SL.Sem Cert.KernelIdeal Cert.KernelIdeal.Gen
open Idealize.ShloMosaic.ValueIdx

/-- The zero offsets of a whole-block access, as a constant function. -/
theorem r6_hz : (![0, 0] : Fin 2 → Nat) = fun _ => 0 := funext fun a => by fin_cases a <;> rfl

/-- The reciprocal square root of an array reads, at an index, the reciprocal square root of the entry. -/
theorem r6_rsqrt_apply {s : Shape} {φ : FTy} (a : FVec Ideal s φ) (i : s.Idx) : rsqrt a i = Ideal.rsqrt (a i) := rfl

/-- A column [a,1] broadcast along the lanes to [a,b] reads, at (p,c), the column's entry p. -/
theorem r6_bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's result at entry (p,q) of a block: the normalised and rectified feature entry times the weight of row p;
    when the row-tiled blocks hold row r of the whole arrays at their row p, this is entry (r,q) of the whole-array stage. -/
theorem r6_point (X : Cert.Spec.Mat 50000 128) (μ v γ β : Cert.Spec.Mat 1 128) (n : Cert.Spec.Mat 50000 1)
    (x0 : Vec Ideal S5000x128 .f32) (x1 x2 x3 x4 : Vec Ideal S1x128 .f32) (x5 : Vec Ideal S5000x1 .f32)
    (p : Fin 5000) (q : Fin 128) (r : Fin 50000)
    (h0 : x0 (ix2 p q) = X (ix2 r q)) (h1 : x1 (ix2 (0 : Fin 1) q) = μ (ix2 (0 : Fin 1) q))
    (h2 : x2 (ix2 (0 : Fin 1) q) = v (ix2 (0 : Fin 1) q)) (h3 : x3 (ix2 (0 : Fin 1) q) = γ (ix2 (0 : Fin 1) q))
    (h4 : x4 (ix2 (0 : Fin 1) q) = β (ix2 (0 : Fin 1) q)) (h5 : x5 (ix2 p (0 : Fin 1)) = n (ix2 r (0 : Fin 1))) :
    k6_pay1 (F := Ideal) x0 x1 x2 x3 x4 x5 (ix2 p q) = Cert.Spec.bnReluScale X μ v γ β n (ix2 r q) := by
  unfold k6_pay1
  rw [Cert.Spec.bnReluScale_ix2, mulf_apply, r6_bcastCol_apply, shapeCast_self, maximumf_apply, broadcast_apply, addf_apply,
    mulf_apply, mulf_apply, subf_apply, shapeCast_self, broadcastTo_1b_ab_apply, shapeCast_self,
    broadcastTo_1b_ab_apply, r6_rsqrt_apply, addf_apply, shapeCast_self, broadcast_apply,
    broadcastTo_1b_ab_apply, shapeCast_self, broadcastTo_1b_ab_apply, shapeCast_self, h0, h1, h2, h3, h4, h5]
  rfl

/-- Every window's block index at point t: block row t for the row-tiled windows, the one block for the four rows. -/
theorem r6_idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-- The feature block at point t holds, at its row p, row 5000·t + p of the array. -/
theorem r6_blk0 (V : (c : Dev nD) → (b : Ref sig .tc) → Buf (Elt Ideal) ((c : Thread nD τ).loc b)) (c : Dev nD)
    (t : Fin cfg6.N) (p : Fin 5000) (q : Fin 128) (r : Fin 50000) (hr : r.val = t.val * 5000 + p.val) :
    iblk6 (F := Ideal) V c 0 t (ix2 p q) = V c (Pipeline.arrRef spec6 0) (ix2 r q) := by
  obtain ⟨e0, e1, e2, e3, e4, e5, e6, e7, e8, e9, e10, e11, e12, e13⟩ := r6_idx t
  show V c (Pipeline.arrRef spec6 0) (((cfg6.win 0).blk t).view.emb (ix2 p q)) = _
  refine congrArg _ ?_
  funext a; apply Fin.ext
  match a with
  | ⟨0, _⟩ => show win6_0.index t (0 : Fin 2) * 5000 + 1 * p.val = r.val; omega
  | ⟨1, _⟩ => show win6_0.index t (1 : Fin 2) * 128 + 1 * q.val = q.val; omega

/-- The block of the row μ at every point is the whole row. -/
theorem r6_blk1 (V : (c : Dev nD) → (b : Ref sig .tc) → Buf (Elt Ideal) ((c : Thread nD τ).loc b)) (c : Dev nD)
    (t : Fin cfg6.N) (q : Fin 128) :
    iblk6 (F := Ideal) V c 1 t (ix2 (0 : Fin 1) q) = V c (Pipeline.arrRef spec6 1) (ix2 (0 : Fin 1) q) := by
  obtain ⟨e0, e1, e2, e3, e4, e5, e6, e7, e8, e9, e10, e11, e12, e13⟩ := r6_idx t
  show V c (Pipeline.arrRef spec6 1) (((cfg6.win 1).blk t).view.emb (ix2 (0 : Fin 1) q)) = _
  refine congrArg _ ?_
  funext a; apply Fin.ext
  match a with
  | ⟨0, _⟩ => show win6_1.index t (0 : Fin 2) * 1 + 1 * 0 = 0; omega
  | ⟨1, _⟩ => show win6_1.index t (1 : Fin 2) * 128 + 1 * q.val = q.val; omega

/-- The block of the row v at every point is the whole row. -/
theorem r6_blk2 (V : (c : Dev nD) → (b : Ref sig .tc) → Buf (Elt Ideal) ((c : Thread nD τ).loc b)) (c : Dev nD)
    (t : Fin cfg6.N) (q : Fin 128) :
    iblk6 (F := Ideal) V c 2 t (ix2 (0 : Fin 1) q) = V c (Pipeline.arrRef spec6 2) (ix2 (0 : Fin 1) q) := by
  obtain ⟨e0, e1, e2, e3, e4, e5, e6, e7, e8, e9, e10, e11, e12, e13⟩ := r6_idx t
  show V c (Pipeline.arrRef spec6 2) (((cfg6.win 2).blk t).view.emb (ix2 (0 : Fin 1) q)) = _
  refine congrArg _ ?_
  funext a; apply Fin.ext
  match a with
  | ⟨0, _⟩ => show win6_2.index t (0 : Fin 2) * 1 + 1 * 0 = 0; omega
  | ⟨1, _⟩ => show win6_2.index t (1 : Fin 2) * 128 + 1 * q.val = q.val; omega

/-- The block of the row γ at every point is the whole row. -/
theorem r6_blk3 (V : (c : Dev nD) → (b : Ref sig .tc) → Buf (Elt Ideal) ((c : Thread nD τ).loc b)) (c : Dev nD)
    (t : Fin cfg6.N) (q : Fin 128) :
    iblk6 (F := Ideal) V c 3 t (ix2 (0 : Fin 1) q) = V c (Pipeline.arrRef spec6 3) (ix2 (0 : Fin 1) q) := by
  obtain ⟨e0, e1, e2, e3, e4, e5, e6, e7, e8, e9, e10, e11, e12, e13⟩ := r6_idx t
  show V c (Pipeline.arrRef spec6 3) (((cfg6.win 3).blk t).view.emb (ix2 (0 : Fin 1) q)) = _
  refine congrArg _ ?_
  funext a; apply Fin.ext
  match a with
  | ⟨0, _⟩ => show win6_3.index t (0 : Fin 2) * 1 + 1 * 0 = 0; omega
  | ⟨1, _⟩ => show win6_3.index t (1 : Fin 2) * 128 + 1 * q.val = q.val; omega

/-- The block of the row β at every point is the whole row. -/
theorem r6_blk4 (V : (c : Dev nD) → (b : Ref sig .tc) → Buf (Elt Ideal) ((c : Thread nD τ).loc b)) (c : Dev nD)
    (t : Fin cfg6.N) (q : Fin 128) :
    iblk6 (F := Ideal) V c 4 t (ix2 (0 : Fin 1) q) = V c (Pipeline.arrRef spec6 4) (ix2 (0 : Fin 1) q) := by
  obtain ⟨e0, e1, e2, e3, e4, e5, e6, e7, e8, e9, e10, e11, e12, e13⟩ := r6_idx t
  show V c (Pipeline.arrRef spec6 4) (((cfg6.win 4).blk t).view.emb (ix2 (0 : Fin 1) q)) = _
  refine congrArg _ ?_
  funext a; apply Fin.ext
  match a with
  | ⟨0, _⟩ => show win6_4.index t (0 : Fin 2) * 1 + 1 * 0 = 0; omega
  | ⟨1, _⟩ => show win6_4.index t (1 : Fin 2) * 128 + 1 * q.val = q.val; omega

/-- The weight column's block at point t holds, at its row p, row 5000·t + p of the column. -/
theorem r6_blk5 (V : (c : Dev nD) → (b : Ref sig .tc) → Buf (Elt Ideal) ((c : Thread nD τ).loc b)) (c : Dev nD)
    (t : Fin cfg6.N) (p : Fin 5000) (r : Fin 50000) (hr : r.val = t.val * 5000 + p.val) :
    iblk6 (F := Ideal) V c 5 t (ix2 p (0 : Fin 1)) = V c (Pipeline.arrRef spec6 5) (ix2 r (0 : Fin 1)) := by
  obtain ⟨e0, e1, e2, e3, e4, e5, e6, e7, e8, e9, e10, e11, e12, e13⟩ := r6_idx t
  show V c (Pipeline.arrRef spec6 5) (((cfg6.win 5).blk t).view.emb (ix2 p (0 : Fin 1))) = _
  refine congrArg _ ?_
  funext a; apply Fin.ext
  match a with
  | ⟨0, _⟩ => show win6_5.index t (0 : Fin 2) * 5000 + 1 * p.val = r.val; omega
  | ⟨1, _⟩ => show win6_5.index t (1 : Fin 2) * 1 + 1 * 0 = 0; omega

/-- Entry (p,q) of the output block at point t sits at row 5000·t + p, column q of the output array. -/
theorem r6_embOut (t : Fin cfg6.N) (p : Fin 5000) (q : Fin 128) (r : Fin 50000) (hr : r.val = t.val * 5000 + p.val) :
    ((cfg6.win 6).blk t).view.emb (ix2 p q) = ix2 r q := by
  obtain ⟨e0, e1, e2, e3, e4, e5, e6, e7, e8, e9, e10, e11, e12, e13⟩ := r6_idx t
  funext a; apply Fin.ext
  match a with
  | ⟨0, _⟩ => show win6_6.index t (0 : Fin 2) * 5000 + 1 * p.val = r.val; omega
  | ⟨1, _⟩ => show win6_6.index t (1 : Fin 2) * 128 + 1 * q.val = q.val; omega

set_option maxHeartbeats 1000000 in
/-- What point t writes back is rows 5000·t … 5000·t+4999 of the whole-array stage. -/
theorem r6_flushed (V : (c : Dev nD) → (b : Ref sig .tc) → Buf (Elt Ideal) ((c : Thread nD τ).loc b)) (c : Dev nD)
    (t : Fin cfg6.N) :
    (dat6 (F := Ideal) V c).flushed 6 t
      = ((cfg6.win 6).blk t).view.read (Elt Ideal)
          (Cert.Spec.bnReluScale (M := 50000) (N := 128) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) := by
  show (cfg6.win 6).cut (grid6.coords t) ((dat6 V c).after 6 t) = _
  rw [after6_6]
  unfold out6_6
  rw [View.canon_unit_zero r6_hz]
  simp only [View.ld_unit_zero (S := S5000x128) r6_hz, View.ld_unit_zero (S := S1x128) r6_hz, View.ld_unit_zero (S := S5000x1) r6_hz]
  have hN : grid6.N = 10 := N_6
  have ht : t.val < 10 := hN ▸ t.isLt
  funext j
  obtain ⟨p, q, rfl⟩ : ∃ (p : Fin 5000) (q : Fin 128), j = ix2 p q := ⟨j 0, j 1, eq_ix2 j⟩
  have hr : t.val * 5000 + p.val < 50000 := by have := p.isLt; omega
  show k6_pay1 (F := Ideal) (iblk6 V c 0 t) (iblk6 V c 1 t) (iblk6 V c 2 t) (iblk6 V c 3 t) (iblk6 V c 4 t) (iblk6 V c 5 t) (ix2 p q)
    = Cert.Spec.bnReluScale (M := 50000) (N := 128) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))
        (((cfg6.win 6).blk t).view.emb (ix2 p q))
  rw [r6_embOut t p q (⟨t.val * 5000 + p.val, hr⟩ : Fin 50000) rfl]
  exact r6_point (V c (Pipeline.arrRef spec6 0)) (V c (Pipeline.arrRef spec6 1))
    (V c (Pipeline.arrRef spec6 2)) (V c (Pipeline.arrRef spec6 3)) (V c (Pipeline.arrRef spec6 4)) (V c (Pipeline.arrRef spec6 5))
    (iblk6 V c 0 t) (iblk6 V c 1 t) (iblk6 V c 2 t) (iblk6 V c 3 t) (iblk6 V c 4 t) (iblk6 V c 5 t) p q
    (⟨t.val * 5000 + p.val, hr⟩ : Fin 50000) (r6_blk0 V c t p q (⟨t.val * 5000 + p.val, hr⟩ : Fin 50000) rfl) (r6_blk1 V c t q) (r6_blk2 V c t q) (r6_blk3 V c t q)
    (r6_blk4 V c t q) (r6_blk5 V c t p (⟨t.val * 5000 + p.val, hr⟩ : Fin 50000) rfl)

/-- A row-and-column index is in point t's output block exactly when each coordinate is in the block's range. -/
theorem r6_mem_blk (t : Fin cfg6.N) (i : S50000x128.Idx) :
    i ∈ ((cfg6.win 6).blk t).view.set
      ↔ ∀ a : Fin 2, win6_6.index t a * S5000x128.size a ≤ (i a).val
          ∧ (i a).val < win6_6.index t a * S5000x128.size a + S5000x128.size a := by
  show i ∈ ((View.whole main_v68).slice (win6_6.rect t)).set ↔ _
  rw [View.set_slice_whole, Rect.mem_set_unit]
  exact Iff.rfl

/-- Row r lies in the block of point r / 5000: the ten blocks cover the array. -/
theorem r6_cover (i : S50000x128.Idx) :
    ∃ t : Fin cfg6.N, (cfg6.win 6).flush t = true ∧ i ∈ ((cfg6.win 6).blk t).view.set := by
  have hi0 : (i 0).val < 50000 := (i 0).isLt
  have hi1 : (i 1).val < 128 := (i 1).isLt
  have hN : grid6.N = 10 := N_6
  have hlt : (i 0).val / 5000 < grid6.N := by rw [hN]; omega
  obtain ⟨e0, e1, e2, e3, e4, e5, e6, e7, e8, e9, e10, e11, e12, e13⟩ := r6_idx ⟨(i 0).val / 5000, hlt⟩
  refine ⟨⟨(i 0).val / 5000, hlt⟩, flush6_6 _, ?_⟩
  rw [r6_mem_blk]
  intro a
  match a with
  | ⟨0, _⟩ =>
    show win6_6.index ⟨(i 0).val / 5000, hlt⟩ (0 : Fin 2) * 5000 ≤ (i 0).val
      ∧ (i 0).val < win6_6.index ⟨(i 0).val / 5000, hlt⟩ (0 : Fin 2) * 5000 + 5000
    rw [e12]
    show (i 0).val / 5000 * 5000 ≤ (i 0).val ∧ (i 0).val < (i 0).val / 5000 * 5000 + 5000
    omega
  | ⟨1, _⟩ =>
    show win6_6.index ⟨(i 0).val / 5000, hlt⟩ (1 : Fin 2) * 128 ≤ (i 1).val
      ∧ (i 1).val < win6_6.index ⟨(i 0).val / 5000, hlt⟩ (1 : Fin 2) * 128 + 128
    rw [e13]
    omega

theorem final6 (V : (c : Dev nD) → (b : Ref sig .tc) → Buf (Elt Ideal) ((c : Thread nD τ).loc b)) (c : Dev nD) :
    (dat6 (F := Ideal) V c).arrAt 6 cfg6.N
      = Cert.Spec.bnReluScale (M := 50000) (N := 128) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) :=
  (dat6 (F := Ideal) V c).arrAt_eq_of_cover 6
    (Cert.Spec.bnReluScale (M := 50000) (N := 128) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)))
    (fun t _ => r6_flushed V c t) r6_cover

end Cert.KernelIdeal.Reg

end
-- ==== Proof.Reg7.lean ====
/-
  Region 7: rows scaled by the degree weights, and the column sums and column sums of squares of the result, accumulated over the ten blocks of 5000 rows.
  Stated for the whole arrays: what the region's output arrays hold when it ends, as functions of the arrays it is entered with.

  The region visits ten points; at point t it loads rows 5000·t … 5000·t + 4999 of the features X and of the weight
  column n, writes back the same rows of x = X · n (each row times its weight), and adds that block's column sums
  Σ_p x(p,d) and column sums of squares Σ_p x(p,d)² to two one-row accumulators, which are set to zero at the first
  point and written back once, after the last. So the first output is x, entry by entry; and by induction on the point
  the accumulators hold, after point t, the sums over the rows of the first t + 1 blocks, hence after the last point
  the sums over all 50000 rows: a sum over the rows is the sum over the blocks of each block's sum.
-/
import proofs.«113157_j3616362463713_1_alg».proof.Proof.Gen.KernelIdeal.Frame
import proofs.«113157_j3616362463713_1_alg».proof.Proof.Spec
import proofs.«113157_j3616362463713_1_alg».proof.Proof.LibBlockSum
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Reg

open Idealize.ShloMosaic Idealize.ShloMosaic.TcCoe Idealize.SL.Sem Cert.KernelIdeal Cert.KernelIdeal.Gen
open Idealize.ShloMosaic.ValueIdx
open Idealize.ShloMosaic.Pipeline (Dat)

section Pieces

variable {F : FTy → Type} [FloatOps F]

/-- The zero offsets of a store or load of a whole block. -/
theorem r7_hz : (![0, 0] : Fin 2 → Nat) = fun _ => 0 := funext fun a => by fin_cases a <;> rfl

/-! ## What each case of the body leaves in each output block, as the body's arithmetic of the blocks it loads -/

/-- At the first point the scaled rows are the product of the two loaded blocks. -/
theorem r7_out_A_2 (c : Dev nD) (i : grid7.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond7_0 i) (x0 : Vec F S5000x128 .f32) (x1 : Vec F S5000x1 .f32) :
    out7_A_2 c i a1 h1 a2 h2 a3 h3 a4 h4 a5 h5 hc x0 x1 = k7_pay3 x0 x1 := by
  unfold out7_A_2
  rw [View.read_writes_eq_canon _ _ _ (cover7_A_2 c i a1 h1 a2 h2 a3 h3 a4 h4 a5 h5 hc x0 x1)]
  unfold kernelRun7_A
  dsimp only
  sl_unfold_words
  rw [View.canon_unit_zero r7_hz]
  simp only [View.readAt_eq_ld, h1.read_unread, h2.read_unread, h4.read_unread, h5.read_unread,
    View.ld_unit_zero (S := S5000x128) r7_hz, View.ld_unit_zero (S := S5000x1) r7_hz, View.ld_unit_zero (S := S1x128) r7_hz]

/-- At the first point the sum accumulator is first set to zero, read back, and the block's column sums added. -/
theorem r7_out_A_3 (c : Dev nD) (i : grid7.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond7_0 i) (x0 : Vec F S5000x128 .f32) (x1 : Vec F S5000x1 .f32) :
    out7_A_3 c i a1 h1 a2 h2 a3 h3 a4 h4 a5 h5 hc x0 x1 = k7_pay4 x0 x1 (k7_pay1 (F := F)) := by
  unfold out7_A_3
  rw [View.read_writes_eq_canon _ _ _ (cover7_A_3 c i a1 h1 a2 h2 a3 h3 a4 h4 a5 h5 hc x0 x1)]
  unfold kernelRun7_A
  dsimp only
  sl_unfold_words
  rw [View.canon_cons_unit_zero (S := S1x128) r7_hz, View.readCov_unit_zero (S := S1x128) _ r7_hz]
  simp only [View.readAt_eq_ld, h1.read_unread, h2.read_unread, h4.read_unread, h5.read_unread,
    View.ld_unit_zero (S := S5000x128) r7_hz, View.ld_unit_zero (S := S5000x1) r7_hz, View.ld_unit_zero (S := S1x128) r7_hz]

/-- At the first point the sum-of-squares accumulator likewise starts from zero. -/
theorem r7_out_A_4 (c : Dev nD) (i : grid7.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond7_0 i) (x0 : Vec F S5000x128 .f32) (x1 : Vec F S5000x1 .f32) :
    out7_A_4 c i a1 h1 a2 h2 a3 h3 a4 h4 a5 h5 hc x0 x1 = k7_pay5 x0 x1 (k7_pay2 (F := F)) := by
  unfold out7_A_4
  rw [View.read_writes_eq_canon _ _ _ (cover7_A_4 c i a1 h1 a2 h2 a3 h3 a4 h4 a5 h5 hc x0 x1)]
  unfold kernelRun7_A
  dsimp only
  sl_unfold_words
  rw [View.canon_cons_unit_zero (S := S1x128) r7_hz, View.readCov_unit_zero (S := S1x128) _ r7_hz]
  simp only [View.readAt_eq_ld, h1.read_unread, h2.read_unread, h4.read_unread, h5.read_unread,
    View.ld_unit_zero (S := S5000x128) r7_hz, View.ld_unit_zero (S := S5000x1) r7_hz, View.ld_unit_zero (S := S1x128) r7_hz]

/-- At a later point the scaled rows are again the product of the two loaded blocks. -/
theorem r7_out_B_2 (c : Dev nD) (i : grid7.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond7_0 i) (x0 : Vec F S5000x128 .f32) (x1 : Vec F S5000x1 .f32) (xo3 xo4 : Vec F S1x128 .f32) :
    out7_B_2 c i a1 h1 a2 h2 a3 h3 a4 h4 a5 h5 hc x0 x1 xo3 xo4 = k7_pay3 x0 x1 := by
  unfold out7_B_2
  rw [View.read_writes_eq_canon _ _ _ (cover7_B_2 c i a1 h1 a2 h2 a3 h3 a4 h4 a5 h5 hc x0 x1 xo3 xo4)]
  unfold kernelRun7_B
  dsimp only
  sl_unfold_words
  rw [View.canon_unit_zero r7_hz]
  simp only [View.readAt_eq_ld, h1.read_unread, h2.read_unread, h4.read_unread, h5.read_unread,
    View.ld_unit_zero (S := S5000x128) r7_hz, View.ld_unit_zero (S := S5000x1) r7_hz, View.ld_unit_zero (S := S1x128) r7_hz]

/-- At a later point the block's column sums are added to what the accumulator held. -/
theorem r7_out_B_3 (c : Dev nD) (i : grid7.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond7_0 i) (x0 : Vec F S5000x128 .f32) (x1 : Vec F S5000x1 .f32) (xo3 xo4 : Vec F S1x128 .f32) :
    out7_B_3 c i a1 h1 a2 h2 a3 h3 a4 h4 a5 h5 hc x0 x1 xo3 xo4 = k7_pay4 x0 x1 xo3 := by
  unfold out7_B_3
  rw [View.read_writes_eq_canon _ _ _ (cover7_B_3 c i a1 h1 a2 h2 a3 h3 a4 h4 a5 h5 hc x0 x1 xo3 xo4)]
  unfold kernelRun7_B
  dsimp only
  sl_unfold_words
  rw [View.canon_unit_zero r7_hz]
  simp only [View.readAt_eq_ld, h1.read_unread, h2.read_unread, h4.read_unread, h5.read_unread,
    View.ld_unit_zero (S := S5000x128) r7_hz, View.ld_unit_zero (S := S5000x1) r7_hz, View.ld_unit_zero (S := S1x128) r7_hz]

/-- At a later point the block's column sums of squares are added to what the accumulator held. -/
theorem r7_out_B_4 (c : Dev nD) (i : grid7.Coords) (a1 : Memref sig .tc .vmem S5000x128 .f32) (h1 : a1.IsWhole)
    (a2 : Memref sig .tc .vmem S5000x1 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond7_0 i) (x0 : Vec F S5000x128 .f32) (x1 : Vec F S5000x1 .f32) (xo3 xo4 : Vec F S1x128 .f32) :
    out7_B_4 c i a1 h1 a2 h2 a3 h3 a4 h4 a5 h5 hc x0 x1 xo3 xo4 = k7_pay5 x0 x1 xo4 := by
  unfold out7_B_4
  rw [View.read_writes_eq_canon _ _ _ (cover7_B_4 c i a1 h1 a2 h2 a3 h3 a4 h4 a5 h5 hc x0 x1 xo3 xo4)]
  unfold kernelRun7_B
  dsimp only
  sl_unfold_words
  rw [View.canon_unit_zero r7_hz]
  simp only [View.readAt_eq_ld, h1.read_unread, h2.read_unread, h4.read_unread, h5.read_unread,
    View.ld_unit_zero (S := S5000x128) r7_hz, View.ld_unit_zero (S := S5000x1) r7_hz, View.ld_unit_zero (S := S1x128) r7_hz]

end Pieces

section Values

/-! ## The body's arithmetic read at an entry, on the extended reals -/

/-- A column [a,1] repeated along b columns reads, at (p, d), the column at p. -/
theorem r7_bcol {α : Type} {a b : ℕ} (v : (⟨2, ![a, 1]⟩ : Shape).Idx → α) (h : (⟨2, ![a, 1]⟩ : Shape).Broadcasts ⟨2, ![a, b]⟩)
    (p : Fin a) (d : Fin b) : broadcastTo ⟨2, ![a, b]⟩ v h (ix2 p d) = v (ix2 p (0 : Fin 1)) := by
  refine broadcastTo_apply v h (ix2 p d) (ix2 p (0 : Fin 1)) fun ax => ?_
  match ax with
  | ⟨0, _⟩ =>
    show p.val = if a = 1 then 0 else p.val
    split
    · have := p.isLt; omega
    · rfl
  | ⟨1, _⟩ => rfl

/-- The reduced index d with row k put back is (k, d). -/
theorem r7_lift {m n : ℕ} (h : (⟨2, ![m, n]⟩ : Shape).Reduces [0] (⟨1, ![n]⟩ : Shape)) (d : Fin n)
    (k : Fin ((⟨2, ![m, n]⟩ : Shape).size 0)) : h.lift (ix1 d) k = ix2 (⟨k.val, k.isLt⟩ : Fin m) d := by
  funext ax; apply Fin.ext
  fin_cases ax <;> rfl

/-- The sum over the rows of a block, read at column d. -/
theorem r7_rowsum (src : FVec Ideal S5000x128 .f32) (d : Fin 128) :
    multiReduction (F := Ideal) .add [0] S128 src 0x00000000#32 reduces_S5000x128_S128 (.inl rfl) rfl (ix1 d)
      = ∑ k : Fin 5000, src (ix2 k d) := by
  refine (Ideal.multiReduction_add_single src 0x00000000#32 reduces_S5000x128_S128 (.inl rfl) rfl (ix1 d)).trans ?_
  exact Finset.sum_congr rfl fun k _ => congrArg src (r7_lift reduces_S5000x128_S128 d k)

/-- The scaled block at (p, d): the entry times its row's weight. -/
theorem r7_pay3_apply (x0 : FVec Ideal S5000x128 .f32) (x1 : FVec Ideal S5000x1 .f32) (p : Fin 5000) (d : Fin 128) :
    k7_pay3 (F := Ideal) x0 x1 (ix2 p d) = x0 (ix2 p d) * x1 (ix2 p (0 : Fin 1)) := by
  show mulf (shapeCast S5000x128 x0 shapeCasts_S5000x128_S5000x128)
      (broadcastTo S5000x128 (shapeCast S5000x1 x1 shapeCasts_S5000x1_S5000x1) broadcasts_S5000x1_S5000x128) (ix2 p d) = _
  rw [mulf_apply, shapeCast_self, shapeCast_self, r7_bcol]

/-- The zero block reads the real number zero. -/
theorem r7_pay1_apply (u : Fin 1) (d : Fin 128) : k7_pay1 (F := Ideal) (ix2 u d) = 0 := by
  show broadcast S1x128 (Scalar.ofBits (F := Ideal) .f32 0x00000000#32) (ix2 u d) = 0
  rw [broadcast_apply]
  exact Ideal.ofBits_zero_f32

theorem r7_pay2_apply (u : Fin 1) (d : Fin 128) : k7_pay2 (F := Ideal) (ix2 u d) = 0 := by
  show broadcast S1x128 (Scalar.ofBits (F := Ideal) .f32 0x00000000#32) (ix2 u d) = 0
  rw [broadcast_apply]
  exact Ideal.ofBits_zero_f32

/-- The sum accumulator's new value at column d: what it held plus the block's column sum. -/
theorem r7_pay4_apply (x0 : FVec Ideal S5000x128 .f32) (x1 : FVec Ideal S5000x1 .f32) (acc : FVec Ideal S1x128 .f32)
    (u : Fin 1) (d : Fin 128) :
    k7_pay4 (F := Ideal) x0 x1 acc (ix2 u d)
      = acc (ix2 u d) + ∑ k : Fin 5000, x0 (ix2 k d) * x1 (ix2 k (0 : Fin 1)) := by
  show addf (shapeCast S1x128 acc shapeCasts_S1x128_S1x128)
      (shapeCast S1x128 (multiReduction (F := Ideal) .add [0] S128 (k7_pay3 x0 x1) 0x00000000#32 reduces_S5000x128_S128 (.inl rfl) rfl)
        shapeCasts_S128_S1x128) (ix2 u d) = _
  rw [addf_apply, shapeCast_self, shapeCast_a_1a_apply]
  refine congrArg (fun z => acc (ix2 u d) + z) ?_
  refine (r7_rowsum (k7_pay3 x0 x1) d).trans ?_
  exact Finset.sum_congr rfl fun k _ => r7_pay3_apply x0 x1 k d

/-- The sum-of-squares accumulator's new value at column d: what it held plus the block's column sum of squares. -/
theorem r7_pay5_apply (x0 : FVec Ideal S5000x128 .f32) (x1 : FVec Ideal S5000x1 .f32) (acc : FVec Ideal S1x128 .f32)
    (u : Fin 1) (d : Fin 128) :
    k7_pay5 (F := Ideal) x0 x1 acc (ix2 u d)
      = acc (ix2 u d) + ∑ k : Fin 5000, (x0 (ix2 k d) * x1 (ix2 k (0 : Fin 1))) * (x0 (ix2 k d) * x1 (ix2 k (0 : Fin 1))) := by
  show addf (shapeCast S1x128 acc shapeCasts_S1x128_S1x128)
      (shapeCast S1x128 (multiReduction (F := Ideal) .add [0] S128 (mulf (k7_pay3 x0 x1) (k7_pay3 x0 x1)) 0x00000000#32 reduces_S5000x128_S128 (.inl rfl) rfl)
        shapeCasts_S128_S1x128) (ix2 u d) = _
  rw [addf_apply, shapeCast_self, shapeCast_a_1a_apply]
  refine congrArg (fun z => acc (ix2 u d) + z) ?_
  refine (r7_rowsum (mulf (k7_pay3 x0 x1) (k7_pay3 x0 x1)) d).trans ?_
  exact Finset.sum_congr rfl fun k _ => by rw [mulf_apply, r7_pay3_apply]

/-! ## The blocks: block t of a row-tiled array is its rows 5000·t … 5000·t + 4999 -/

/-- The printed index maps over the grid: the row-tiled windows' block index is the point, the accumulators' is zero. -/
theorem r7_idx : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- Row p of block t is row 5000·t + p of the array. -/
theorem r7_row_lt (t : Fin cfg7.N) (p : Fin 5000) : t.val * 5000 + p.val < 50000 := by
  have hN : t.val < 10 := lt_of_lt_of_eq t.isLt (show cfg7.N = 10 from N_7)
  have := p.isLt
  omega

variable (V : (c : Dev nD) → (b : Ref sig .tc) → Buf (Elt Ideal) ((c : Thread nD τ).loc b))

/-- The features' block at point t, entry (p, d): the array at (5000·t + p, d). -/
theorem r7_iblk0_apply (c : Dev nD) (t : Fin cfg7.N) (p : Fin 5000) (d : Fin 128) :
    iblk7 (F := Ideal) V c 0 t (ix2 p d)
      = V c (Pipeline.arrRef spec7 0) (ix2 (⟨t.val * 5000 + p.val, r7_row_lt t p⟩ : Fin 50000) d) := by
  show V c (Pipeline.arrRef spec7 0) (((cfg7.win 0).blk t).view.emb (ix2 p d)) = _
  refine congrArg (V c (Pipeline.arrRef spec7 0)) (funext fun a => Fin.ext ?_)
  obtain ⟨e0, e1, -⟩ := r7_idx t
  match a with
  | ⟨0, _⟩ => show win7_0.index t (0 : Fin 2) * 5000 + 1 * p.val = t.val * 5000 + p.val; rw [e0]; omega
  | ⟨1, _⟩ => show win7_0.index t (1 : Fin 2) * 128 + 1 * d.val = d.val; rw [e1]; omega

/-- The weights' block at point t, entry (p, 0): the column at row 5000·t + p. -/
theorem r7_iblk1_apply (c : Dev nD) (t : Fin cfg7.N) (p : Fin 5000) :
    iblk7 (F := Ideal) V c 1 t (ix2 p (0 : Fin 1))
      = V c (Pipeline.arrRef spec7 1) (ix2 (⟨t.val * 5000 + p.val, r7_row_lt t p⟩ : Fin 50000) (0 : Fin 1)) := by
  show V c (Pipeline.arrRef spec7 1) (((cfg7.win 1).blk t).view.emb (ix2 p (0 : Fin 1))) = _
  refine congrArg (V c (Pipeline.arrRef spec7 1)) (funext fun a => Fin.ext ?_)
  obtain ⟨-, -, e0, e1, -⟩ := r7_idx t
  match a with
  | ⟨0, _⟩ => show win7_1.index t (0 : Fin 2) * 5000 + 1 * p.val = t.val * 5000 + p.val; rw [e0]; omega
  | ⟨1, _⟩ => show win7_1.index t (1 : Fin 2) * 1 + 1 * 0 = 0; rw [e1]

/-! ## What the outputs hold after each point -/

/-- After every point the scaled-rows block is the product of that point's two input blocks. -/
theorem r7_outs_x (c : Dev nD) (t : Fin cfg7.N) :
    (outsAt7 (F := Ideal) V c t.val t.isLt).1 = k7_pay3 (iblk7 V c 0 t) (iblk7 V c 1 t) := by
  by_cases h0 : t.val % 10 = 0
  · rw [outsAt7_A V c t h0]; dsimp only
    exact r7_out_A_2 (F := Ideal) c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t)
  · rw [outsAt7_B V c t h0]; dsimp only
    exact r7_out_B_2 (F := Ideal) c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t)
      (outsAt7 V c (t.val - 1) (Nat.lt_of_le_of_lt (Nat.sub_le _ _) t.isLt)).2.1 (outsAt7 V c (t.val - 1) (Nat.lt_of_le_of_lt (Nat.sub_le _ _) t.isLt)).2.2

/-- After the first point the sum accumulator is the zero block plus that point's column sums. -/
theorem r7_outs_s_A (c : Dev nD) (t : Fin cfg7.N) (h0 : t.val % 10 = 0) :
    (outsAt7 (F := Ideal) V c t.val t.isLt).2.1 = k7_pay4 (iblk7 V c 0 t) (iblk7 V c 1 t) (k7_pay1 (F := Ideal)) := by
  rw [outsAt7_A V c t h0]; dsimp only
  exact r7_out_A_3 (F := Ideal) c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t)

/-- After a later point the sum accumulator is what the point before left plus this point's column sums. -/
theorem r7_outs_s_B (c : Dev nD) (t : Fin cfg7.N) (h0 : ¬t.val % 10 = 0) :
    (outsAt7 (F := Ideal) V c t.val t.isLt).2.1 = k7_pay4 (iblk7 V c 0 t) (iblk7 V c 1 t) (outsAt7 V c (t.val - 1) (Nat.lt_of_le_of_lt (Nat.sub_le _ _) t.isLt)).2.1 := by
  rw [outsAt7_B V c t h0]; dsimp only
  exact r7_out_B_3 (F := Ideal) c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t)
    (outsAt7 V c (t.val - 1) (Nat.lt_of_le_of_lt (Nat.sub_le _ _) t.isLt)).2.1 (outsAt7 V c (t.val - 1) (Nat.lt_of_le_of_lt (Nat.sub_le _ _) t.isLt)).2.2

/-- After the first point the sum-of-squares accumulator is the zero block plus that point's column sums of squares. -/
theorem r7_outs_ss_A (c : Dev nD) (t : Fin cfg7.N) (h0 : t.val % 10 = 0) :
    (outsAt7 (F := Ideal) V c t.val t.isLt).2.2 = k7_pay5 (iblk7 V c 0 t) (iblk7 V c 1 t) (k7_pay2 (F := Ideal)) := by
  rw [outsAt7_A V c t h0]; dsimp only
  exact r7_out_A_4 (F := Ideal) c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t)

/-- After a later point the sum-of-squares accumulator is what the point before left plus this point's sums of squares. -/
theorem r7_outs_ss_B (c : Dev nD) (t : Fin cfg7.N) (h0 : ¬t.val % 10 = 0) :
    (outsAt7 (F := Ideal) V c t.val t.isLt).2.2 = k7_pay5 (iblk7 V c 0 t) (iblk7 V c 1 t) (outsAt7 V c (t.val - 1) (Nat.lt_of_le_of_lt (Nat.sub_le _ _) t.isLt)).2.2 := by
  rw [outsAt7_B V c t h0]; dsimp only
  exact r7_out_B_4 (F := Ideal) c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t)
    (outsAt7 V c (t.val - 1) (Nat.lt_of_le_of_lt (Nat.sub_le _ _) t.isLt)).2.1 (outsAt7 V c (t.val - 1) (Nat.lt_of_le_of_lt (Nat.sub_le _ _) t.isLt)).2.2

/-- The rows scaled by their weights, as a function of the two arrays the region is entered with. -/
abbrev r7_x (c : Dev nD) : Cert.Spec.Mat 50000 128 :=
  Cert.Spec.rowScale (M := 50000) (N := 128) (V c (Pipeline.arrRef spec7 0)) (V c (Pipeline.arrRef spec7 1))

/-- Ten blocks of 5000 rows are the 50000 rows. -/
theorem r7_hNB : cfg7.N * 5000 = 50000 := by rw [show cfg7.N = 10 from N_7]

/-- The column sum of block t of the scaled rows, from two blocks that hold rows 5000·t … of the two arrays. -/
theorem r7_blocksum (c : Dev nD) (t : Fin cfg7.N) (d : Fin 128) (x0 : FVec Ideal S5000x128 .f32) (x1 : FVec Ideal S5000x1 .f32)
    (h0 : ∀ (k : Fin 5000) (d : Fin 128), x0 (ix2 k d)
      = V c (Pipeline.arrRef spec7 0) (ix2 (⟨t.val * 5000 + k.val, r7_row_lt t k⟩ : Fin 50000) d))
    (h1 : ∀ k : Fin 5000, x1 (ix2 k (0 : Fin 1))
      = V c (Pipeline.arrRef spec7 1) (ix2 (⟨t.val * 5000 + k.val, r7_row_lt t k⟩ : Fin 50000) (0 : Fin 1))) :
    ∑ k : Fin 5000, x0 (ix2 k d) * x1 (ix2 k (0 : Fin 1))
      = ∑ k : Fin 5000, r7_x V c (ix2 (⟨t.val * 5000 + k.val, Cert.LibBlockSum.row_lt_of_eq r7_hNB t k⟩ : Fin 50000) d) :=
  Finset.sum_congr rfl fun k _ => by rw [h0, h1]; rfl

/-- The column sum of squares of block t of the scaled rows, likewise. -/
theorem r7_blocksumsq (c : Dev nD) (t : Fin cfg7.N) (d : Fin 128) (x0 : FVec Ideal S5000x128 .f32) (x1 : FVec Ideal S5000x1 .f32)
    (h0 : ∀ (k : Fin 5000) (d : Fin 128), x0 (ix2 k d)
      = V c (Pipeline.arrRef spec7 0) (ix2 (⟨t.val * 5000 + k.val, r7_row_lt t k⟩ : Fin 50000) d))
    (h1 : ∀ k : Fin 5000, x1 (ix2 k (0 : Fin 1))
      = V c (Pipeline.arrRef spec7 1) (ix2 (⟨t.val * 5000 + k.val, r7_row_lt t k⟩ : Fin 50000) (0 : Fin 1))) :
    ∑ k : Fin 5000, (x0 (ix2 k d) * x1 (ix2 k (0 : Fin 1))) * (x0 (ix2 k d) * x1 (ix2 k (0 : Fin 1)))
      = ∑ k : Fin 5000, r7_x V c (ix2 (⟨t.val * 5000 + k.val, Cert.LibBlockSum.row_lt_of_eq r7_hNB t k⟩ : Fin 50000) d)
          * r7_x V c (ix2 (⟨t.val * 5000 + k.val, Cert.LibBlockSum.row_lt_of_eq r7_hNB t k⟩ : Fin 50000) d) :=
  Finset.sum_congr rfl fun k _ => by rw [h0, h1]; rfl

/-- THE INVARIANT of the sum accumulator: after point n it holds, at column d, the sum of the column over the rows of
    the first n + 1 blocks. By induction on the point: the first point starts from zero, every later point adds its block. -/
theorem r7_acc_s (c : Dev nD) (d : Fin 128) (u : Fin 1) : ∀ (n : ℕ) (hn : n < cfg7.N),
    (outsAt7 (F := Ideal) V c n hn).2.1 (ix2 u d)
      = Cert.LibBlockSum.upTo (fun t : Fin cfg7.N => ∑ k : Fin 5000,
          r7_x V c (ix2 (⟨t.val * 5000 + k.val, Cert.LibBlockSum.row_lt_of_eq r7_hNB t k⟩ : Fin 50000) d)) (n + 1)
  | 0, hn => by
    refine (congrFun (r7_outs_s_A V c ⟨0, hn⟩ rfl) (ix2 u d)).trans ?_
    refine (r7_pay4_apply (iblk7 V c 0 ⟨0, hn⟩) (iblk7 V c 1 ⟨0, hn⟩) k7_pay1 u d).trans ?_
    rw [r7_pay1_apply, zero_add, Cert.LibBlockSum.upTo_one _ hn]
    exact r7_blocksum V c ⟨0, hn⟩ d (iblk7 V c 0 ⟨0, hn⟩) (iblk7 V c 1 ⟨0, hn⟩) (r7_iblk0_apply V c ⟨0, hn⟩) (r7_iblk1_apply V c ⟨0, hn⟩)
  | n + 1, hn => by
    have hN : cfg7.N = 10 := N_7
    have hB : ¬(⟨n + 1, hn⟩ : Fin cfg7.N).val % 10 = 0 := by dsimp only; omega
    refine (congrFun (r7_outs_s_B V c ⟨n + 1, hn⟩ hB) (ix2 u d)).trans ?_
    refine (r7_pay4_apply (iblk7 V c 0 ⟨n + 1, hn⟩) (iblk7 V c 1 ⟨n + 1, hn⟩) (outsAt7 V c n (Nat.lt_of_succ_lt hn)).2.1 u d).trans ?_
    rw [Cert.LibBlockSum.upTo_succ _ (n + 1) hn, r7_acc_s c d u n (Nat.lt_of_succ_lt hn)]
    exact congrArg _ (r7_blocksum V c ⟨n + 1, hn⟩ d (iblk7 V c 0 ⟨n + 1, hn⟩) (iblk7 V c 1 ⟨n + 1, hn⟩)
      (r7_iblk0_apply V c ⟨n + 1, hn⟩) (r7_iblk1_apply V c ⟨n + 1, hn⟩))

/-- THE INVARIANT of the sum-of-squares accumulator, the same with squares. -/
theorem r7_acc_ss (c : Dev nD) (d : Fin 128) (u : Fin 1) : ∀ (n : ℕ) (hn : n < cfg7.N),
    (outsAt7 (F := Ideal) V c n hn).2.2 (ix2 u d)
      = Cert.LibBlockSum.upTo (fun t : Fin cfg7.N => ∑ k : Fin 5000,
          r7_x V c (ix2 (⟨t.val * 5000 + k.val, Cert.LibBlockSum.row_lt_of_eq r7_hNB t k⟩ : Fin 50000) d)
            * r7_x V c (ix2 (⟨t.val * 5000 + k.val, Cert.LibBlockSum.row_lt_of_eq r7_hNB t k⟩ : Fin 50000) d)) (n + 1)
  | 0, hn => by
    refine (congrFun (r7_outs_ss_A V c ⟨0, hn⟩ rfl) (ix2 u d)).trans ?_
    refine (r7_pay5_apply (iblk7 V c 0 ⟨0, hn⟩) (iblk7 V c 1 ⟨0, hn⟩) k7_pay2 u d).trans ?_
    rw [r7_pay2_apply, zero_add, Cert.LibBlockSum.upTo_one _ hn]
    exact r7_blocksumsq V c ⟨0, hn⟩ d (iblk7 V c 0 ⟨0, hn⟩) (iblk7 V c 1 ⟨0, hn⟩) (r7_iblk0_apply V c ⟨0, hn⟩) (r7_iblk1_apply V c ⟨0, hn⟩)
  | n + 1, hn => by
    have hN : cfg7.N = 10 := N_7
    have hB : ¬(⟨n + 1, hn⟩ : Fin cfg7.N).val % 10 = 0 := by dsimp only; omega
    refine (congrFun (r7_outs_ss_B V c ⟨n + 1, hn⟩ hB) (ix2 u d)).trans ?_
    refine (r7_pay5_apply (iblk7 V c 0 ⟨n + 1, hn⟩) (iblk7 V c 1 ⟨n + 1, hn⟩) (outsAt7 V c n (Nat.lt_of_succ_lt hn)).2.2 u d).trans ?_
    rw [Cert.LibBlockSum.upTo_succ _ (n + 1) hn, r7_acc_ss c d u n (Nat.lt_of_succ_lt hn)]
    exact congrArg _ (r7_blocksumsq V c ⟨n + 1, hn⟩ d (iblk7 V c 0 ⟨n + 1, hn⟩) (iblk7 V c 1 ⟨n + 1, hn⟩)
      (r7_iblk0_apply V c ⟨n + 1, hn⟩) (r7_iblk1_apply V c ⟨n + 1, hn⟩))

/-! ## From the blocks to the arrays -/

/-- WHAT POINT t WRITES BACK to the scaled rows' array is block t of the scaled rows of the whole arrays. -/
theorem r7_flushed_x (c : Dev nD) (t : Fin cfg7.N) :
    (dat7 (F := Ideal) V c).flushed 2 t = ((cfg7.win 2).blk t).view.read (Elt Ideal) (r7_x V c) := by
  show (cfg7.win 2).cut (grid7.coords t) ((dat7 V c).after 2 t) = _
  rw [after7_2, r7_outs_x]
  funext j
  obtain ⟨p, d, rfl⟩ : ∃ (p : Fin 5000) (d : Fin 128), j = ix2 p d := ⟨j 0, j 1, eq_ix2 j⟩
  show k7_pay3 (iblk7 V c 0 t) (iblk7 V c 1 t) (ix2 p d) = r7_x V c (((cfg7.win 2).blk t).view.emb (ix2 p d))
  refine (r7_pay3_apply (iblk7 V c 0 t) (iblk7 V c 1 t) p d).trans ?_
  rw [r7_iblk0_apply, r7_iblk1_apply]
  have he : ((cfg7.win 2).blk t).view.emb (ix2 p d) = ix2 (⟨t.val * 5000 + p.val, r7_row_lt t p⟩ : Fin 50000) d := by
    funext a; apply Fin.ext
    obtain ⟨-, -, -, -, e0, e1, -⟩ := r7_idx t
    match a with
    | ⟨0, _⟩ => show win7_2.index t (0 : Fin 2) * 5000 + 1 * p.val = t.val * 5000 + p.val; rw [e0]; omega
    | ⟨1, _⟩ => show win7_2.index t (1 : Fin 2) * 128 + 1 * d.val = d.val; rw [e1]; omega
  rw [he]
  rfl

/-- An index of the scaled rows' array is in point t's block iff each coordinate is in the block's range on its axis. -/
theorem r7_mem_blk2 (t : Fin cfg7.N) (i : S50000x128.Idx) :
    i ∈ ((cfg7.win 2).blk t).view.set
      ↔ ∀ a : Fin 2, win7_2.index t a * S5000x128.size a ≤ (i a).val ∧ (i a).val < win7_2.index t a * S5000x128.size a + S5000x128.size a := by
  show i ∈ ((View.whole main_v79_0).slice (win7_2.rect t)).set ↔ _
  rw [View.set_slice_whole, Rect.mem_set_unit]
  exact Iff.rfl

/-- An index of an accumulator's array is in its one block iff each coordinate is in the block's range on its axis. -/
theorem r7_mem_blk3 (t : Fin cfg7.N) (i : S1x128.Idx) :
    i ∈ ((cfg7.win 3).blk t).view.set
      ↔ ∀ a : Fin 2, win7_3.index t a * S1x128.size a ≤ (i a).val ∧ (i a).val < win7_3.index t a * S1x128.size a + S1x128.size a := by
  show i ∈ ((View.whole main_v79_1).slice (win7_3.rect t)).set ↔ _
  rw [View.set_slice_whole, Rect.mem_set_unit]
  exact Iff.rfl

theorem r7_mem_blk4 (t : Fin cfg7.N) (i : S1x128.Idx) :
    i ∈ ((cfg7.win 4).blk t).view.set
      ↔ ∀ a : Fin 2, win7_4.index t a * S1x128.size a ≤ (i a).val ∧ (i a).val < win7_4.index t a * S1x128.size a + S1x128.size a := by
  show i ∈ ((View.whole main_v79_2).slice (win7_4.rect t)).set ↔ _
  rw [View.set_slice_whole, Rect.mem_set_unit]
  exact Iff.rfl

/-- The last point. -/
theorem r7_last_lt : 9 < cfg7.N := by rw [show cfg7.N = 10 from N_7]; decide

/-- One block of an accumulator's array is the whole array: reading any row G through it at (u, d) reads G at (0, d). -/
theorem r7_read_blk3 (t : Fin cfg7.N) (G : Cert.Spec.Mat 1 128) (u : Fin 1) (d : Fin 128) :
    ((cfg7.win 3).blk t).view.read (Elt Ideal) G (ix2 u d) = G (ix2 (0 : Fin 1) d) := by
  show G (((cfg7.win 3).blk t).view.emb (ix2 u d)) = _
  refine congrArg G (funext fun a => Fin.ext ?_)
  obtain ⟨-, -, -, -, -, -, e0, e1, -⟩ := r7_idx t
  match a with
  | ⟨0, _⟩ => show win7_3.index t (0 : Fin 2) * 1 + 1 * u.val = 0; rw [e0]; omega
  | ⟨1, _⟩ => show win7_3.index t (1 : Fin 2) * 128 + 1 * d.val = d.val; rw [e1]; omega

theorem r7_flushed_s (c : Dev nD) (t : Fin cfg7.N) (hf : (cfg7.win 3).flush t = true) :
    (dat7 (F := Ideal) V c).flushed 3 t = ((cfg7.win 3).blk t).view.read (Elt Ideal) (Cert.Spec.colSum (r7_x V c)) := by
  have hN : cfg7.N = 10 := N_7
  have h9 : t.val + 1 = cfg7.N := by have := (flush7_3 t).mp hf; have := t.isLt; omega
  show (cfg7.win 3).cut (grid7.coords t) ((dat7 V c).after 3 t) = _
  rw [after7_3]
  funext j
  obtain ⟨u, d, rfl⟩ : ∃ (u : Fin 1) (d : Fin 128), j = ix2 u d := ⟨j 0, j 1, eq_ix2 j⟩
  refine Eq.trans ?_ (r7_read_blk3 t (Cert.Spec.colSum (r7_x V c)) u d).symm
  rw [Cert.Spec.colSum_ix2]
  show (outsAt7 V c t.val t.isLt).2.1 (ix2 u d) = _
  rw [r7_acc_s V c d u t.val t.isLt, h9]
  exact Cert.LibBlockSum.upTo_blocks r7_hNB (fun r : Fin 50000 => r7_x V c (ix2 r d))

/-- One block of an accumulator's array is the whole array: reading any row G through it at (u, d) reads G at (0, d). -/
theorem r7_read_blk4 (t : Fin cfg7.N) (G : Cert.Spec.Mat 1 128) (u : Fin 1) (d : Fin 128) :
    ((cfg7.win 4).blk t).view.read (Elt Ideal) G (ix2 u d) = G (ix2 (0 : Fin 1) d) := by
  show G (((cfg7.win 4).blk t).view.emb (ix2 u d)) = _
  refine congrArg G (funext fun a => Fin.ext ?_)
  obtain ⟨-, -, -, -, -, -, -, -, e0, e1⟩ := r7_idx t
  match a with
  | ⟨0, _⟩ => show win7_4.index t (0 : Fin 2) * 1 + 1 * u.val = 0; rw [e0]; omega
  | ⟨1, _⟩ => show win7_4.index t (1 : Fin 2) * 128 + 1 * d.val = d.val; rw [e1]; omega

theorem r7_flushed_ss (c : Dev nD) (t : Fin cfg7.N) (hf : (cfg7.win 4).flush t = true) :
    (dat7 (F := Ideal) V c).flushed 4 t = ((cfg7.win 4).blk t).view.read (Elt Ideal) (Cert.Spec.colSumSq (r7_x V c)) := by
  have hN : cfg7.N = 10 := N_7
  have h9 : t.val + 1 = cfg7.N := by have := (flush7_4 t).mp hf; have := t.isLt; omega
  show (cfg7.win 4).cut (grid7.coords t) ((dat7 V c).after 4 t) = _
  rw [after7_4]
  funext j
  obtain ⟨u, d, rfl⟩ : ∃ (u : Fin 1) (d : Fin 128), j = ix2 u d := ⟨j 0, j 1, eq_ix2 j⟩
  refine Eq.trans ?_ (r7_read_blk4 t (Cert.Spec.colSumSq (r7_x V c)) u d).symm
  rw [Cert.Spec.colSumSq_ix2]
  show (outsAt7 V c t.val t.isLt).2.2 (ix2 u d) = _
  rw [r7_acc_ss V c d u t.val t.isLt, h9]
  exact Cert.LibBlockSum.upTo_blocks r7_hNB (fun r : Fin 50000 => r7_x V c (ix2 r d) * r7_x V c (ix2 r d))

end Values

/-! ## The three output arrays when the region ends -/

theorem final7_x (V : (c : Dev nD) → (b : Ref sig .tc) → Buf (Elt Ideal) ((c : Thread nD τ).loc b)) (c : Dev nD) :
    (dat7 (F := Ideal) V c).arrAt 2 cfg7.N
      = Cert.Spec.rowScale (M := 50000) (N := 128) (V c (Pipeline.arrRef spec7 0)) (V c (Pipeline.arrRef spec7 1)) :=
  (dat7 (F := Ideal) V c).arrAt_eq_of_cover 2 (r7_x V c) (fun t _ => r7_flushed_x V c t) fun i => by
    have hi0 : (i 0).val < 50000 := (i 0).isLt
    have hi1 : (i 1).val < 128 := (i 1).isLt
    have hlt : (i 0).val / 5000 < cfg7.N := by rw [show cfg7.N = 10 from N_7]; omega
    refine ⟨⟨(i 0).val / 5000, hlt⟩, flush7_2 _, ?_⟩
    rw [r7_mem_blk2]
    obtain ⟨-, -, -, -, e0, e1, -⟩ := r7_idx ⟨(i 0).val / 5000, hlt⟩
    intro a
    match a with
    | ⟨0, _⟩ =>
      show win7_2.index ⟨(i 0).val / 5000, hlt⟩ (0 : Fin 2) * 5000 ≤ (i 0).val
        ∧ (i 0).val < win7_2.index ⟨(i 0).val / 5000, hlt⟩ (0 : Fin 2) * 5000 + 5000
      rw [e0]; dsimp only; omega
    | ⟨1, _⟩ =>
      show win7_2.index ⟨(i 0).val / 5000, hlt⟩ (1 : Fin 2) * 128 ≤ (i 1).val
        ∧ (i 1).val < win7_2.index ⟨(i 0).val / 5000, hlt⟩ (1 : Fin 2) * 128 + 128
      rw [e1]; omega

theorem final7_s (V : (c : Dev nD) → (b : Ref sig .tc) → Buf (Elt Ideal) ((c : Thread nD τ).loc b)) (c : Dev nD) :
    (dat7 (F := Ideal) V c).arrAt 3 cfg7.N
      = Cert.Spec.colSum (Cert.Spec.rowScale (M := 50000) (N := 128) (V c (Pipeline.arrRef spec7 0)) (V c (Pipeline.arrRef spec7 1))) :=
  (dat7 (F := Ideal) V c).arrAt_eq_of_cover 3 (Cert.Spec.colSum (r7_x V c)) (r7_flushed_s V c) fun i => by
    have hi0 : (i 0).val < 1 := (i 0).isLt
    have hi1 : (i 1).val < 128 := (i 1).isLt
    refine ⟨⟨9, r7_last_lt⟩, (flush7_3 _).mpr rfl, ?_⟩
    rw [r7_mem_blk3]
    obtain ⟨-, -, -, -, -, -, e0, e1, -⟩ := r7_idx ⟨9, r7_last_lt⟩
    intro a
    match a with
    | ⟨0, _⟩ =>
      show win7_3.index ⟨9, r7_last_lt⟩ (0 : Fin 2) * 1 ≤ (i 0).val ∧ (i 0).val < win7_3.index ⟨9, r7_last_lt⟩ (0 : Fin 2) * 1 + 1
      rw [e0]; omega
    | ⟨1, _⟩ =>
      show win7_3.index ⟨9, r7_last_lt⟩ (1 : Fin 2) * 128 ≤ (i 1).val ∧ (i 1).val < win7_3.index ⟨9, r7_last_lt⟩ (1 : Fin 2) * 128 + 128
      rw [e1]; omega

theorem final7_ss (V : (c : Dev nD) → (b : Ref sig .tc) → Buf (Elt Ideal) ((c : Thread nD τ).loc b)) (c : Dev nD) :
    (dat7 (F := Ideal) V c).arrAt 4 cfg7.N
      = Cert.Spec.colSumSq (Cert.Spec.rowScale (M := 50000) (N := 128) (V c (Pipeline.arrRef spec7 0)) (V c (Pipeline.arrRef spec7 1))) :=
  (dat7 (F := Ideal) V c).arrAt_eq_of_cover 4 (Cert.Spec.colSumSq (r7_x V c)) (r7_flushed_ss V c) fun i => by
    have hi0 : (i 0).val < 1 := (i 0).isLt
    have hi1 : (i 1).val < 128 := (i 1).isLt
    refine ⟨⟨9, r7_last_lt⟩, (flush7_4 _).mpr rfl, ?_⟩
    rw [r7_mem_blk4]
    obtain ⟨-, -, -, -, -, -, -, -, e0, e1⟩ := r7_idx ⟨9, r7_last_lt⟩
    intro a
    match a with
    | ⟨0, _⟩ =>
      show win7_4.index ⟨9, r7_last_lt⟩ (0 : Fin 2) * 1 ≤ (i 0).val ∧ (i 0).val < win7_4.index ⟨9, r7_last_lt⟩ (0 : Fin 2) * 1 + 1
      rw [e0]; omega
    | ⟨1, _⟩ =>
      show win7_4.index ⟨9, r7_last_lt⟩ (1 : Fin 2) * 128 ≤ (i 1).val ∧ (i 1).val < win7_4.index ⟨9, r7_last_lt⟩ (1 : Fin 2) * 128 + 128
      rw [e1]; omega

end Cert.KernelIdeal.Reg

end
-- ==== Proof.Reg8.lean ====
/-
  Region 8: every column normalised with its mean and variance rows, then rectified.
  Stated for the whole arrays: what the region's output arrays hold when it ends, as functions of the arrays it is entered with.

  The 50000 rows are cut into 10 blocks of 5000 consecutive rows; point t of the grid reads rows 5000·t … 5000·t+4999 of
  the features and the whole of the four rows μ, v, γ, β. Entry (p,q) of its result is
  max ((x(p,q) − μ(0,q))·(v(0,q) + ε)^(−1/2)·γ(0,q) + β(0,q)) 0, which depends on the block's own row p only; it is written
  back to the same rows of the output. Entry (r,q) of the output is therefore written by point r / 5000: the blocks are
  the restrictions of one function of the whole arrays, and they cover every row.
-/
import proofs.«113157_j3616362463713_1_alg».proof.Proof.Gen.KernelIdeal.Frame
import proofs.«113157_j3616362463713_1_alg».proof.Proof.Spec
import Idealize.ShloMosaic.Lib.ValueLayout
import Idealize.ShloMosaic.Lib.Pipeline.Value

set_option maxRecDepth 16384

noncomputable section

namespace Cert.KernelIdeal.Reg

open Idealize.ShloMosaic Idealize.ShloMosaic.TcCoe Idealize.SL.Sem Cert.KernelIdeal Cert.KernelIdeal.Gen
open Idealize.ShloMosaic.ValueIdx

/-- The zero offsets of a whole-block access, as a constant function. -/
theorem r8_hz : (![0, 0] : Fin 2 → Nat) = fun _ => 0 := funext fun a => by fin_cases a <;> rfl

/-- The reciprocal square root of an array reads, at an index, the reciprocal square root of the entry. -/
theorem r8_rsqrt_apply {s : Shape} {φ : FTy} (a : FVec Ideal s φ) (i : s.Idx) : rsqrt a i = Ideal.rsqrt (a i) := rfl

/-- The body's result at entry (p,q) of a block: the normalised and rectified feature entry; when the feature block
    holds row r of the whole array at its row p, this is entry (r,q) of the whole-array stage. -/
theorem r8_point (X : Cert.Spec.Mat 50000 128) (μ v γ β : Cert.Spec.Mat 1 128)
    (x0 : Vec Ideal S5000x128 .f32) (x1 x2 x3 x4 : Vec Ideal S1x128 .f32)
    (p : Fin 5000) (q : Fin 128) (r : Fin 50000)
    (h0 : x0 (ix2 p q) = X (ix2 r q)) (h1 : x1 (ix2 (0 : Fin 1) q) = μ (ix2 (0 : Fin 1) q))
    (h2 : x2 (ix2 (0 : Fin 1) q) = v (ix2 (0 : Fin 1) q)) (h3 : x3 (ix2 (0 : Fin 1) q) = γ (ix2 (0 : Fin 1) q))
    (h4 : x4 (ix2 (0 : Fin 1) q) = β (ix2 (0 : Fin 1) q)) :
    k8_pay1 (F := Ideal) x0 x1 x2 x3 x4 (ix2 p q) = Cert.Spec.bnRelu X μ v γ β (ix2 r q) := by
  unfold k8_pay1
  rw [Cert.Spec.bnRelu_ix2, maximumf_apply, broadcast_apply, addf_apply,
    mulf_apply, mulf_apply, subf_apply, shapeCast_self, broadcastTo_1b_ab_apply, shapeCast_self,
    broadcastTo_1b_ab_apply, r8_rsqrt_apply, addf_apply, shapeCast_self, broadcast_apply,
    broadcastTo_1b_ab_apply, shapeCast_self, broadcastTo_1b_ab_apply, shapeCast_self, h0, h1, h2, h3, h4]
  rfl

/-- Every window's block index at point t: block row t for the row-tiled windows, the one block for the four rows. -/
theorem r8_idx : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

set_option maxHeartbeats 1600000 in
/-- What point t writes back is rows 5000·t … 5000·t+4999 of the whole-array stage. -/
theorem r8_flushed (V : (c : Dev nD) → (b : Ref sig .tc) → Buf (Elt Ideal) ((c : Thread nD τ).loc b)) (c : Dev nD)
    (t : Fin cfg8.N) :
    (dat8 (F := Ideal) V c).flushed 5 t
      = ((cfg8.win 5).blk t).view.read (Elt Ideal)
          (Cert.Spec.bnRelu (M := 50000) (N := 128) (V c (Pipeline.arrRef spec8 0)) (V c (Pipeline.arrRef spec8 1)) (V c (Pipeline.arrRef spec8 2)) (V c (Pipeline.arrRef spec8 3)) (V c (Pipeline.arrRef spec8 4))) := by
  show (cfg8.win 5).cut (grid8.coords t) ((dat8 V c).after 5 t) = _
  rw [after8_5]
  unfold out8_5
  rw [View.canon_unit_zero r8_hz]
  simp only [View.ld_unit_zero (S := S5000x128) r8_hz, View.ld_unit_zero (S := S1x128) r8_hz]
  obtain ⟨e0, e1, e2, e3, e4, e5, e6, e7, e8, e9, e10, e11⟩ := r8_idx t
  have hN : grid8.N = 10 := N_8
  have ht : t.val < 10 := hN ▸ t.isLt
  funext j
  obtain ⟨p, q, rfl⟩ : ∃ (p : Fin 5000) (q : Fin 128), j = ix2 p q := ⟨j 0, j 1, eq_ix2 j⟩
  have hr : t.val * 5000 + p.val < 50000 := by have := p.isLt; omega
  show k8_pay1 (F := Ideal) (iblk8 V c 0 t) (iblk8 V c 1 t) (iblk8 V c 2 t) (iblk8 V c 3 t) (iblk8 V c 4 t) (ix2 p q)
    = Cert.Spec.bnRelu (M := 50000) (N := 128) (V c (Pipeline.arrRef spec8 0)) (V c (Pipeline.arrRef spec8 1)) (V c (Pipeline.arrRef spec8 2)) (V c (Pipeline.arrRef spec8 3)) (V c (Pipeline.arrRef spec8 4))
        (((cfg8.win 5).blk t).view.emb (ix2 p q))
  have he : ((cfg8.win 5).blk t).view.emb (ix2 p q) = ix2 (⟨t.val * 5000 + p.val, hr⟩ : Fin 50000) q := by
    funext a; apply Fin.ext
    match a with
    | ⟨0, _⟩ => show win8_5.index t (0 : Fin 2) * 5000 + 1 * p.val = t.val * 5000 + p.val; omega
    | ⟨1, _⟩ => show win8_5.index t (1 : Fin 2) * 128 + 1 * q.val = q.val; omega
  rw [he]
  refine r8_point (V c (Pipeline.arrRef spec8 0)) (V c (Pipeline.arrRef spec8 1))
    (V c (Pipeline.arrRef spec8 2)) (V c (Pipeline.arrRef spec8 3)) (V c (Pipeline.arrRef spec8 4))
    (iblk8 V c 0 t) (iblk8 V c 1 t) (iblk8 V c 2 t) (iblk8 V c 3 t) (iblk8 V c 4 t) p q
    ⟨t.val * 5000 + p.val, hr⟩ ?_ ?_ ?_ ?_ ?_
  · show V c (Pipeline.arrRef spec8 0) (((cfg8.win 0).blk t).view.emb (ix2 p q)) = _
    refine congrArg _ ?_
    funext a; apply Fin.ext
    match a with
    | ⟨0, _⟩ => show win8_0.index t (0 : Fin 2) * 5000 + 1 * p.val = t.val * 5000 + p.val; omega
    | ⟨1, _⟩ => show win8_0.index t (1 : Fin 2) * 128 + 1 * q.val = q.val; omega
  · show V c (Pipeline.arrRef spec8 1) (((cfg8.win 1).blk t).view.emb (ix2 (0 : Fin 1) q)) = _
    refine congrArg _ ?_
    funext a; apply Fin.ext
    match a with
    | ⟨0, _⟩ => show win8_1.index t (0 : Fin 2) * 1 + 1 * 0 = 0; omega
    | ⟨1, _⟩ => show win8_1.index t (1 : Fin 2) * 128 + 1 * q.val = q.val; omega
  · show V c (Pipeline.arrRef spec8 2) (((cfg8.win 2).blk t).view.emb (ix2 (0 : Fin 1) q)) = _
    refine congrArg _ ?_
    funext a; apply Fin.ext
    match a with
    | ⟨0, _⟩ => show win8_2.index t (0 : Fin 2) * 1 + 1 * 0 = 0; omega
    | ⟨1, _⟩ => show win8_2.index t (1 : Fin 2) * 128 + 1 * q.val = q.val; omega
  · show V c (Pipeline.arrRef spec8 3) (((cfg8.win 3).blk t).view.emb (ix2 (0 : Fin 1) q)) = _
    refine congrArg _ ?_
    funext a; apply Fin.ext
    match a with
    | ⟨0, _⟩ => show win8_3.index t (0 : Fin 2) * 1 + 1 * 0 = 0; omega
    | ⟨1, _⟩ => show win8_3.index t (1 : Fin 2) * 128 + 1 * q.val = q.val; omega
  · show V c (Pipeline.arrRef spec8 4) (((cfg8.win 4).blk t).view.emb (ix2 (0 : Fin 1) q)) = _
    refine congrArg _ ?_
    funext a; apply Fin.ext
    match a with
    | ⟨0, _⟩ => show win8_4.index t (0 : Fin 2) * 1 + 1 * 0 = 0; omega
    | ⟨1, _⟩ => show win8_4.index t (1 : Fin 2) * 128 + 1 * q.val = q.val; omega

/-- A row-and-column index is in point t's output block exactly when each coordinate is in the block's range. -/
theorem r8_mem_blk (t : Fin cfg8.N) (i : S50000x128.Idx) :
    i ∈ ((cfg8.win 5).blk t).view.set
      ↔ ∀ a : Fin 2, win8_5.index t a * S5000x128.size a ≤ (i a).val
          ∧ (i a).val < win8_5.index t a * S5000x128.size a + S5000x128.size a := by
  show i ∈ ((View.whole main_v86).slice (win8_5.rect t)).set ↔ _
  rw [View.set_slice_whole, Rect.mem_set_unit]
  exact Iff.rfl

/-- Row r lies in the block of point r / 5000: the ten blocks cover the array. -/
theorem r8_cover (i : S50000x128.Idx) :
    ∃ t : Fin cfg8.N, (cfg8.win 5).flush t = true ∧ i ∈ ((cfg8.win 5).blk t).view.set := by
  have hi0 : (i 0).val < 50000 := (i 0).isLt
  have hi1 : (i 1).val < 128 := (i 1).isLt
  have hN : grid8.N = 10 := N_8
  have hlt : (i 0).val / 5000 < grid8.N := by rw [hN]; omega
  obtain ⟨e0, e1, e2, e3, e4, e5, e6, e7, e8, e9, e10, e11⟩ := r8_idx ⟨(i 0).val / 5000, hlt⟩
  refine ⟨⟨(i 0).val / 5000, hlt⟩, flush8_5 _, ?_⟩
  rw [r8_mem_blk]
  intro a
  match a with
  | ⟨0, _⟩ =>
    show win8_5.index ⟨(i 0).val / 5000, hlt⟩ (0 : Fin 2) * 5000 ≤ (i 0).val
      ∧ (i 0).val < win8_5.index ⟨(i 0).val / 5000, hlt⟩ (0 : Fin 2) * 5000 + 5000
    rw [e10]
    show (i 0).val / 5000 * 5000 ≤ (i 0).val ∧ (i 0).val < (i 0).val / 5000 * 5000 + 5000
    omega
  | ⟨1, _⟩ =>
    show win8_5.index ⟨(i 0).val / 5000, hlt⟩ (1 : Fin 2) * 128 ≤ (i 1).val
      ∧ (i 1).val < win8_5.index ⟨(i 0).val / 5000, hlt⟩ (1 : Fin 2) * 128 + 128
    rw [e11]
    omega

theorem final8 (V : (c : Dev nD) → (b : Ref sig .tc) → Buf (Elt Ideal) ((c : Thread nD τ).loc b)) (c : Dev nD) :
    (dat8 (F := Ideal) V c).arrAt 5 cfg8.N
      = Cert.Spec.bnRelu (M := 50000) (N := 128) (V c (Pipeline.arrRef spec8 0)) (V c (Pipeline.arrRef spec8 1)) (V c (Pipeline.arrRef spec8 2)) (V c (Pipeline.arrRef spec8 3)) (V c (Pipeline.arrRef spec8 4)) :=
  (dat8 (F := Ideal) V c).arrAt_eq_of_cover 5
    (Cert.Spec.bnRelu (M := 50000) (N := 128) (V c (Pipeline.arrRef spec8 0)) (V c (Pipeline.arrRef spec8 1)) (V c (Pipeline.arrRef spec8 2)) (V c (Pipeline.arrRef spec8 3)) (V c (Pipeline.arrRef spec8 4)))
    (fun t _ => r8_flushed V c t) r8_cover

end Cert.KernelIdeal.Reg

end
-- ==== Proof.Reg9.lean ====
/-
  Region 9: the first linear map with its bias row, and the column sums and column sums of squares of the result, accumulated over the ten blocks of 5000 rows.
  Stated for the whole arrays: what the region's output arrays hold when it ends, as functions of the arrays it is entered with.

  The grid has ten points. At point t the body is handed rows 5000·t … 5000·t + 4999 of the feature array X and the whole of
  the 128×128 weights W and the bias row b. It stores  y = (block of X)·W + b  — entry (p, q) is Σ_k X(5000·t + p, k)·W(k, q) + b(q),
  the product into a zero accumulator being the plain sum over the contracted coordinate — so what it writes back to the
  first output is rows 5000·t … 5000·t + 4999 of the one whole-array function `Spec.linBias X W b`, and the ten blocks cover
  the 50000 rows.

  The other two outputs are one row each and stay in place from point to point. At the first point they are set to zero;
  at every point the body adds to them, column by column, Σ_p y(p, q) and Σ_p y(p, q)². So after point n they hold the
  totals of the first n + 1 blocks' column sums (by induction on n), and after the last point — the only one after which
  they are written back — the sums over all 10·5000 = 50000 rows: `Spec.colSum` and `Spec.colSumSq` of the linear map's result.
  Only 0 + x = x and the regrouping of a finite sum into blocks are used, so everything holds at the infinities too.
-/
import proofs.«113157_j3616362463713_1_alg».proof.Proof.Gen.KernelIdeal.Frame
import proofs.«113157_j3616362463713_1_alg».proof.Proof.Spec
import proofs.«113157_j3616362463713_1_alg».proof.Proof.LibBlockSum
import Idealize.ShloMosaic.Lib.StackMember
import Idealize.ShloMosaic.Lib.KernelVsHost
import Idealize.ShloMosaic.Lib.ValueLayout
import Idealize.ShloMosaic.Lib.Pipeline.Value
import Idealize.ShloMosaic.Lib.Tactic

set_option maxRecDepth 16384

noncomputable section

open scoped BigOperators

namespace Cert.KernelIdeal.Reg

open Idealize.ShloMosaic Idealize.ShloMosaic.TcCoe Idealize.ShloMosaic.ValueIdx Idealize.ShloMosaic.Tactic Idealize.SL.Sem Cert.KernelIdeal Cert.KernelIdeal.Gen

/-! ## What each case of the body leaves in the three output buffers

At the first point the body zeroes the two accumulators before anything else; at the others it does not. In both cases
it then stores the linear map of the block it was handed, and adds that block's column sums (of the values, of their
squares) to what the accumulators hold: zero at the first point, what the point before left at the others. -/

theorem r9_hz : (![0, 0] : Fin 2 → Nat) = fun _ => 0 := funext fun a => by fin_cases a <;> rfl

section Pieces
variable {F : FTy → Type} [FloatOps F]

/-- At a later point the first output's buffer is left holding the linear map of the block. -/
theorem r9_out_B_3 (c : Dev nD) (i : grid9.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond9_0 i)
    (x0 : Vec F S5000x128 .f32) (x1 : Vec F S128x128 .f32) (x2 : Vec F S1x128 .f32) (xo4 xo5 : Vec F S1x128 .f32) :
    out9_B_3 c i a1 h1 a2 h2 a3 h3 a4 h4 a5 h5 a6 h6 hc x0 x1 x2 xo4 xo5 = k9_pay3 x0 x1 x2 := by
  unfold out9_B_3
  rw [View.read_writes_eq_canon _ _ _ (cover9_B_3 c i a1 h1 a2 h2 a3 h3 a4 h4 a5 h5 a6 h6 hc x0 x1 x2 xo4 xo5)]
  unfold kernelRun9_B
  dsimp only
  rw [View.canon_unit_zero r9_hz]
  simp only [View.readAt_eq_ld, h1.read_unread, h2.read_unread, h3.read_unread, h5.read_unread, h6.read_unread,
    View.ld_unit_zero (S := S5000x128) r9_hz, View.ld_unit_zero (S := S128x128) r9_hz, View.ld_unit_zero (S := S1x128) r9_hz]

/-- At a later point the sums' buffer is left holding what it held plus the block's column sums. -/
theorem r9_out_B_4 (c : Dev nD) (i : grid9.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond9_0 i)
    (x0 : Vec F S5000x128 .f32) (x1 : Vec F S128x128 .f32) (x2 : Vec F S1x128 .f32) (xo4 xo5 : Vec F S1x128 .f32) :
    out9_B_4 c i a1 h1 a2 h2 a3 h3 a4 h4 a5 h5 a6 h6 hc x0 x1 x2 xo4 xo5 = k9_pay4 x0 x1 x2 xo4 := by
  unfold out9_B_4
  rw [View.read_writes_eq_canon _ _ _ (cover9_B_4 c i a1 h1 a2 h2 a3 h3 a4 h4 a5 h5 a6 h6 hc x0 x1 x2 xo4 xo5)]
  unfold kernelRun9_B
  dsimp only
  rw [View.canon_unit_zero r9_hz]
  simp only [View.readAt_eq_ld, h1.read_unread, h2.read_unread, h3.read_unread, h5.read_unread, h6.read_unread,
    View.ld_unit_zero (S := S5000x128) r9_hz, View.ld_unit_zero (S := S128x128) r9_hz, View.ld_unit_zero (S := S1x128) r9_hz]

/-- At a later point the sums-of-squares' buffer is left holding what it held plus the block's column sums of squares. -/
theorem r9_out_B_5 (c : Dev nD) (i : grid9.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond9_0 i)
    (x0 : Vec F S5000x128 .f32) (x1 : Vec F S128x128 .f32) (x2 : Vec F S1x128 .f32) (xo4 xo5 : Vec F S1x128 .f32) :
    out9_B_5 c i a1 h1 a2 h2 a3 h3 a4 h4 a5 h5 a6 h6 hc x0 x1 x2 xo4 xo5 = k9_pay5 x0 x1 x2 xo5 := by
  unfold out9_B_5
  rw [View.read_writes_eq_canon _ _ _ (cover9_B_5 c i a1 h1 a2 h2 a3 h3 a4 h4 a5 h5 a6 h6 hc x0 x1 x2 xo4 xo5)]
  unfold kernelRun9_B
  dsimp only
  rw [View.canon_unit_zero r9_hz]
  simp only [View.readAt_eq_ld, h1.read_unread, h2.read_unread, h3.read_unread, h5.read_unread, h6.read_unread,
    View.ld_unit_zero (S := S5000x128) r9_hz, View.ld_unit_zero (S := S128x128) r9_hz, View.ld_unit_zero (S := S1x128) r9_hz]

/-- At the first point the first output's buffer is left holding the linear map of the block. -/
theorem r9_out_A_3 (c : Dev nD) (i : grid9.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond9_0 i)
    (x0 : Vec F S5000x128 .f32) (x1 : Vec F S128x128 .f32) (x2 : Vec F S1x128 .f32) :
    out9_A_3 c i a1 h1 a2 h2 a3 h3 a4 h4 a5 h5 a6 h6 hc x0 x1 x2 = k9_pay3 x0 x1 x2 := by
  unfold out9_A_3
  rw [View.read_writes_eq_canon _ _ _ (cover9_A_3 c i a1 h1 a2 h2 a3 h3 a4 h4 a5 h5 a6 h6 hc x0 x1 x2)]
  unfold kernelRun9_A
  dsimp only
  rw [View.canon_unit_zero r9_hz]
  simp only [View.readAt_eq_ld, h1.read_unread, h2.read_unread, h3.read_unread, h5.read_unread, h6.read_unread,
    View.ld_unit_zero (S := S5000x128) r9_hz, View.ld_unit_zero (S := S128x128) r9_hz, View.ld_unit_zero (S := S1x128) r9_hz]

/-- At the first point the sums' buffer is left holding zero plus the block's column sums. -/
theorem r9_out_A_4 (c : Dev nD) (i : grid9.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond9_0 i)
    (x0 : Vec F S5000x128 .f32) (x1 : Vec F S128x128 .f32) (x2 : Vec F S1x128 .f32) :
    out9_A_4 c i a1 h1 a2 h2 a3 h3 a4 h4 a5 h5 a6 h6 hc x0 x1 x2 = k9_pay4 x0 x1 x2 (k9_pay1 (F := F)) := by
  unfold out9_A_4
  rw [View.read_writes_eq_canon _ _ _ (cover9_A_4 c i a1 h1 a2 h2 a3 h3 a4 h4 a5 h5 a6 h6 hc x0 x1 x2)]
  unfold kernelRun9_A
  dsimp only
  sl_unfold_words
  rw [View.canon_cons_unit_zero (S := S1x128) r9_hz, View.readCov_unit_zero (S := S1x128) _ r9_hz]
  simp only [View.readAt_eq_ld, h1.read_unread, h2.read_unread, h3.read_unread, h5.read_unread, h6.read_unread,
    View.ld_unit_zero (S := S5000x128) r9_hz, View.ld_unit_zero (S := S128x128) r9_hz, View.ld_unit_zero (S := S1x128) r9_hz]

/-- At the first point the sums-of-squares' buffer is left holding zero plus the block's column sums of squares. -/
theorem r9_out_A_5 (c : Dev nD) (i : grid9.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond9_0 i)
    (x0 : Vec F S5000x128 .f32) (x1 : Vec F S128x128 .f32) (x2 : Vec F S1x128 .f32) :
    out9_A_5 c i a1 h1 a2 h2 a3 h3 a4 h4 a5 h5 a6 h6 hc x0 x1 x2 = k9_pay5 x0 x1 x2 (k9_pay2 (F := F)) := by
  unfold out9_A_5
  rw [View.read_writes_eq_canon _ _ _ (cover9_A_5 c i a1 h1 a2 h2 a3 h3 a4 h4 a5 h5 a6 h6 hc x0 x1 x2)]
  unfold kernelRun9_A
  dsimp only
  sl_unfold_words
  rw [View.canon_cons_unit_zero (S := S1x128) r9_hz, View.readCov_unit_zero (S := S1x128) _ r9_hz]
  simp only [View.readAt_eq_ld, h1.read_unread, h2.read_unread, h3.read_unread, h5.read_unread, h6.read_unread,
    View.ld_unit_zero (S := S5000x128) r9_hz, View.ld_unit_zero (S := S128x128) r9_hz, View.ld_unit_zero (S := S1x128) r9_hz]

end Pieces

/-! ## The body's arithmetic at an entry -/

/-- The printed record of the first product's dimensions is the plain 5000×128 by 128×128 product. -/
theorem r9_dims : dot_S5000x128_S128x128_S5000x128_1_0_0_1_n_n = DotDims.plain 5000 128 128 := rfl

/-- Entry (p, q) of the linear map on a block: row p of the block against column q of the weights, plus the bias at q. -/
theorem r9_pay3 (x0 : Vec Ideal S5000x128 .f32) (x1 : Vec Ideal S128x128 .f32) (x2 : Vec Ideal S1x128 .f32) (p : Fin 5000) (q : Fin 128) :
    k9_pay3 (F := Ideal) x0 x1 x2 (ix2 p q) = (∑ k : Fin 128, x0 (ix2 p k) * x1 (ix2 k q)) + x2 (ix2 (0 : Fin 1) q) := by
  unfold k9_pay3
  refine (addf_apply _ _ _).trans ?_
  refine congrArg₂ (· + ·) ?_ ?_
  · rw [r9_dims]
    refine (congrFun (matmul_zero_eq_dotGeneral (DotDims.plain 5000 128 128) none _ _) (ix2 p q)).trans ?_
    refine (StackMember.dotGeneral_plain_apply none _ _ p q).trans ?_
    rw [shapeCast_self]
  · rw [broadcastTo_1b_ab_apply, shapeCast_self]

/-- The sum over the 5000 rows of a block, laid out as one row: entry (u, q) is the sum of column q. -/
theorem r9_red (src : FVec Ideal S5000x128 .f32) (u : Fin 1) (q : Fin 128) :
    shapeCast S1x128 (multiReduction .add [0] S128 src 0x00000000#32 reduces_S5000x128_S128 (.inl rfl) rfl) shapeCasts_S128_S1x128 (ix2 u q)
      = ∑ p : Fin 5000, src (ix2 p q) := by
  refine (shapeCast_a_1a_apply _ _ u q).trans ?_
  refine (Ideal.multiReduction_add_single src _ reduces_S5000x128_S128 _ _ (ix1 q)).trans ?_
  refine Finset.sum_congr rfl fun k _ => congrArg src ?_
  funext a; apply Fin.ext
  match a with
  | ⟨0, _⟩ => rfl
  | ⟨1, _⟩ => rfl

/-- Entry (u, q) of the new sums: the old entry plus column q of the block's linear map summed over its 5000 rows. -/
theorem r9_pay4 (x0 : Vec Ideal S5000x128 .f32) (x1 : Vec Ideal S128x128 .f32) (x2 : Vec Ideal S1x128 .f32) (acc : Vec Ideal S1x128 .f32)
    (u : Fin 1) (q : Fin 128) :
    k9_pay4 (F := Ideal) x0 x1 x2 acc (ix2 u q) = acc (ix2 u q) + ∑ p : Fin 5000, k9_pay3 (F := Ideal) x0 x1 x2 (ix2 p q) := by
  unfold k9_pay4
  refine (addf_apply _ _ _).trans ?_
  refine congrArg₂ (· + ·) ?_ (r9_red _ u q)
  rw [shapeCast_self]

/-- Entry (u, q) of the new sums of squares: the old entry plus the squares of column q summed over the 5000 rows. -/
theorem r9_pay5 (x0 : Vec Ideal S5000x128 .f32) (x1 : Vec Ideal S128x128 .f32) (x2 : Vec Ideal S1x128 .f32) (acc : Vec Ideal S1x128 .f32)
    (u : Fin 1) (q : Fin 128) :
    k9_pay5 (F := Ideal) x0 x1 x2 acc (ix2 u q)
      = acc (ix2 u q) + ∑ p : Fin 5000, k9_pay3 (F := Ideal) x0 x1 x2 (ix2 p q) * k9_pay3 (F := Ideal) x0 x1 x2 (ix2 p q) := by
  unfold k9_pay5
  refine (addf_apply _ _ _).trans ?_
  refine congrArg₂ (· + ·) ?_ (r9_red _ u q)
  rw [shapeCast_self]

/-! ## The blocks the body is handed -/

/-- The grid has ten points. -/
theorem r9_N : cfg9.N = 10 := N_9

/-- The index maps over the grid: the two row-tiled windows are at block (t, 0), every other window at block (0, 0). -/
theorem r9_idx : ∀ t : Fin cfg9.N,
    win9_0.index t (0 : Fin 2) = t.val ∧ win9_0.index t (1 : Fin 2) = 0
    ∧ win9_3.index t (0 : Fin 2) = t.val ∧ win9_3.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_4.index t (0 : Fin 2) = 0 ∧ win9_4.index t (1 : Fin 2) = 0
    ∧ win9_5.index t (0 : Fin 2) = 0 ∧ win9_5.index t (1 : Fin 2) = 0 :=
  (by decide +kernel : ∀ t : Fin grid9.N, _)

/-- Row p of block t is a row of the array. -/
theorem r9_row_lt (t : Fin cfg9.N) (p : Fin 5000) : t.val * 5000 + p.val < 50000 := by
  have h1 : t.val < 10 := lt_of_lt_of_eq t.isLt r9_N
  have := p.isLt; omega

section Blocks

variable (V : (c : Dev nD) → (b : Ref sig .tc) → Buf (Elt Ideal) ((c : Thread nD τ).loc b)) (c : Dev nD)

/-- Row p of the feature block at point t is row 5000·t + p of the feature array. -/
theorem r9_rd0 (t : Fin cfg9.N) (p : Fin 5000) (k : Fin 128) :
    iblk9 (F := Ideal) V c 0 t (ix2 p k) = V c (Pipeline.arrRef spec9 0) (ix2 (⟨t.val * 5000 + p.val, r9_row_lt t p⟩ : Fin 50000) k) := by
  obtain ⟨e0, e1, -⟩ := r9_idx t
  show V c (Pipeline.arrRef spec9 0) (((cfg9.win 0).blk t).view.emb (ix2 p k)) = _
  refine congrArg _ ?_
  funext a; apply Fin.ext
  match a with
  | ⟨0, _⟩ => show win9_0.index t (0 : Fin 2) * 5000 + 1 * p.val = t.val * 5000 + p.val; omega
  | ⟨1, _⟩ => show win9_0.index t (1 : Fin 2) * 128 + 1 * k.val = k.val; omega

/-- Window 1 (the weight matrix) is the whole array at every point. -/
theorem r9_rd1 (t : Fin cfg9.N) (k : Fin 128) (q : Fin 128) :
    iblk9 (F := Ideal) V c 1 t (ix2 k q) = V c (Pipeline.arrRef spec9 1) (ix2 k q) := by
  have e := r9_idx t
  have e0 : win9_1.index t (0 : Fin 2) = 0 := by tauto
  have e1 : win9_1.index t (1 : Fin 2) = 0 := by tauto
  show V c (Pipeline.arrRef spec9 1) (((cfg9.win 1).blk t).view.emb (ix2 k q)) = _
  refine congrArg _ ?_
  funext a; apply Fin.ext
  match a with
  | ⟨0, _⟩ => show win9_1.index t (0 : Fin 2) * 128 + 1 * k.val = k.val; omega
  | ⟨1, _⟩ => show win9_1.index t (1 : Fin 2) * 128 + 1 * q.val = q.val; omega

/-- Window 2 (the bias row) is the whole array at every point. -/
theorem r9_rd2 (t : Fin cfg9.N) (u : Fin 1) (q : Fin 128) :
    iblk9 (F := Ideal) V c 2 t (ix2 u q) = V c (Pipeline.arrRef spec9 2) (ix2 u q) := by
  have e := r9_idx t
  have e0 : win9_2.index t (0 : Fin 2) = 0 := by tauto
  have e1 : win9_2.index t (1 : Fin 2) = 0 := by tauto
  show V c (Pipeline.arrRef spec9 2) (((cfg9.win 2).blk t).view.emb (ix2 u q)) = _
  refine congrArg _ ?_
  funext a; apply Fin.ext
  match a with
  | ⟨0, _⟩ => show win9_2.index t (0 : Fin 2) * 1 + 1 * u.val = u.val; omega
  | ⟨1, _⟩ => show win9_2.index t (1 : Fin 2) * 128 + 1 * q.val = q.val; omega

/-- The linear map's result as one function of the arrays the region is entered with. -/
abbrev r9_L : Cert.Spec.Mat 50000 128 :=
  Cert.Spec.linBias (M := 50000) (K := 128) (N := 128) (V c (Pipeline.arrRef spec9 0)) (V c (Pipeline.arrRef spec9 1)) (V c (Pipeline.arrRef spec9 2))

/-- The linear map on the block of point t is rows 5000·t … 5000·t + 4999 of the linear map on the array. -/
theorem r9_blk (t : Fin cfg9.N) (p : Fin 5000) (q : Fin 128) :
    k9_pay3 (F := Ideal) (iblk9 V c 0 t) (iblk9 V c 1 t) (iblk9 V c 2 t) (ix2 p q) = r9_L V c (ix2 (⟨t.val * 5000 + p.val, r9_row_lt t p⟩ : Fin 50000) q) := by
  refine Eq.trans (r9_pay3 (iblk9 V c 0 t) (iblk9 V c 1 t) (iblk9 V c 2 t) p q) ?_
  refine Eq.trans ?_ (Cert.Spec.linBias_ix2 _ _ _ _ q).symm
  refine congrArg₂ (· + ·) (Finset.sum_congr rfl fun k _ => ?_) (r9_rd2 V c t 0 q)
  rw [r9_rd0, r9_rd1]

/-! ## What the three output buffers hold after each point -/

/-- After every point the first output's buffer holds the linear map on that point's block. -/
theorem r9_outs3 (t : Fin cfg9.N) : (outsAt9 V c t.val t.isLt).1 = k9_pay3 (F := Ideal) (iblk9 V c 0 t) (iblk9 V c 1 t) (iblk9 V c 2 t) := by
  by_cases h0 : t.val % 10 = 0
  · rw [outsAt9_A V c t h0]
    dsimp only
    exact r9_out_A_3 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) ((hcond9_0 t).mpr h0) (iblk9 V c 0 t) (iblk9 V c 1 t) (iblk9 V c 2 t)
  · rw [outsAt9_B V c t h0]
    dsimp only
    exact r9_out_B_3 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (fun h => h0 ((hcond9_0 t).mp h)) (iblk9 V c 0 t) (iblk9 V c 1 t) (iblk9 V c 2 t) (outsAt9 V c (t.val - 1) (Nat.lt_of_le_of_lt (Nat.sub_le _ _) t.isLt)).2.1 (outsAt9 V c (t.val - 1) (Nat.lt_of_le_of_lt (Nat.sub_le _ _) t.isLt)).2.2

/-- At the first point the sums' buffer is zeroed and then takes the first block's column sums. -/
theorem r9_outs4_A (t : Fin cfg9.N) (h0 : t.val % 10 = 0) :
    (outsAt9 V c t.val t.isLt).2.1 = k9_pay4 (F := Ideal) (iblk9 V c 0 t) (iblk9 V c 1 t) (iblk9 V c 2 t) (k9_pay1 (F := Ideal)) := by
  rw [outsAt9_A V c t h0]
  dsimp only
  exact r9_out_A_4 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) ((hcond9_0 t).mpr h0) (iblk9 V c 0 t) (iblk9 V c 1 t) (iblk9 V c 2 t)

/-- At a later point it adds that block's column sums to what the point before left. -/
theorem r9_outs4_B (t : Fin cfg9.N) (h0 : ¬t.val % 10 = 0) :
    (outsAt9 V c t.val t.isLt).2.1 = k9_pay4 (F := Ideal) (iblk9 V c 0 t) (iblk9 V c 1 t) (iblk9 V c 2 t) (outsAt9 V c (t.val - 1) (Nat.lt_of_le_of_lt (Nat.sub_le _ _) t.isLt)).2.1 := by
  rw [outsAt9_B V c t h0]
  dsimp only
  exact r9_out_B_4 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (fun h => h0 ((hcond9_0 t).mp h)) (iblk9 V c 0 t) (iblk9 V c 1 t) (iblk9 V c 2 t) (outsAt9 V c (t.val - 1) (Nat.lt_of_le_of_lt (Nat.sub_le _ _) t.isLt)).2.1 (outsAt9 V c (t.val - 1) (Nat.lt_of_le_of_lt (Nat.sub_le _ _) t.isLt)).2.2

/-- The same for the sums of squares, at the first point … -/
theorem r9_outs5_A (t : Fin cfg9.N) (h0 : t.val % 10 = 0) :
    (outsAt9 V c t.val t.isLt).2.2 = k9_pay5 (F := Ideal) (iblk9 V c 0 t) (iblk9 V c 1 t) (iblk9 V c 2 t) (k9_pay2 (F := Ideal)) := by
  rw [outsAt9_A V c t h0]
  dsimp only
  exact r9_out_A_5 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) ((hcond9_0 t).mpr h0) (iblk9 V c 0 t) (iblk9 V c 1 t) (iblk9 V c 2 t)

/-- … and at a later point. -/
theorem r9_outs5_B (t : Fin cfg9.N) (h0 : ¬t.val % 10 = 0) :
    (outsAt9 V c t.val t.isLt).2.2 = k9_pay5 (F := Ideal) (iblk9 V c 0 t) (iblk9 V c 1 t) (iblk9 V c 2 t) (outsAt9 V c (t.val - 1) (Nat.lt_of_le_of_lt (Nat.sub_le _ _) t.isLt)).2.2 := by
  rw [outsAt9_B V c t h0]
  dsimp only
  exact r9_out_B_5 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (fun h => h0 ((hcond9_0 t).mp h)) (iblk9 V c 0 t) (iblk9 V c 1 t) (iblk9 V c 2 t) (outsAt9 V c (t.val - 1) (Nat.lt_of_le_of_lt (Nat.sub_le _ _) t.isLt)).2.1 (outsAt9 V c (t.val - 1) (Nat.lt_of_le_of_lt (Nat.sub_le _ _) t.isLt)).2.2

end Blocks

section Finals

variable (V : (c : Dev nD) → (b : Ref sig .tc) → Buf (Elt Ideal) ((c : Thread nD τ).loc b)) (c : Dev nD)

/-! ## The first output: the linear map, block by block -/

/-- Reading any 50000×128 array through the first output's window at point t reads rows 5000·t … 5000·t + 4999. -/
theorem r9_read3 (G : Cert.Spec.Mat 50000 128) (t : Fin cfg9.N) (p : Fin 5000) (q : Fin 128) :
    ((cfg9.win 3).blk t).view.read (Elt Ideal) G (ix2 p q) = G (ix2 (⟨t.val * 5000 + p.val, r9_row_lt t p⟩ : Fin 50000) q) := by
  have e := r9_idx t
  have e0 : win9_3.index t (0 : Fin 2) = t.val := by tauto
  have e1 : win9_3.index t (1 : Fin 2) = 0 := by tauto
  show G (((cfg9.win 3).blk t).view.emb (ix2 p q)) = _
  refine congrArg G ?_
  funext a; apply Fin.ext
  match a with
  | ⟨0, _⟩ => show win9_3.index t (0 : Fin 2) * 5000 + 1 * p.val = t.val * 5000 + p.val; omega
  | ⟨1, _⟩ => show win9_3.index t (1 : Fin 2) * 128 + 1 * q.val = q.val; omega

/-- What point t writes back to the first output is rows 5000·t … 5000·t + 4999 of the linear map on the array. -/
theorem r9_flushed3 (t : Fin cfg9.N) :
    (dat9 (F := Ideal) V c).flushed 3 t = ((cfg9.win 3).blk t).view.read (Elt Ideal) (r9_L V c) := by
  show (cfg9.win 3).cut (grid9.coords t) ((dat9 V c).after 3 t) = _
  rw [after9_3, r9_outs3]
  funext j
  obtain ⟨p, q, rfl⟩ : ∃ (p : Fin 5000) (q : Fin 128), j = ix2 p q := ⟨j 0, j 1, eq_ix2 j⟩
  refine Eq.trans ?_ (r9_read3 (r9_L V c) t p q).symm
  exact r9_blk V c t p q

/-- An entry of the first output is in point t's block iff each coordinate is in the block's range on its axis. -/
theorem r9_mem_blk3 (t : Fin cfg9.N) (i : S50000x128.Idx) :
    i ∈ ((cfg9.win 3).blk t).view.set ↔ ∀ a : Fin 2, win9_3.index t a * S5000x128.size a ≤ (i a).val ∧ (i a).val < win9_3.index t a * S5000x128.size a + S5000x128.size a := by
  show i ∈ ((View.whole main_v87_0).slice (win9_3.rect t)).set ↔ _
  rw [View.set_slice_whole, Rect.mem_set_unit]
  exact Iff.rfl

/-- Row r of the first output lies in the block of point r / 5000. -/
theorem r9_cover3 (i : S50000x128.Idx) : ∃ t : Fin cfg9.N, (cfg9.win 3).flush t = true ∧ i ∈ ((cfg9.win 3).blk t).view.set := by
  have hi0 : (i 0).val < 50000 := (i 0).isLt
  have hi1 : (i 1).val < 128 := (i 1).isLt
  have ht : (i 0).val / 5000 < cfg9.N := lt_of_lt_of_eq (by omega) r9_N.symm
  have e := r9_idx ⟨(i 0).val / 5000, ht⟩
  have e0 : win9_3.index ⟨(i 0).val / 5000, ht⟩ (0 : Fin 2) = (i 0).val / 5000 := by tauto
  have e1 : win9_3.index ⟨(i 0).val / 5000, ht⟩ (1 : Fin 2) = 0 := by tauto
  refine ⟨⟨(i 0).val / 5000, ht⟩, flush9_3 _, ?_⟩
  rw [r9_mem_blk3]
  intro a
  match a with
  | ⟨0, _⟩ =>
    show win9_3.index ⟨(i 0).val / 5000, ht⟩ (0 : Fin 2) * 5000 ≤ (i 0).val ∧ (i 0).val < win9_3.index ⟨(i 0).val / 5000, ht⟩ (0 : Fin 2) * 5000 + 5000
    omega
  | ⟨1, _⟩ =>
    show win9_3.index ⟨(i 0).val / 5000, ht⟩ (1 : Fin 2) * 128 ≤ (i 1).val ∧ (i 1).val < win9_3.index ⟨(i 0).val / 5000, ht⟩ (1 : Fin 2) * 128 + 128
    omega

/-! ## The two accumulators: running totals of the blocks' column sums -/

/-- Column q of the linear map's result summed over the rows of block t. -/
abbrev r9_bs (q : Fin 128) : Fin 10 → Ideal .f32 := fun t =>
  ∑ p : Fin 5000, r9_L V c (ix2 (⟨t.val * 5000 + p.val, Cert.LibBlockSum.row_lt_of_eq (rfl : 10 * 5000 = 50000) t p⟩ : Fin 50000) q)

/-- Column q of the squares of the linear map's result summed over the rows of block t. -/
abbrev r9_bss (q : Fin 128) : Fin 10 → Ideal .f32 := fun t =>
  ∑ p : Fin 5000, r9_L V c (ix2 (⟨t.val * 5000 + p.val, Cert.LibBlockSum.row_lt_of_eq (rfl : 10 * 5000 = 50000) t p⟩ : Fin 50000) q)
    * r9_L V c (ix2 (⟨t.val * 5000 + p.val, Cert.LibBlockSum.row_lt_of_eq (rfl : 10 * 5000 = 50000) t p⟩ : Fin 50000) q)

/-- The float zero the accumulators are reset to is the zero of the extended reals. -/
theorem r9_zero1 (u : Fin 1) (q : Fin 128) : (k9_pay1 (F := Ideal)) (ix2 u q) = 0 := Ideal.ofBits_zero_f32
/-- The same for the second accumulator. -/
theorem r9_zero2 (u : Fin 1) (q : Fin 128) : (k9_pay2 (F := Ideal)) (ix2 u q) = 0 := Ideal.ofBits_zero_f32

/-- After point n the sums' buffer holds, at column q, the total of the column sums of blocks 0 … n. -/
theorem r9_acc4 (u : Fin 1) (q : Fin 128) : ∀ (n : Nat) (h : n < cfg9.N),
    (outsAt9 V c n h).2.1 (ix2 u q) = Cert.LibBlockSum.upTo (r9_bs V c q) (n + 1)
  | 0, h => by
    refine (congrFun (r9_outs4_A V c ⟨0, h⟩ rfl) (ix2 u q)).trans ?_
    refine (r9_pay4 _ _ _ _ u q).trans ?_
    rw [Cert.LibBlockSum.upTo_one _ (by decide : 0 < 10), r9_zero1, zero_add]
    exact Finset.sum_congr rfl fun p _ => r9_blk V c ⟨0, h⟩ p q
  | n + 1, h => by
    have hN : n + 1 < 10 := lt_of_lt_of_eq h r9_N
    have hB : ¬(⟨n + 1, h⟩ : Fin cfg9.N).val % 10 = 0 := by dsimp only; omega
    refine (congrFun (r9_outs4_B V c ⟨n + 1, h⟩ hB) (ix2 u q)).trans ?_
    refine (r9_pay4 _ _ _ _ u q).trans ?_
    rw [Cert.LibBlockSum.upTo_succ _ (n + 1) hN]
    refine congrArg₂ (· + ·) ?_ ?_
    · exact r9_acc4 u q n (Nat.lt_of_succ_lt h)
    · exact Finset.sum_congr rfl fun p _ => r9_blk V c ⟨n + 1, h⟩ p q

/-- After point n the sums-of-squares' buffer holds, at column q, the total of the column sums of squares of blocks 0 … n. -/
theorem r9_acc5 (u : Fin 1) (q : Fin 128) : ∀ (n : Nat) (h : n < cfg9.N),
    (outsAt9 V c n h).2.2 (ix2 u q) = Cert.LibBlockSum.upTo (r9_bss V c q) (n + 1)
  | 0, h => by
    refine (congrFun (r9_outs5_A V c ⟨0, h⟩ rfl) (ix2 u q)).trans ?_
    refine (r9_pay5 _ _ _ _ u q).trans ?_
    rw [Cert.LibBlockSum.upTo_one _ (by decide : 0 < 10), r9_zero2, zero_add]
    exact Finset.sum_congr rfl fun p _ => by rw [r9_blk V c ⟨0, h⟩ p q]
  | n + 1, h => by
    have hN : n + 1 < 10 := lt_of_lt_of_eq h r9_N
    have hB : ¬(⟨n + 1, h⟩ : Fin cfg9.N).val % 10 = 0 := by dsimp only; omega
    refine (congrFun (r9_outs5_B V c ⟨n + 1, h⟩ hB) (ix2 u q)).trans ?_
    refine (r9_pay5 _ _ _ _ u q).trans ?_
    rw [Cert.LibBlockSum.upTo_succ _ (n + 1) hN]
    refine congrArg₂ (· + ·) ?_ ?_
    · exact r9_acc5 u q n (Nat.lt_of_succ_lt h)
    · exact Finset.sum_congr rfl fun p _ => by rw [r9_blk V c ⟨n + 1, h⟩ p q]

/-- A one-row window's block at any point is the whole row. -/
theorem r9_emb4 (t : Fin cfg9.N) (u : Fin 1) (q : Fin 128) : ((cfg9.win 4).blk t).view.emb (ix2 u q) = ix2 u q := by
  have e := r9_idx t
  have e0 : win9_4.index t (0 : Fin 2) = 0 := by tauto
  have e1 : win9_4.index t (1 : Fin 2) = 0 := by tauto
  funext a; apply Fin.ext
  match a with
  | ⟨0, _⟩ => show win9_4.index t (0 : Fin 2) * 1 + 1 * u.val = u.val; omega
  | ⟨1, _⟩ => show win9_4.index t (1 : Fin 2) * 128 + 1 * q.val = q.val; omega

/-- The same for the sums-of-squares' window. -/
theorem r9_emb5 (t : Fin cfg9.N) (u : Fin 1) (q : Fin 128) : ((cfg9.win 5).blk t).view.emb (ix2 u q) = ix2 u q := by
  have e := r9_idx t
  have e0 : win9_5.index t (0 : Fin 2) = 0 := by tauto
  have e1 : win9_5.index t (1 : Fin 2) = 0 := by tauto
  funext a; apply Fin.ext
  match a with
  | ⟨0, _⟩ => show win9_5.index t (0 : Fin 2) * 1 + 1 * u.val = u.val; omega
  | ⟨1, _⟩ => show win9_5.index t (1 : Fin 2) * 128 + 1 * q.val = q.val; omega

/-- Reading any one-row array through the sums' window at any point reads the row itself. -/
theorem r9_read4 (G : Cert.Spec.Mat 1 128) (t : Fin cfg9.N) (u : Fin 1) (q : Fin 128) :
    ((cfg9.win 4).blk t).view.read (Elt Ideal) G (ix2 u q) = G (ix2 u q) := by
  show G (((cfg9.win 4).blk t).view.emb (ix2 u q)) = _
  rw [r9_emb4]

/-- The same for the sums-of-squares' window. -/
theorem r9_read5 (G : Cert.Spec.Mat 1 128) (t : Fin cfg9.N) (u : Fin 1) (q : Fin 128) :
    ((cfg9.win 5).blk t).view.read (Elt Ideal) G (ix2 u q) = G (ix2 u q) := by
  show G (((cfg9.win 5).blk t).view.emb (ix2 u q)) = _
  rw [r9_emb5]

/-- The one write-back of the sums, after the last point, writes the column sums over all 50000 rows. -/
theorem r9_flushed4 (t : Fin cfg9.N) (hf : (cfg9.win 4).flush t = true) :
    (dat9 (F := Ideal) V c).flushed 4 t = ((cfg9.win 4).blk t).view.read (Elt Ideal) (Cert.Spec.colSum (r9_L V c)) := by
  have h9 : t.val % 10 = 9 := (flush9_4 t).mp hf
  have hN : t.val < 10 := lt_of_lt_of_eq t.isLt r9_N
  have ht : t.val + 1 = 10 := by omega
  show (cfg9.win 4).cut (grid9.coords t) ((dat9 V c).after 4 t) = _
  rw [after9_4]
  funext j
  obtain ⟨u, q, rfl⟩ : ∃ (u : Fin 1) (q : Fin 128), j = ix2 u q := ⟨j 0, j 1, eq_ix2 j⟩
  refine Eq.trans ?_ (r9_read4 (Cert.Spec.colSum (r9_L V c)) t u q).symm
  refine (r9_acc4 V c u q t.val t.isLt).trans ?_
  rw [ht, Cert.Spec.colSum_ix2]
  exact Cert.LibBlockSum.upTo_blocks (rfl : 10 * 5000 = 50000) (fun r : Fin 50000 => r9_L V c (ix2 r q))

/-- The one write-back of the sums of squares writes the column sums of squares over all 50000 rows. -/
theorem r9_flushed5 (t : Fin cfg9.N) (hf : (cfg9.win 5).flush t = true) :
    (dat9 (F := Ideal) V c).flushed 5 t = ((cfg9.win 5).blk t).view.read (Elt Ideal) (Cert.Spec.colSumSq (r9_L V c)) := by
  have h9 : t.val % 10 = 9 := (flush9_5 t).mp hf
  have hN : t.val < 10 := lt_of_lt_of_eq t.isLt r9_N
  have ht : t.val + 1 = 10 := by omega
  show (cfg9.win 5).cut (grid9.coords t) ((dat9 V c).after 5 t) = _
  rw [after9_5]
  funext j
  obtain ⟨u, q, rfl⟩ : ∃ (u : Fin 1) (q : Fin 128), j = ix2 u q := ⟨j 0, j 1, eq_ix2 j⟩
  refine Eq.trans ?_ (r9_read5 (Cert.Spec.colSumSq (r9_L V c)) t u q).symm
  refine (r9_acc5 V c u q t.val t.isLt).trans ?_
  rw [ht, Cert.Spec.colSumSq_ix2]
  exact Cert.LibBlockSum.upTo_blocks (rfl : 10 * 5000 = 50000) (fun r : Fin 50000 => r9_L V c (ix2 r q) * r9_L V c (ix2 r q))

/-- The last point. -/
theorem r9_last_lt : 9 < cfg9.N := lt_of_lt_of_eq (by decide) r9_N.symm

/-- Every entry of the sums' row is in the last point's block, the one that is written back. -/
theorem r9_cover4 (i : S1x128.Idx) : ∃ t : Fin cfg9.N, (cfg9.win 4).flush t = true ∧ i ∈ ((cfg9.win 4).blk t).view.set := by
  have hi0 : (i 0).val < 1 := (i 0).isLt
  have hi1 : (i 1).val < 128 := (i 1).isLt
  have e := r9_idx ⟨9, r9_last_lt⟩
  have e0 : win9_4.index ⟨9, r9_last_lt⟩ (0 : Fin 2) = 0 := by tauto
  have e1 : win9_4.index ⟨9, r9_last_lt⟩ (1 : Fin 2) = 0 := by tauto
  refine ⟨⟨9, r9_last_lt⟩, (flush9_4 _).mpr rfl, ?_⟩
  show i ∈ ((View.whole main_v87_1).slice (win9_4.rect ⟨9, r9_last_lt⟩)).set
  rw [View.set_slice_whole, Rect.mem_set_unit]
  intro a
  match a with
  | ⟨0, _⟩ =>
    show win9_4.index ⟨9, r9_last_lt⟩ (0 : Fin 2) * 1 ≤ (i 0).val ∧ (i 0).val < win9_4.index ⟨9, r9_last_lt⟩ (0 : Fin 2) * 1 + 1
    omega
  | ⟨1, _⟩ =>
    show win9_4.index ⟨9, r9_last_lt⟩ (1 : Fin 2) * 128 ≤ (i 1).val ∧ (i 1).val < win9_4.index ⟨9, r9_last_lt⟩ (1 : Fin 2) * 128 + 128
    omega

/-- Every entry of the sums-of-squares' row is in the last point's block. -/
theorem r9_cover5 (i : S1x128.Idx) : ∃ t : Fin cfg9.N, (cfg9.win 5).flush t = true ∧ i ∈ ((cfg9.win 5).blk t).view.set := by
  have hi0 : (i 0).val < 1 := (i 0).isLt
  have hi1 : (i 1).val < 128 := (i 1).isLt
  have e := r9_idx ⟨9, r9_last_lt⟩
  have e0 : win9_5.index ⟨9, r9_last_lt⟩ (0 : Fin 2) = 0 := by tauto
  have e1 : win9_5.index ⟨9, r9_last_lt⟩ (1 : Fin 2) = 0 := by tauto
  refine ⟨⟨9, r9_last_lt⟩, (flush9_5 _).mpr rfl, ?_⟩
  show i ∈ ((View.whole main_v87_2).slice (win9_5.rect ⟨9, r9_last_lt⟩)).set
  rw [View.set_slice_whole, Rect.mem_set_unit]
  intro a
  match a with
  | ⟨0, _⟩ =>
    show win9_5.index ⟨9, r9_last_lt⟩ (0 : Fin 2) * 1 ≤ (i 0).val ∧ (i 0).val < win9_5.index ⟨9, r9_last_lt⟩ (0 : Fin 2) * 1 + 1
    omega
  | ⟨1, _⟩ =>
    show win9_5.index ⟨9, r9_last_lt⟩ (1 : Fin 2) * 128 ≤ (i 1).val ∧ (i 1).val < win9_5.index ⟨9, r9_last_lt⟩ (1 : Fin 2) * 128 + 128
    omega

end Finals

theorem final9_x (V : (c : Dev nD) → (b : Ref sig .tc) → Buf (Elt Ideal) ((c : Thread nD τ).loc b)) (c : Dev nD) :
    (dat9 (F := Ideal) V c).arrAt 3 cfg9.N
      = Cert.Spec.linBias (M := 50000) (K := 128) (N := 128) (V c (Pipeline.arrRef spec9 0)) (V c (Pipeline.arrRef spec9 1)) (V c (Pipeline.arrRef spec9 2)) :=
  (dat9 (F := Ideal) V c).arrAt_eq_of_cover 3 (r9_L V c) (fun t _ => r9_flushed3 V c t) r9_cover3

theorem final9_s (V : (c : Dev nD) → (b : Ref sig .tc) → Buf (Elt Ideal) ((c : Thread nD τ).loc b)) (c : Dev nD) :
    (dat9 (F := Ideal) V c).arrAt 4 cfg9.N
      = Cert.Spec.colSum (Cert.Spec.linBias (M := 50000) (K := 128) (N := 128) (V c (Pipeline.arrRef spec9 0)) (V c (Pipeline.arrRef spec9 1)) (V c (Pipeline.arrRef spec9 2))) :=
  (dat9 (F := Ideal) V c).arrAt_eq_of_cover 4 (Cert.Spec.colSum (r9_L V c)) (fun t hf => r9_flushed4 V c t hf) r9_cover4

theorem final9_ss (V : (c : Dev nD) → (b : Ref sig .tc) → Buf (Elt Ideal) ((c : Thread nD τ).loc b)) (c : Dev nD) :
    (dat9 (F := Ideal) V c).arrAt 5 cfg9.N
      = Cert.Spec.colSumSq (Cert.Spec.linBias (M := 50000) (K := 128) (N := 128) (V c (Pipeline.arrRef spec9 0)) (V c (Pipeline.arrRef spec9 1)) (V c (Pipeline.arrRef spec9 2))) :=
  (dat9 (F := Ideal) V c).arrAt_eq_of_cover 5 (Cert.Spec.colSumSq (r9_L V c)) (fun t hf => r9_flushed5 V c t hf) r9_cover5

end Cert.KernelIdeal.Reg

end
-- ==== Proof.Reg10.lean ====
/-
  Region 10: every column normalised with its mean and variance rows, then the second linear map with its bias row.
  Stated for the whole arrays: what the region's output arrays hold when it ends, as functions of the arrays it is entered with.

  The grid has ten points. At point t the body is handed rows 5000·t … 5000·t + 4999 of the feature array and the whole of
  the six small arrays (mean, variance, scale and shift rows, the 128×40 weights, the bias row). Entry (p, q) of what it
  stores is  Σ_k bn1(x(p,k); μ_k, v_k, γ_k, β_k) · W(k,q) + b(q):  the product into a zero accumulator is the plain sum over
  the contracted coordinate, and row p of the block is row 5000·t + p of the array, so the stored block is rows
  5000·t … 5000·t + 4999 of the one whole-array function `Spec.bnLin`. The ten blocks cover the 50000 rows (row r lies in
  the block of point r / 5000), so the output array ends holding that function.
-/
import proofs.«113157_j3616362463713_1_alg».proof.Proof.Gen.KernelIdeal.Frame
import proofs.«113157_j3616362463713_1_alg».proof.Proof.Spec
import Idealize.ShloMosaic.Lib.StackMember
import Idealize.ShloMosaic.Lib.KernelVsHost
import Idealize.ShloMosaic.Lib.ValueLayout
import Idealize.ShloMosaic.Lib.Pipeline.Value

set_option maxRecDepth 16384

noncomputable section

open scoped BigOperators

namespace Cert.KernelIdeal.Reg

open Idealize.ShloMosaic Idealize.ShloMosaic.TcCoe Idealize.ShloMosaic.ValueIdx Idealize.SL.Sem Cert.KernelIdeal Cert.KernelIdeal.Gen

/-! ## The body's arithmetic at an entry -/

/-- The printed record of the second product's dimensions is the plain 5000×128 by 128×40 product. -/
theorem r10_dims : dot_S5000x128_S128x40_S5000x40_1_0_0_1_n_n = DotDims.plain 5000 128 40 := rfl

/-- Entry (p, q) of what the body stores, from the blocks it loads: the normalised row p of the feature block against
    column q of the weights, summed over the 128 features, plus the bias at q. -/
theorem r10_pay (x0 : Vec Ideal S5000x128 .f32) (x1 x2 x3 x4 : Vec Ideal S1x128 .f32) (x5 : Vec Ideal S128x40 .f32)
    (x6 : Vec Ideal S1x40 .f32) (p : Fin 5000) (q : Fin 40) :
    k10_pay1 (F := Ideal) x0 x1 x2 x3 x4 x5 x6 (ix2 p q)
      = (∑ k : Fin 128, Cert.Spec.bn1 (x0 (ix2 p k)) (x1 (ix2 (0 : Fin 1) k)) (x2 (ix2 (0 : Fin 1) k)) (x3 (ix2 (0 : Fin 1) k))
            (x4 (ix2 (0 : Fin 1) k)) * x5 (ix2 k q)) + x6 (ix2 (0 : Fin 1) q) := by
  unfold k10_pay1
  refine (addf_apply _ _ _).trans ?_
  refine congrArg₂ (· + ·) ?_ ?_
  · rw [r10_dims]
    refine (congrFun (matmul_zero_eq_dotGeneral (DotDims.plain 5000 128 40) none _ _) (ix2 p q)).trans ?_
    refine (StackMember.dotGeneral_plain_apply none _ _ p q).trans ?_
    refine Finset.sum_congr rfl fun k _ => ?_
    refine congrArg (· * x5 (ix2 k q)) ?_
    rw [addf_apply, mulf_apply, mulf_apply, subf_apply, shapeCast_self, broadcastTo_1b_ab_apply, shapeCast_self,
      broadcastTo_1b_ab_apply, broadcastTo_1b_ab_apply, shapeCast_self, broadcastTo_1b_ab_apply, shapeCast_self,
      shapeCast_self]
    rfl
  · rw [broadcastTo_1b_ab_apply, shapeCast_self]

/-! ## The blocks the body is handed -/

theorem r10_hz : (![0, 0] : Fin 2 → Nat) = fun _ => 0 := funext fun a => by fin_cases a <;> rfl

/-- The grid has ten points. -/
theorem r10_N : cfg10.N = 10 := N_10

/-- The index maps over the grid: the two row-tiled windows are at block (t, 0), every other window at block (0, 0). -/
theorem r10_idx : ∀ t : Fin cfg10.N,
    win10_0.index t (0 : Fin 2) = t.val ∧ win10_0.index t (1 : Fin 2) = 0
    ∧ win10_7.index t (0 : Fin 2) = t.val ∧ win10_7.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0 :=
  (by decide +kernel : ∀ t : Fin grid10.N, _)

/-- Row p of block t is a row of the array. -/
theorem r10_row_lt (t : Fin cfg10.N) (p : Fin 5000) : t.val * 5000 + p.val < 50000 := by
  have h1 : t.val < 10 := lt_of_lt_of_eq t.isLt r10_N
  have := p.isLt; omega

section Blocks

variable (V : (c : Dev nD) → (b : Ref sig .tc) → Buf (Elt Ideal) ((c : Thread nD τ).loc b)) (c : Dev nD)

/-- Row p of the feature block at point t is row 5000·t + p of the feature array. -/
theorem r10_rd0 (t : Fin cfg10.N) (p : Fin 5000) (k : Fin 128) :
    iblk10 (F := Ideal) V c 0 t (ix2 p k) = V c (Pipeline.arrRef spec10 0) (ix2 (⟨t.val * 5000 + p.val, r10_row_lt t p⟩ : Fin 50000) k) := by
  obtain ⟨e0, e1, -⟩ := r10_idx t
  show V c (Pipeline.arrRef spec10 0) (((cfg10.win 0).blk t).view.emb (ix2 p k)) = _
  refine congrArg _ ?_
  funext a; apply Fin.ext
  match a with
  | ⟨0, _⟩ => show win10_0.index t (0 : Fin 2) * 5000 + 1 * p.val = t.val * 5000 + p.val; omega
  | ⟨1, _⟩ => show win10_0.index t (1 : Fin 2) * 128 + 1 * k.val = k.val; omega

/-- Window 1 (the mean row) is the whole array at every point: its block read at an entry is the array at that entry. -/
theorem r10_rd1 (t : Fin cfg10.N) (u : Fin 1) (k : Fin 128) :
    iblk10 (F := Ideal) V c 1 t (ix2 u k) = V c (Pipeline.arrRef spec10 1) (ix2 u k) := by
  have e := r10_idx t
  have e0 : win10_1.index t (0 : Fin 2) = 0 := by tauto
  have e1 : win10_1.index t (1 : Fin 2) = 0 := by tauto
  show V c (Pipeline.arrRef spec10 1) (((cfg10.win 1).blk t).view.emb (ix2 u k)) = _
  refine congrArg _ ?_
  funext a; apply Fin.ext
  match a with
  | ⟨0, _⟩ => show win10_1.index t (0 : Fin 2) * 1 + 1 * u.val = u.val; omega
  | ⟨1, _⟩ => show win10_1.index t (1 : Fin 2) * 128 + 1 * k.val = k.val; omega

/-- Window 2 (the variance row) is the whole array at every point: its block read at an entry is the array at that entry. -/
theorem r10_rd2 (t : Fin cfg10.N) (u : Fin 1) (k : Fin 128) :
    iblk10 (F := Ideal) V c 2 t (ix2 u k) = V c (Pipeline.arrRef spec10 2) (ix2 u k) := by
  have e := r10_idx t
  have e0 : win10_2.index t (0 : Fin 2) = 0 := by tauto
  have e1 : win10_2.index t (1 : Fin 2) = 0 := by tauto
  show V c (Pipeline.arrRef spec10 2) (((cfg10.win 2).blk t).view.emb (ix2 u k)) = _
  refine congrArg _ ?_
  funext a; apply Fin.ext
  match a with
  | ⟨0, _⟩ => show win10_2.index t (0 : Fin 2) * 1 + 1 * u.val = u.val; omega
  | ⟨1, _⟩ => show win10_2.index t (1 : Fin 2) * 128 + 1 * k.val = k.val; omega

/-- Window 3 (the scale row) is the whole array at every point: its block read at an entry is the array at that entry. -/
theorem r10_rd3 (t : Fin cfg10.N) (u : Fin 1) (k : Fin 128) :
    iblk10 (F := Ideal) V c 3 t (ix2 u k) = V c (Pipeline.arrRef spec10 3) (ix2 u k) := by
  have e := r10_idx t
  have e0 : win10_3.index t (0 : Fin 2) = 0 := by tauto
  have e1 : win10_3.index t (1 : Fin 2) = 0 := by tauto
  show V c (Pipeline.arrRef spec10 3) (((cfg10.win 3).blk t).view.emb (ix2 u k)) = _
  refine congrArg _ ?_
  funext a; apply Fin.ext
  match a with
  | ⟨0, _⟩ => show win10_3.index t (0 : Fin 2) * 1 + 1 * u.val = u.val; omega
  | ⟨1, _⟩ => show win10_3.index t (1 : Fin 2) * 128 + 1 * k.val = k.val; omega

/-- Window 4 (the shift row) is the whole array at every point: its block read at an entry is the array at that entry. -/
theorem r10_rd4 (t : Fin cfg10.N) (u : Fin 1) (k : Fin 128) :
    iblk10 (F := Ideal) V c 4 t (ix2 u k) = V c (Pipeline.arrRef spec10 4) (ix2 u k) := by
  have e := r10_idx t
  have e0 : win10_4.index t (0 : Fin 2) = 0 := by tauto
  have e1 : win10_4.index t (1 : Fin 2) = 0 := by tauto
  show V c (Pipeline.arrRef spec10 4) (((cfg10.win 4).blk t).view.emb (ix2 u k)) = _
  refine congrArg _ ?_
  funext a; apply Fin.ext
  match a with
  | ⟨0, _⟩ => show win10_4.index t (0 : Fin 2) * 1 + 1 * u.val = u.val; omega
  | ⟨1, _⟩ => show win10_4.index t (1 : Fin 2) * 128 + 1 * k.val = k.val; omega

/-- Window 5 (the weight matrix) is the whole array at every point: its block read at an entry is the array at that entry. -/
theorem r10_rd5 (t : Fin cfg10.N) (k : Fin 128) (q : Fin 40) :
    iblk10 (F := Ideal) V c 5 t (ix2 k q) = V c (Pipeline.arrRef spec10 5) (ix2 k q) := by
  have e := r10_idx t
  have e0 : win10_5.index t (0 : Fin 2) = 0 := by tauto
  have e1 : win10_5.index t (1 : Fin 2) = 0 := by tauto
  show V c (Pipeline.arrRef spec10 5) (((cfg10.win 5).blk t).view.emb (ix2 k q)) = _
  refine congrArg _ ?_
  funext a; apply Fin.ext
  match a with
  | ⟨0, _⟩ => show win10_5.index t (0 : Fin 2) * 128 + 1 * k.val = k.val; omega
  | ⟨1, _⟩ => show win10_5.index t (1 : Fin 2) * 40 + 1 * q.val = q.val; omega

/-- Window 6 (the bias row) is the whole array at every point: its block read at an entry is the array at that entry. -/
theorem r10_rd6 (t : Fin cfg10.N) (u : Fin 1) (q : Fin 40) :
    iblk10 (F := Ideal) V c 6 t (ix2 u q) = V c (Pipeline.arrRef spec10 6) (ix2 u q) := by
  have e := r10_idx t
  have e0 : win10_6.index t (0 : Fin 2) = 0 := by tauto
  have e1 : win10_6.index t (1 : Fin 2) = 0 := by tauto
  show V c (Pipeline.arrRef spec10 6) (((cfg10.win 6).blk t).view.emb (ix2 u q)) = _
  refine congrArg _ ?_
  funext a; apply Fin.ext
  match a with
  | ⟨0, _⟩ => show win10_6.index t (0 : Fin 2) * 1 + 1 * u.val = u.val; omega
  | ⟨1, _⟩ => show win10_6.index t (1 : Fin 2) * 40 + 1 * q.val = q.val; omega

/-! ## From the blocks to the array -/

/-- The region's result as one function of the arrays it is entered with. -/
abbrev r10_G : Cert.Spec.Mat 50000 40 :=
  Cert.Spec.bnLin (M := 50000) (K := 128) (N := 40) (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (V c (Pipeline.arrRef spec10 6))

/-- What point t writes back is rows 5000·t … 5000·t + 4999 of the whole-array result. -/
theorem r10_flushed (t : Fin cfg10.N) :
    (dat10 (F := Ideal) V c).flushed 7 t = ((cfg10.win 7).blk t).view.read (Elt Ideal) (r10_G V c) := by
  show (cfg10.win 7).cut (grid10.coords t) ((dat10 V c).after 7 t) = _
  rw [after10_7]
  unfold out10_7
  rw [View.canon_unit_zero r10_hz]
  simp only [View.ld_unit_zero (S := S5000x128) r10_hz, View.ld_unit_zero (S := S1x128) r10_hz,
    View.ld_unit_zero (S := S128x40) r10_hz, View.ld_unit_zero (S := S1x40) r10_hz]
  funext j
  obtain ⟨p, q, rfl⟩ : ∃ (p : Fin 5000) (q : Fin 40), j = ix2 p q := ⟨j 0, j 1, eq_ix2 j⟩
  have e := r10_idx t
  have e0 : win10_7.index t (0 : Fin 2) = t.val := by tauto
  have e1 : win10_7.index t (1 : Fin 2) = 0 := by tauto
  have hemb : ((cfg10.win 7).blk t).view.emb (ix2 p q) = ix2 (⟨t.val * 5000 + p.val, r10_row_lt t p⟩ : Fin 50000) q := by
    funext a; apply Fin.ext
    match a with
    | ⟨0, _⟩ => show win10_7.index t (0 : Fin 2) * 5000 + 1 * p.val = t.val * 5000 + p.val; omega
    | ⟨1, _⟩ => show win10_7.index t (1 : Fin 2) * 40 + 1 * q.val = q.val; omega
  refine Eq.trans ?_ (congrArg (r10_G V c) hemb.symm)
  refine Eq.trans (r10_pay (iblk10 V c 0 t) (iblk10 V c 1 t) (iblk10 V c 2 t) (iblk10 V c 3 t) (iblk10 V c 4 t) (iblk10 V c 5 t) (iblk10 V c 6 t) p q) ?_
  refine Eq.trans ?_ (Cert.Spec.bnLin_ix2 _ _ _ _ _ _ _ _ q).symm
  refine congrArg₂ (· + ·) (Finset.sum_congr rfl fun k _ => ?_) (r10_rd6 V c t 0 q)
  rw [r10_rd0, r10_rd1, r10_rd2, r10_rd3, r10_rd4, r10_rd5]

/-- An entry of the output array is in point t's block iff each coordinate is in the block's range on its axis. -/
theorem r10_mem_blk (t : Fin cfg10.N) (i : S50000x40.Idx) :
    i ∈ ((cfg10.win 7).blk t).view.set ↔ ∀ a : Fin 2, win10_7.index t a * S5000x40.size a ≤ (i a).val ∧ (i a).val < win10_7.index t a * S5000x40.size a + S5000x40.size a := by
  show i ∈ ((View.whole main_v94).slice (win10_7.rect t)).set ↔ _
  rw [View.set_slice_whole, Rect.mem_set_unit]
  exact Iff.rfl

/-- Row r of the output lies in the block of point r / 5000. -/
theorem r10_cover (i : S50000x40.Idx) : ∃ t : Fin cfg10.N, (cfg10.win 7).flush t = true ∧ i ∈ ((cfg10.win 7).blk t).view.set := by
  have hi0 : (i 0).val < 50000 := (i 0).isLt
  have hi1 : (i 1).val < 40 := (i 1).isLt
  have ht : (i 0).val / 5000 < cfg10.N := lt_of_lt_of_eq (by omega) r10_N.symm
  have e := r10_idx ⟨(i 0).val / 5000, ht⟩
  have e0 : win10_7.index ⟨(i 0).val / 5000, ht⟩ (0 : Fin 2) = (i 0).val / 5000 := by tauto
  have e1 : win10_7.index ⟨(i 0).val / 5000, ht⟩ (1 : Fin 2) = 0 := by tauto
  refine ⟨⟨(i 0).val / 5000, ht⟩, flush10_7 _, ?_⟩
  rw [r10_mem_blk]
  intro a
  match a with
  | ⟨0, _⟩ =>
    show win10_7.index ⟨(i 0).val / 5000, ht⟩ (0 : Fin 2) * 5000 ≤ (i 0).val ∧ (i 0).val < win10_7.index ⟨(i 0).val / 5000, ht⟩ (0 : Fin 2) * 5000 + 5000
    omega
  | ⟨1, _⟩ =>
    show win10_7.index ⟨(i 0).val / 5000, ht⟩ (1 : Fin 2) * 40 ≤ (i 1).val ∧ (i 1).val < win10_7.index ⟨(i 0).val / 5000, ht⟩ (1 : Fin 2) * 40 + 40
    omega

end Blocks

theorem final10 (V : (c : Dev nD) → (b : Ref sig .tc) → Buf (Elt Ideal) ((c : Thread nD τ).loc b)) (c : Dev nD) :
    (dat10 (F := Ideal) V c).arrAt 7 cfg10.N
      = Cert.Spec.bnLin (M := 50000) (K := 128) (N := 40) (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (V c (Pipeline.arrRef spec10 6)) :=
  (dat10 (F := Ideal) V c).arrAt_eq_of_cover 7 (r10_G V c) (fun t _ => r10_flushed V c t) (r10_cover)

end Cert.KernelIdeal.Reg

end
-- ==== Proof.KChain.lean ====
/-
  The kernel program's result as the network function of its arguments.

  The run's buffer contents are followed boundary by boundary: the start (degree column, parameter rows, first scaling),
  the four graph-convolution layers, and the head; each step's statement is instantiated with the closed forms of its
  regions, and the arrays that later steps read are carried along unchanged.
-/
import proofs.«113157_j3616362463713_1_alg».proof.Proof.Gen.KernelIdeal.Frame
import proofs.«113157_j3616362463713_1_alg».proof.Proof.SpecNet
import proofs.«113157_j3616362463713_1_alg».proof.Proof.KDefs
import proofs.«113157_j3616362463713_1_alg».proof.Proof.KStart
import proofs.«113157_j3616362463713_1_alg».proof.Proof.KL1
import proofs.«113157_j3616362463713_1_alg».proof.Proof.KL2
import proofs.«113157_j3616362463713_1_alg».proof.Proof.KL3
import proofs.«113157_j3616362463713_1_alg».proof.Proof.KL4
import proofs.«113157_j3616362463713_1_alg».proof.Proof.KHeadC
import proofs.«113157_j3616362463713_1_alg».proof.Proof.Reg0
import proofs.«113157_j3616362463713_1_alg».proof.Proof.Reg1
import proofs.«113157_j3616362463713_1_alg».proof.Proof.Reg2
import proofs.«113157_j3616362463713_1_alg».proof.Proof.Reg3
import proofs.«113157_j3616362463713_1_alg».proof.Proof.Reg4
import proofs.«113157_j3616362463713_1_alg».proof.Proof.Reg5
import proofs.«113157_j3616362463713_1_alg».proof.Proof.Reg6
import proofs.«113157_j3616362463713_1_alg».proof.Proof.Reg7
import proofs.«113157_j3616362463713_1_alg».proof.Proof.Reg8
import proofs.«113157_j3616362463713_1_alg».proof.Proof.Reg9
import proofs.«113157_j3616362463713_1_alg».proof.Proof.Reg10

set_option maxRecDepth 16384

noncomputable section

namespace Cert.KernelIdeal.KChain

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## After layer 1 -/

theorem w6_v32 : W6 (F := Ideal) m ρ c (Proc.devRef .tc main_v32)
    = (Cert.Spec.rowScale (M := 50000) (N := 128) (Cert.Spec.kAct (Cert.Spec.rowScale (M := 50000) (N := 128) (KDefs.aggK (m ((c : Thread nD τ).loc main_arg1)) (m ((c : Thread nD τ).loc main_arg2)) (Cert.Spec.rowScale (M := 50000) (N := 128) (m ((c : Thread nD τ).loc main_arg0)) (KDefs.nrmK (m ((c : Thread nD τ).loc main_arg2))))) (KDefs.nrmK (m ((c : Thread nD τ).loc main_arg2)))) (KDefs.rowK (m ((c : Thread nD τ).loc main_arg3))) (KDefs.rowK (m ((c : Thread nD τ).loc main_arg4)))) (KDefs.nrmK (m ((c : Thread nD τ).loc main_arg2)))) :=
  layer1 m ρ c (Reg.final1_x (V3 m ρ) c) (Reg.final1_s (V3 m ρ) c) (Reg.final1_ss (V3 m ρ) c) (Reg.final2 (V5 m ρ) c)
    _ _ _ _ _ _ (w2_v14 m ρ c (Reg.final0 (V1 m ρ) c)) (w2_arg1 m ρ c) (w2_arg2 m ρ c) (w2_v7 m ρ c) (w2_v8 m ρ c) (w2_v9 m ρ c)
theorem w6_v7 : W6 (F := Ideal) m ρ c (Proc.devRef .tc main_v7) = (KDefs.nrmK (m ((c : Thread nD τ).loc main_arg2))) :=
  (l1_keep_v7 m ρ c).trans (w2_v7 m ρ c)
theorem w6_v8 : W6 (F := Ideal) m ρ c (Proc.devRef .tc main_v8) = (KDefs.rowK (m ((c : Thread nD τ).loc main_arg3))) :=
  (l1_keep_v8 m ρ c).trans (w2_v8 m ρ c)
theorem w6_v9 : W6 (F := Ideal) m ρ c (Proc.devRef .tc main_v9) = (KDefs.rowK (m ((c : Thread nD τ).loc main_arg4))) :=
  (l1_keep_v9 m ρ c).trans (w2_v9 m ρ c)
theorem w6_v10 : W6 (F := Ideal) m ρ c (Proc.devRef .tc main_v10) = (KDefs.rowK (m ((c : Thread nD τ).loc main_arg6))) :=
  (l1_keep_v10 m ρ c).trans (w2_v10 m ρ c)
theorem w6_v11 : W6 (F := Ideal) m ρ c (Proc.devRef .tc main_v11) = (KDefs.rowK (m ((c : Thread nD τ).loc main_arg7))) :=
  (l1_keep_v11 m ρ c).trans (w2_v11 m ρ c)
theorem w6_v12 : W6 (F := Ideal) m ρ c (Proc.devRef .tc main_v12) = (KDefs.rowK (m ((c : Thread nD τ).loc main_arg8))) :=
  (l1_keep_v12 m ρ c).trans (w2_v12 m ρ c)
theorem w6_v13 : W6 (F := Ideal) m ρ c (Proc.devRef .tc main_v13) = (KDefs.rowK40 (m ((c : Thread nD τ).loc main_arg10))) :=
  (l1_keep_v13 m ρ c).trans (w2_v13 m ρ c)
theorem w6_arg1 : W6 (F := Ideal) m ρ c (Proc.devRef .tc main_arg1) = (m ((c : Thread nD τ).loc main_arg1)) :=
  (l1_keep_arg1 m ρ c).trans (w2_arg1 m ρ c)
theorem w6_arg2 : W6 (F := Ideal) m ρ c (Proc.devRef .tc main_arg2) = (m ((c : Thread nD τ).loc main_arg2)) :=
  (l1_keep_arg2 m ρ c).trans (w2_arg2 m ρ c)
theorem w6_arg5 : W6 (F := Ideal) m ρ c (Proc.devRef .tc main_arg5) = (m ((c : Thread nD τ).loc main_arg5)) :=
  (l1_keep_arg5 m ρ c).trans (w2_arg5 m ρ c)
theorem w6_arg9 : W6 (F := Ideal) m ρ c (Proc.devRef .tc main_arg9) = (m ((c : Thread nD τ).loc main_arg9)) :=
  (l1_keep_arg9 m ρ c).trans (w2_arg9 m ρ c)

/-! ## After layer 2 -/

theorem w10_v50 : W10 (F := Ideal) m ρ c (Proc.devRef .tc main_v50)
    = (Cert.Spec.rowScale (M := 50000) (N := 128) (Cert.Spec.kAct (Cert.Spec.rowScale (M := 50000) (N := 128) (KDefs.aggK (m ((c : Thread nD τ).loc main_arg1)) (m ((c : Thread nD τ).loc main_arg2)) (Cert.Spec.rowScale (M := 50000) (N := 128) (Cert.Spec.kAct (Cert.Spec.rowScale (M := 50000) (N := 128) (KDefs.aggK (m ((c : Thread nD τ).loc main_arg1)) (m ((c : Thread nD τ).loc main_arg2)) (Cert.Spec.rowScale (M := 50000) (N := 128) (m ((c : Thread nD τ).loc main_arg0)) (KDefs.nrmK (m ((c : Thread nD τ).loc main_arg2))))) (KDefs.nrmK (m ((c : Thread nD τ).loc main_arg2)))) (KDefs.rowK (m ((c : Thread nD τ).loc main_arg3))) (KDefs.rowK (m ((c : Thread nD τ).loc main_arg4)))) (KDefs.nrmK (m ((c : Thread nD τ).loc main_arg2))))) (KDefs.nrmK (m ((c : Thread nD τ).loc main_arg2)))) (KDefs.rowK (m ((c : Thread nD τ).loc main_arg3))) (KDefs.rowK (m ((c : Thread nD τ).loc main_arg4)))) (KDefs.nrmK (m ((c : Thread nD τ).loc main_arg2)))) :=
  layer2 m ρ c (Reg.final3_x (V7 m ρ) c) (Reg.final3_s (V7 m ρ) c) (Reg.final3_ss (V7 m ρ) c) (Reg.final4 (V9 m ρ) c)
    _ _ _ _ _ _ (w6_v32 m ρ c) (w6_arg1 m ρ c) (w6_arg2 m ρ c) (w6_v7 m ρ c) (w6_v8 m ρ c) (w6_v9 m ρ c)
theorem w10_v7 : W10 (F := Ideal) m ρ c (Proc.devRef .tc main_v7) = (KDefs.nrmK (m ((c : Thread nD τ).loc main_arg2))) :=
  (l2_keep_v7 m ρ c).trans (w6_v7 m ρ c)
theorem w10_v8 : W10 (F := Ideal) m ρ c (Proc.devRef .tc main_v8) = (KDefs.rowK (m ((c : Thread nD τ).loc main_arg3))) :=
  (l2_keep_v8 m ρ c).trans (w6_v8 m ρ c)
theorem w10_v9 : W10 (F := Ideal) m ρ c (Proc.devRef .tc main_v9) = (KDefs.rowK (m ((c : Thread nD τ).loc main_arg4))) :=
  (l2_keep_v9 m ρ c).trans (w6_v9 m ρ c)
theorem w10_v10 : W10 (F := Ideal) m ρ c (Proc.devRef .tc main_v10) = (KDefs.rowK (m ((c : Thread nD τ).loc main_arg6))) :=
  (l2_keep_v10 m ρ c).trans (w6_v10 m ρ c)
theorem w10_v11 : W10 (F := Ideal) m ρ c (Proc.devRef .tc main_v11) = (KDefs.rowK (m ((c : Thread nD τ).loc main_arg7))) :=
  (l2_keep_v11 m ρ c).trans (w6_v11 m ρ c)
theorem w10_v12 : W10 (F := Ideal) m ρ c (Proc.devRef .tc main_v12) = (KDefs.rowK (m ((c : Thread nD τ).loc main_arg8))) :=
  (l2_keep_v12 m ρ c).trans (w6_v12 m ρ c)
theorem w10_v13 : W10 (F := Ideal) m ρ c (Proc.devRef .tc main_v13) = (KDefs.rowK40 (m ((c : Thread nD τ).loc main_arg10))) :=
  (l2_keep_v13 m ρ c).trans (w6_v13 m ρ c)
theorem w10_arg1 : W10 (F := Ideal) m ρ c (Proc.devRef .tc main_arg1) = (m ((c : Thread nD τ).loc main_arg1)) :=
  (l2_keep_arg1 m ρ c).trans (w6_arg1 m ρ c)
theorem w10_arg2 : W10 (F := Ideal) m ρ c (Proc.devRef .tc main_arg2) = (m ((c : Thread nD τ).loc main_arg2)) :=
  (l2_keep_arg2 m ρ c).trans (w6_arg2 m ρ c)
theorem w10_arg5 : W10 (F := Ideal) m ρ c (Proc.devRef .tc main_arg5) = (m ((c : Thread nD τ).loc main_arg5)) :=
  (l2_keep_arg5 m ρ c).trans (w6_arg5 m ρ c)
theorem w10_arg9 : W10 (F := Ideal) m ρ c (Proc.devRef .tc main_arg9) = (m ((c : Thread nD τ).loc main_arg9)) :=
  (l2_keep_arg9 m ρ c).trans (w6_arg9 m ρ c)

/-! ## After layer 3 -/

theorem w14_v68 : W14 (F := Ideal) m ρ c (Proc.devRef .tc main_v68)
    = (Cert.Spec.rowScale (M := 50000) (N := 128) (Cert.Spec.kAct (Cert.Spec.rowScale (M := 50000) (N := 128) (KDefs.aggK (m ((c : Thread nD τ).loc main_arg1)) (m ((c : Thread nD τ).loc main_arg2)) (Cert.Spec.rowScale (M := 50000) (N := 128) (Cert.Spec.kAct (Cert.Spec.rowScale (M := 50000) (N := 128) (KDefs.aggK (m ((c : Thread nD τ).loc main_arg1)) (m ((c : Thread nD τ).loc main_arg2)) (Cert.Spec.rowScale (M := 50000) (N := 128) (Cert.Spec.kAct (Cert.Spec.rowScale (M := 50000) (N := 128) (KDefs.aggK (m ((c : Thread nD τ).loc main_arg1)) (m ((c : Thread nD τ).loc main_arg2)) (Cert.Spec.rowScale (M := 50000) (N := 128) (m ((c : Thread nD τ).loc main_arg0)) (KDefs.nrmK (m ((c : Thread nD τ).loc main_arg2))))) (KDefs.nrmK (m ((c : Thread nD τ).loc main_arg2)))) (KDefs.rowK (m ((c : Thread nD τ).loc main_arg3))) (KDefs.rowK (m ((c : Thread nD τ).loc main_arg4)))) (KDefs.nrmK (m ((c : Thread nD τ).loc main_arg2))))) (KDefs.nrmK (m ((c : Thread nD τ).loc main_arg2)))) (KDefs.rowK (m ((c : Thread nD τ).loc main_arg3))) (KDefs.rowK (m ((c : Thread nD τ).loc main_arg4)))) (KDefs.nrmK (m ((c : Thread nD τ).loc main_arg2))))) (KDefs.nrmK (m ((c : Thread nD τ).loc main_arg2)))) (KDefs.rowK (m ((c : Thread nD τ).loc main_arg3))) (KDefs.rowK (m ((c : Thread nD τ).loc main_arg4)))) (KDefs.nrmK (m ((c : Thread nD τ).loc main_arg2)))) :=
  layer3 m ρ c (Reg.final5_x (V11 m ρ) c) (Reg.final5_s (V11 m ρ) c) (Reg.final5_ss (V11 m ρ) c) (Reg.final6 (V13 m ρ) c)
    _ _ _ _ _ _ (w10_v50 m ρ c) (w10_arg1 m ρ c) (w10_arg2 m ρ c) (w10_v7 m ρ c) (w10_v8 m ρ c) (w10_v9 m ρ c)
theorem w14_v7 : W14 (F := Ideal) m ρ c (Proc.devRef .tc main_v7) = (KDefs.nrmK (m ((c : Thread nD τ).loc main_arg2))) :=
  (l3_keep_v7 m ρ c).trans (w10_v7 m ρ c)
theorem w14_v8 : W14 (F := Ideal) m ρ c (Proc.devRef .tc main_v8) = (KDefs.rowK (m ((c : Thread nD τ).loc main_arg3))) :=
  (l3_keep_v8 m ρ c).trans (w10_v8 m ρ c)
theorem w14_v9 : W14 (F := Ideal) m ρ c (Proc.devRef .tc main_v9) = (KDefs.rowK (m ((c : Thread nD τ).loc main_arg4))) :=
  (l3_keep_v9 m ρ c).trans (w10_v9 m ρ c)
theorem w14_v10 : W14 (F := Ideal) m ρ c (Proc.devRef .tc main_v10) = (KDefs.rowK (m ((c : Thread nD τ).loc main_arg6))) :=
  (l3_keep_v10 m ρ c).trans (w10_v10 m ρ c)
theorem w14_v11 : W14 (F := Ideal) m ρ c (Proc.devRef .tc main_v11) = (KDefs.rowK (m ((c : Thread nD τ).loc main_arg7))) :=
  (l3_keep_v11 m ρ c).trans (w10_v11 m ρ c)
theorem w14_v12 : W14 (F := Ideal) m ρ c (Proc.devRef .tc main_v12) = (KDefs.rowK (m ((c : Thread nD τ).loc main_arg8))) :=
  (l3_keep_v12 m ρ c).trans (w10_v12 m ρ c)
theorem w14_v13 : W14 (F := Ideal) m ρ c (Proc.devRef .tc main_v13) = (KDefs.rowK40 (m ((c : Thread nD τ).loc main_arg10))) :=
  (l3_keep_v13 m ρ c).trans (w10_v13 m ρ c)
theorem w14_arg1 : W14 (F := Ideal) m ρ c (Proc.devRef .tc main_arg1) = (m ((c : Thread nD τ).loc main_arg1)) :=
  (l3_keep_arg1 m ρ c).trans (w10_arg1 m ρ c)
theorem w14_arg2 : W14 (F := Ideal) m ρ c (Proc.devRef .tc main_arg2) = (m ((c : Thread nD τ).loc main_arg2)) :=
  (l3_keep_arg2 m ρ c).trans (w10_arg2 m ρ c)
theorem w14_arg5 : W14 (F := Ideal) m ρ c (Proc.devRef .tc main_arg5) = (m ((c : Thread nD τ).loc main_arg5)) :=
  (l3_keep_arg5 m ρ c).trans (w10_arg5 m ρ c)
theorem w14_arg9 : W14 (F := Ideal) m ρ c (Proc.devRef .tc main_arg9) = (m ((c : Thread nD τ).loc main_arg9)) :=
  (l3_keep_arg9 m ρ c).trans (w10_arg9 m ρ c)

/-! ## After layer 4 -/

theorem w18_v86 : W18 (F := Ideal) m ρ c (Proc.devRef .tc main_v86)
    = (Cert.Spec.kAct (Cert.Spec.rowScale (M := 50000) (N := 128) (KDefs.aggK (m ((c : Thread nD τ).loc main_arg1)) (m ((c : Thread nD τ).loc main_arg2)) (Cert.Spec.rowScale (M := 50000) (N := 128) (Cert.Spec.kAct (Cert.Spec.rowScale (M := 50000) (N := 128) (KDefs.aggK (m ((c : Thread nD τ).loc main_arg1)) (m ((c : Thread nD τ).loc main_arg2)) (Cert.Spec.rowScale (M := 50000) (N := 128) (Cert.Spec.kAct (Cert.Spec.rowScale (M := 50000) (N := 128) (KDefs.aggK (m ((c : Thread nD τ).loc main_arg1)) (m ((c : Thread nD τ).loc main_arg2)) (Cert.Spec.rowScale (M := 50000) (N := 128) (Cert.Spec.kAct (Cert.Spec.rowScale (M := 50000) (N := 128) (KDefs.aggK (m ((c : Thread nD τ).loc main_arg1)) (m ((c : Thread nD τ).loc main_arg2)) (Cert.Spec.rowScale (M := 50000) (N := 128) (m ((c : Thread nD τ).loc main_arg0)) (KDefs.nrmK (m ((c : Thread nD τ).loc main_arg2))))) (KDefs.nrmK (m ((c : Thread nD τ).loc main_arg2)))) (KDefs.rowK (m ((c : Thread nD τ).loc main_arg3))) (KDefs.rowK (m ((c : Thread nD τ).loc main_arg4)))) (KDefs.nrmK (m ((c : Thread nD τ).loc main_arg2))))) (KDefs.nrmK (m ((c : Thread nD τ).loc main_arg2)))) (KDefs.rowK (m ((c : Thread nD τ).loc main_arg3))) (KDefs.rowK (m ((c : Thread nD τ).loc main_arg4)))) (KDefs.nrmK (m ((c : Thread nD τ).loc main_arg2))))) (KDefs.nrmK (m ((c : Thread nD τ).loc main_arg2)))) (KDefs.rowK (m ((c : Thread nD τ).loc main_arg3))) (KDefs.rowK (m ((c : Thread nD τ).loc main_arg4)))) (KDefs.nrmK (m ((c : Thread nD τ).loc main_arg2))))) (KDefs.nrmK (m ((c : Thread nD τ).loc main_arg2)))) (KDefs.rowK (m ((c : Thread nD τ).loc main_arg3))) (KDefs.rowK (m ((c : Thread nD τ).loc main_arg4)))) :=
  layer4 m ρ c (Reg.final7_x (V15 m ρ) c) (Reg.final7_s (V15 m ρ) c) (Reg.final7_ss (V15 m ρ) c) (Reg.final8 (V17 m ρ) c)
    _ _ _ _ _ _ (w14_v68 m ρ c) (w14_arg1 m ρ c) (w14_arg2 m ρ c) (w14_v7 m ρ c) (w14_v8 m ρ c) (w14_v9 m ρ c)
theorem w18_v10 : W18 (F := Ideal) m ρ c (Proc.devRef .tc main_v10) = (KDefs.rowK (m ((c : Thread nD τ).loc main_arg6))) :=
  (l4_keep_v10 m ρ c).trans (w14_v10 m ρ c)
theorem w18_v11 : W18 (F := Ideal) m ρ c (Proc.devRef .tc main_v11) = (KDefs.rowK (m ((c : Thread nD τ).loc main_arg7))) :=
  (l4_keep_v11 m ρ c).trans (w14_v11 m ρ c)
theorem w18_v12 : W18 (F := Ideal) m ρ c (Proc.devRef .tc main_v12) = (KDefs.rowK (m ((c : Thread nD τ).loc main_arg8))) :=
  (l4_keep_v12 m ρ c).trans (w14_v12 m ρ c)
theorem w18_v13 : W18 (F := Ideal) m ρ c (Proc.devRef .tc main_v13) = (KDefs.rowK40 (m ((c : Thread nD τ).loc main_arg10))) :=
  (l4_keep_v13 m ρ c).trans (w14_v13 m ρ c)
theorem w18_arg5 : W18 (F := Ideal) m ρ c (Proc.devRef .tc main_arg5) = (m ((c : Thread nD τ).loc main_arg5)) :=
  (l4_keep_arg5 m ρ c).trans (w14_arg5 m ρ c)
theorem w18_arg9 : W18 (F := Ideal) m ρ c (Proc.devRef .tc main_arg9) = (m ((c : Thread nD τ).loc main_arg9)) :=
  (l4_keep_arg9 m ρ c).trans (w14_arg9 m ρ c)

/-! ## The result -/

/-- The result array is the network function, in the arrangement that keeps the two sums, of the eleven arguments. -/
theorem kernel_value :
    W21 (F := Ideal) m ρ c (Proc.devRef .tc main_v94)
      = Cert.Spec.kNet (M := 50000) (K := 128) (N := 40) (KDefs.aggK (m ((c : Thread nD τ).loc main_arg1)) (m ((c : Thread nD τ).loc main_arg2))) (KDefs.nrmK (m ((c : Thread nD τ).loc main_arg2))) (m ((c : Thread nD τ).loc main_arg0)) (KDefs.rowK (m ((c : Thread nD τ).loc main_arg3))) (KDefs.rowK (m ((c : Thread nD τ).loc main_arg4))) (m ((c : Thread nD τ).loc main_arg5)) (KDefs.rowK (m ((c : Thread nD τ).loc main_arg6))) (KDefs.rowK (m ((c : Thread nD τ).loc main_arg7))) (KDefs.rowK (m ((c : Thread nD τ).loc main_arg8))) (m ((c : Thread nD τ).loc main_arg9)) (KDefs.rowK40 (m ((c : Thread nD τ).loc main_arg10))) :=
  head m ρ c (Reg.final9_x (V18 m ρ) c) (Reg.final9_s (V18 m ρ) c) (Reg.final9_ss (V18 m ρ) c) (Reg.final10 (V20 m ρ) c)
    _ _ _ _ _ _ _ (w18_v86 m ρ c) (w18_arg5 m ρ c) (w18_v10 m ρ c) (w18_v11 m ρ c) (w18_v12 m ρ c) (w18_arg9 m ρ c) (w18_v13 m ρ c)

end Cert.KernelIdeal.KChain

end
-- ==== Proof.RefOut.lean ====
/-
  The reference network as one function of its eleven arrays.

  The reference computes, from the edge list (src, dst) and the node features h,

    nrm  = (max (deg dst) 1)^(-1/2)             the degree weight of every node, as a column
    x    = nrm · agg (nrm · h)                  agg: gather rows at src, add them up at dst
    y    = (x − mean x) · (var x + ε)^(-1/2) · γ + β      every column over the 50000 nodes
    h'   = max y 0

  four times, and then the head  (bn (h·W1 + b1))·W2 + b2  with the same column normalisation.  The variance
  of a column is the mean of the squared deviations from the column mean; it is guarded by a selection on the
  sign of the divisor 50000 − 0.  Each stage below is the composition of the host operations in the order the
  program performs them; `out` is the whole network.
-/
import proofs.«113157_j3616362463713_1_alg».proof.ReferenceIdeal
import proofs.«113157_j3616362463713_1_alg».proof.Proof.Gen.ReferenceIdeal
import Idealize.ShloMosaic.PureOps.Ideal

noncomputable section

namespace Cert.ReferenceIdeal.RefOut

open Idealize.ShloMosaic
open Cert.ReferenceIdeal Cert.ReferenceIdeal.Facts₀

/-- A vector of 128 entries as one row. -/
def rowR (g : FVec Ideal S128 .f32) : FVec Ideal S1x128 .f32 :=
  broadcastInDim S1x128 ![1] bcast_S128_S1x128_1 g

/-- A vector of 40 entries as one row. -/
def rowR40 (g : FVec Ideal S40 .f32) : FVec Ideal S1x40 .f32 :=
  broadcastInDim S1x40 ![1] bcast_S40_S1x40_1 g

/-- The degree weight of every node: ones added up at dst, at least 1, to the power −1/2, as a column. -/
def nrmR (dst : IVec S600000 32) : FVec Ideal S50000x1 .f32 :=
  broadcastInDim S50000x1 ![0] bcast_S50000_S50000x1_0
    (Host.rsqrt
      (maximumf
        (Host.scatterAdd scatter_S50000_S600000x1_S600000_n_0_0_1
          (broadcastInDim S50000 ![] bcast_S_S50000 (constant (F := Ideal) S_ .f32 0x00000000#32))
          (broadcastInDim S600000x1 ![0] bcast_S600000_S600000x1_0 dst)
          (broadcastInDim S600000 ![] bcast_S_S600000 (constant (F := Ideal) S_ .f32 0x3F800000#32)))
        (broadcastInDim S50000 ![] bcast_S_S50000 (constant (F := Ideal) S_ .f32 0x3F800000#32))))

/-- The neighbour sum: rows gathered at src (a negative index counted from the end), added up at dst. -/
def aggR (src dst : IVec S600000 32) (p : FVec Ideal S50000x128 .f32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 p
      (broadcastInDim S600000x1 ![0] bcast_S600000_S600000x1_0
        (select
          (cmpi .slt src (broadcastInDim S600000 ![] bcast_S_S600000 (constantI S_ 32 0#32)))
          (addi src (broadcastInDim S600000 ![] bcast_S_S600000 (constantI S_ 32 50000#32)))
          src)))

/-- The deviations of every entry from its column's mean. -/
def devR (x : FVec Ideal S50000x128 .f32) : FVec Ideal S50000x128 .f32 :=
  subf x
    (broadcastInDim S50000x128 ![0, 1] bcast_S1x128_S50000x128_0_1
      (Host.divf
        (broadcastInDim S1x128 ![1] bcast_S128_S1x128_1
          (Host.reduceAdd x (constant (F := Ideal) S_ .f32 0x00000000#32) reducesTo_S50000x128_S128_d0 h_S_))
        (broadcastInDim S1x128 ![] bcast_S_S1x128 (constant (F := Ideal) S_ .f32 0x47435000#32))))

/-- The divisor of the variance: the number of rows less the zero degrees of freedom. -/
def divisorR : FVec Ideal S_ .f32 :=
  subf (constant (F := Ideal) S_ .f32 0x47435000#32) (sitofp (F := Ideal) .f32 (constantI S_ 32 0#32))

/-- The variance of every column: the squared deviations added up and divided, kept where the divisor is positive. -/
def varR (x : FVec Ideal S50000x128 .f32) : FVec Ideal S128 .f32 :=
  select
    (broadcastInDim S128 ![] bcast_S_S128 (cmpf .ogt divisorR (constant (F := Ideal) S_ .f32 0x00000000#32)))
    (Host.divf
      (Host.reduceAdd (mulf (devR x) (devR x)) (constant (F := Ideal) S_ .f32 0x00000000#32)
        reducesTo_S50000x128_S128_d0 h_S_)
      (broadcastInDim S128 ![] bcast_S_S128 divisorR))
    (broadcastInDim S128 ![] bcast_S_S128 (id (constant (F := Ideal) S_ .f32 0x7FC00000#32)))

/-- The mean of every column. -/
def meanR (x : FVec Ideal S50000x128 .f32) : FVec Ideal S128 .f32 :=
  Host.divf
    (Host.reduceAdd x (constant (F := Ideal) S_ .f32 0x00000000#32) reducesTo_S50000x128_S128_d0 h_S_)
    (broadcastInDim S128 ![] bcast_S_S128 (constant (F := Ideal) S_ .f32 0x47435000#32))

/-- The column normalisation (x − mean)·(var + ε)^(−1/2)·γ + β. -/
def bnR (γ β : FVec Ideal S128 .f32) (x : FVec Ideal S50000x128 .f32) : FVec Ideal S50000x128 .f32 :=
  addf
    (mulf
      (mulf
        (subf x
          (broadcastInDim S50000x128 ![0, 1] bcast_S1x128_S50000x128_0_1
            (broadcastInDim S1x128 ![1] bcast_S128_S1x128_1 (meanR x))))
        (broadcastInDim S50000x128 ![0, 1] bcast_S1x128_S50000x128_0_1
          (broadcastInDim S1x128 ![1] bcast_S128_S1x128_1
            (Host.rsqrt
              (addf (varR x) (broadcastInDim S128 ![] bcast_S_S128 (constant (F := Ideal) S_ .f32 0x3727C5AC#32)))))))
      (broadcastInDim S50000x128 ![0, 1] bcast_S1x128_S50000x128_0_1
        (broadcastInDim S1x128 ![1] bcast_S128_S1x128_1 γ)))
    (broadcastInDim S50000x128 ![0, 1] bcast_S1x128_S50000x128_0_1
      (broadcastInDim S1x128 ![1] bcast_S128_S1x128_1 β))

/-- The rectifier: the maximum with zero. -/
def reluR (y : FVec Ideal S50000x128 .f32) : FVec Ideal S50000x128 .f32 :=
  maximumf y (broadcastInDim S50000x128 ![] bcast_S_S50000x128 (constant (F := Ideal) S_ .f32 0x00000000#32))

/-- The input of a layer's normalisation: scaled, aggregated, scaled again. -/
def xR (src dst : IVec S600000 32) (nrm : FVec Ideal S50000x1 .f32) (h : FVec Ideal S50000x128 .f32) :
    FVec Ideal S50000x128 .f32 :=
  mulf
    (aggR src dst (mulf h (broadcastInDim S50000x128 ![0, 1] bcast_S50000x1_S50000x128_0_1 nrm)))
    (broadcastInDim S50000x128 ![0, 1] bcast_S50000x1_S50000x128_0_1 nrm)

/-- One layer. -/
def layerR (src dst : IVec S600000 32) (nrm : FVec Ideal S50000x1 .f32) (γ β : FVec Ideal S128 .f32)
    (h : FVec Ideal S50000x128 .f32) : FVec Ideal S50000x128 .f32 :=
  reluR (bnR γ β (xR src dst nrm h))

/-- The first linear map of the head with its bias. -/
def lin1R (W1 : FVec Ideal S128x128 .f32) (b1 : FVec Ideal S128 .f32) (h : FVec Ideal S50000x128 .f32) :
    FVec Ideal S50000x128 .f32 :=
  addf
    (Host.dotGeneral dot_S50000x128_S128x128_S50000x128_1_0_0_1_n_n none h W1)
    (broadcastInDim S50000x128 ![0, 1] bcast_S1x128_S50000x128_0_1
      (broadcastInDim S1x128 ![1] bcast_S128_S1x128_1 b1))

/-- The head: a linear map, the column normalisation, a second linear map. -/
def headR (W1 : FVec Ideal S128x128 .f32) (b1 γ2 β2 : FVec Ideal S128 .f32) (W2 : FVec Ideal S128x40 .f32)
    (b2 : FVec Ideal S40 .f32) (h : FVec Ideal S50000x128 .f32) : FVec Ideal S50000x40 .f32 :=
  addf
    (Host.dotGeneral dot_S50000x128_S128x40_S50000x40_1_0_0_1_n_n none (bnR γ2 β2 (lin1R W1 b1 h)) W2)
    (broadcastInDim S50000x40 ![0, 1] bcast_S1x40_S50000x40_0_1
      (broadcastInDim S1x40 ![1] bcast_S40_S1x40_1 b2))

/-- The whole reference network. -/
def out (a0 : FVec Ideal S50000x128 .f32) (a1 a2 : IVec S600000 32) (a3 a4 : FVec Ideal S128 .f32)
    (a5 : FVec Ideal S128x128 .f32) (a6 a7 a8 : FVec Ideal S128 .f32) (a9 : FVec Ideal S128x40 .f32)
    (a10 : FVec Ideal S40 .f32) : FVec Ideal S50000x40 .f32 :=
  headR a5 a6 a7 a8 a9 a10
    (layerR a1 a2 (nrmR a2) a3 a4
      (layerR a1 a2 (nrmR a2) a3 a4
        (layerR a1 a2 (nrmR a2) a3 a4
          (layerR a1 a2 (nrmR a2) a3 a4 a0))))

end Cert.ReferenceIdeal.RefOut

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibBiasRows.lean ====
/-
  The bias stages of a graph convolution layer, as functions of whole arrays on the extended reals.

    biasRelu X B = max (X + B) 0     (entry (r,q): max (X(r,q) + B(0,q)) 0)
    biasOnly X B = X + B             (entry (r,q): X(r,q) + B(0,q))

  with the bias held as one row B of shape [1,N]. Each treats the rows of X independently, so a tiled program that
  runs it on a block of rows gets that block of rows of the result (`biasRelu_rows`, `biasOnly_rows`). The host
  spells the same functions with broadcasts (`hostBiasRelu`, `hostBiasOnly`), and makes the row from a bias vector
  either by a reshape or by a broadcast along the columns, the same row (`castRow_eq`). Nothing of real arithmetic
  is used, so every statement holds at the infinities too.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibBiasRows

open Idealize.ShloMosaic Idealize.ShloMosaic.ValueIdx

variable {M m N : Nat}

/-- The float zero the rectifier compares with. -/
abbrev zero32 : Ideal .f32 := Ideal.ofBits .f32 0x00000000#32

/-- A bias row added to every row, then the maximum with zero. -/
def biasRelu (X : FVec Ideal ⟨2, ![M, N]⟩ .f32) (B : FVec Ideal ⟨2, ![1, N]⟩ .f32) : FVec Ideal ⟨2, ![M, N]⟩ .f32 :=
  fun i => max (X i + B (ix2 (0 : Fin 1) ⟨(i 1).val, (i 1).isLt⟩)) zero32

/-- A bias row added to every row. -/
def biasOnly (X : FVec Ideal ⟨2, ![M, N]⟩ .f32) (B : FVec Ideal ⟨2, ![1, N]⟩ .f32) : FVec Ideal ⟨2, ![M, N]⟩ .f32 :=
  fun i => X i + B (ix2 (0 : Fin 1) ⟨(i 1).val, (i 1).isLt⟩)

theorem biasRelu_ix2 (X : FVec Ideal ⟨2, ![M, N]⟩ .f32) (B : FVec Ideal ⟨2, ![1, N]⟩ .f32) (r : Fin M) (q : Fin N) :
    biasRelu X B (ix2 r q) = max (X (ix2 r q) + B (ix2 (0 : Fin 1) q)) zero32 := rfl

theorem biasOnly_ix2 (X : FVec Ideal ⟨2, ![M, N]⟩ .f32) (B : FVec Ideal ⟨2, ![1, N]⟩ .f32) (r : Fin M) (q : Fin N) :
    biasOnly X B (ix2 r q) = X (ix2 r q) + B (ix2 (0 : Fin 1) q) := rfl

/-! ## A block of rows -/

/-- Bias and rectifier on a block of rows, through the identity casts and the row broadcast a tiled program prints,
    is that block of rows of `biasRelu`. -/
theorem biasRelu_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    maximumf (addf (shapeCast ⟨2, ![m, N]⟩ A hs) (broadcastTo ⟨2, ![m, N]⟩ (shapeCast ⟨2, ![1, N]⟩ B hs') hbc))
        (broadcast ⟨2, ![m, N]⟩ (Scalar.ofBits (F := Ideal) .f32 0x00000000#32)) j
      = biasRelu X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasRelu_ix2, maximumf_apply, addf_apply, broadcast_apply, shapeCast_self, broadcastTo_1b_ab_apply, shapeCast_self, hA, hB]
  rfl

/-- A bias on a block of rows, through the same casts and broadcast, is that block of rows of `biasOnly`. -/
theorem biasOnly_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    addf (shapeCast ⟨2, ![m, N]⟩ A hs) (broadcastTo ⟨2, ![m, N]⟩ (shapeCast ⟨2, ![1, N]⟩ B hs') hbc) j
      = biasOnly X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasOnly_ix2, addf_apply, shapeCast_self, broadcastTo_1b_ab_apply, shapeCast_self, hA, hB]

/-! ## The host's spelling -/

/-- A row [1,N] broadcast over the rows of [M,N] reads, at (r,q), the row at q. -/
theorem rowBcast_apply (B : FVec Ideal ⟨2, ![1, N]⟩ .f32)
    (h : (⟨2, ![1, N]⟩ : Shape).BroadcastsInDim ⟨2, ![M, N]⟩ (![0, 1] : Fin 2 → Fin 2)) (r : Fin M) (q : Fin N) :
    broadcastInDim ⟨2, ![M, N]⟩ ![0, 1] h B (ix2 r q) = B (ix2 (0 : Fin 1) q) := by
  refine broadcastInDim_apply (![0, 1] : Fin 2 → Fin 2) h B (ix2 r q) (ix2 (0 : Fin 1) q) fun ax => ?_
  match ax with
  | ⟨0, _⟩ => rfl
  | ⟨1, _⟩ =>
    show q.val = if N = 1 then 0 else q.val
    split
    · have := q.isLt; omega
    · rfl

/-- The float zero splat to any shape reads zero everywhere. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = zero32 := by
  rw [broadcastInDim_apply (![] : Fin 0 → Fin s.rank) h _ i ix0 (fun a => a.elim0)]
  rfl

/-- The host's `max (X + broadcast B) (splat 0)` is `biasRelu`. -/
theorem hostBiasRelu (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf X (broadcastInDim ⟨2, ![M, N]⟩ ![0, 1] h B))
        (broadcastInDim ⟨2, ![M, N]⟩ ![] h0 (constant (F := Ideal) ⟨0, ![]⟩ .f32 0x00000000#32))
      = biasRelu X B := by
  funext i
  obtain ⟨r, q, rfl⟩ : ∃ (r : Fin M) (q : Fin N), i = ix2 r q := ⟨i 0, i 1, eq_ix2 i⟩
  rw [biasRelu_ix2, maximumf_apply, addf_apply, rowBcast_apply, zeroSplat_apply]

/-- The host's `X + broadcast B` is `biasOnly`. -/
theorem hostBiasOnly (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2)) :
    addf X (broadcastInDim ⟨2, ![M, N]⟩ ![0, 1] h B) = biasOnly X B := by
  funext i
  obtain ⟨r, q, rfl⟩ : ∃ (r : Fin M) (q : Fin N), i = ix2 r q := ⟨i 0, i 1, eq_ix2 i⟩
  rw [biasOnly_ix2, addf_apply, rowBcast_apply]

/-- A vector reshaped to one row and the same vector broadcast along the columns of a one-row matrix are the same
    row. -/
theorem castRow_eq (b : FVec Ideal ⟨1, ![N]⟩ .f32) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ ![1] hb b := by
  funext j
  obtain ⟨u, q, rfl⟩ : ∃ (u : Fin 1) (q : Fin N), j = ix2 u q := ⟨j 0, j 1, eq_ix2 j⟩
  rw [shapeCast_a_1a_apply]
  refine (broadcastInDim_apply (![1] : Fin 1 → Fin 2) hb b (ix2 u q) (ix1 q) fun ax => ?_).symm
  match ax with
  | ⟨0, _⟩ =>
    show q.val = if N = 1 then 0 else q.val
    split
    · have := q.isLt; omega
    · rfl

end Cert.LibBiasRows

end
-- ==== Proof.RefNet.lean ====
/-
  The reference network, read entry by entry, is the specification's arrangement with the variance taken as the
  mean of the squared deviations.

  Every step is a read at an index.  A column [50000,1] repeated along 128 columns reads the column's entry of the
  row; a vector made a row and the row repeated down 50000 rows reads the vector's entry of the column; the sum over
  the rows with the zero initial value is the finite sum of the column; the scalar 50000 repeated is 50000 at every
  entry.  The variance divides by 50000 − 0, which is 50000, and is kept because that divisor is positive.
-/
import proofs.«113157_j3616362463713_1_alg».proof.Proof.RefOut
import proofs.«113157_j3616362463713_1_alg».proof.Proof.SpecNet
import proofs.«113157_j3616362463713_1_alg».proof.Proof.LibHostReads
import proofs.«113157_j3616362463713_1_alg».proof.Proof.LibBiasRows
import Idealize.ShloMosaic.PureOps.Ideal.Laws

noncomputable section

open scoped BigOperators

namespace Cert.ReferenceIdeal.RefNet

open Idealize.ShloMosaic Idealize.ShloMosaic.ValueIdx
open Cert.ReferenceIdeal Cert.ReferenceIdeal.Facts₀ Cert.ReferenceIdeal.RefOut

/-! ## The literals -/

/-- The pattern 0x47435000 denotes 50000. -/
theorem n50k_val : Ideal.ofBits .f32 0x47435000#32 = ((50000 : ℝ) : EReal) := by
  simp [Ideal.ofBits, Ideal.ieee, -EReal.coe_mul]; norm_num

/-- 50000 is greater than zero, as the comparison of the two patterns says. -/
theorem cmp_pos :
    Ideal.cmp .ogt (Ideal.ofBits .f32 0x47435000#32) (Ideal.ofBits .f32 0x00000000#32) = 1#1 := by
  rw [n50k_val, Ideal.ofBits_zero_f32]
  have h : (0 : EReal) < ((50000 : ℝ) : EReal) := by exact_mod_cast (by norm_num : (0 : ℝ) < 50000)
  show BitVec.ofBool (decide ((0 : EReal) < ((50000 : ℝ) : EReal))) = 1#1
  rw [decide_eq_true h]; rfl

/-- The variance's divisor 50000 − 0 is 50000. -/
theorem divisorR_apply (j : S_.Idx) : divisorR j = Ideal.ofBits .f32 0x47435000#32 := by
  show Ideal.ofBits .f32 0x47435000#32 - (((0#32 : BitVec 32).toInt : ℝ) : EReal) = _
  simp

/-! ## The host's elementwise operations at an index -/

theorem hdivf_apply {s : Shape} (a b : FVec Ideal s .f32) (i : s.Idx) : Host.divf a b i = Ideal.div (a i) (b i) := rfl

theorem hrsqrt_apply {s : Shape} (a : FVec Ideal s .f32) (i : s.Idx) : Host.rsqrt a i = Ideal.rsqrt (a i) := rfl

/-! ## Layout reads -/

/-- A vector of 128 entries made one row reads the vector's entry of the column. -/
theorem row_apply (g : FVec Ideal S128 .f32) (u : Fin 1) (c : Fin 128) :
    broadcastInDim S1x128 ![1] bcast_S128_S1x128_1 g (ix2 u c) = g (ix1 c) :=
  broadcastInDim_apply (![1] : Fin 1 → Fin 2) bcast_S128_S1x128_1 g (ix2 u c) (ix1 c) fun ax =>
    match ax with
    | ⟨0, _⟩ => by show c.val = if (128 : Nat) = 1 then 0 else c.val; rw [if_neg (by decide)]

theorem rowR_apply (g : FVec Ideal S128 .f32) (u : Fin 1) (c : Fin 128) : rowR g (ix2 u c) = g (ix1 c) :=
  row_apply g u c

/-- A vector of 40 entries made one row reads the vector's entry of the column. -/
theorem rowR40_apply (g : FVec Ideal S40 .f32) (u : Fin 1) (c : Fin 40) : rowR40 g (ix2 u c) = g (ix1 c) :=
  broadcastInDim_apply (![1] : Fin 1 → Fin 2) bcast_S40_S1x40_1 g (ix2 u c) (ix1 c) fun ax =>
    match ax with
    | ⟨0, _⟩ => by show c.val = if (40 : Nat) = 1 then 0 else c.val; rw [if_neg (by decide)]

/-- A vector made a row and repeated down the 50000 rows reads the vector's entry of the column. -/
theorem rowrow_apply (b : FVec Ideal S128 .f32) (r : Fin 50000) (c : Fin 128) :
    broadcastInDim S50000x128 ![0, 1] bcast_S1x128_S50000x128_0_1
        (broadcastInDim S1x128 ![1] bcast_S128_S1x128_1 b) (ix2 r c) = b (ix1 c) :=
  LibHostReads.rowBias_apply (m := 50000) (n := 128) (by decide) _ _ b r c

theorem rowrow40_apply (b : FVec Ideal S40 .f32) (r : Fin 50000) (c : Fin 40) :
    broadcastInDim S50000x40 ![0, 1] bcast_S1x40_S50000x40_0_1
        (broadcastInDim S1x40 ![1] bcast_S40_S1x40_1 b) (ix2 r c) = b (ix1 c) :=
  LibHostReads.rowBias_apply (m := 50000) (n := 40) (by decide) _ _ b r c

/-- The sum over the 50000 rows with the zero initial value is the finite sum of the column. -/
theorem colsum_apply (x : FVec Ideal S50000x128 .f32) (c : Fin 128) :
    Host.reduceAdd x (constant (F := Ideal) S_ .f32 0x00000000#32) reducesTo_S50000x128_S128_d0 h_S_ (ix1 c)
      = ∑ r : Fin 50000, x (ix2 r c) := by
  have h : S50000x128.Reduces [0] S128 := by decide
  refine (Ideal.hostReduceAdd_single reducesTo_S50000x128_S128_d0 h x _ (ix1 c)).trans ?_
  rw [show (constant (F := Ideal) S_ .f32 0x00000000#32 (Shape.Idx.first h_S_)) = 0 from Ideal.ofBits_zero_f32, zero_add]
  refine Finset.sum_congr rfl fun r _ => congrArg x ?_
  funext a
  match a with
  | ⟨0, _⟩ => exact Fin.ext rfl
  | ⟨1, _⟩ => exact Fin.ext rfl

/-! ## The stages -/

/-- Multiplying by the repeated degree column scales every row. -/
theorem scale_eq (X : FVec Ideal S50000x128 .f32) (nrm : FVec Ideal S50000x1 .f32) :
    mulf X (broadcastInDim S50000x128 ![0, 1] bcast_S50000x1_S50000x128_0_1 nrm) = Spec.rowScale X nrm := by
  funext i
  obtain ⟨r, c, rfl⟩ : ∃ (r : Fin 50000) (c : Fin 128), i = ix2 r c := ⟨i 0, i 1, eq_ix2 i⟩
  rw [Spec.rowScale_ix2, mulf_apply, LibHostReads.colBcast_apply (m := 50000) (n := 128) (by decide)]

theorem xR_eq (src dst : IVec S600000 32) (nrm : FVec Ideal S50000x1 .f32) (h : FVec Ideal S50000x128 .f32) :
    xR src dst nrm h = Spec.rowScale (aggR src dst (Spec.rowScale h nrm)) nrm := by
  unfold xR
  rw [scale_eq, scale_eq]

/-- The column mean. -/
theorem meanR_apply (x : FVec Ideal S50000x128 .f32) (c : Fin 128) :
    meanR x (ix1 c) = Spec.kmean (Spec.colSum x) (ix2 (0 : Fin 1) c) := by
  unfold meanR
  rw [hdivf_apply, colsum_apply, LibHostReads.splat_apply]
  rfl

/-- The deviation of an entry from its column's mean. -/
theorem devR_apply (x : FVec Ideal S50000x128 .f32) (r : Fin 50000) (c : Fin 128) :
    devR x (ix2 r c) = x (ix2 r c) - Spec.kmean (Spec.colSum x) (ix2 (0 : Fin 1) c) := by
  unfold devR
  rw [subf_apply, LibBiasRows.rowBcast_apply, hdivf_apply, row_apply, colsum_apply, LibHostReads.splat_apply]
  rfl

/-- The variance of a column is the mean of its squared deviations. -/
theorem varR_apply (x : FVec Ideal S50000x128 .f32) (c : Fin 128) :
    varR x (ix1 c) = Spec.dvar x (ix2 (0 : Fin 1) c) := by
  unfold varR
  rw [select_apply, LibHostReads.splat_apply, cmpf_apply, divisorR_apply]
  show Scalar.select (Ideal.cmp .ogt (Ideal.ofBits .f32 0x47435000#32) (Ideal.ofBits .f32 0x00000000#32)) _ _ = _
  rw [cmp_pos, select_one, hdivf_apply, colsum_apply, LibHostReads.splat_apply, divisorR_apply, Spec.dvar_ix2]
  simp only [mulf_apply, devR_apply]

/-- The column normalisation. -/
theorem bnR_eq (γ β : FVec Ideal S128 .f32) (x : FVec Ideal S50000x128 .f32) :
    bnR γ β x = Spec.bn x (Spec.kmean (Spec.colSum x)) (Spec.dvar x) (rowR γ) (rowR β) := by
  funext i
  obtain ⟨r, c, rfl⟩ : ∃ (r : Fin 50000) (c : Fin 128), i = ix2 r c := ⟨i 0, i 1, eq_ix2 i⟩
  unfold bnR
  rw [Spec.bn_ix2, addf_apply, mulf_apply, mulf_apply, subf_apply]
  rw [rowrow_apply, rowrow_apply, rowrow_apply, rowrow_apply, meanR_apply, hrsqrt_apply, addf_apply, varR_apply, LibHostReads.splat_apply, rowR_apply, rowR_apply]
  rfl

/-- One layer. -/
theorem layerR_eq (src dst : IVec S600000 32) (nrm : FVec Ideal S50000x1 .f32) (γ β : FVec Ideal S128 .f32)
    (h : FVec Ideal S50000x128 .f32) :
    layerR src dst nrm γ β h
      = Spec.dAct (Spec.rowScale (aggR src dst (Spec.rowScale h nrm)) nrm) (rowR γ) (rowR β) := by
  unfold layerR
  rw [xR_eq, bnR_eq]
  funext i
  unfold reluR Spec.dAct Spec.bnRelu
  rw [maximumf_apply, LibBiasRows.zeroSplat_apply]

/-- The head's first linear map. -/
theorem lin1R_eq (W1 : FVec Ideal S128x128 .f32) (b1 : FVec Ideal S128 .f32) (h : FVec Ideal S50000x128 .f32) :
    lin1R W1 b1 h = Spec.linBias h W1 (rowR b1) := by
  funext i
  obtain ⟨r, c, rfl⟩ : ∃ (r : Fin 50000) (c : Fin 128), i = ix2 r c := ⟨i 0, i 1, eq_ix2 i⟩
  unfold lin1R
  rw [Spec.linBias_ix2, addf_apply, rowrow_apply, rowR_apply,
    LibHostReads.dot_apply (m := 50000) (k := 128) (n := 128) dot_S50000x128_S128x128_S50000x128_1_0_0_1_n_n rfl]

/-- The head. -/
theorem headR_eq (W1 : FVec Ideal S128x128 .f32) (b1 γ2 β2 : FVec Ideal S128 .f32) (W2 : FVec Ideal S128x40 .f32)
    (b2 : FVec Ideal S40 .f32) (h : FVec Ideal S50000x128 .f32) :
    headR W1 b1 γ2 β2 W2 b2 h = Spec.dHead h W1 (rowR b1) (rowR γ2) (rowR β2) W2 (rowR40 b2) := by
  unfold headR Spec.dHead Spec.bnLin
  rw [lin1R_eq, bnR_eq]
  funext i
  obtain ⟨r, c, rfl⟩ : ∃ (r : Fin 50000) (c : Fin 40), i = ix2 r c := ⟨i 0, i 1, eq_ix2 i⟩
  rw [Spec.linBias_ix2, addf_apply, rowrow40_apply, rowR40_apply,
    LibHostReads.dot_apply (m := 50000) (k := 128) (n := 40) dot_S50000x128_S128x40_S50000x40_1_0_0_1_n_n rfl]

/-- The whole reference network is the specification's network with the variance from the squared deviations. -/
theorem out_eq (a0 : FVec Ideal S50000x128 .f32) (a1 a2 : IVec S600000 32) (a3 a4 : FVec Ideal S128 .f32)
    (a5 : FVec Ideal S128x128 .f32) (a6 a7 a8 : FVec Ideal S128 .f32) (a9 : FVec Ideal S128x40 .f32)
    (a10 : FVec Ideal S40 .f32) :
    RefOut.out a0 a1 a2 a3 a4 a5 a6 a7 a8 a9 a10
      = Cert.Spec.dNet (M := 50000) (K := 128) (N := 40) (RefOut.aggR a1 a2) (RefOut.nrmR a2) a0 (rowR a3) (rowR a4) a5
          (rowR a6) (rowR a7) (rowR a8) a9 (rowR40 a10) := by
  unfold RefOut.out Spec.dNet
  rw [headR_eq, layerR_eq, layerR_eq, layerR_eq, layerR_eq]

end Cert.ReferenceIdeal.RefNet

end
-- ==== Proof.RefRunAux.lean ====
/-
  Two small facts about a straight line of host operations, used to read one buffer after the line.

  An operation that writes the single buffer y writes inside any list of buffers that contains y; and a
  property of every operation of a list, stated as a conjunction, holds of each member.
-/
import proofs.«113157_j3616362463713_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

/-- An operation whose only written buffer is `y` writes inside every list of references that has `y`. -/
theorem writes_sub_of_mem {τ : Topo} {sig : RefSig} {Val : EltTy → Type} {op : HloOp τ sig Val} {W : List (Ref sig .tc)}
    (y : Ref sig .tc) (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- A conjunction over a list of operations, read at a member. -/
theorem forall_mem_of_Forall {α : Type} {p : α → Prop} {l : List α} (h : l.Forall p) : ∀ a ∈ l, p a :=
  List.forall_iff_forall_mem.mp h

end Cert.ReferenceIdeal.RefRun

end
-- ==== Proof.RefPart0.lean ====
/-
  Window 0 of the reference's @main as a list of host operations.

  The printed window is a straight line of operations and of calls of the three outlined functions (the column
  variance, the selection inside it, the rectifier).  A call executes the callee's body on the operands, so the
  list has the callee's operations in the call's place, over the call's own buffers.  The window equals the list
  run in order; every operation touches TensorCore buffers only and determines its results.
-/
import proofs.«113157_j3616362463713_1_alg».proof.Proof.Gen.ReferenceIdeal
import Idealize.ShloMosaic.Lib.StableHlo.Run
import proofs.«113157_j3616362463713_1_alg».proof.Proof.RefRunAux

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 0's 83 operations, in order, each call replaced by the callee's operations. -/
abbrev P0 : List (HloOp τ sig (Elt F)) :=
  [ nullary main_cst (constant S_ .f32 0x3F800000#32),
    unary main_cst main_v0 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S600000x1 ![0] bcast_S600000_S600000x1_0 : (⟨S600000, .i32⟩ : BufTy).Contents (Elt F) → (⟨S600000x1, .i32⟩ : BufTy).Contents (Elt F)),
    ternary main_v1 main_v2 main_v0 main_v3 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x3F800000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (maximumf : (⟨S50000, .f32⟩ : BufTy).Contents (Elt F) → (⟨S50000, .f32⟩ : BufTy).Contents (Elt F) → (⟨S50000, .f32⟩ : BufTy).Contents (Elt F)),
    unary main_v5 main_v6 (Host.rsqrt : (⟨S50000, .f32⟩ : BufTy).Contents (Elt F) → (⟨S50000, .f32⟩ : BufTy).Contents (Elt F)),
    unary main_v6 main_v7 (broadcastInDim S50000x1 ![0] bcast_S50000_S50000x1_0 : (⟨S50000, .f32⟩ : BufTy).Contents (Elt F) → (⟨S50000x1, .f32⟩ : BufTy).Contents (Elt F)),
    unary main_v7 main_v8 (broadcastInDim S50000x128 ![0, 1] bcast_S50000x1_S50000x128_0_1 : (⟨S50000x1, .f32⟩ : BufTy).Contents (Elt F) → (⟨S50000x128, .f32⟩ : BufTy).Contents (Elt F)),
    binary main_arg0 main_v8 main_v9 (mulf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v10 (broadcastInDim S600000 ![] bcast_S_S600000 : (⟨S_, .i32⟩ : BufTy).Contents (Elt F) → (⟨S600000, .i32⟩ : BufTy).Contents (Elt F)),
    binary main_arg1 main_v10 main_v11 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v12 (broadcastInDim S600000 ![] bcast_S_S600000 : (⟨S_, .i32⟩ : BufTy).Contents (Elt F) → (⟨S600000, .i32⟩ : BufTy).Contents (Elt F)),
    binary main_arg1 main_v12 main_v13 (addi : (⟨S600000, .i32⟩ : BufTy).Contents (Elt F) → (⟨S600000, .i32⟩ : BufTy).Contents (Elt F) → (⟨S600000, .i32⟩ : BufTy).Contents (Elt F)),
    ternary main_v11 main_v13 main_arg1 main_v14 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v14 main_v15 (broadcastInDim S600000x1 ![0] bcast_S600000_S600000x1_0 : (⟨S600000, .i32⟩ : BufTy).Contents (Elt F) → (⟨S600000x1, .i32⟩ : BufTy).Contents (Elt F)),
    binary main_v9 main_v15 main_v16 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_3 (constant S_ .f32 0x00000000#32),
    unary main_cst_3 main_v17 (broadcastInDim S50000x128 ![] bcast_S_S50000x128 : (⟨S_, .f32⟩ : BufTy).Contents (Elt F) → (⟨S50000x128, .f32⟩ : BufTy).Contents (Elt F)),
    unary main_arg2 main_v18 (broadcastInDim S600000x1 ![0] bcast_S600000_S600000x1_0 : (⟨S600000, .i32⟩ : BufTy).Contents (Elt F) → (⟨S600000x1, .i32⟩ : BufTy).Contents (Elt F)),
    ternary main_v17 main_v18 main_v16 main_v19 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v7 main_v20 (broadcastInDim S50000x128 ![0, 1] bcast_S50000x1_S50000x128_0_1 : (⟨S50000x1, .f32⟩ : BufTy).Contents (Elt F) → (⟨S50000x128, .f32⟩ : BufTy).Contents (Elt F)),
    binary main_v19 main_v20 main_v21 (mulf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    binary main_v21 main_cst_4 main_v22 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_5 (constant S_ .f32 0x47435000#32),
    unary main_cst_5 main_v23 (broadcastInDim S128 ![] bcast_S_S128 : (⟨S_, .f32⟩ : BufTy).Contents (Elt F) → (⟨S128, .f32⟩ : BufTy).Contents (Elt F)),
    binary main_v22 main_v23 main_v24 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call0.cst (constant S_ .f32 0x00000000#32),
    TRef.binary (.of main_v21 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v21 : TRef sig ⟨S50000x128, .f32⟩) main_call0.v4 main_call0.v5 subf,
    TRef.binary main_call0.v5 main_call0.v5 main_call0.v6 mulf,
    TRef.unary (.of main_c_6 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v24 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v21 main_v27 main_v28 (subf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v29 (broadcastInDim S128 ![] bcast_S_S128 : (⟨S_, .f32⟩ : BufTy).Contents (Elt F) → (⟨S128, .f32⟩ : BufTy).Contents (Elt F)),
    binary main_v25 main_v29 main_v30 (addf : (⟨S128, .f32⟩ : BufTy).Contents (Elt F) → (⟨S128, .f32⟩ : BufTy).Contents (Elt F) → (⟨S128, .f32⟩ : BufTy).Contents (Elt F)),
    unary main_v30 main_v31 (Host.rsqrt : (⟨S128, .f32⟩ : BufTy).Contents (Elt F) → (⟨S128, .f32⟩ : BufTy).Contents (Elt F)),
    unary main_v31 main_v32 (broadcastInDim S1x128 ![1] bcast_S128_S1x128_1 : (⟨S128, .f32⟩ : BufTy).Contents (Elt F) → (⟨S1x128, .f32⟩ : BufTy).Contents (Elt F)),
    unary main_v32 main_v33 (broadcastInDim S50000x128 ![0, 1] bcast_S1x128_S50000x128_0_1 : (⟨S1x128, .f32⟩ : BufTy).Contents (Elt F) → (⟨S50000x128, .f32⟩ : BufTy).Contents (Elt F)),
    binary main_v28 main_v33 main_v34 (mulf : (⟨S50000x128, .f32⟩ : BufTy).Contents (Elt F) → (⟨S50000x128, .f32⟩ : BufTy).Contents (Elt F) → (⟨S50000x128, .f32⟩ : BufTy).Contents (Elt F)),
    unary main_arg3 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v34 main_v36 main_v37 (mulf : (⟨S50000x128, .f32⟩ : BufTy).Contents (Elt F) → (⟨S50000x128, .f32⟩ : BufTy).Contents (Elt F) → (⟨S50000x128, .f32⟩ : BufTy).Contents (Elt F)),
    unary main_arg4 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v37 main_v39 main_v40 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v40 : TRef sig ⟨S50000x128, .f32⟩) main_call1.v0 main_call1.v1 maximumf,
    unary main_v7 main_v42 (broadcastInDim S50000x128 ![0, 1] bcast_S50000x1_S50000x128_0_1 : (⟨S50000x1, .f32⟩ : BufTy).Contents (Elt F) → (⟨S50000x128, .f32⟩ : BufTy).Contents (Elt F)),
    binary main_v41 main_v42 main_v43 (mulf : (⟨S50000x128, .f32⟩ : BufTy).Contents (Elt F) → (⟨S50000x128, .f32⟩ : BufTy).Contents (Elt F) → (⟨S50000x128, .f32⟩ : BufTy).Contents (Elt F)),
    nullary main_c_8 (constantI S_ 32 0#32),
    unary main_c_8 main_v44 (broadcastInDim S600000 ![] bcast_S_S600000 : (⟨S_, .i32⟩ : BufTy).Contents (Elt F) → (⟨S600000, .i32⟩ : BufTy).Contents (Elt F)),
    binary main_arg1 main_v44 main_v45 (cmpi .slt : (⟨S600000, .i32⟩ : BufTy).Contents (Elt F) → (⟨S600000, .i32⟩ : BufTy).Contents (Elt F) → (⟨S600000, .i1⟩ : BufTy).Contents (Elt F)),
    nullary main_c_9 (constantI S_ 32 50000#32),
    unary main_c_9 main_v46 (broadcastInDim S600000 ![] bcast_S_S600000 : (⟨S_, .i32⟩ : BufTy).Contents (Elt F) → (⟨S600000, .i32⟩ : BufTy).Contents (Elt F)),
    binary main_arg1 main_v46 main_v47 (addi : (⟨S600000, .i32⟩ : BufTy).Contents (Elt F) → (⟨S600000, .i32⟩ : BufTy).Contents (Elt F) → (⟨S600000, .i32⟩ : BufTy).Contents (Elt F)) ]

set_option maxRecDepth 8192 in
set_option maxHeartbeats 1000000 in
/-- The window is that straight line: the outlined functions unfolded at their calls, sequencing reassociated. -/
theorem part0_eq (c : Dev nD) : main_part0 (F := F) c = seq P0 := by
  simp only [main_part0, P0, fn_var.body, fn_where.body, fn_relu.body, seq, bind_assoc, pure_bind] <;> rfl

set_option maxRecDepth 8192 in
theorem P0_sub : (P0 (F := F)).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., binary_bufs_sub .., nullary_bufs_sub ..,
    unary_bufs_sub .., binary_bufs_sub .., nullary_bufs_sub .., unary_bufs_sub .., binary_bufs_sub ..⟩

set_option maxRecDepth 8192 in
theorem P0_fresh : (P0 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefPart1.lean ====
/-
  Window 1 of the reference's @main as a list of host operations.

  The printed window is a straight line of operations and of calls of the three outlined functions (the column
  variance, the selection inside it, the rectifier).  A call executes the callee's body on the operands, so the
  list has the callee's operations in the call's place, over the call's own buffers.  The window equals the list
  run in order; every operation touches TensorCore buffers only and determines its results.
-/
import proofs.«113157_j3616362463713_1_alg».proof.Proof.Gen.ReferenceIdeal
import Idealize.ShloMosaic.Lib.StableHlo.Run
import proofs.«113157_j3616362463713_1_alg».proof.Proof.RefRunAux

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 1's 104 operations, in order, each call replaced by the callee's operations. -/
abbrev P1 : List (HloOp τ sig (Elt F)) :=
  [ ternary main_v45 main_v47 main_arg1 main_v48 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v48 main_v49 (broadcastInDim S600000x1 ![0] bcast_S600000_S600000x1_0 : (⟨S600000, .i32⟩ : BufTy).Contents (Elt F) → (⟨S600000x1, .i32⟩ : BufTy).Contents (Elt F)),
    binary main_v43 main_v49 main_v50 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_10 (constant S_ .f32 0x00000000#32),
    unary main_cst_10 main_v51 (broadcastInDim S50000x128 ![] bcast_S_S50000x128 : (⟨S_, .f32⟩ : BufTy).Contents (Elt F) → (⟨S50000x128, .f32⟩ : BufTy).Contents (Elt F)),
    unary main_arg2 main_v52 (broadcastInDim S600000x1 ![0] bcast_S600000_S600000x1_0 : (⟨S600000, .i32⟩ : BufTy).Contents (Elt F) → (⟨S600000x1, .i32⟩ : BufTy).Contents (Elt F)),
    ternary main_v51 main_v52 main_v50 main_v53 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v7 main_v54 (broadcastInDim S50000x128 ![0, 1] bcast_S50000x1_S50000x128_0_1 : (⟨S50000x1, .f32⟩ : BufTy).Contents (Elt F) → (⟨S50000x128, .f32⟩ : BufTy).Contents (Elt F)),
    binary main_v53 main_v54 main_v55 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v55 main_cst_11 main_v56 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)),
    nullary main_c_13 (constantI S_ 32 0#32),
    TRef.nullary main_call2.cst (constant S_ .f32 0x00000000#32),
    TRef.binary (.of main_v55 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v55 : TRef sig ⟨S50000x128, .f32⟩) main_call2.v4 main_call2.v5 subf,
    TRef.binary main_call2.v5 main_call2.v5 main_call2.v6 mulf,
    TRef.unary (.of main_c_13 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v58 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v55 main_v61 main_v62 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v63 (broadcastInDim S128 ![] bcast_S_S128 : (⟨S_, .f32⟩ : BufTy).Contents (Elt F) → (⟨S128, .f32⟩ : BufTy).Contents (Elt F)),
    binary main_v59 main_v63 main_v64 (addf : (⟨S128, .f32⟩ : BufTy).Contents (Elt F) → (⟨S128, .f32⟩ : BufTy).Contents (Elt F) → (⟨S128, .f32⟩ : BufTy).Contents (Elt F)),
    unary main_v64 main_v65 (Host.rsqrt : (⟨S128, .f32⟩ : BufTy).Contents (Elt F) → (⟨S128, .f32⟩ : BufTy).Contents (Elt F)),
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v62 main_v67 main_v68 (mulf : (⟨S50000x128, .f32⟩ : BufTy).Contents (Elt F) → (⟨S50000x128, .f32⟩ : BufTy).Contents (Elt F) → (⟨S50000x128, .f32⟩ : BufTy).Contents (Elt F)),
    unary main_arg3 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v68 main_v70 main_v71 (mulf : (⟨S50000x128, .f32⟩ : BufTy).Contents (Elt F) → (⟨S50000x128, .f32⟩ : BufTy).Contents (Elt F) → (⟨S50000x128, .f32⟩ : BufTy).Contents (Elt F)),
    unary main_arg4 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v74 : TRef sig ⟨S50000x128, .f32⟩) main_call3.v0 main_call3.v1 maximumf,
    unary main_v7 main_v76 (broadcastInDim S50000x128 ![0, 1] bcast_S50000x1_S50000x128_0_1 : (⟨S50000x1, .f32⟩ : BufTy).Contents (Elt F) → (⟨S50000x128, .f32⟩ : BufTy).Contents (Elt F)),
    binary main_v75 main_v76 main_v77 (mulf : (⟨S50000x128, .f32⟩ : BufTy).Contents (Elt F) → (⟨S50000x128, .f32⟩ : BufTy).Contents (Elt F) → (⟨S50000x128, .f32⟩ : BufTy).Contents (Elt F)),
    nullary main_c_15 (constantI S_ 32 0#32),
    unary main_c_15 main_v78 (broadcastInDim S600000 ![] bcast_S_S600000 : (⟨S_, .i32⟩ : BufTy).Contents (Elt F) → (⟨S600000, .i32⟩ : BufTy).Contents (Elt F)),
    binary main_arg1 main_v78 main_v79 (cmpi .slt : (⟨S600000, .i32⟩ : BufTy).Contents (Elt F) → (⟨S600000, .i32⟩ : BufTy).Contents (Elt F) → (⟨S600000, .i1⟩ : BufTy).Contents (Elt F)),
    nullary main_c_16 (constantI S_ 32 50000#32),
    unary main_c_16 main_v80 (broadcastInDim S600000 ![] bcast_S_S600000 : (⟨S_, .i32⟩ : BufTy).Contents (Elt F) → (⟨S600000, .i32⟩ : BufTy).Contents (Elt F)),
    binary main_arg1 main_v80 main_v81 (addi : (⟨S600000, .i32⟩ : BufTy).Contents (Elt F) → (⟨S600000, .i32⟩ : BufTy).Contents (Elt F) → (⟨S600000, .i32⟩ : BufTy).Contents (Elt F)),
    ternary main_v79 main_v81 main_arg1 main_v82 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v82 main_v83 (broadcastInDim S600000x1 ![0] bcast_S600000_S600000x1_0 : (⟨S600000, .i32⟩ : BufTy).Contents (Elt F) → (⟨S600000x1, .i32⟩ : BufTy).Contents (Elt F)),
    binary main_v77 main_v83 main_v84 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_17 (constant S_ .f32 0x00000000#32),
    unary main_cst_17 main_v85 (broadcastInDim S50000x128 ![] bcast_S_S50000x128 : (⟨S_, .f32⟩ : BufTy).Contents (Elt F) → (⟨S50000x128, .f32⟩ : BufTy).Contents (Elt F)),
    unary main_arg2 main_v86 (broadcastInDim S600000x1 ![0] bcast_S600000_S600000x1_0 : (⟨S600000, .i32⟩ : BufTy).Contents (Elt F) → (⟨S600000x1, .i32⟩ : BufTy).Contents (Elt F)),
    ternary main_v85 main_v86 main_v84 main_v87 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v7 main_v88 (broadcastInDim S50000x128 ![0, 1] bcast_S50000x1_S50000x128_0_1 : (⟨S50000x1, .f32⟩ : BufTy).Contents (Elt F) → (⟨S50000x128, .f32⟩ : BufTy).Contents (Elt F)),
    binary main_v87 main_v88 main_v89 (mulf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    binary main_v89 main_cst_18 main_v90 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_19 (constant S_ .f32 0x47435000#32),
    unary main_cst_19 main_v91 (broadcastInDim S128 ![] bcast_S_S128 : (⟨S_, .f32⟩ : BufTy).Contents (Elt F) → (⟨S128, .f32⟩ : BufTy).Contents (Elt F)),
    binary main_v90 main_v91 main_v92 (Host.divf : (⟨S128, .f32⟩ : BufTy).Contents (Elt F) → (⟨S128, .f32⟩ : BufTy).Contents (Elt F) → (⟨S128, .f32⟩ : BufTy).Contents (Elt F)),
    nullary main_c_20 (constantI S_ 32 0#32),
    TRef.nullary main_call4.cst (constant S_ .f32 0x00000000#32),
    TRef.binary (.of main_v89 : TRef sig ⟨S50000x128, .f32⟩) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v89 : TRef sig ⟨S50000x128, .f32⟩) main_call4.v4 main_call4.v5 subf,
    TRef.binary main_call4.v5 main_call4.v5 main_call4.v6 mulf,
    TRef.unary (.of main_c_20 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v92 main_v94 (broadcastInDim S1x128 ![1] bcast_S128_S1x128_1 : (⟨S128, .f32⟩ : BufTy).Contents (Elt F) → (⟨S1x128, .f32⟩ : BufTy).Contents (Elt F)),
    unary main_v94 main_v95 (broadcastInDim S50000x128 ![0, 1] bcast_S1x128_S50000x128_0_1 : (⟨S1x128, .f32⟩ : BufTy).Contents (Elt F) → (⟨S50000x128, .f32⟩ : BufTy).Contents (Elt F)),
    binary main_v89 main_v95 main_v96 (subf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 1000000 in
/-- The window is that straight line: the outlined functions unfolded at their calls, sequencing reassociated. -/
theorem part1_eq (c : Dev nD) : main_part1 (F := F) c = seq P1 := by
  simp only [main_part1, P1, fn_var.body, fn_where.body, fn_relu.body, seq, bind_assoc, pure_bind] <;> rfl

set_option maxRecDepth 8192 in
theorem P1_sub : (P1 (F := F)).Forall fun op => op.bufs ⊆ tcRefs τ sig :=
  ⟨ternary_bufs_sub .., unary_bufs_sub .., binary_bufs_sub .., nullary_bufs_sub .., unary_bufs_sub .., unary_bufs_sub ..,
    ternary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub ..⟩

set_option maxRecDepth 8192 in
theorem P1_fresh : (P1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

end Cert.ReferenceIdeal.RefRun

end
-- ==== Proof.RefPart2.lean ====
/-
  Window 2 of the reference's @main as a list of host operations.

  The printed window is a straight line of operations and of calls of the three outlined functions (the column
  variance, the selection inside it, the rectifier).  A call executes the callee's body on the operands, so the
  list has the callee's operations in the call's place, over the call's own buffers.  The window equals the list
  run in order; every operation touches TensorCore buffers only and determines its results.
-/
import proofs.«113157_j3616362463713_1_alg».proof.Proof.Gen.ReferenceIdeal
import Idealize.ShloMosaic.Lib.StableHlo.Run
import proofs.«113157_j3616362463713_1_alg».proof.Proof.RefRunAux

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 2's 85 operations, in order, each call replaced by the callee's operations. -/
abbrev P2 : List (HloOp τ sig (Elt F)) :=
  [ nullary main_cst_21 (constant S_ .f32 0x3727C5AC#32),
    unary main_cst_21 main_v97 (broadcastInDim S128 ![] bcast_S_S128 : (⟨S_, .f32⟩ : BufTy).Contents (Elt F) → (⟨S128, .f32⟩ : BufTy).Contents (Elt F)),
    binary main_v93 main_v97 main_v98 (addf : (⟨S128, .f32⟩ : BufTy).Contents (Elt F) → (⟨S128, .f32⟩ : BufTy).Contents (Elt F) → (⟨S128, .f32⟩ : BufTy).Contents (Elt F)),
    unary main_v98 main_v99 (Host.rsqrt : (⟨S128, .f32⟩ : BufTy).Contents (Elt F) → (⟨S128, .f32⟩ : BufTy).Contents (Elt F)),
    unary main_v99 main_v100 (broadcastInDim S1x128 ![1] bcast_S128_S1x128_1 : (⟨S128, .f32⟩ : BufTy).Contents (Elt F) → (⟨S1x128, .f32⟩ : BufTy).Contents (Elt F)),
    unary main_v100 main_v101 (broadcastInDim S50000x128 ![0, 1] bcast_S1x128_S50000x128_0_1 : (⟨S1x128, .f32⟩ : BufTy).Contents (Elt F) → (⟨S50000x128, .f32⟩ : BufTy).Contents (Elt F)),
    binary main_v96 main_v101 main_v102 (mulf : (⟨S50000x128, .f32⟩ : BufTy).Contents (Elt F) → (⟨S50000x128, .f32⟩ : BufTy).Contents (Elt F) → (⟨S50000x128, .f32⟩ : BufTy).Contents (Elt F)),
    unary main_arg3 main_v103 (broadcastInDim S1x128 ![1] bcast_S128_S1x128_1 : (⟨S128, .f32⟩ : BufTy).Contents (Elt F) → (⟨S1x128, .f32⟩ : BufTy).Contents (Elt F)),
    unary main_v103 main_v104 (broadcastInDim S50000x128 ![0, 1] bcast_S1x128_S50000x128_0_1 : (⟨S1x128, .f32⟩ : BufTy).Contents (Elt F) → (⟨S50000x128, .f32⟩ : BufTy).Contents (Elt F)),
    binary main_v102 main_v104 main_v105 (mulf : (⟨S50000x128, .f32⟩ : BufTy).Contents (Elt F) → (⟨S50000x128, .f32⟩ : BufTy).Contents (Elt F) → (⟨S50000x128, .f32⟩ : BufTy).Contents (Elt F)),
    unary main_arg4 main_v106 (broadcastInDim S1x128 ![1] bcast_S128_S1x128_1 : (⟨S128, .f32⟩ : BufTy).Contents (Elt F) → (⟨S1x128, .f32⟩ : BufTy).Contents (Elt F)),
    unary main_v106 main_v107 (broadcastInDim S50000x128 ![0, 1] bcast_S1x128_S50000x128_0_1 : (⟨S1x128, .f32⟩ : BufTy).Contents (Elt F) → (⟨S50000x128, .f32⟩ : BufTy).Contents (Elt F)),
    binary main_v105 main_v107 main_v108 (addf : (⟨S50000x128, .f32⟩ : BufTy).Contents (Elt F) → (⟨S50000x128, .f32⟩ : BufTy).Contents (Elt F) → (⟨S50000x128, .f32⟩ : BufTy).Contents (Elt F)),
    TRef.nullary main_call5.cst (constant S_ .f32 0x00000000#32),
    TRef.unary main_call5.cst main_call5.v0 (broadcastInDim S50000x128 ![] bcast_S_S50000x128),
    TRef.binary (.of main_v108 : TRef sig ⟨S50000x128, .f32⟩) main_call5.v0 main_call5.v1 maximumf,
    unary main_v7 main_v110 (broadcastInDim S50000x128 ![0, 1] bcast_S50000x1_S50000x128_0_1 : (⟨S50000x1, .f32⟩ : BufTy).Contents (Elt F) → (⟨S50000x128, .f32⟩ : BufTy).Contents (Elt F)),
    binary main_v109 main_v110 main_v111 (mulf : (⟨S50000x128, .f32⟩ : BufTy).Contents (Elt F) → (⟨S50000x128, .f32⟩ : BufTy).Contents (Elt F) → (⟨S50000x128, .f32⟩ : BufTy).Contents (Elt F)),
    nullary main_c_22 (constantI S_ 32 0#32),
    unary main_c_22 main_v112 (broadcastInDim S600000 ![] bcast_S_S600000 : (⟨S_, .i32⟩ : BufTy).Contents (Elt F) → (⟨S600000, .i32⟩ : BufTy).Contents (Elt F)),
    binary main_arg1 main_v112 main_v113 (cmpi .slt : (⟨S600000, .i32⟩ : BufTy).Contents (Elt F) → (⟨S600000, .i32⟩ : BufTy).Contents (Elt F) → (⟨S600000, .i1⟩ : BufTy).Contents (Elt F)),
    nullary main_c_23 (constantI S_ 32 50000#32),
    unary main_c_23 main_v114 (broadcastInDim S600000 ![] bcast_S_S600000 : (⟨S_, .i32⟩ : BufTy).Contents (Elt F) → (⟨S600000, .i32⟩ : BufTy).Contents (Elt F)),
    binary main_arg1 main_v114 main_v115 (addi : (⟨S600000, .i32⟩ : BufTy).Contents (Elt F) → (⟨S600000, .i32⟩ : BufTy).Contents (Elt F) → (⟨S600000, .i32⟩ : BufTy).Contents (Elt F)),
    ternary main_v113 main_v115 main_arg1 main_v116 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v116 main_v117 (broadcastInDim S600000x1 ![0] bcast_S600000_S600000x1_0 : (⟨S600000, .i32⟩ : BufTy).Contents (Elt F) → (⟨S600000x1, .i32⟩ : BufTy).Contents (Elt F)),
    binary main_v111 main_v117 main_v118 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_24 (constant S_ .f32 0x00000000#32),
    unary main_cst_24 main_v119 (broadcastInDim S50000x128 ![] bcast_S_S50000x128 : (⟨S_, .f32⟩ : BufTy).Contents (Elt F) → (⟨S50000x128, .f32⟩ : BufTy).Contents (Elt F)),
    unary main_arg2 main_v120 (broadcastInDim S600000x1 ![0] bcast_S600000_S600000x1_0 : (⟨S600000, .i32⟩ : BufTy).Contents (Elt F) → (⟨S600000x1, .i32⟩ : BufTy).Contents (Elt F)),
    ternary main_v119 main_v120 main_v118 main_v121 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v7 main_v122 (broadcastInDim S50000x128 ![0, 1] bcast_S50000x1_S50000x128_0_1 : (⟨S50000x1, .f32⟩ : BufTy).Contents (Elt F) → (⟨S50000x128, .f32⟩ : BufTy).Contents (Elt F)),
    binary main_v121 main_v122 main_v123 (mulf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    binary main_v123 main_cst_25 main_v124 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v125 (broadcastInDim S128 ![] bcast_S_S128 : (⟨S_, .f32⟩ : BufTy).Contents (Elt F) → (⟨S128, .f32⟩ : BufTy).Contents (Elt F)),
    binary main_v124 main_v125 main_v126 (Host.divf : (⟨S128, .f32⟩ : BufTy).Contents (Elt F) → (⟨S128, .f32⟩ : BufTy).Contents (Elt F) → (⟨S128, .f32⟩ : BufTy).Contents (Elt F)),
    nullary main_c_27 (constantI S_ 32 0#32),
    TRef.nullary main_call6.cst (constant S_ .f32 0x00000000#32),
    TRef.binary (.of main_v123 : TRef sig ⟨S50000x128, .f32⟩) main_call6.cst main_call6.v0 (fun x v => Host.reduceAdd x v reducesTo_S50000x128_S128_d0 h_S_),
    TRef.unary main_call6.v0 main_call6.v1 (broadcastInDim S1x128 ![1] bcast_S128_S1x128_1),
    TRef.nullary main_call6.cst_0 (constant S_ .f32 0x47435000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S50000x128 ![0, 1] bcast_S1x128_S50000x128_0_1),
    TRef.binary (.of main_v123 : TRef sig ⟨S50000x128, .f32⟩) main_call6.v4 main_call6.v5 subf,
    TRef.binary main_call6.v5 main_call6.v5 main_call6.v6 mulf,
    TRef.unary (.of main_c_27 : TRef sig ⟨S_, .i32⟩) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b),
    unary main_v126 main_v128 (broadcastInDim S1x128 ![1] bcast_S128_S1x128_1 : (⟨S128, .f32⟩ : BufTy).Contents (Elt F) → (⟨S1x128, .f32⟩ : BufTy).Contents (Elt F)),
    unary main_v128 main_v129 (broadcastInDim S50000x128 ![0, 1] bcast_S1x128_S50000x128_0_1 : (⟨S1x128, .f32⟩ : BufTy).Contents (Elt F) → (⟨S50000x128, .f32⟩ : BufTy).Contents (Elt F)),
    binary main_v123 main_v129 main_v130 (subf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x3727C5AC#32),
    unary main_cst_28 main_v131 (broadcastInDim S128 ![] bcast_S_S128 : (⟨S_, .f32⟩ : BufTy).Contents (Elt F) → (⟨S128, .f32⟩ : BufTy).Contents (Elt F)),
    binary main_v127 main_v131 main_v132 (addf : (⟨S128, .f32⟩ : BufTy).Contents (Elt F) → (⟨S128, .f32⟩ : BufTy).Contents (Elt F) → (⟨S128, .f32⟩ : BufTy).Contents (Elt F)),
    unary main_v132 main_v133 (Host.rsqrt : (⟨S128, .f32⟩ : BufTy).Contents (Elt F) → (⟨S128, .f32⟩ : BufTy).Contents (Elt F)),
    unary main_v133 main_v134 (broadcastInDim S1x128 ![1] bcast_S128_S1x128_1 : (⟨S128, .f32⟩ : BufTy).Contents (Elt F) → (⟨S1x128, .f32⟩ : BufTy).Contents (Elt F)),
    unary main_v134 main_v135 (broadcastInDim S50000x128 ![0, 1] bcast_S1x128_S50000x128_0_1 : (⟨S1x128, .f32⟩ : BufTy).Contents (Elt F) → (⟨S50000x128, .f32⟩ : BufTy).Contents (Elt F)),
    binary main_v130 main_v135 main_v136 (mulf : (⟨S50000x128, .f32⟩ : BufTy).Contents (Elt F) → (⟨S50000x128, .f32⟩ : BufTy).Contents (Elt F) → (⟨S50000x128, .f32⟩ : BufTy).Contents (Elt F)),
    unary main_arg3 main_v137 (broadcastInDim S1x128 ![1] bcast_S128_S1x128_1 : (⟨S128, .f32⟩ : BufTy).Contents (Elt F) → (⟨S1x128, .f32⟩ : BufTy).Contents (Elt F)),
    unary main_v137 main_v138 (broadcastInDim S50000x128 ![0, 1] bcast_S1x128_S50000x128_0_1 : (⟨S1x128, .f32⟩ : BufTy).Contents (Elt F) → (⟨S50000x128, .f32⟩ : BufTy).Contents (Elt F)),
    binary main_v136 main_v138 main_v139 (mulf : (⟨S50000x128, .f32⟩ : BufTy).Contents (Elt F) → (⟨S50000x128, .f32⟩ : BufTy).Contents (Elt F) → (⟨S50000x128, .f32⟩ : BufTy).Contents (Elt F)),
    unary main_arg4 main_v140 (broadcastInDim S1x128 ![1] bcast_S128_S1x128_1 : (⟨S128, .f32⟩ : BufTy).Contents (Elt F) → (⟨S1x128, .f32⟩ : BufTy).Contents (Elt F)),
    unary main_v140 main_v141 (broadcastInDim S50000x128 ![0, 1] bcast_S1x128_S50000x128_0_1 : (⟨S1x128, .f32⟩ : BufTy).Contents (Elt F) → (⟨S50000x128, .f32⟩ : BufTy).Contents (Elt F)),
    binary main_v139 main_v141 main_v142 (addf : (⟨S50000x128, .f32⟩ : BufTy).Contents (Elt F) → (⟨S50000x128, .f32⟩ : BufTy).Contents (Elt F) → (⟨S50000x128, .f32⟩ : BufTy).Contents (Elt F)),
    TRef.nullary main_call7.cst (constant S_ .f32 0x00000000#32),
    TRef.unary main_call7.cst main_call7.v0 (broadcastInDim S50000x128 ![] bcast_S_S50000x128),
    TRef.binary (.of main_v142 : TRef sig ⟨S50000x128, .f32⟩) main_call7.v0 main_call7.v1 maximumf,
    binary main_v143 main_arg5 main_v144 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v145 (broadcastInDim S1x128 ![1] bcast_S128_S1x128_1 : (⟨S128, .f32⟩ : BufTy).Contents (Elt F) → (⟨S1x128, .f32⟩ : BufTy).Contents (Elt F)),
    unary main_v145 main_v146 (broadcastInDim S50000x128 ![0, 1] bcast_S1x128_S50000x128_0_1 : (⟨S1x128, .f32⟩ : BufTy).Contents (Elt F) → (⟨S50000x128, .f32⟩ : BufTy).Contents (Elt F)),
    binary main_v144 main_v146 main_v147 (addf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x00000000#32) ]

set_option maxRecDepth 8192 in
set_option maxHeartbeats 1000000 in
/-- The window is that straight line: the outlined functions unfolded at their calls, sequencing reassociated. -/
theorem part2_eq (c : Dev nD) : main_part2 (F := F) c = seq P2 := by
  simp only [main_part2, P2, fn_var.body, fn_where.body, fn_relu.body, seq, bind_assoc, pure_bind] <;> rfl

set_option maxRecDepth 8192 in
theorem P2_sub : (P2 (F := F)).Forall fun op => op.bufs ⊆ tcRefs τ sig :=
  ⟨nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub ..⟩

set_option maxRecDepth 8192 in
theorem P2_fresh : (P2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefPart3.lean ====
/-
  Window 3 of the reference's @main as a list of host operations.

  The printed window is a straight line of operations and of calls of the three outlined functions (the column
  variance, the selection inside it, the rectifier).  A call executes the callee's body on the operands, so the
  list has the callee's operations in the call's place, over the call's own buffers.  The window equals the list
  run in order; every operation touches TensorCore buffers only and determines its results.
-/
import proofs.«113157_j3616362463713_1_alg».proof.Proof.Gen.ReferenceIdeal
import Idealize.ShloMosaic.Lib.StableHlo.Run
import proofs.«113157_j3616362463713_1_alg».proof.Proof.RefRunAux

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 3's 47 operations, in order, each call replaced by the callee's operations. -/
abbrev P3 : List (HloOp τ sig (Elt F)) :=
  [ binary main_v147 main_cst_29 main_v148 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_30 (constant S_ .f32 0x47435000#32),
    unary main_cst_30 main_v149 (broadcastInDim S128 ![] bcast_S_S128 : (⟨S_, .f32⟩ : BufTy).Contents (Elt F) → (⟨S128, .f32⟩ : BufTy).Contents (Elt F)),
    binary main_v148 main_v149 main_v150 (Host.divf : (⟨S128, .f32⟩ : BufTy).Contents (Elt F) → (⟨S128, .f32⟩ : BufTy).Contents (Elt F) → (⟨S128, .f32⟩ : BufTy).Contents (Elt F)),
    nullary main_c_31 (constantI S_ 32 0#32),
    TRef.nullary main_call8.cst (constant S_ .f32 0x00000000#32),
    TRef.binary (.of main_v147 : TRef sig ⟨S50000x128, .f32⟩) main_call8.cst main_call8.v0 (fun x v => Host.reduceAdd x v reducesTo_S50000x128_S128_d0 h_S_),
    TRef.unary main_call8.v0 main_call8.v1 (broadcastInDim S1x128 ![1] bcast_S128_S1x128_1),
    TRef.nullary main_call8.cst_0 (constant S_ .f32 0x47435000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S50000x128 ![0, 1] bcast_S1x128_S50000x128_0_1),
    TRef.binary (.of main_v147 : TRef sig ⟨S50000x128, .f32⟩) main_call8.v4 main_call8.v5 subf,
    TRef.binary main_call8.v5 main_call8.v5 main_call8.v6 mulf,
    TRef.unary (.of main_c_31 : TRef sig ⟨S_, .i32⟩) main_call8.v7 (sitofp .f32),
    TRef.nullary main_call8.cst_1 (constant S_ .f32 0x47435000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S50000x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b),
    unary main_v150 main_v152 (broadcastInDim S1x128 ![1] bcast_S128_S1x128_1 : (⟨S128, .f32⟩ : BufTy).Contents (Elt F) → (⟨S1x128, .f32⟩ : BufTy).Contents (Elt F)),
    unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v147 main_v153 main_v154 (subf : (⟨S50000x128, .f32⟩ : BufTy).Contents (Elt F) → (⟨S50000x128, .f32⟩ : BufTy).Contents (Elt F) → (⟨S50000x128, .f32⟩ : BufTy).Contents (Elt F)),
    nullary main_cst_32 (constant S_ .f32 0x3727C5AC#32),
    unary main_cst_32 main_v155 (broadcastInDim S128 ![] bcast_S_S128 : (⟨S_, .f32⟩ : BufTy).Contents (Elt F) → (⟨S128, .f32⟩ : BufTy).Contents (Elt F)),
    binary main_v151 main_v155 main_v156 (addf : (⟨S128, .f32⟩ : BufTy).Contents (Elt F) → (⟨S128, .f32⟩ : BufTy).Contents (Elt F) → (⟨S128, .f32⟩ : BufTy).Contents (Elt F)),
    unary main_v156 main_v157 (Host.rsqrt : (⟨S128, .f32⟩ : BufTy).Contents (Elt F) → (⟨S128, .f32⟩ : BufTy).Contents (Elt F)),
    unary main_v157 main_v158 (broadcastInDim S1x128 ![1] bcast_S128_S1x128_1 : (⟨S128, .f32⟩ : BufTy).Contents (Elt F) → (⟨S1x128, .f32⟩ : BufTy).Contents (Elt F)),
    unary main_v158 main_v159 (broadcastInDim S50000x128 ![0, 1] bcast_S1x128_S50000x128_0_1 : (⟨S1x128, .f32⟩ : BufTy).Contents (Elt F) → (⟨S50000x128, .f32⟩ : BufTy).Contents (Elt F)),
    binary main_v154 main_v159 main_v160 (mulf : (⟨S50000x128, .f32⟩ : BufTy).Contents (Elt F) → (⟨S50000x128, .f32⟩ : BufTy).Contents (Elt F) → (⟨S50000x128, .f32⟩ : BufTy).Contents (Elt F)),
    unary main_arg7 main_v161 (broadcastInDim S1x128 ![1] bcast_S128_S1x128_1 : (⟨S128, .f32⟩ : BufTy).Contents (Elt F) → (⟨S1x128, .f32⟩ : BufTy).Contents (Elt F)),
    unary main_v161 main_v162 (broadcastInDim S50000x128 ![0, 1] bcast_S1x128_S50000x128_0_1 : (⟨S1x128, .f32⟩ : BufTy).Contents (Elt F) → (⟨S50000x128, .f32⟩ : BufTy).Contents (Elt F)),
    binary main_v160 main_v162 main_v163 (mulf : (⟨S50000x128, .f32⟩ : BufTy).Contents (Elt F) → (⟨S50000x128, .f32⟩ : BufTy).Contents (Elt F) → (⟨S50000x128, .f32⟩ : BufTy).Contents (Elt F)),
    unary main_arg8 main_v164 (broadcastInDim S1x128 ![1] bcast_S128_S1x128_1 : (⟨S128, .f32⟩ : BufTy).Contents (Elt F) → (⟨S1x128, .f32⟩ : BufTy).Contents (Elt F)),
    unary main_v164 main_v165 (broadcastInDim S50000x128 ![0, 1] bcast_S1x128_S50000x128_0_1 : (⟨S1x128, .f32⟩ : BufTy).Contents (Elt F) → (⟨S50000x128, .f32⟩ : BufTy).Contents (Elt F)),
    binary main_v163 main_v165 main_v166 (addf : (⟨S50000x128, .f32⟩ : BufTy).Contents (Elt F) → (⟨S50000x128, .f32⟩ : BufTy).Contents (Elt F) → (⟨S50000x128, .f32⟩ : BufTy).Contents (Elt F)),
    binary main_v166 main_arg9 main_v167 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg10 main_v168 (broadcastInDim S1x40 ![1] bcast_S40_S1x40_1 : (⟨S40, .f32⟩ : BufTy).Contents (Elt F) → (⟨S1x40, .f32⟩ : BufTy).Contents (Elt F)),
    unary main_v168 main_v169 (broadcastInDim S50000x40 ![0, 1] bcast_S1x40_S50000x40_0_1 : (⟨S1x40, .f32⟩ : BufTy).Contents (Elt F) → (⟨S50000x40, .f32⟩ : BufTy).Contents (Elt F)),
    binary main_v167 main_v169 main_v170 (addf : (⟨S50000x40, .f32⟩ : BufTy).Contents (Elt F) → (⟨S50000x40, .f32⟩ : BufTy).Contents (Elt F) → (⟨S50000x40, .f32⟩ : BufTy).Contents (Elt F)) ]

set_option maxRecDepth 8192 in
set_option maxHeartbeats 1000000 in
/-- The window is that straight line: the outlined functions unfolded at their calls, sequencing reassociated. -/
theorem part3_eq (c : Dev nD) : main_part3 (F := F) c = seq P3 := by
  simp only [main_part3, P3, fn_var.body, fn_where.body, fn_relu.body, seq, bind_assoc, pure_bind] <;> rfl

set_option maxRecDepth 8192 in
theorem P3_sub : (P3 (F := F)).Forall fun op => op.bufs ⊆ tcRefs τ sig :=
  ⟨binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., binary_bufs_sub ..⟩

set_option maxRecDepth 8192 in
theorem P3_fresh : (P3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩

end Cert.ReferenceIdeal.RefRun

end
-- ==== Proof.RefChunkC0.lean ====
/-
  The first stretch of the reference's host operations — the degree weights — as a list, and what it leaves
  in its last buffer: `nrmR` of the dst array.
-/
import proofs.«113157_j3616362463713_1_alg».proof.Proof.RefOut
import proofs.«113157_j3616362463713_1_alg».proof.Proof.RefRunAux
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations that compute the degree weights: ones added up at dst, the maximum with one, the power −1/2, as a column. -/
abbrev C0 : List (HloOp τ sig (Elt F)) :=
  [ nullary main_cst (constant S_ .f32 0x3F800000#32),
    unary main_cst main_v0 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S600000x1 ![0] bcast_S600000_S600000x1_0 : (⟨S600000, .i32⟩ : BufTy).Contents (Elt F) → (⟨S600000x1, .i32⟩ : BufTy).Contents (Elt F)),
    ternary main_v1 main_v2 main_v0 main_v3 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x3F800000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (maximumf : (⟨S50000, .f32⟩ : BufTy).Contents (Elt F) → (⟨S50000, .f32⟩ : BufTy).Contents (Elt F) → (⟨S50000, .f32⟩ : BufTy).Contents (Elt F)),
    unary main_v5 main_v6 (Host.rsqrt : (⟨S50000, .f32⟩ : BufTy).Contents (Elt F) → (⟨S50000, .f32⟩ : BufTy).Contents (Elt F)),
    unary main_v6 main_v7 (broadcastInDim S50000x1 ![0] bcast_S50000_S50000x1_0 : (⟨S50000, .f32⟩ : BufTy).Contents (Elt F) → (⟨S50000x1, .f32⟩ : BufTy).Contents (Elt F)) ]

/-- The buffers the operations of `C0` write, in order. -/
abbrev C0_W : List (Ref sig .tc) :=
  [main_cst, main_v0, main_cst_0, main_v1, main_v2, main_v3, main_cst_1, main_v4, main_v5, main_v6, main_v7]

theorem C0_hW : (C0 (F := F)).Forall fun op => op.writes ⊆ ((C0_W).map (Proc.devRef (τ := τ) .tc)).toFinset :=
  ⟨writes_sub_of_mem main_cst rfl (by decide),
   writes_sub_of_mem main_v0 rfl (by decide),
   writes_sub_of_mem main_cst_0 rfl (by decide),
   writes_sub_of_mem main_v1 rfl (by decide),
   writes_sub_of_mem main_v2 rfl (by decide),
   writes_sub_of_mem main_v3 rfl (by decide),
   writes_sub_of_mem main_cst_1 rfl (by decide),
   writes_sub_of_mem main_v4 rfl (by decide),
   writes_sub_of_mem main_v5 rfl (by decide),
   writes_sub_of_mem main_v6 rfl (by decide),
   writes_sub_of_mem main_v7 rfl (by decide)⟩

/-- A buffer that `C0` does not write holds after it what it held before. -/
theorem C0_frame (V : Valuation τ sig (Elt Ideal)) {r : Ref sig .tc} (hr : r ∉ C0_W) :
    after (C0 (F := Ideal)) V (no_index (Proc.devRef .tc r)) = V (Proc.devRef .tc r) :=
  after_of_writes_sub (C0 (F := Ideal)) V C0_hW hr

attribute [local irreducible] Host.reduceAdd Host.gather Host.scatterAdd in
set_option maxRecDepth 8192 in
set_option maxHeartbeats 400000 in
/-- After `C0` its last buffer holds the stage's function of the buffers the stage reads: each operation's
    result is read at its own buffer, every other buffer is passed over. -/
theorem C0_res0 (V : Valuation τ sig (Elt Ideal)) :
    after (C0 (F := Ideal)) V (Proc.devRef .tc main_v7) = RefOut.nrmR (V (Proc.devRef .tc main_arg2)) := by
  after_results_simp <;> rfl

theorem C0_res (V : Valuation τ sig (Elt Ideal)) :
    after (C0 (F := Ideal)) V (no_index (Proc.devRef .tc main_v7)) = RefOut.nrmR (V (Proc.devRef .tc main_arg2)) := C0_res0 V

end Cert.ReferenceIdeal.RefRun

end
-- ==== Proof.RefChunkA1.lean ====
/-
  Layer 1's neighbour sum and rectifier as lists of host operations, and what each leaves in its last buffer:
  `xR` of the edge arrays, the degree weights and the layer's input; `reluR` of the normalised array.
-/
import proofs.«113157_j3616362463713_1_alg».proof.Proof.RefOut
import proofs.«113157_j3616362463713_1_alg».proof.Proof.RefRunAux
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1's neighbour sum: the features scaled by the degree weights, gathered at src, added up at dst, scaled again. -/
abbrev A1 : List (HloOp τ sig (Elt F)) :=
  [ unary main_v7 main_v8 (broadcastInDim S50000x128 ![0, 1] bcast_S50000x1_S50000x128_0_1 : (⟨S50000x1, .f32⟩ : BufTy).Contents (Elt F) → (⟨S50000x128, .f32⟩ : BufTy).Contents (Elt F)),
    binary main_arg0 main_v8 main_v9 (mulf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v10 (broadcastInDim S600000 ![] bcast_S_S600000 : (⟨S_, .i32⟩ : BufTy).Contents (Elt F) → (⟨S600000, .i32⟩ : BufTy).Contents (Elt F)),
    binary main_arg1 main_v10 main_v11 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v12 (broadcastInDim S600000 ![] bcast_S_S600000 : (⟨S_, .i32⟩ : BufTy).Contents (Elt F) → (⟨S600000, .i32⟩ : BufTy).Contents (Elt F)),
    binary main_arg1 main_v12 main_v13 (addi : (⟨S600000, .i32⟩ : BufTy).Contents (Elt F) → (⟨S600000, .i32⟩ : BufTy).Contents (Elt F) → (⟨S600000, .i32⟩ : BufTy).Contents (Elt F)),
    ternary main_v11 main_v13 main_arg1 main_v14 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v14 main_v15 (broadcastInDim S600000x1 ![0] bcast_S600000_S600000x1_0 : (⟨S600000, .i32⟩ : BufTy).Contents (Elt F) → (⟨S600000x1, .i32⟩ : BufTy).Contents (Elt F)),
    binary main_v9 main_v15 main_v16 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_3 (constant S_ .f32 0x00000000#32),
    unary main_cst_3 main_v17 (broadcastInDim S50000x128 ![] bcast_S_S50000x128 : (⟨S_, .f32⟩ : BufTy).Contents (Elt F) → (⟨S50000x128, .f32⟩ : BufTy).Contents (Elt F)),
    unary main_arg2 main_v18 (broadcastInDim S600000x1 ![0] bcast_S600000_S600000x1_0 : (⟨S600000, .i32⟩ : BufTy).Contents (Elt F) → (⟨S600000x1, .i32⟩ : BufTy).Contents (Elt F)),
    ternary main_v17 main_v18 main_v16 main_v19 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v7 main_v20 (broadcastInDim S50000x128 ![0, 1] bcast_S50000x1_S50000x128_0_1 : (⟨S50000x1, .f32⟩ : BufTy).Contents (Elt F) → (⟨S50000x128, .f32⟩ : BufTy).Contents (Elt F)),
    binary main_v19 main_v20 main_v21 (mulf : (⟨S50000x128, .f32⟩ : BufTy).Contents (Elt F) → (⟨S50000x128, .f32⟩ : BufTy).Contents (Elt F) → (⟨S50000x128, .f32⟩ : BufTy).Contents (Elt F)) ]

/-- The buffers the operations of `A1` write, in order. -/
abbrev A1_W : List (Ref sig .tc) :=
  [main_v8, main_v9, main_c, main_v10, main_v11, main_c_2, main_v12, main_v13, main_v14, main_v15, main_v16, main_cst_3, main_v17, main_v18, main_v19, main_v20, main_v21]

theorem A1_hW : (A1 (F := F)).Forall fun op => op.writes ⊆ ((A1_W).map (Proc.devRef (τ := τ) .tc)).toFinset :=
  ⟨writes_sub_of_mem main_v8 rfl (by decide),
   writes_sub_of_mem main_v9 rfl (by decide),
   writes_sub_of_mem main_c rfl (by decide),
   writes_sub_of_mem main_v10 rfl (by decide),
   writes_sub_of_mem main_v11 rfl (by decide),
   writes_sub_of_mem main_c_2 rfl (by decide),
   writes_sub_of_mem main_v12 rfl (by decide),
   writes_sub_of_mem main_v13 rfl (by decide),
   writes_sub_of_mem main_v14 rfl (by decide),
   writes_sub_of_mem main_v15 rfl (by decide),
   writes_sub_of_mem main_v16 rfl (by decide),
   writes_sub_of_mem main_cst_3 rfl (by decide),
   writes_sub_of_mem main_v17 rfl (by decide),
   writes_sub_of_mem main_v18 rfl (by decide),
   writes_sub_of_mem main_v19 rfl (by decide),
   writes_sub_of_mem main_v20 rfl (by decide),
   writes_sub_of_mem main_v21 rfl (by decide)⟩

/-- A buffer that `A1` does not write holds after it what it held before. -/
theorem A1_frame (V : Valuation τ sig (Elt Ideal)) {r : Ref sig .tc} (hr : r ∉ A1_W) :
    after (A1 (F := Ideal)) V (no_index (Proc.devRef .tc r)) = V (Proc.devRef .tc r) :=
  after_of_writes_sub (A1 (F := Ideal)) V A1_hW hr

attribute [local irreducible] Host.reduceAdd Host.gather Host.scatterAdd in
set_option maxRecDepth 8192 in
set_option maxHeartbeats 400000 in
/-- After `A1` its last buffer holds the stage's function of the buffers the stage reads: each operation's
    result is read at its own buffer, every other buffer is passed over. -/
theorem A1_res0 (V : Valuation τ sig (Elt Ideal)) :
    after (A1 (F := Ideal)) V (Proc.devRef .tc main_v21) = RefOut.xR (V (Proc.devRef .tc main_arg1)) (V (Proc.devRef .tc main_arg2)) (V (Proc.devRef .tc main_v7)) (V (Proc.devRef .tc main_arg0)) := by
  after_results_simp <;> rfl

theorem A1_res (V : Valuation τ sig (Elt Ideal)) :
    after (A1 (F := Ideal)) V (no_index (Proc.devRef .tc main_v21)) = RefOut.xR (V (Proc.devRef .tc main_arg1)) (V (Proc.devRef .tc main_arg2)) (V (Proc.devRef .tc main_v7)) (V (Proc.devRef .tc main_arg0)) := A1_res0 V

/-- Layer 1's rectifier: the maximum with zero. -/
abbrev R1 : List (HloOp τ sig (Elt F)) :=
  [ TRef.nullary main_call1.cst (constant S_ .f32 0x00000000#32),
    TRef.unary main_call1.cst main_call1.v0 (broadcastInDim S50000x128 ![] bcast_S_S50000x128),
    TRef.binary (.of main_v40 : TRef sig ⟨S50000x128, .f32⟩) main_call1.v0 main_call1.v1 maximumf ]

/-- The buffers the operations of `R1` write, in order. -/
abbrev R1_W : List (Ref sig .tc) :=
  [main_call1_cst, main_call1_v0, main_v41]

theorem R1_hW : (R1 (F := F)).Forall fun op => op.writes ⊆ ((R1_W).map (Proc.devRef (τ := τ) .tc)).toFinset :=
  ⟨writes_sub_of_mem main_call1_cst rfl (by decide),
   writes_sub_of_mem main_call1_v0 rfl (by decide),
   writes_sub_of_mem main_v41 rfl (by decide)⟩

/-- A buffer that `R1` does not write holds after it what it held before. -/
theorem R1_frame (V : Valuation τ sig (Elt Ideal)) {r : Ref sig .tc} (hr : r ∉ R1_W) :
    after (R1 (F := Ideal)) V (no_index (Proc.devRef .tc r)) = V (Proc.devRef .tc r) :=
  after_of_writes_sub (R1 (F := Ideal)) V R1_hW hr

attribute [local irreducible] Host.reduceAdd Host.gather Host.scatterAdd in
set_option maxRecDepth 8192 in
set_option maxHeartbeats 400000 in
/-- After `R1` its last buffer holds the stage's function of the buffers the stage reads: each operation's
    result is read at its own buffer, every other buffer is passed over. -/
theorem R1_res0 (V : Valuation τ sig (Elt Ideal)) :
    after (R1 (F := Ideal)) V (Proc.devRef .tc main_v41) = RefOut.reluR (V (Proc.devRef .tc main_v40)) := by
  after_results_simp <;> rfl

theorem R1_res (V : Valuation τ sig (Elt Ideal)) :
    after (R1 (F := Ideal)) V (no_index (Proc.devRef .tc main_v41)) = RefOut.reluR (V (Proc.devRef .tc main_v40)) := R1_res0 V

end Cert.ReferenceIdeal.RefRun

end
-- ==== Proof.RefChunkBN1.lean ====
/-
  Layer 1's column normalisation as a list of host operations — the means, the outlined variance, the affine
  map — and what it leaves in its last buffer: `bnR` of the scale, the shift and the layer's aggregated array.
-/
import proofs.«113157_j3616362463713_1_alg».proof.Proof.RefOut
import proofs.«113157_j3616362463713_1_alg».proof.Proof.RefRunAux
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1's column normalisation: the column means, the column variances (the outlined variance with its guarded division), then (x − mean)·(var + ε)^(−1/2)·γ + β. -/
abbrev BN1 : List (HloOp τ sig (Elt F)) :=
  [ nullary main_cst_4 (constant S_ .f32 0x00000000#32),
    binary main_v21 main_cst_4 main_v22 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_5 (constant S_ .f32 0x47435000#32),
    unary main_cst_5 main_v23 (broadcastInDim S128 ![] bcast_S_S128 : (⟨S_, .f32⟩ : BufTy).Contents (Elt F) → (⟨S128, .f32⟩ : BufTy).Contents (Elt F)),
    binary main_v22 main_v23 main_v24 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call0.cst (constant S_ .f32 0x00000000#32),
    TRef.binary (.of main_v21 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v21 : TRef sig ⟨S50000x128, .f32⟩) main_call0.v4 main_call0.v5 subf,
    TRef.binary main_call0.v5 main_call0.v5 main_call0.v6 mulf,
    TRef.unary (.of main_c_6 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v24 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v21 main_v27 main_v28 (subf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v29 (broadcastInDim S128 ![] bcast_S_S128 : (⟨S_, .f32⟩ : BufTy).Contents (Elt F) → (⟨S128, .f32⟩ : BufTy).Contents (Elt F)),
    binary main_v25 main_v29 main_v30 (addf : (⟨S128, .f32⟩ : BufTy).Contents (Elt F) → (⟨S128, .f32⟩ : BufTy).Contents (Elt F) → (⟨S128, .f32⟩ : BufTy).Contents (Elt F)),
    unary main_v30 main_v31 (Host.rsqrt : (⟨S128, .f32⟩ : BufTy).Contents (Elt F) → (⟨S128, .f32⟩ : BufTy).Contents (Elt F)),
    unary main_v31 main_v32 (broadcastInDim S1x128 ![1] bcast_S128_S1x128_1 : (⟨S128, .f32⟩ : BufTy).Contents (Elt F) → (⟨S1x128, .f32⟩ : BufTy).Contents (Elt F)),
    unary main_v32 main_v33 (broadcastInDim S50000x128 ![0, 1] bcast_S1x128_S50000x128_0_1 : (⟨S1x128, .f32⟩ : BufTy).Contents (Elt F) → (⟨S50000x128, .f32⟩ : BufTy).Contents (Elt F)),
    binary main_v28 main_v33 main_v34 (mulf : (⟨S50000x128, .f32⟩ : BufTy).Contents (Elt F) → (⟨S50000x128, .f32⟩ : BufTy).Contents (Elt F) → (⟨S50000x128, .f32⟩ : BufTy).Contents (Elt F)),
    unary main_arg3 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v34 main_v36 main_v37 (mulf : (⟨S50000x128, .f32⟩ : BufTy).Contents (Elt F) → (⟨S50000x128, .f32⟩ : BufTy).Contents (Elt F) → (⟨S50000x128, .f32⟩ : BufTy).Contents (Elt F)),
    unary main_arg4 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v37 main_v39 main_v40 (addf : (⟨S50000x128, .f32⟩ : BufTy).Contents (Elt F) → (⟨S50000x128, .f32⟩ : BufTy).Contents (Elt F) → (⟨S50000x128, .f32⟩ : BufTy).Contents (Elt F)) ]

/-- The buffers the operations of `BN1` write, in order. -/
abbrev BN1_W : List (Ref sig .tc) :=
  [main_cst_4, main_v22, main_cst_5, main_v23, main_v24, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v25, main_v26, main_v27, main_v28, main_cst_7, main_v29, main_v30, main_v31, main_v32, main_v33, main_v34, main_v35, main_v36, main_v37, main_v38, main_v39, main_v40]

theorem BN1_hW : (BN1 (F := F)).Forall fun op => op.writes ⊆ ((BN1_W).map (Proc.devRef (τ := τ) .tc)).toFinset :=
  ⟨writes_sub_of_mem main_cst_4 rfl (by decide),
   writes_sub_of_mem main_v22 rfl (by decide),
   writes_sub_of_mem main_cst_5 rfl (by decide),
   writes_sub_of_mem main_v23 rfl (by decide),
   writes_sub_of_mem main_v24 rfl (by decide),
   writes_sub_of_mem main_c_6 rfl (by decide),
   writes_sub_of_mem main_call0_cst rfl (by decide),
   writes_sub_of_mem main_call0_v0 rfl (by decide),
   writes_sub_of_mem main_call0_v1 rfl (by decide),
   writes_sub_of_mem main_call0_cst_0 rfl (by decide),
   writes_sub_of_mem main_call0_v2 rfl (by decide),
   writes_sub_of_mem main_call0_v3 rfl (by decide),
   writes_sub_of_mem main_call0_v4 rfl (by decide),
   writes_sub_of_mem main_call0_v5 rfl (by decide),
   writes_sub_of_mem main_call0_v6 rfl (by decide),
   writes_sub_of_mem main_call0_v7 rfl (by decide),
   writes_sub_of_mem main_call0_cst_1 rfl (by decide),
   writes_sub_of_mem main_call0_v8 rfl (by decide),
   writes_sub_of_mem main_call0_cst_2 rfl (by decide),
   writes_sub_of_mem main_call0_v9 rfl (by decide),
   writes_sub_of_mem main_call0_v10 rfl (by decide),
   writes_sub_of_mem main_call0_v11 rfl (by decide),
   writes_sub_of_mem main_call0_cst_3 rfl (by decide),
   writes_sub_of_mem main_call0_v12 rfl (by decide),
   writes_sub_of_mem main_call0_cst_4 rfl (by decide),
   writes_sub_of_mem main_call0_call0_v0 rfl (by decide),
   writes_sub_of_mem main_call0_call0_v1 rfl (by decide),
   writes_sub_of_mem main_v25 rfl (by decide),
   writes_sub_of_mem main_v26 rfl (by decide),
   writes_sub_of_mem main_v27 rfl (by decide),
   writes_sub_of_mem main_v28 rfl (by decide),
   writes_sub_of_mem main_cst_7 rfl (by decide),
   writes_sub_of_mem main_v29 rfl (by decide),
   writes_sub_of_mem main_v30 rfl (by decide),
   writes_sub_of_mem main_v31 rfl (by decide),
   writes_sub_of_mem main_v32 rfl (by decide),
   writes_sub_of_mem main_v33 rfl (by decide),
   writes_sub_of_mem main_v34 rfl (by decide),
   writes_sub_of_mem main_v35 rfl (by decide),
   writes_sub_of_mem main_v36 rfl (by decide),
   writes_sub_of_mem main_v37 rfl (by decide),
   writes_sub_of_mem main_v38 rfl (by decide),
   writes_sub_of_mem main_v39 rfl (by decide),
   writes_sub_of_mem main_v40 rfl (by decide)⟩

/-- A buffer that `BN1` does not write holds after it what it held before. -/
theorem BN1_frame (V : Valuation τ sig (Elt Ideal)) {r : Ref sig .tc} (hr : r ∉ BN1_W) :
    after (BN1 (F := Ideal)) V (no_index (Proc.devRef .tc r)) = V (Proc.devRef .tc r) :=
  after_of_writes_sub (BN1 (F := Ideal)) V BN1_hW hr

attribute [local irreducible] Host.reduceAdd Host.gather Host.scatterAdd in
set_option maxRecDepth 8192 in
set_option maxHeartbeats 400000 in
/-- After `BN1` its last buffer holds the stage's function of the buffers the stage reads: each operation's
    result is read at its own buffer, every other buffer is passed over. -/
theorem BN1_res0 (V : Valuation τ sig (Elt Ideal)) :
    after (BN1 (F := Ideal)) V (Proc.devRef .tc main_v40) = RefOut.bnR (V (Proc.devRef .tc main_arg3)) (V (Proc.devRef .tc main_arg4)) (V (Proc.devRef .tc main_v21)) := by
  after_results_simp <;> rfl

theorem BN1_res (V : Valuation τ sig (Elt Ideal)) :
    after (BN1 (F := Ideal)) V (no_index (Proc.devRef .tc main_v40)) = RefOut.bnR (V (Proc.devRef .tc main_arg3)) (V (Proc.devRef .tc main_arg4)) (V (Proc.devRef .tc main_v21)) := BN1_res0 V

end Cert.ReferenceIdeal.RefRun

end
-- ==== Proof.RefChunkA2.lean ====
/-
  Layer 2's neighbour sum and rectifier as lists of host operations, and what each leaves in its last buffer:
  `xR` of the edge arrays, the degree weights and the layer's input; `reluR` of the normalised array.
-/
import proofs.«113157_j3616362463713_1_alg».proof.Proof.RefOut
import proofs.«113157_j3616362463713_1_alg».proof.Proof.RefRunAux
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 2's neighbour sum: the features scaled by the degree weights, gathered at src, added up at dst, scaled again. -/
abbrev A2 : List (HloOp τ sig (Elt F)) :=
  [ unary main_v7 main_v42 (broadcastInDim S50000x128 ![0, 1] bcast_S50000x1_S50000x128_0_1 : (⟨S50000x1, .f32⟩ : BufTy).Contents (Elt F) → (⟨S50000x128, .f32⟩ : BufTy).Contents (Elt F)),
    binary main_v41 main_v42 main_v43 (mulf : (⟨S50000x128, .f32⟩ : BufTy).Contents (Elt F) → (⟨S50000x128, .f32⟩ : BufTy).Contents (Elt F) → (⟨S50000x128, .f32⟩ : BufTy).Contents (Elt F)),
    nullary main_c_8 (constantI S_ 32 0#32),
    unary main_c_8 main_v44 (broadcastInDim S600000 ![] bcast_S_S600000 : (⟨S_, .i32⟩ : BufTy).Contents (Elt F) → (⟨S600000, .i32⟩ : BufTy).Contents (Elt F)),
    binary main_arg1 main_v44 main_v45 (cmpi .slt : (⟨S600000, .i32⟩ : BufTy).Contents (Elt F) → (⟨S600000, .i32⟩ : BufTy).Contents (Elt F) → (⟨S600000, .i1⟩ : BufTy).Contents (Elt F)),
    nullary main_c_9 (constantI S_ 32 50000#32),
    unary main_c_9 main_v46 (broadcastInDim S600000 ![] bcast_S_S600000 : (⟨S_, .i32⟩ : BufTy).Contents (Elt F) → (⟨S600000, .i32⟩ : BufTy).Contents (Elt F)),
    binary main_arg1 main_v46 main_v47 (addi : (⟨S600000, .i32⟩ : BufTy).Contents (Elt F) → (⟨S600000, .i32⟩ : BufTy).Contents (Elt F) → (⟨S600000, .i32⟩ : BufTy).Contents (Elt F)),
    ternary main_v45 main_v47 main_arg1 main_v48 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v48 main_v49 (broadcastInDim S600000x1 ![0] bcast_S600000_S600000x1_0 : (⟨S600000, .i32⟩ : BufTy).Contents (Elt F) → (⟨S600000x1, .i32⟩ : BufTy).Contents (Elt F)),
    binary main_v43 main_v49 main_v50 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_10 (constant S_ .f32 0x00000000#32),
    unary main_cst_10 main_v51 (broadcastInDim S50000x128 ![] bcast_S_S50000x128 : (⟨S_, .f32⟩ : BufTy).Contents (Elt F) → (⟨S50000x128, .f32⟩ : BufTy).Contents (Elt F)),
    unary main_arg2 main_v52 (broadcastInDim S600000x1 ![0] bcast_S600000_S600000x1_0 : (⟨S600000, .i32⟩ : BufTy).Contents (Elt F) → (⟨S600000x1, .i32⟩ : BufTy).Contents (Elt F)),
    ternary main_v51 main_v52 main_v50 main_v53 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v7 main_v54 (broadcastInDim S50000x128 ![0, 1] bcast_S50000x1_S50000x128_0_1 : (⟨S50000x1, .f32⟩ : BufTy).Contents (Elt F) → (⟨S50000x128, .f32⟩ : BufTy).Contents (Elt F)),
    binary main_v53 main_v54 main_v55 (mulf : (⟨S50000x128, .f32⟩ : BufTy).Contents (Elt F) → (⟨S50000x128, .f32⟩ : BufTy).Contents (Elt F) → (⟨S50000x128, .f32⟩ : BufTy).Contents (Elt F)) ]

/-- The buffers the operations of `A2` write, in order. -/
abbrev A2_W : List (Ref sig .tc) :=
  [main_v42, main_v43, main_c_8, main_v44, main_v45, main_c_9, main_v46, main_v47, main_v48, main_v49, main_v50, main_cst_10, main_v51, main_v52, main_v53, main_v54, main_v55]

theorem A2_hW : (A2 (F := F)).Forall fun op => op.writes ⊆ ((A2_W).map (Proc.devRef (τ := τ) .tc)).toFinset :=
  ⟨writes_sub_of_mem main_v42 rfl (by decide),
   writes_sub_of_mem main_v43 rfl (by decide),
   writes_sub_of_mem main_c_8 rfl (by decide),
   writes_sub_of_mem main_v44 rfl (by decide),
   writes_sub_of_mem main_v45 rfl (by decide),
   writes_sub_of_mem main_c_9 rfl (by decide),
   writes_sub_of_mem main_v46 rfl (by decide),
   writes_sub_of_mem main_v47 rfl (by decide),
   writes_sub_of_mem main_v48 rfl (by decide),
   writes_sub_of_mem main_v49 rfl (by decide),
   writes_sub_of_mem main_v50 rfl (by decide),
   writes_sub_of_mem main_cst_10 rfl (by decide),
   writes_sub_of_mem main_v51 rfl (by decide),
   writes_sub_of_mem main_v52 rfl (by decide),
   writes_sub_of_mem main_v53 rfl (by decide),
   writes_sub_of_mem main_v54 rfl (by decide),
   writes_sub_of_mem main_v55 rfl (by decide)⟩

/-- A buffer that `A2` does not write holds after it what it held before. -/
theorem A2_frame (V : Valuation τ sig (Elt Ideal)) {r : Ref sig .tc} (hr : r ∉ A2_W) :
    after (A2 (F := Ideal)) V (no_index (Proc.devRef .tc r)) = V (Proc.devRef .tc r) :=
  after_of_writes_sub (A2 (F := Ideal)) V A2_hW hr

attribute [local irreducible] Host.reduceAdd Host.gather Host.scatterAdd in
set_option maxRecDepth 8192 in
set_option maxHeartbeats 400000 in
/-- After `A2` its last buffer holds the stage's function of the buffers the stage reads: each operation's
    result is read at its own buffer, every other buffer is passed over. -/
theorem A2_res0 (V : Valuation τ sig (Elt Ideal)) :
    after (A2 (F := Ideal)) V (Proc.devRef .tc main_v55) = RefOut.xR (V (Proc.devRef .tc main_arg1)) (V (Proc.devRef .tc main_arg2)) (V (Proc.devRef .tc main_v7)) (V (Proc.devRef .tc main_v41)) := by
  after_results_simp <;> rfl

theorem A2_res (V : Valuation τ sig (Elt Ideal)) :
    after (A2 (F := Ideal)) V (no_index (Proc.devRef .tc main_v55)) = RefOut.xR (V (Proc.devRef .tc main_arg1)) (V (Proc.devRef .tc main_arg2)) (V (Proc.devRef .tc main_v7)) (V (Proc.devRef .tc main_v41)) := A2_res0 V

/-- Layer 2's rectifier: the maximum with zero. -/
abbrev R2 : List (HloOp τ sig (Elt F)) :=
  [ TRef.nullary main_call3.cst (constant S_ .f32 0x00000000#32),
    TRef.unary main_call3.cst main_call3.v0 (broadcastInDim S50000x128 ![] bcast_S_S50000x128),
    TRef.binary (.of main_v74 : TRef sig ⟨S50000x128, .f32⟩) main_call3.v0 main_call3.v1 maximumf ]

/-- The buffers the operations of `R2` write, in order. -/
abbrev R2_W : List (Ref sig .tc) :=
  [main_call3_cst, main_call3_v0, main_v75]

theorem R2_hW : (R2 (F := F)).Forall fun op => op.writes ⊆ ((R2_W).map (Proc.devRef (τ := τ) .tc)).toFinset :=
  ⟨writes_sub_of_mem main_call3_cst rfl (by decide),
   writes_sub_of_mem main_call3_v0 rfl (by decide),
   writes_sub_of_mem main_v75 rfl (by decide)⟩

/-- A buffer that `R2` does not write holds after it what it held before. -/
theorem R2_frame (V : Valuation τ sig (Elt Ideal)) {r : Ref sig .tc} (hr : r ∉ R2_W) :
    after (R2 (F := Ideal)) V (no_index (Proc.devRef .tc r)) = V (Proc.devRef .tc r) :=
  after_of_writes_sub (R2 (F := Ideal)) V R2_hW hr

attribute [local irreducible] Host.reduceAdd Host.gather Host.scatterAdd in
set_option maxRecDepth 8192 in
set_option maxHeartbeats 400000 in
/-- After `R2` its last buffer holds the stage's function of the buffers the stage reads: each operation's
    result is read at its own buffer, every other buffer is passed over. -/
theorem R2_res0 (V : Valuation τ sig (Elt Ideal)) :
    after (R2 (F := Ideal)) V (Proc.devRef .tc main_v75) = RefOut.reluR (V (Proc.devRef .tc main_v74)) := by
  after_results_simp <;> rfl

theorem R2_res (V : Valuation τ sig (Elt Ideal)) :
    after (R2 (F := Ideal)) V (no_index (Proc.devRef .tc main_v75)) = RefOut.reluR (V (Proc.devRef .tc main_v74)) := R2_res0 V

end Cert.ReferenceIdeal.RefRun

end
-- ==== Proof.RefChunkBN2.lean ====
/-
  Layer 2's column normalisation as a list of host operations — the means, the outlined variance, the affine
  map — and what it leaves in its last buffer: `bnR` of the scale, the shift and the layer's aggregated array.
-/
import proofs.«113157_j3616362463713_1_alg».proof.Proof.RefOut
import proofs.«113157_j3616362463713_1_alg».proof.Proof.RefRunAux
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 2's column normalisation: the column means, the column variances (the outlined variance with its guarded division), then (x − mean)·(var + ε)^(−1/2)·γ + β. -/
abbrev BN2 : List (HloOp τ sig (Elt F)) :=
  [ nullary main_cst_11 (constant S_ .f32 0x00000000#32),
    binary main_v55 main_cst_11 main_v56 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)),
    nullary main_c_13 (constantI S_ 32 0#32),
    TRef.nullary main_call2.cst (constant S_ .f32 0x00000000#32),
    TRef.binary (.of main_v55 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v55 : TRef sig ⟨S50000x128, .f32⟩) main_call2.v4 main_call2.v5 subf,
    TRef.binary main_call2.v5 main_call2.v5 main_call2.v6 mulf,
    TRef.unary (.of main_c_13 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v58 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v55 main_v61 main_v62 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v63 (broadcastInDim S128 ![] bcast_S_S128 : (⟨S_, .f32⟩ : BufTy).Contents (Elt F) → (⟨S128, .f32⟩ : BufTy).Contents (Elt F)),
    binary main_v59 main_v63 main_v64 (addf : (⟨S128, .f32⟩ : BufTy).Contents (Elt F) → (⟨S128, .f32⟩ : BufTy).Contents (Elt F) → (⟨S128, .f32⟩ : BufTy).Contents (Elt F)),
    unary main_v64 main_v65 (Host.rsqrt : (⟨S128, .f32⟩ : BufTy).Contents (Elt F) → (⟨S128, .f32⟩ : BufTy).Contents (Elt F)),
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v62 main_v67 main_v68 (mulf : (⟨S50000x128, .f32⟩ : BufTy).Contents (Elt F) → (⟨S50000x128, .f32⟩ : BufTy).Contents (Elt F) → (⟨S50000x128, .f32⟩ : BufTy).Contents (Elt F)),
    unary main_arg3 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v68 main_v70 main_v71 (mulf : (⟨S50000x128, .f32⟩ : BufTy).Contents (Elt F) → (⟨S50000x128, .f32⟩ : BufTy).Contents (Elt F) → (⟨S50000x128, .f32⟩ : BufTy).Contents (Elt F)),
    unary main_arg4 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (addf : (⟨S50000x128, .f32⟩ : BufTy).Contents (Elt F) → (⟨S50000x128, .f32⟩ : BufTy).Contents (Elt F) → (⟨S50000x128, .f32⟩ : BufTy).Contents (Elt F)) ]

/-- The buffers the operations of `BN2` write, in order. -/
abbrev BN2_W : List (Ref sig .tc) :=
  [main_cst_11, main_v56, main_cst_12, main_v57, main_v58, main_c_13, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v59, main_v60, main_v61, main_v62, main_cst_14, main_v63, main_v64, main_v65, main_v66, main_v67, main_v68, main_v69, main_v70, main_v71, main_v72, main_v73, main_v74]

theorem BN2_hW : (BN2 (F := F)).Forall fun op => op.writes ⊆ ((BN2_W).map (Proc.devRef (τ := τ) .tc)).toFinset :=
  ⟨writes_sub_of_mem main_cst_11 rfl (by decide),
   writes_sub_of_mem main_v56 rfl (by decide),
   writes_sub_of_mem main_cst_12 rfl (by decide),
   writes_sub_of_mem main_v57 rfl (by decide),
   writes_sub_of_mem main_v58 rfl (by decide),
   writes_sub_of_mem main_c_13 rfl (by decide),
   writes_sub_of_mem main_call2_cst rfl (by decide),
   writes_sub_of_mem main_call2_v0 rfl (by decide),
   writes_sub_of_mem main_call2_v1 rfl (by decide),
   writes_sub_of_mem main_call2_cst_0 rfl (by decide),
   writes_sub_of_mem main_call2_v2 rfl (by decide),
   writes_sub_of_mem main_call2_v3 rfl (by decide),
   writes_sub_of_mem main_call2_v4 rfl (by decide),
   writes_sub_of_mem main_call2_v5 rfl (by decide),
   writes_sub_of_mem main_call2_v6 rfl (by decide),
   writes_sub_of_mem main_call2_v7 rfl (by decide),
   writes_sub_of_mem main_call2_cst_1 rfl (by decide),
   writes_sub_of_mem main_call2_v8 rfl (by decide),
   writes_sub_of_mem main_call2_cst_2 rfl (by decide),
   writes_sub_of_mem main_call2_v9 rfl (by decide),
   writes_sub_of_mem main_call2_v10 rfl (by decide),
   writes_sub_of_mem main_call2_v11 rfl (by decide),
   writes_sub_of_mem main_call2_cst_3 rfl (by decide),
   writes_sub_of_mem main_call2_v12 rfl (by decide),
   writes_sub_of_mem main_call2_cst_4 rfl (by decide),
   writes_sub_of_mem main_call2_call0_v0 rfl (by decide),
   writes_sub_of_mem main_call2_call0_v1 rfl (by decide),
   writes_sub_of_mem main_v59 rfl (by decide),
   writes_sub_of_mem main_v60 rfl (by decide),
   writes_sub_of_mem main_v61 rfl (by decide),
   writes_sub_of_mem main_v62 rfl (by decide),
   writes_sub_of_mem main_cst_14 rfl (by decide),
   writes_sub_of_mem main_v63 rfl (by decide),
   writes_sub_of_mem main_v64 rfl (by decide),
   writes_sub_of_mem main_v65 rfl (by decide),
   writes_sub_of_mem main_v66 rfl (by decide),
   writes_sub_of_mem main_v67 rfl (by decide),
   writes_sub_of_mem main_v68 rfl (by decide),
   writes_sub_of_mem main_v69 rfl (by decide),
   writes_sub_of_mem main_v70 rfl (by decide),
   writes_sub_of_mem main_v71 rfl (by decide),
   writes_sub_of_mem main_v72 rfl (by decide),
   writes_sub_of_mem main_v73 rfl (by decide),
   writes_sub_of_mem main_v74 rfl (by decide)⟩

/-- A buffer that `BN2` does not write holds after it what it held before. -/
theorem BN2_frame (V : Valuation τ sig (Elt Ideal)) {r : Ref sig .tc} (hr : r ∉ BN2_W) :
    after (BN2 (F := Ideal)) V (no_index (Proc.devRef .tc r)) = V (Proc.devRef .tc r) :=
  after_of_writes_sub (BN2 (F := Ideal)) V BN2_hW hr

attribute [local irreducible] Host.reduceAdd Host.gather Host.scatterAdd in
set_option maxRecDepth 8192 in
set_option maxHeartbeats 400000 in
/-- After `BN2` its last buffer holds the stage's function of the buffers the stage reads: each operation's
    result is read at its own buffer, every other buffer is passed over. -/
theorem BN2_res0 (V : Valuation τ sig (Elt Ideal)) :
    after (BN2 (F := Ideal)) V (Proc.devRef .tc main_v74) = RefOut.bnR (V (Proc.devRef .tc main_arg3)) (V (Proc.devRef .tc main_arg4)) (V (Proc.devRef .tc main_v55)) := by
  after_results_simp <;> rfl

theorem BN2_res (V : Valuation τ sig (Elt Ideal)) :
    after (BN2 (F := Ideal)) V (no_index (Proc.devRef .tc main_v74)) = RefOut.bnR (V (Proc.devRef .tc main_arg3)) (V (Proc.devRef .tc main_arg4)) (V (Proc.devRef .tc main_v55)) := BN2_res0 V

end Cert.ReferenceIdeal.RefRun

end
-- ==== Proof.RefChunkA3.lean ====
/-
  Layer 3's neighbour sum and rectifier as lists of host operations, and what each leaves in its last buffer:
  `xR` of the edge arrays, the degree weights and the layer's input; `reluR` of the normalised array.
-/
import proofs.«113157_j3616362463713_1_alg».proof.Proof.RefOut
import proofs.«113157_j3616362463713_1_alg».proof.Proof.RefRunAux
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 3's neighbour sum: the features scaled by the degree weights, gathered at src, added up at dst, scaled again. -/
abbrev A3 : List (HloOp τ sig (Elt F)) :=
  [ unary main_v7 main_v76 (broadcastInDim S50000x128 ![0, 1] bcast_S50000x1_S50000x128_0_1 : (⟨S50000x1, .f32⟩ : BufTy).Contents (Elt F) → (⟨S50000x128, .f32⟩ : BufTy).Contents (Elt F)),
    binary main_v75 main_v76 main_v77 (mulf : (⟨S50000x128, .f32⟩ : BufTy).Contents (Elt F) → (⟨S50000x128, .f32⟩ : BufTy).Contents (Elt F) → (⟨S50000x128, .f32⟩ : BufTy).Contents (Elt F)),
    nullary main_c_15 (constantI S_ 32 0#32),
    unary main_c_15 main_v78 (broadcastInDim S600000 ![] bcast_S_S600000 : (⟨S_, .i32⟩ : BufTy).Contents (Elt F) → (⟨S600000, .i32⟩ : BufTy).Contents (Elt F)),
    binary main_arg1 main_v78 main_v79 (cmpi .slt : (⟨S600000, .i32⟩ : BufTy).Contents (Elt F) → (⟨S600000, .i32⟩ : BufTy).Contents (Elt F) → (⟨S600000, .i1⟩ : BufTy).Contents (Elt F)),
    nullary main_c_16 (constantI S_ 32 50000#32),
    unary main_c_16 main_v80 (broadcastInDim S600000 ![] bcast_S_S600000 : (⟨S_, .i32⟩ : BufTy).Contents (Elt F) → (⟨S600000, .i32⟩ : BufTy).Contents (Elt F)),
    binary main_arg1 main_v80 main_v81 (addi : (⟨S600000, .i32⟩ : BufTy).Contents (Elt F) → (⟨S600000, .i32⟩ : BufTy).Contents (Elt F) → (⟨S600000, .i32⟩ : BufTy).Contents (Elt F)),
    ternary main_v79 main_v81 main_arg1 main_v82 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v82 main_v83 (broadcastInDim S600000x1 ![0] bcast_S600000_S600000x1_0 : (⟨S600000, .i32⟩ : BufTy).Contents (Elt F) → (⟨S600000x1, .i32⟩ : BufTy).Contents (Elt F)),
    binary main_v77 main_v83 main_v84 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_17 (constant S_ .f32 0x00000000#32),
    unary main_cst_17 main_v85 (broadcastInDim S50000x128 ![] bcast_S_S50000x128 : (⟨S_, .f32⟩ : BufTy).Contents (Elt F) → (⟨S50000x128, .f32⟩ : BufTy).Contents (Elt F)),
    unary main_arg2 main_v86 (broadcastInDim S600000x1 ![0] bcast_S600000_S600000x1_0 : (⟨S600000, .i32⟩ : BufTy).Contents (Elt F) → (⟨S600000x1, .i32⟩ : BufTy).Contents (Elt F)),
    ternary main_v85 main_v86 main_v84 main_v87 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v7 main_v88 (broadcastInDim S50000x128 ![0, 1] bcast_S50000x1_S50000x128_0_1 : (⟨S50000x1, .f32⟩ : BufTy).Contents (Elt F) → (⟨S50000x128, .f32⟩ : BufTy).Contents (Elt F)),
    binary main_v87 main_v88 main_v89 (mulf : (⟨S50000x128, .f32⟩ : BufTy).Contents (Elt F) → (⟨S50000x128, .f32⟩ : BufTy).Contents (Elt F) → (⟨S50000x128, .f32⟩ : BufTy).Contents (Elt F)) ]

/-- The buffers the operations of `A3` write, in order. -/
abbrev A3_W : List (Ref sig .tc) :=
  [main_v76, main_v77, main_c_15, main_v78, main_v79, main_c_16, main_v80, main_v81, main_v82, main_v83, main_v84, main_cst_17, main_v85, main_v86, main_v87, main_v88, main_v89]

theorem A3_hW : (A3 (F := F)).Forall fun op => op.writes ⊆ ((A3_W).map (Proc.devRef (τ := τ) .tc)).toFinset :=
  ⟨writes_sub_of_mem main_v76 rfl (by decide),
   writes_sub_of_mem main_v77 rfl (by decide),
   writes_sub_of_mem main_c_15 rfl (by decide),
   writes_sub_of_mem main_v78 rfl (by decide),
   writes_sub_of_mem main_v79 rfl (by decide),
   writes_sub_of_mem main_c_16 rfl (by decide),
   writes_sub_of_mem main_v80 rfl (by decide),
   writes_sub_of_mem main_v81 rfl (by decide),
   writes_sub_of_mem main_v82 rfl (by decide),
   writes_sub_of_mem main_v83 rfl (by decide),
   writes_sub_of_mem main_v84 rfl (by decide),
   writes_sub_of_mem main_cst_17 rfl (by decide),
   writes_sub_of_mem main_v85 rfl (by decide),
   writes_sub_of_mem main_v86 rfl (by decide),
   writes_sub_of_mem main_v87 rfl (by decide),
   writes_sub_of_mem main_v88 rfl (by decide),
   writes_sub_of_mem main_v89 rfl (by decide)⟩

/-- A buffer that `A3` does not write holds after it what it held before. -/
theorem A3_frame (V : Valuation τ sig (Elt Ideal)) {r : Ref sig .tc} (hr : r ∉ A3_W) :
    after (A3 (F := Ideal)) V (no_index (Proc.devRef .tc r)) = V (Proc.devRef .tc r) :=
  after_of_writes_sub (A3 (F := Ideal)) V A3_hW hr

attribute [local irreducible] Host.reduceAdd Host.gather Host.scatterAdd in
set_option maxRecDepth 8192 in
set_option maxHeartbeats 400000 in
/-- After `A3` its last buffer holds the stage's function of the buffers the stage reads: each operation's
    result is read at its own buffer, every other buffer is passed over. -/
theorem A3_res0 (V : Valuation τ sig (Elt Ideal)) :
    after (A3 (F := Ideal)) V (Proc.devRef .tc main_v89) = RefOut.xR (V (Proc.devRef .tc main_arg1)) (V (Proc.devRef .tc main_arg2)) (V (Proc.devRef .tc main_v7)) (V (Proc.devRef .tc main_v75)) := by
  after_results_simp <;> rfl

theorem A3_res (V : Valuation τ sig (Elt Ideal)) :
    after (A3 (F := Ideal)) V (no_index (Proc.devRef .tc main_v89)) = RefOut.xR (V (Proc.devRef .tc main_arg1)) (V (Proc.devRef .tc main_arg2)) (V (Proc.devRef .tc main_v7)) (V (Proc.devRef .tc main_v75)) := A3_res0 V

/-- Layer 3's rectifier: the maximum with zero. -/
abbrev R3 : List (HloOp τ sig (Elt F)) :=
  [ TRef.nullary main_call5.cst (constant S_ .f32 0x00000000#32),
    TRef.unary main_call5.cst main_call5.v0 (broadcastInDim S50000x128 ![] bcast_S_S50000x128),
    TRef.binary (.of main_v108 : TRef sig ⟨S50000x128, .f32⟩) main_call5.v0 main_call5.v1 maximumf ]

/-- The buffers the operations of `R3` write, in order. -/
abbrev R3_W : List (Ref sig .tc) :=
  [main_call5_cst, main_call5_v0, main_v109]

theorem R3_hW : (R3 (F := F)).Forall fun op => op.writes ⊆ ((R3_W).map (Proc.devRef (τ := τ) .tc)).toFinset :=
  ⟨writes_sub_of_mem main_call5_cst rfl (by decide),
   writes_sub_of_mem main_call5_v0 rfl (by decide),
   writes_sub_of_mem main_v109 rfl (by decide)⟩

/-- A buffer that `R3` does not write holds after it what it held before. -/
theorem R3_frame (V : Valuation τ sig (Elt Ideal)) {r : Ref sig .tc} (hr : r ∉ R3_W) :
    after (R3 (F := Ideal)) V (no_index (Proc.devRef .tc r)) = V (Proc.devRef .tc r) :=
  after_of_writes_sub (R3 (F := Ideal)) V R3_hW hr

attribute [local irreducible] Host.reduceAdd Host.gather Host.scatterAdd in
set_option maxRecDepth 8192 in
set_option maxHeartbeats 400000 in
/-- After `R3` its last buffer holds the stage's function of the buffers the stage reads: each operation's
    result is read at its own buffer, every other buffer is passed over. -/
theorem R3_res0 (V : Valuation τ sig (Elt Ideal)) :
    after (R3 (F := Ideal)) V (Proc.devRef .tc main_v109) = RefOut.reluR (V (Proc.devRef .tc main_v108)) := by
  after_results_simp <;> rfl

theorem R3_res (V : Valuation τ sig (Elt Ideal)) :
    after (R3 (F := Ideal)) V (no_index (Proc.devRef .tc main_v109)) = RefOut.reluR (V (Proc.devRef .tc main_v108)) := R3_res0 V

end Cert.ReferenceIdeal.RefRun

end
-- ==== Proof.RefChunkBN3.lean ====
/-
  Layer 3's column normalisation as a list of host operations — the means, the outlined variance, the affine
  map — and what it leaves in its last buffer: `bnR` of the scale, the shift and the layer's aggregated array.
-/
import proofs.«113157_j3616362463713_1_alg».proof.Proof.RefOut
import proofs.«113157_j3616362463713_1_alg».proof.Proof.RefRunAux
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 3's column normalisation: the column means, the column variances (the outlined variance with its guarded division), then (x − mean)·(var + ε)^(−1/2)·γ + β. -/
abbrev BN3 : List (HloOp τ sig (Elt F)) :=
  [ nullary main_cst_18 (constant S_ .f32 0x00000000#32),
    binary main_v89 main_cst_18 main_v90 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_19 (constant S_ .f32 0x47435000#32),
    unary main_cst_19 main_v91 (broadcastInDim S128 ![] bcast_S_S128 : (⟨S_, .f32⟩ : BufTy).Contents (Elt F) → (⟨S128, .f32⟩ : BufTy).Contents (Elt F)),
    binary main_v90 main_v91 main_v92 (Host.divf : (⟨S128, .f32⟩ : BufTy).Contents (Elt F) → (⟨S128, .f32⟩ : BufTy).Contents (Elt F) → (⟨S128, .f32⟩ : BufTy).Contents (Elt F)),
    nullary main_c_20 (constantI S_ 32 0#32),
    TRef.nullary main_call4.cst (constant S_ .f32 0x00000000#32),
    TRef.binary (.of main_v89 : TRef sig ⟨S50000x128, .f32⟩) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v89 : TRef sig ⟨S50000x128, .f32⟩) main_call4.v4 main_call4.v5 subf,
    TRef.binary main_call4.v5 main_call4.v5 main_call4.v6 mulf,
    TRef.unary (.of main_c_20 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v92 main_v94 (broadcastInDim S1x128 ![1] bcast_S128_S1x128_1 : (⟨S128, .f32⟩ : BufTy).Contents (Elt F) → (⟨S1x128, .f32⟩ : BufTy).Contents (Elt F)),
    unary main_v94 main_v95 (broadcastInDim S50000x128 ![0, 1] bcast_S1x128_S50000x128_0_1 : (⟨S1x128, .f32⟩ : BufTy).Contents (Elt F) → (⟨S50000x128, .f32⟩ : BufTy).Contents (Elt F)),
    binary main_v89 main_v95 main_v96 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v97 (broadcastInDim S128 ![] bcast_S_S128 : (⟨S_, .f32⟩ : BufTy).Contents (Elt F) → (⟨S128, .f32⟩ : BufTy).Contents (Elt F)),
    binary main_v93 main_v97 main_v98 (addf : (⟨S128, .f32⟩ : BufTy).Contents (Elt F) → (⟨S128, .f32⟩ : BufTy).Contents (Elt F) → (⟨S128, .f32⟩ : BufTy).Contents (Elt F)),
    unary main_v98 main_v99 (Host.rsqrt : (⟨S128, .f32⟩ : BufTy).Contents (Elt F) → (⟨S128, .f32⟩ : BufTy).Contents (Elt F)),
    unary main_v99 main_v100 (broadcastInDim S1x128 ![1] bcast_S128_S1x128_1 : (⟨S128, .f32⟩ : BufTy).Contents (Elt F) → (⟨S1x128, .f32⟩ : BufTy).Contents (Elt F)),
    unary main_v100 main_v101 (broadcastInDim S50000x128 ![0, 1] bcast_S1x128_S50000x128_0_1 : (⟨S1x128, .f32⟩ : BufTy).Contents (Elt F) → (⟨S50000x128, .f32⟩ : BufTy).Contents (Elt F)),
    binary main_v96 main_v101 main_v102 (mulf : (⟨S50000x128, .f32⟩ : BufTy).Contents (Elt F) → (⟨S50000x128, .f32⟩ : BufTy).Contents (Elt F) → (⟨S50000x128, .f32⟩ : BufTy).Contents (Elt F)),
    unary main_arg3 main_v103 (broadcastInDim S1x128 ![1] bcast_S128_S1x128_1 : (⟨S128, .f32⟩ : BufTy).Contents (Elt F) → (⟨S1x128, .f32⟩ : BufTy).Contents (Elt F)),
    unary main_v103 main_v104 (broadcastInDim S50000x128 ![0, 1] bcast_S1x128_S50000x128_0_1 : (⟨S1x128, .f32⟩ : BufTy).Contents (Elt F) → (⟨S50000x128, .f32⟩ : BufTy).Contents (Elt F)),
    binary main_v102 main_v104 main_v105 (mulf : (⟨S50000x128, .f32⟩ : BufTy).Contents (Elt F) → (⟨S50000x128, .f32⟩ : BufTy).Contents (Elt F) → (⟨S50000x128, .f32⟩ : BufTy).Contents (Elt F)),
    unary main_arg4 main_v106 (broadcastInDim S1x128 ![1] bcast_S128_S1x128_1 : (⟨S128, .f32⟩ : BufTy).Contents (Elt F) → (⟨S1x128, .f32⟩ : BufTy).Contents (Elt F)),
    unary main_v106 main_v107 (broadcastInDim S50000x128 ![0, 1] bcast_S1x128_S50000x128_0_1 : (⟨S1x128, .f32⟩ : BufTy).Contents (Elt F) → (⟨S50000x128, .f32⟩ : BufTy).Contents (Elt F)),
    binary main_v105 main_v107 main_v108 (addf : (⟨S50000x128, .f32⟩ : BufTy).Contents (Elt F) → (⟨S50000x128, .f32⟩ : BufTy).Contents (Elt F) → (⟨S50000x128, .f32⟩ : BufTy).Contents (Elt F)) ]

/-- The buffers the operations of `BN3` write, in order. -/
abbrev BN3_W : List (Ref sig .tc) :=
  [main_cst_18, main_v90, main_cst_19, main_v91, main_v92, main_c_20, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v93, main_v94, main_v95, main_v96, main_cst_21, main_v97, main_v98, main_v99, main_v100, main_v101, main_v102, main_v103, main_v104, main_v105, main_v106, main_v107, main_v108]

theorem BN3_hW : (BN3 (F := F)).Forall fun op => op.writes ⊆ ((BN3_W).map (Proc.devRef (τ := τ) .tc)).toFinset :=
  ⟨writes_sub_of_mem main_cst_18 rfl (by decide),
   writes_sub_of_mem main_v90 rfl (by decide),
   writes_sub_of_mem main_cst_19 rfl (by decide),
   writes_sub_of_mem main_v91 rfl (by decide),
   writes_sub_of_mem main_v92 rfl (by decide),
   writes_sub_of_mem main_c_20 rfl (by decide),
   writes_sub_of_mem main_call4_cst rfl (by decide),
   writes_sub_of_mem main_call4_v0 rfl (by decide),
   writes_sub_of_mem main_call4_v1 rfl (by decide),
   writes_sub_of_mem main_call4_cst_0 rfl (by decide),
   writes_sub_of_mem main_call4_v2 rfl (by decide),
   writes_sub_of_mem main_call4_v3 rfl (by decide),
   writes_sub_of_mem main_call4_v4 rfl (by decide),
   writes_sub_of_mem main_call4_v5 rfl (by decide),
   writes_sub_of_mem main_call4_v6 rfl (by decide),
   writes_sub_of_mem main_call4_v7 rfl (by decide),
   writes_sub_of_mem main_call4_cst_1 rfl (by decide),
   writes_sub_of_mem main_call4_v8 rfl (by decide),
   writes_sub_of_mem main_call4_cst_2 rfl (by decide),
   writes_sub_of_mem main_call4_v9 rfl (by decide),
   writes_sub_of_mem main_call4_v10 rfl (by decide),
   writes_sub_of_mem main_call4_v11 rfl (by decide),
   writes_sub_of_mem main_call4_cst_3 rfl (by decide),
   writes_sub_of_mem main_call4_v12 rfl (by decide),
   writes_sub_of_mem main_call4_cst_4 rfl (by decide),
   writes_sub_of_mem main_call4_call0_v0 rfl (by decide),
   writes_sub_of_mem main_call4_call0_v1 rfl (by decide),
   writes_sub_of_mem main_v93 rfl (by decide),
   writes_sub_of_mem main_v94 rfl (by decide),
   writes_sub_of_mem main_v95 rfl (by decide),
   writes_sub_of_mem main_v96 rfl (by decide),
   writes_sub_of_mem main_cst_21 rfl (by decide),
   writes_sub_of_mem main_v97 rfl (by decide),
   writes_sub_of_mem main_v98 rfl (by decide),
   writes_sub_of_mem main_v99 rfl (by decide),
   writes_sub_of_mem main_v100 rfl (by decide),
   writes_sub_of_mem main_v101 rfl (by decide),
   writes_sub_of_mem main_v102 rfl (by decide),
   writes_sub_of_mem main_v103 rfl (by decide),
   writes_sub_of_mem main_v104 rfl (by decide),
   writes_sub_of_mem main_v105 rfl (by decide),
   writes_sub_of_mem main_v106 rfl (by decide),
   writes_sub_of_mem main_v107 rfl (by decide),
   writes_sub_of_mem main_v108 rfl (by decide)⟩

/-- A buffer that `BN3` does not write holds after it what it held before. -/
theorem BN3_frame (V : Valuation τ sig (Elt Ideal)) {r : Ref sig .tc} (hr : r ∉ BN3_W) :
    after (BN3 (F := Ideal)) V (no_index (Proc.devRef .tc r)) = V (Proc.devRef .tc r) :=
  after_of_writes_sub (BN3 (F := Ideal)) V BN3_hW hr

attribute [local irreducible] Host.reduceAdd Host.gather Host.scatterAdd in
set_option maxRecDepth 8192 in
set_option maxHeartbeats 400000 in
/-- After `BN3` its last buffer holds the stage's function of the buffers the stage reads: each operation's
    result is read at its own buffer, every other buffer is passed over. -/
theorem BN3_res0 (V : Valuation τ sig (Elt Ideal)) :
    after (BN3 (F := Ideal)) V (Proc.devRef .tc main_v108) = RefOut.bnR (V (Proc.devRef .tc main_arg3)) (V (Proc.devRef .tc main_arg4)) (V (Proc.devRef .tc main_v89)) := by
  after_results_simp <;> rfl

theorem BN3_res (V : Valuation τ sig (Elt Ideal)) :
    after (BN3 (F := Ideal)) V (no_index (Proc.devRef .tc main_v108)) = RefOut.bnR (V (Proc.devRef .tc main_arg3)) (V (Proc.devRef .tc main_arg4)) (V (Proc.devRef .tc main_v89)) := BN3_res0 V

end Cert.ReferenceIdeal.RefRun

end
-- ==== Proof.RefChunkA4.lean ====
/-
  Layer 4's neighbour sum and rectifier as lists of host operations, and what each leaves in its last buffer:
  `xR` of the edge arrays, the degree weights and the layer's input; `reluR` of the normalised array.
-/
import proofs.«113157_j3616362463713_1_alg».proof.Proof.RefOut
import proofs.«113157_j3616362463713_1_alg».proof.Proof.RefRunAux
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 4's neighbour sum: the features scaled by the degree weights, gathered at src, added up at dst, scaled again. -/
abbrev A4 : List (HloOp τ sig (Elt F)) :=
  [ unary main_v7 main_v110 (broadcastInDim S50000x128 ![0, 1] bcast_S50000x1_S50000x128_0_1 : (⟨S50000x1, .f32⟩ : BufTy).Contents (Elt F) → (⟨S50000x128, .f32⟩ : BufTy).Contents (Elt F)),
    binary main_v109 main_v110 main_v111 (mulf : (⟨S50000x128, .f32⟩ : BufTy).Contents (Elt F) → (⟨S50000x128, .f32⟩ : BufTy).Contents (Elt F) → (⟨S50000x128, .f32⟩ : BufTy).Contents (Elt F)),
    nullary main_c_22 (constantI S_ 32 0#32),
    unary main_c_22 main_v112 (broadcastInDim S600000 ![] bcast_S_S600000 : (⟨S_, .i32⟩ : BufTy).Contents (Elt F) → (⟨S600000, .i32⟩ : BufTy).Contents (Elt F)),
    binary main_arg1 main_v112 main_v113 (cmpi .slt : (⟨S600000, .i32⟩ : BufTy).Contents (Elt F) → (⟨S600000, .i32⟩ : BufTy).Contents (Elt F) → (⟨S600000, .i1⟩ : BufTy).Contents (Elt F)),
    nullary main_c_23 (constantI S_ 32 50000#32),
    unary main_c_23 main_v114 (broadcastInDim S600000 ![] bcast_S_S600000 : (⟨S_, .i32⟩ : BufTy).Contents (Elt F) → (⟨S600000, .i32⟩ : BufTy).Contents (Elt F)),
    binary main_arg1 main_v114 main_v115 (addi : (⟨S600000, .i32⟩ : BufTy).Contents (Elt F) → (⟨S600000, .i32⟩ : BufTy).Contents (Elt F) → (⟨S600000, .i32⟩ : BufTy).Contents (Elt F)),
    ternary main_v113 main_v115 main_arg1 main_v116 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v116 main_v117 (broadcastInDim S600000x1 ![0] bcast_S600000_S600000x1_0 : (⟨S600000, .i32⟩ : BufTy).Contents (Elt F) → (⟨S600000x1, .i32⟩ : BufTy).Contents (Elt F)),
    binary main_v111 main_v117 main_v118 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_24 (constant S_ .f32 0x00000000#32),
    unary main_cst_24 main_v119 (broadcastInDim S50000x128 ![] bcast_S_S50000x128 : (⟨S_, .f32⟩ : BufTy).Contents (Elt F) → (⟨S50000x128, .f32⟩ : BufTy).Contents (Elt F)),
    unary main_arg2 main_v120 (broadcastInDim S600000x1 ![0] bcast_S600000_S600000x1_0 : (⟨S600000, .i32⟩ : BufTy).Contents (Elt F) → (⟨S600000x1, .i32⟩ : BufTy).Contents (Elt F)),
    ternary main_v119 main_v120 main_v118 main_v121 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v7 main_v122 (broadcastInDim S50000x128 ![0, 1] bcast_S50000x1_S50000x128_0_1 : (⟨S50000x1, .f32⟩ : BufTy).Contents (Elt F) → (⟨S50000x128, .f32⟩ : BufTy).Contents (Elt F)),
    binary main_v121 main_v122 main_v123 (mulf : (⟨S50000x128, .f32⟩ : BufTy).Contents (Elt F) → (⟨S50000x128, .f32⟩ : BufTy).Contents (Elt F) → (⟨S50000x128, .f32⟩ : BufTy).Contents (Elt F)) ]

/-- The buffers the operations of `A4` write, in order. -/
abbrev A4_W : List (Ref sig .tc) :=
  [main_v110, main_v111, main_c_22, main_v112, main_v113, main_c_23, main_v114, main_v115, main_v116, main_v117, main_v118, main_cst_24, main_v119, main_v120, main_v121, main_v122, main_v123]

theorem A4_hW : (A4 (F := F)).Forall fun op => op.writes ⊆ ((A4_W).map (Proc.devRef (τ := τ) .tc)).toFinset :=
  ⟨writes_sub_of_mem main_v110 rfl (by decide),
   writes_sub_of_mem main_v111 rfl (by decide),
   writes_sub_of_mem main_c_22 rfl (by decide),
   writes_sub_of_mem main_v112 rfl (by decide),
   writes_sub_of_mem main_v113 rfl (by decide),
   writes_sub_of_mem main_c_23 rfl (by decide),
   writes_sub_of_mem main_v114 rfl (by decide),
   writes_sub_of_mem main_v115 rfl (by decide),
   writes_sub_of_mem main_v116 rfl (by decide),
   writes_sub_of_mem main_v117 rfl (by decide),
   writes_sub_of_mem main_v118 rfl (by decide),
   writes_sub_of_mem main_cst_24 rfl (by decide),
   writes_sub_of_mem main_v119 rfl (by decide),
   writes_sub_of_mem main_v120 rfl (by decide),
   writes_sub_of_mem main_v121 rfl (by decide),
   writes_sub_of_mem main_v122 rfl (by decide),
   writes_sub_of_mem main_v123 rfl (by decide)⟩

/-- A buffer that `A4` does not write holds after it what it held before. -/
theorem A4_frame (V : Valuation τ sig (Elt Ideal)) {r : Ref sig .tc} (hr : r ∉ A4_W) :
    after (A4 (F := Ideal)) V (no_index (Proc.devRef .tc r)) = V (Proc.devRef .tc r) :=
  after_of_writes_sub (A4 (F := Ideal)) V A4_hW hr

attribute [local irreducible] Host.reduceAdd Host.gather Host.scatterAdd in
set_option maxRecDepth 8192 in
set_option maxHeartbeats 400000 in
/-- After `A4` its last buffer holds the stage's function of the buffers the stage reads: each operation's
    result is read at its own buffer, every other buffer is passed over. -/
theorem A4_res0 (V : Valuation τ sig (Elt Ideal)) :
    after (A4 (F := Ideal)) V (Proc.devRef .tc main_v123) = RefOut.xR (V (Proc.devRef .tc main_arg1)) (V (Proc.devRef .tc main_arg2)) (V (Proc.devRef .tc main_v7)) (V (Proc.devRef .tc main_v109)) := by
  after_results_simp <;> rfl

theorem A4_res (V : Valuation τ sig (Elt Ideal)) :
    after (A4 (F := Ideal)) V (no_index (Proc.devRef .tc main_v123)) = RefOut.xR (V (Proc.devRef .tc main_arg1)) (V (Proc.devRef .tc main_arg2)) (V (Proc.devRef .tc main_v7)) (V (Proc.devRef .tc main_v109)) := A4_res0 V

/-- Layer 4's rectifier: the maximum with zero. -/
abbrev R4 : List (HloOp τ sig (Elt F)) :=
  [ TRef.nullary main_call7.cst (constant S_ .f32 0x00000000#32),
    TRef.unary main_call7.cst main_call7.v0 (broadcastInDim S50000x128 ![] bcast_S_S50000x128),
    TRef.binary (.of main_v142 : TRef sig ⟨S50000x128, .f32⟩) main_call7.v0 main_call7.v1 maximumf ]

/-- The buffers the operations of `R4` write, in order. -/
abbrev R4_W : List (Ref sig .tc) :=
  [main_call7_cst, main_call7_v0, main_v143]

theorem R4_hW : (R4 (F := F)).Forall fun op => op.writes ⊆ ((R4_W).map (Proc.devRef (τ := τ) .tc)).toFinset :=
  ⟨writes_sub_of_mem main_call7_cst rfl (by decide),
   writes_sub_of_mem main_call7_v0 rfl (by decide),
   writes_sub_of_mem main_v143 rfl (by decide)⟩

/-- A buffer that `R4` does not write holds after it what it held before. -/
theorem R4_frame (V : Valuation τ sig (Elt Ideal)) {r : Ref sig .tc} (hr : r ∉ R4_W) :
    after (R4 (F := Ideal)) V (no_index (Proc.devRef .tc r)) = V (Proc.devRef .tc r) :=
  after_of_writes_sub (R4 (F := Ideal)) V R4_hW hr

attribute [local irreducible] Host.reduceAdd Host.gather Host.scatterAdd in
set_option maxRecDepth 8192 in
set_option maxHeartbeats 400000 in
/-- After `R4` its last buffer holds the stage's function of the buffers the stage reads: each operation's
    result is read at its own buffer, every other buffer is passed over. -/
theorem R4_res0 (V : Valuation τ sig (Elt Ideal)) :
    after (R4 (F := Ideal)) V (Proc.devRef .tc main_v143) = RefOut.reluR (V (Proc.devRef .tc main_v142)) := by
  after_results_simp <;> rfl

theorem R4_res (V : Valuation τ sig (Elt Ideal)) :
    after (R4 (F := Ideal)) V (no_index (Proc.devRef .tc main_v143)) = RefOut.reluR (V (Proc.devRef .tc main_v142)) := R4_res0 V

end Cert.ReferenceIdeal.RefRun

end
-- ==== Proof.RefChunkBN4.lean ====
/-
  Layer 4's column normalisation as a list of host operations — the means, the outlined variance, the affine
  map — and what it leaves in its last buffer: `bnR` of the scale, the shift and the layer's aggregated array.
-/
import proofs.«113157_j3616362463713_1_alg».proof.Proof.RefOut
import proofs.«113157_j3616362463713_1_alg».proof.Proof.RefRunAux
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 4's column normalisation: the column means, the column variances (the outlined variance with its guarded division), then (x − mean)·(var + ε)^(−1/2)·γ + β. -/
abbrev BN4 : List (HloOp τ sig (Elt F)) :=
  [ nullary main_cst_25 (constant S_ .f32 0x00000000#32),
    binary main_v123 main_cst_25 main_v124 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v125 (broadcastInDim S128 ![] bcast_S_S128 : (⟨S_, .f32⟩ : BufTy).Contents (Elt F) → (⟨S128, .f32⟩ : BufTy).Contents (Elt F)),
    binary main_v124 main_v125 main_v126 (Host.divf : (⟨S128, .f32⟩ : BufTy).Contents (Elt F) → (⟨S128, .f32⟩ : BufTy).Contents (Elt F) → (⟨S128, .f32⟩ : BufTy).Contents (Elt F)),
    nullary main_c_27 (constantI S_ 32 0#32),
    TRef.nullary main_call6.cst (constant S_ .f32 0x00000000#32),
    TRef.binary (.of main_v123 : TRef sig ⟨S50000x128, .f32⟩) main_call6.cst main_call6.v0 (fun x v => Host.reduceAdd x v reducesTo_S50000x128_S128_d0 h_S_),
    TRef.unary main_call6.v0 main_call6.v1 (broadcastInDim S1x128 ![1] bcast_S128_S1x128_1),
    TRef.nullary main_call6.cst_0 (constant S_ .f32 0x47435000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S50000x128 ![0, 1] bcast_S1x128_S50000x128_0_1),
    TRef.binary (.of main_v123 : TRef sig ⟨S50000x128, .f32⟩) main_call6.v4 main_call6.v5 subf,
    TRef.binary main_call6.v5 main_call6.v5 main_call6.v6 mulf,
    TRef.unary (.of main_c_27 : TRef sig ⟨S_, .i32⟩) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b),
    unary main_v126 main_v128 (broadcastInDim S1x128 ![1] bcast_S128_S1x128_1 : (⟨S128, .f32⟩ : BufTy).Contents (Elt F) → (⟨S1x128, .f32⟩ : BufTy).Contents (Elt F)),
    unary main_v128 main_v129 (broadcastInDim S50000x128 ![0, 1] bcast_S1x128_S50000x128_0_1 : (⟨S1x128, .f32⟩ : BufTy).Contents (Elt F) → (⟨S50000x128, .f32⟩ : BufTy).Contents (Elt F)),
    binary main_v123 main_v129 main_v130 (subf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x3727C5AC#32),
    unary main_cst_28 main_v131 (broadcastInDim S128 ![] bcast_S_S128 : (⟨S_, .f32⟩ : BufTy).Contents (Elt F) → (⟨S128, .f32⟩ : BufTy).Contents (Elt F)),
    binary main_v127 main_v131 main_v132 (addf : (⟨S128, .f32⟩ : BufTy).Contents (Elt F) → (⟨S128, .f32⟩ : BufTy).Contents (Elt F) → (⟨S128, .f32⟩ : BufTy).Contents (Elt F)),
    unary main_v132 main_v133 (Host.rsqrt : (⟨S128, .f32⟩ : BufTy).Contents (Elt F) → (⟨S128, .f32⟩ : BufTy).Contents (Elt F)),
    unary main_v133 main_v134 (broadcastInDim S1x128 ![1] bcast_S128_S1x128_1 : (⟨S128, .f32⟩ : BufTy).Contents (Elt F) → (⟨S1x128, .f32⟩ : BufTy).Contents (Elt F)),
    unary main_v134 main_v135 (broadcastInDim S50000x128 ![0, 1] bcast_S1x128_S50000x128_0_1 : (⟨S1x128, .f32⟩ : BufTy).Contents (Elt F) → (⟨S50000x128, .f32⟩ : BufTy).Contents (Elt F)),
    binary main_v130 main_v135 main_v136 (mulf : (⟨S50000x128, .f32⟩ : BufTy).Contents (Elt F) → (⟨S50000x128, .f32⟩ : BufTy).Contents (Elt F) → (⟨S50000x128, .f32⟩ : BufTy).Contents (Elt F)),
    unary main_arg3 main_v137 (broadcastInDim S1x128 ![1] bcast_S128_S1x128_1 : (⟨S128, .f32⟩ : BufTy).Contents (Elt F) → (⟨S1x128, .f32⟩ : BufTy).Contents (Elt F)),
    unary main_v137 main_v138 (broadcastInDim S50000x128 ![0, 1] bcast_S1x128_S50000x128_0_1 : (⟨S1x128, .f32⟩ : BufTy).Contents (Elt F) → (⟨S50000x128, .f32⟩ : BufTy).Contents (Elt F)),
    binary main_v136 main_v138 main_v139 (mulf : (⟨S50000x128, .f32⟩ : BufTy).Contents (Elt F) → (⟨S50000x128, .f32⟩ : BufTy).Contents (Elt F) → (⟨S50000x128, .f32⟩ : BufTy).Contents (Elt F)),
    unary main_arg4 main_v140 (broadcastInDim S1x128 ![1] bcast_S128_S1x128_1 : (⟨S128, .f32⟩ : BufTy).Contents (Elt F) → (⟨S1x128, .f32⟩ : BufTy).Contents (Elt F)),
    unary main_v140 main_v141 (broadcastInDim S50000x128 ![0, 1] bcast_S1x128_S50000x128_0_1 : (⟨S1x128, .f32⟩ : BufTy).Contents (Elt F) → (⟨S50000x128, .f32⟩ : BufTy).Contents (Elt F)),
    binary main_v139 main_v141 main_v142 (addf : (⟨S50000x128, .f32⟩ : BufTy).Contents (Elt F) → (⟨S50000x128, .f32⟩ : BufTy).Contents (Elt F) → (⟨S50000x128, .f32⟩ : BufTy).Contents (Elt F)) ]

/-- The buffers the operations of `BN4` write, in order. -/
abbrev BN4_W : List (Ref sig .tc) :=
  [main_cst_25, main_v124, main_cst_26, main_v125, main_v126, main_c_27, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v127, main_v128, main_v129, main_v130, main_cst_28, main_v131, main_v132, main_v133, main_v134, main_v135, main_v136, main_v137, main_v138, main_v139, main_v140, main_v141, main_v142]

theorem BN4_hW : (BN4 (F := F)).Forall fun op => op.writes ⊆ ((BN4_W).map (Proc.devRef (τ := τ) .tc)).toFinset :=
  ⟨writes_sub_of_mem main_cst_25 rfl (by decide),
   writes_sub_of_mem main_v124 rfl (by decide),
   writes_sub_of_mem main_cst_26 rfl (by decide),
   writes_sub_of_mem main_v125 rfl (by decide),
   writes_sub_of_mem main_v126 rfl (by decide),
   writes_sub_of_mem main_c_27 rfl (by decide),
   writes_sub_of_mem main_call6_cst rfl (by decide),
   writes_sub_of_mem main_call6_v0 rfl (by decide),
   writes_sub_of_mem main_call6_v1 rfl (by decide),
   writes_sub_of_mem main_call6_cst_0 rfl (by decide),
   writes_sub_of_mem main_call6_v2 rfl (by decide),
   writes_sub_of_mem main_call6_v3 rfl (by decide),
   writes_sub_of_mem main_call6_v4 rfl (by decide),
   writes_sub_of_mem main_call6_v5 rfl (by decide),
   writes_sub_of_mem main_call6_v6 rfl (by decide),
   writes_sub_of_mem main_call6_v7 rfl (by decide),
   writes_sub_of_mem main_call6_cst_1 rfl (by decide),
   writes_sub_of_mem main_call6_v8 rfl (by decide),
   writes_sub_of_mem main_call6_cst_2 rfl (by decide),
   writes_sub_of_mem main_call6_v9 rfl (by decide),
   writes_sub_of_mem main_call6_v10 rfl (by decide),
   writes_sub_of_mem main_call6_v11 rfl (by decide),
   writes_sub_of_mem main_call6_cst_3 rfl (by decide),
   writes_sub_of_mem main_call6_v12 rfl (by decide),
   writes_sub_of_mem main_call6_cst_4 rfl (by decide),
   writes_sub_of_mem main_call6_call0_v0 rfl (by decide),
   writes_sub_of_mem main_call6_call0_v1 rfl (by decide),
   writes_sub_of_mem main_v127 rfl (by decide),
   writes_sub_of_mem main_v128 rfl (by decide),
   writes_sub_of_mem main_v129 rfl (by decide),
   writes_sub_of_mem main_v130 rfl (by decide),
   writes_sub_of_mem main_cst_28 rfl (by decide),
   writes_sub_of_mem main_v131 rfl (by decide),
   writes_sub_of_mem main_v132 rfl (by decide),
   writes_sub_of_mem main_v133 rfl (by decide),
   writes_sub_of_mem main_v134 rfl (by decide),
   writes_sub_of_mem main_v135 rfl (by decide),
   writes_sub_of_mem main_v136 rfl (by decide),
   writes_sub_of_mem main_v137 rfl (by decide),
   writes_sub_of_mem main_v138 rfl (by decide),
   writes_sub_of_mem main_v139 rfl (by decide),
   writes_sub_of_mem main_v140 rfl (by decide),
   writes_sub_of_mem main_v141 rfl (by decide),
   writes_sub_of_mem main_v142 rfl (by decide)⟩

/-- A buffer that `BN4` does not write holds after it what it held before. -/
theorem BN4_frame (V : Valuation τ sig (Elt Ideal)) {r : Ref sig .tc} (hr : r ∉ BN4_W) :
    after (BN4 (F := Ideal)) V (no_index (Proc.devRef .tc r)) = V (Proc.devRef .tc r) :=
  after_of_writes_sub (BN4 (F := Ideal)) V BN4_hW hr

attribute [local irreducible] Host.reduceAdd Host.gather Host.scatterAdd in
set_option maxRecDepth 8192 in
set_option maxHeartbeats 400000 in
/-- After `BN4` its last buffer holds the stage's function of the buffers the stage reads: each operation's
    result is read at its own buffer, every other buffer is passed over. -/
theorem BN4_res0 (V : Valuation τ sig (Elt Ideal)) :
    after (BN4 (F := Ideal)) V (Proc.devRef .tc main_v142) = RefOut.bnR (V (Proc.devRef .tc main_arg3)) (V (Proc.devRef .tc main_arg4)) (V (Proc.devRef .tc main_v123)) := by
  after_results_simp <;> rfl

theorem BN4_res (V : Valuation τ sig (Elt Ideal)) :
    after (BN4 (F := Ideal)) V (no_index (Proc.devRef .tc main_v142)) = RefOut.bnR (V (Proc.devRef .tc main_arg3)) (V (Proc.devRef .tc main_arg4)) (V (Proc.devRef .tc main_v123)) := BN4_res0 V

end Cert.ReferenceIdeal.RefRun

end
-- ==== Proof.RefChunkH.lean ====
/-
  The head's two linear maps as lists of host operations, and what each leaves in its last buffer.
-/
import proofs.«113157_j3616362463713_1_alg».proof.Proof.RefOut
import proofs.«113157_j3616362463713_1_alg».proof.Proof.RefRunAux
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The second linear map of the head with its bias row. -/
def lin2R (W2 : FVec Ideal S128x40 .f32) (b2 : FVec Ideal S40 .f32) (y : FVec Ideal S50000x128 .f32) :
    FVec Ideal S50000x40 .f32 :=
  addf
    (Host.dotGeneral dot_S50000x128_S128x40_S50000x40_1_0_0_1_n_n none y W2)
    (broadcastInDim S50000x40 ![0, 1] bcast_S1x40_S50000x40_0_1
      (broadcastInDim S1x40 ![1] bcast_S40_S1x40_1 b2))

/-- The head's first linear map with its bias row. -/
abbrev H1 : List (HloOp τ sig (Elt F)) :=
  [ binary main_v143 main_arg5 main_v144 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v145 (broadcastInDim S1x128 ![1] bcast_S128_S1x128_1 : (⟨S128, .f32⟩ : BufTy).Contents (Elt F) → (⟨S1x128, .f32⟩ : BufTy).Contents (Elt F)),
    unary main_v145 main_v146 (broadcastInDim S50000x128 ![0, 1] bcast_S1x128_S50000x128_0_1 : (⟨S1x128, .f32⟩ : BufTy).Contents (Elt F) → (⟨S50000x128, .f32⟩ : BufTy).Contents (Elt F)),
    binary main_v144 main_v146 main_v147 (addf : (⟨S50000x128, .f32⟩ : BufTy).Contents (Elt F) → (⟨S50000x128, .f32⟩ : BufTy).Contents (Elt F) → (⟨S50000x128, .f32⟩ : BufTy).Contents (Elt F)) ]

/-- The buffers the operations of `H1` write, in order. -/
abbrev H1_W : List (Ref sig .tc) :=
  [main_v144, main_v145, main_v146, main_v147]

theorem H1_hW : (H1 (F := F)).Forall fun op => op.writes ⊆ ((H1_W).map (Proc.devRef (τ := τ) .tc)).toFinset :=
  ⟨writes_sub_of_mem main_v144 rfl (by decide),
   writes_sub_of_mem main_v145 rfl (by decide),
   writes_sub_of_mem main_v146 rfl (by decide),
   writes_sub_of_mem main_v147 rfl (by decide)⟩

/-- A buffer that `H1` does not write holds after it what it held before. -/
theorem H1_frame (V : Valuation τ sig (Elt Ideal)) {r : Ref sig .tc} (hr : r ∉ H1_W) :
    after (H1 (F := Ideal)) V (no_index (Proc.devRef .tc r)) = V (Proc.devRef .tc r) :=
  after_of_writes_sub (H1 (F := Ideal)) V H1_hW hr

attribute [local irreducible] Host.reduceAdd Host.gather Host.scatterAdd in
set_option maxRecDepth 8192 in
set_option maxHeartbeats 400000 in
/-- After `H1` its last buffer holds the stage's function of the buffers the stage reads: each operation's
    result is read at its own buffer, every other buffer is passed over. -/
theorem H1_res0 (V : Valuation τ sig (Elt Ideal)) :
    after (H1 (F := Ideal)) V (Proc.devRef .tc main_v147) = RefOut.lin1R (V (Proc.devRef .tc main_arg5)) (V (Proc.devRef .tc main_arg6)) (V (Proc.devRef .tc main_v143)) := by
  after_results_simp <;> rfl

theorem H1_res (V : Valuation τ sig (Elt Ideal)) :
    after (H1 (F := Ideal)) V (no_index (Proc.devRef .tc main_v147)) = RefOut.lin1R (V (Proc.devRef .tc main_arg5)) (V (Proc.devRef .tc main_arg6)) (V (Proc.devRef .tc main_v143)) := H1_res0 V

/-- The head's second linear map with its bias row. -/
abbrev H2 : List (HloOp τ sig (Elt F)) :=
  [ binary main_v166 main_arg9 main_v167 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg10 main_v168 (broadcastInDim S1x40 ![1] bcast_S40_S1x40_1 : (⟨S40, .f32⟩ : BufTy).Contents (Elt F) → (⟨S1x40, .f32⟩ : BufTy).Contents (Elt F)),
    unary main_v168 main_v169 (broadcastInDim S50000x40 ![0, 1] bcast_S1x40_S50000x40_0_1 : (⟨S1x40, .f32⟩ : BufTy).Contents (Elt F) → (⟨S50000x40, .f32⟩ : BufTy).Contents (Elt F)),
    binary main_v167 main_v169 main_v170 (addf : (⟨S50000x40, .f32⟩ : BufTy).Contents (Elt F) → (⟨S50000x40, .f32⟩ : BufTy).Contents (Elt F) → (⟨S50000x40, .f32⟩ : BufTy).Contents (Elt F)) ]

/-- The buffers the operations of `H2` write, in order. -/
abbrev H2_W : List (Ref sig .tc) :=
  [main_v167, main_v168, main_v169, main_v170]

theorem H2_hW : (H2 (F := F)).Forall fun op => op.writes ⊆ ((H2_W).map (Proc.devRef (τ := τ) .tc)).toFinset :=
  ⟨writes_sub_of_mem main_v167 rfl (by decide),
   writes_sub_of_mem main_v168 rfl (by decide),
   writes_sub_of_mem main_v169 rfl (by decide),
   writes_sub_of_mem main_v170 rfl (by decide)⟩

/-- A buffer that `H2` does not write holds after it what it held before. -/
theorem H2_frame (V : Valuation τ sig (Elt Ideal)) {r : Ref sig .tc} (hr : r ∉ H2_W) :
    after (H2 (F := Ideal)) V (no_index (Proc.devRef .tc r)) = V (Proc.devRef .tc r) :=
  after_of_writes_sub (H2 (F := Ideal)) V H2_hW hr

attribute [local irreducible] Host.reduceAdd Host.gather Host.scatterAdd in
set_option maxRecDepth 8192 in
set_option maxHeartbeats 400000 in
/-- After `H2` its last buffer holds the stage's function of the buffers the stage reads: each operation's
    result is read at its own buffer, every other buffer is passed over. -/
theorem H2_res0 (V : Valuation τ sig (Elt Ideal)) :
    after (H2 (F := Ideal)) V (Proc.devRef .tc main_v170) = lin2R (V (Proc.devRef .tc main_arg9)) (V (Proc.devRef .tc main_arg10)) (V (Proc.devRef .tc main_v166)) := by
  after_results_simp <;> rfl

theorem H2_res (V : Valuation τ sig (Elt Ideal)) :
    after (H2 (F := Ideal)) V (no_index (Proc.devRef .tc main_v170)) = lin2R (V (Proc.devRef .tc main_arg9)) (V (Proc.devRef .tc main_arg10)) (V (Proc.devRef .tc main_v166)) := H2_res0 V

end Cert.ReferenceIdeal.RefRun

end
-- ==== Proof.RefChunkHB.lean ====
/-
  The head's column normalisation as a list of host operations, and what it leaves in its last buffer:
  `bnR` of the head's scale and shift and the first linear map's result.
-/
import proofs.«113157_j3616362463713_1_alg».proof.Proof.RefOut
import proofs.«113157_j3616362463713_1_alg».proof.Proof.RefRunAux
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The head's column normalisation: means, variances, then (x − mean)·(var + ε)^(−1/2)·γ + β. -/
abbrev HB : List (HloOp τ sig (Elt F)) :=
  [ nullary main_cst_29 (constant S_ .f32 0x00000000#32),
    binary main_v147 main_cst_29 main_v148 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_30 (constant S_ .f32 0x47435000#32),
    unary main_cst_30 main_v149 (broadcastInDim S128 ![] bcast_S_S128 : (⟨S_, .f32⟩ : BufTy).Contents (Elt F) → (⟨S128, .f32⟩ : BufTy).Contents (Elt F)),
    binary main_v148 main_v149 main_v150 (Host.divf : (⟨S128, .f32⟩ : BufTy).Contents (Elt F) → (⟨S128, .f32⟩ : BufTy).Contents (Elt F) → (⟨S128, .f32⟩ : BufTy).Contents (Elt F)),
    nullary main_c_31 (constantI S_ 32 0#32),
    TRef.nullary main_call8.cst (constant S_ .f32 0x00000000#32),
    TRef.binary (.of main_v147 : TRef sig ⟨S50000x128, .f32⟩) main_call8.cst main_call8.v0 (fun x v => Host.reduceAdd x v reducesTo_S50000x128_S128_d0 h_S_),
    TRef.unary main_call8.v0 main_call8.v1 (broadcastInDim S1x128 ![1] bcast_S128_S1x128_1),
    TRef.nullary main_call8.cst_0 (constant S_ .f32 0x47435000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S50000x128 ![0, 1] bcast_S1x128_S50000x128_0_1),
    TRef.binary (.of main_v147 : TRef sig ⟨S50000x128, .f32⟩) main_call8.v4 main_call8.v5 subf,
    TRef.binary main_call8.v5 main_call8.v5 main_call8.v6 mulf,
    TRef.unary (.of main_c_31 : TRef sig ⟨S_, .i32⟩) main_call8.v7 (sitofp .f32),
    TRef.nullary main_call8.cst_1 (constant S_ .f32 0x47435000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S50000x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b),
    unary main_v150 main_v152 (broadcastInDim S1x128 ![1] bcast_S128_S1x128_1 : (⟨S128, .f32⟩ : BufTy).Contents (Elt F) → (⟨S1x128, .f32⟩ : BufTy).Contents (Elt F)),
    unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v147 main_v153 main_v154 (subf : (⟨S50000x128, .f32⟩ : BufTy).Contents (Elt F) → (⟨S50000x128, .f32⟩ : BufTy).Contents (Elt F) → (⟨S50000x128, .f32⟩ : BufTy).Contents (Elt F)),
    nullary main_cst_32 (constant S_ .f32 0x3727C5AC#32),
    unary main_cst_32 main_v155 (broadcastInDim S128 ![] bcast_S_S128 : (⟨S_, .f32⟩ : BufTy).Contents (Elt F) → (⟨S128, .f32⟩ : BufTy).Contents (Elt F)),
    binary main_v151 main_v155 main_v156 (addf : (⟨S128, .f32⟩ : BufTy).Contents (Elt F) → (⟨S128, .f32⟩ : BufTy).Contents (Elt F) → (⟨S128, .f32⟩ : BufTy).Contents (Elt F)),
    unary main_v156 main_v157 (Host.rsqrt : (⟨S128, .f32⟩ : BufTy).Contents (Elt F) → (⟨S128, .f32⟩ : BufTy).Contents (Elt F)),
    unary main_v157 main_v158 (broadcastInDim S1x128 ![1] bcast_S128_S1x128_1 : (⟨S128, .f32⟩ : BufTy).Contents (Elt F) → (⟨S1x128, .f32⟩ : BufTy).Contents (Elt F)),
    unary main_v158 main_v159 (broadcastInDim S50000x128 ![0, 1] bcast_S1x128_S50000x128_0_1 : (⟨S1x128, .f32⟩ : BufTy).Contents (Elt F) → (⟨S50000x128, .f32⟩ : BufTy).Contents (Elt F)),
    binary main_v154 main_v159 main_v160 (mulf : (⟨S50000x128, .f32⟩ : BufTy).Contents (Elt F) → (⟨S50000x128, .f32⟩ : BufTy).Contents (Elt F) → (⟨S50000x128, .f32⟩ : BufTy).Contents (Elt F)),
    unary main_arg7 main_v161 (broadcastInDim S1x128 ![1] bcast_S128_S1x128_1 : (⟨S128, .f32⟩ : BufTy).Contents (Elt F) → (⟨S1x128, .f32⟩ : BufTy).Contents (Elt F)),
    unary main_v161 main_v162 (broadcastInDim S50000x128 ![0, 1] bcast_S1x128_S50000x128_0_1 : (⟨S1x128, .f32⟩ : BufTy).Contents (Elt F) → (⟨S50000x128, .f32⟩ : BufTy).Contents (Elt F)),
    binary main_v160 main_v162 main_v163 (mulf : (⟨S50000x128, .f32⟩ : BufTy).Contents (Elt F) → (⟨S50000x128, .f32⟩ : BufTy).Contents (Elt F) → (⟨S50000x128, .f32⟩ : BufTy).Contents (Elt F)),
    unary main_arg8 main_v164 (broadcastInDim S1x128 ![1] bcast_S128_S1x128_1 : (⟨S128, .f32⟩ : BufTy).Contents (Elt F) → (⟨S1x128, .f32⟩ : BufTy).Contents (Elt F)),
    unary main_v164 main_v165 (broadcastInDim S50000x128 ![0, 1] bcast_S1x128_S50000x128_0_1 : (⟨S1x128, .f32⟩ : BufTy).Contents (Elt F) → (⟨S50000x128, .f32⟩ : BufTy).Contents (Elt F)),
    binary main_v163 main_v165 main_v166 (addf : (⟨S50000x128, .f32⟩ : BufTy).Contents (Elt F) → (⟨S50000x128, .f32⟩ : BufTy).Contents (Elt F) → (⟨S50000x128, .f32⟩ : BufTy).Contents (Elt F)) ]

/-- The buffers the operations of `HB` write, in order. -/
abbrev HB_W : List (Ref sig .tc) :=
  [main_cst_29, main_v148, main_cst_30, main_v149, main_v150, main_c_31, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v151, main_v152, main_v153, main_v154, main_cst_32, main_v155, main_v156, main_v157, main_v158, main_v159, main_v160, main_v161, main_v162, main_v163, main_v164, main_v165, main_v166]

theorem HB_hW : (HB (F := F)).Forall fun op => op.writes ⊆ ((HB_W).map (Proc.devRef (τ := τ) .tc)).toFinset :=
  ⟨writes_sub_of_mem main_cst_29 rfl (by decide),
   writes_sub_of_mem main_v148 rfl (by decide),
   writes_sub_of_mem main_cst_30 rfl (by decide),
   writes_sub_of_mem main_v149 rfl (by decide),
   writes_sub_of_mem main_v150 rfl (by decide),
   writes_sub_of_mem main_c_31 rfl (by decide),
   writes_sub_of_mem main_call8_cst rfl (by decide),
   writes_sub_of_mem main_call8_v0 rfl (by decide),
   writes_sub_of_mem main_call8_v1 rfl (by decide),
   writes_sub_of_mem main_call8_cst_0 rfl (by decide),
   writes_sub_of_mem main_call8_v2 rfl (by decide),
   writes_sub_of_mem main_call8_v3 rfl (by decide),
   writes_sub_of_mem main_call8_v4 rfl (by decide),
   writes_sub_of_mem main_call8_v5 rfl (by decide),
   writes_sub_of_mem main_call8_v6 rfl (by decide),
   writes_sub_of_mem main_call8_v7 rfl (by decide),
   writes_sub_of_mem main_call8_cst_1 rfl (by decide),
   writes_sub_of_mem main_call8_v8 rfl (by decide),
   writes_sub_of_mem main_call8_cst_2 rfl (by decide),
   writes_sub_of_mem main_call8_v9 rfl (by decide),
   writes_sub_of_mem main_call8_v10 rfl (by decide),
   writes_sub_of_mem main_call8_v11 rfl (by decide),
   writes_sub_of_mem main_call8_cst_3 rfl (by decide),
   writes_sub_of_mem main_call8_v12 rfl (by decide),
   writes_sub_of_mem main_call8_cst_4 rfl (by decide),
   writes_sub_of_mem main_call8_call0_v0 rfl (by decide),
   writes_sub_of_mem main_call8_call0_v1 rfl (by decide),
   writes_sub_of_mem main_v151 rfl (by decide),
   writes_sub_of_mem main_v152 rfl (by decide),
   writes_sub_of_mem main_v153 rfl (by decide),
   writes_sub_of_mem main_v154 rfl (by decide),
   writes_sub_of_mem main_cst_32 rfl (by decide),
   writes_sub_of_mem main_v155 rfl (by decide),
   writes_sub_of_mem main_v156 rfl (by decide),
   writes_sub_of_mem main_v157 rfl (by decide),
   writes_sub_of_mem main_v158 rfl (by decide),
   writes_sub_of_mem main_v159 rfl (by decide),
   writes_sub_of_mem main_v160 rfl (by decide),
   writes_sub_of_mem main_v161 rfl (by decide),
   writes_sub_of_mem main_v162 rfl (by decide),
   writes_sub_of_mem main_v163 rfl (by decide),
   writes_sub_of_mem main_v164 rfl (by decide),
   writes_sub_of_mem main_v165 rfl (by decide),
   writes_sub_of_mem main_v166 rfl (by decide)⟩

/-- A buffer that `HB` does not write holds after it what it held before. -/
theorem HB_frame (V : Valuation τ sig (Elt Ideal)) {r : Ref sig .tc} (hr : r ∉ HB_W) :
    after (HB (F := Ideal)) V (no_index (Proc.devRef .tc r)) = V (Proc.devRef .tc r) :=
  after_of_writes_sub (HB (F := Ideal)) V HB_hW hr

attribute [local irreducible] Host.reduceAdd Host.gather Host.scatterAdd in
set_option maxRecDepth 8192 in
set_option maxHeartbeats 400000 in
/-- After `HB` its last buffer holds the stage's function of the buffers the stage reads: each operation's
    result is read at its own buffer, every other buffer is passed over. -/
theorem HB_res0 (V : Valuation τ sig (Elt Ideal)) :
    after (HB (F := Ideal)) V (Proc.devRef .tc main_v166) = RefOut.bnR (V (Proc.devRef .tc main_arg7)) (V (Proc.devRef .tc main_arg8)) (V (Proc.devRef .tc main_v147)) := by
  after_results_simp <;> rfl

theorem HB_res (V : Valuation τ sig (Elt Ideal)) :
    after (HB (F := Ideal)) V (no_index (Proc.devRef .tc main_v166)) = RefOut.bnR (V (Proc.devRef .tc main_arg7)) (V (Proc.devRef .tc main_arg8)) (V (Proc.devRef .tc main_v147)) := HB_res0 V

end Cert.ReferenceIdeal.RefRun

end
-- ==== Proof.RefRun.lean ====
/-
  The run of the reference program.

  @main is four printed windows run in order; each equals a list of host operations (the outlined functions'
  operations in their calls' places), so @main is the concatenation run as one straight line.  The same 319
  operations, cut instead at the stages of the network — the degree weights; for each of the four layers the
  neighbour sum, the column normalisation and the rectifier; the head's linear map, normalisation and second
  linear map — leave in each stage's last buffer that stage's function of what the stage reads, and leave
  every buffer a stage does not write as it was.  Reading the result buffer back through the sixteen stages
  gives the whole network `RefOut.out` of the eleven argument arrays, and no operation writes an argument.
-/
import proofs.«113157_j3616362463713_1_alg».proof.Proof.RefPart0
import proofs.«113157_j3616362463713_1_alg».proof.Proof.RefPart1
import proofs.«113157_j3616362463713_1_alg».proof.Proof.RefPart2
import proofs.«113157_j3616362463713_1_alg».proof.Proof.RefPart3
import proofs.«113157_j3616362463713_1_alg».proof.Proof.RefChunkC0
import proofs.«113157_j3616362463713_1_alg».proof.Proof.RefChunkA1
import proofs.«113157_j3616362463713_1_alg».proof.Proof.RefChunkBN1
import proofs.«113157_j3616362463713_1_alg».proof.Proof.RefChunkA2
import proofs.«113157_j3616362463713_1_alg».proof.Proof.RefChunkBN2
import proofs.«113157_j3616362463713_1_alg».proof.Proof.RefChunkA3
import proofs.«113157_j3616362463713_1_alg».proof.Proof.RefChunkBN3
import proofs.«113157_j3616362463713_1_alg».proof.Proof.RefChunkA4
import proofs.«113157_j3616362463713_1_alg».proof.Proof.RefChunkBN4
import proofs.«113157_j3616362463713_1_alg».proof.Proof.RefChunkH
import proofs.«113157_j3616362463713_1_alg».proof.Proof.RefChunkHB
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The four windows' operations, in order. -/
abbrev opsP : List (HloOp τ sig (Elt F)) := P0 ++ (P1 ++ (P2 ++ (P3)))

/-- The same operations cut at the network's stages. -/
abbrev opsC : List (HloOp τ sig (Elt F)) :=
  C0 ++ (A1 ++ (BN1 ++ (R1 ++ (A2 ++ (BN2 ++ (R2 ++ (A3 ++ (BN3 ++ (R3 ++ (A4 ++ (BN4 ++ (R4 ++ (H1 ++ (HB ++ (H2)))))))))))))))

set_option maxRecDepth 16384 in
/-- The two cuts are of one list. -/
theorem opsP_eq_opsC : (opsP (F := F)) = opsC := rfl

/-- @main is the straight line of its windows' operations. -/
theorem main_eq (c : Dev nD) : main (F := F) c = seq opsP := by
  rw [show main (F := F) c = (main_part0 c >>= fun _ => main_part1 c >>= fun _ => main_part2 c >>= fun _ => main_part3 c) from rfl,
    part0_eq, part1_eq, part2_eq, part3_eq, seq_append, seq_append, seq_append]

theorem scopedRefs_eq : (Finset.univ.filter fun b : Ref sig .tc => b.isScoped) = ∅ := by decide
theorem scopedSems_eq : (Finset.univ.filter fun sm : SemLoc sig => sm.isScoped .tc) = ∅ := by decide

theorem opsP_sub : (opsP (F := F)).Forall fun op => op.bufs ⊆ tcRefs τ sig :=
  List.forall_iff_forall_mem.mpr fun op h => by
    rcases List.mem_append.mp h with h | h
    · exact forall_mem_of_Forall P0_sub op h
    rcases List.mem_append.mp h with h | h
    · exact forall_mem_of_Forall P1_sub op h
    rcases List.mem_append.mp h with h | h
    · exact forall_mem_of_Forall P2_sub op h
    · exact forall_mem_of_Forall P3_sub op h

theorem opsP_fresh : ∀ op ∈ (opsP (F := F)), op.fresh = ∅ := fun op h => by
    rcases List.mem_append.mp h with h | h
    · exact forall_mem_of_Forall P0_fresh op h
    rcases List.mem_append.mp h with h | h
    · exact forall_mem_of_Forall P1_fresh op h
    rcases List.mem_append.mp h with h | h
    · exact forall_mem_of_Forall P2_fresh op h
    · exact forall_mem_of_Forall P3_fresh op h

set_option maxRecDepth 8192 in
set_option maxHeartbeats 400000 in
/-- The result buffer after all the stages: each stage's last buffer is its function of what it reads, the other
    buffers pass through the stages that do not write them; composed, the whole network of the arguments. -/
theorem out_eq (V : Valuation τ sig (Elt Ideal)) :
    after (opsC (F := Ideal)) V (Proc.devRef .tc main_v170)
      = RefOut.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  simp (disch := decide) only [after_append, C0_res, A1_res, BN1_res, R1_res, A2_res, BN2_res, R2_res, A3_res, BN3_res, R3_res, A4_res, BN4_res, R4_res, H1_res, HB_res, H2_res, C0_frame, A1_frame, BN1_frame, R1_frame, A2_frame, BN2_frame, R2_frame, A3_frame, BN3_frame, R3_frame, A4_frame, BN4_frame, R4_frame, H1_frame, HB_frame, H2_frame]
  rfl

theorem main_arg0_eq (V : Valuation τ sig (Elt Ideal)) : after (opsC (F := Ideal)) V (Proc.devRef .tc main_arg0) = V (Proc.devRef .tc main_arg0) := by
  simp (disch := decide) only [after_append, C0_frame, A1_frame, BN1_frame, R1_frame, A2_frame, BN2_frame, R2_frame, A3_frame, BN3_frame, R3_frame, A4_frame, BN4_frame, R4_frame, H1_frame, HB_frame, H2_frame]

theorem main_arg1_eq (V : Valuation τ sig (Elt Ideal)) : after (opsC (F := Ideal)) V (Proc.devRef .tc main_arg1) = V (Proc.devRef .tc main_arg1) := by
  simp (disch := decide) only [after_append, C0_frame, A1_frame, BN1_frame, R1_frame, A2_frame, BN2_frame, R2_frame, A3_frame, BN3_frame, R3_frame, A4_frame, BN4_frame, R4_frame, H1_frame, HB_frame, H2_frame]

theorem main_arg2_eq (V : Valuation τ sig (Elt Ideal)) : after (opsC (F := Ideal)) V (Proc.devRef .tc main_arg2) = V (Proc.devRef .tc main_arg2) := by
  simp (disch := decide) only [after_append, C0_frame, A1_frame, BN1_frame, R1_frame, A2_frame, BN2_frame, R2_frame, A3_frame, BN3_frame, R3_frame, A4_frame, BN4_frame, R4_frame, H1_frame, HB_frame, H2_frame]

theorem main_arg3_eq (V : Valuation τ sig (Elt Ideal)) : after (opsC (F := Ideal)) V (Proc.devRef .tc main_arg3) = V (Proc.devRef .tc main_arg3) := by
  simp (disch := decide) only [after_append, C0_frame, A1_frame, BN1_frame, R1_frame, A2_frame, BN2_frame, R2_frame, A3_frame, BN3_frame, R3_frame, A4_frame, BN4_frame, R4_frame, H1_frame, HB_frame, H2_frame]

theorem main_arg4_eq (V : Valuation τ sig (Elt Ideal)) : after (opsC (F := Ideal)) V (Proc.devRef .tc main_arg4) = V (Proc.devRef .tc main_arg4) := by
  simp (disch := decide) only [after_append, C0_frame, A1_frame, BN1_frame, R1_frame, A2_frame, BN2_frame, R2_frame, A3_frame, BN3_frame, R3_frame, A4_frame, BN4_frame, R4_frame, H1_frame, HB_frame, H2_frame]

theorem main_arg5_eq (V : Valuation τ sig (Elt Ideal)) : after (opsC (F := Ideal)) V (Proc.devRef .tc main_arg5) = V (Proc.devRef .tc main_arg5) := by
  simp (disch := decide) only [after_append, C0_frame, A1_frame, BN1_frame, R1_frame, A2_frame, BN2_frame, R2_frame, A3_frame, BN3_frame, R3_frame, A4_frame, BN4_frame, R4_frame, H1_frame, HB_frame, H2_frame]

theorem main_arg6_eq (V : Valuation τ sig (Elt Ideal)) : after (opsC (F := Ideal)) V (Proc.devRef .tc main_arg6) = V (Proc.devRef .tc main_arg6) := by
  simp (disch := decide) only [after_append, C0_frame, A1_frame, BN1_frame, R1_frame, A2_frame, BN2_frame, R2_frame, A3_frame, BN3_frame, R3_frame, A4_frame, BN4_frame, R4_frame, H1_frame, HB_frame, H2_frame]

theorem main_arg7_eq (V : Valuation τ sig (Elt Ideal)) : after (opsC (F := Ideal)) V (Proc.devRef .tc main_arg7) = V (Proc.devRef .tc main_arg7) := by
  simp (disch := decide) only [after_append, C0_frame, A1_frame, BN1_frame, R1_frame, A2_frame, BN2_frame, R2_frame, A3_frame, BN3_frame, R3_frame, A4_frame, BN4_frame, R4_frame, H1_frame, HB_frame, H2_frame]

theorem main_arg8_eq (V : Valuation τ sig (Elt Ideal)) : after (opsC (F := Ideal)) V (Proc.devRef .tc main_arg8) = V (Proc.devRef .tc main_arg8) := by
  simp (disch := decide) only [after_append, C0_frame, A1_frame, BN1_frame, R1_frame, A2_frame, BN2_frame, R2_frame, A3_frame, BN3_frame, R3_frame, A4_frame, BN4_frame, R4_frame, H1_frame, HB_frame, H2_frame]

theorem main_arg9_eq (V : Valuation τ sig (Elt Ideal)) : after (opsC (F := Ideal)) V (Proc.devRef .tc main_arg9) = V (Proc.devRef .tc main_arg9) := by
  simp (disch := decide) only [after_append, C0_frame, A1_frame, BN1_frame, R1_frame, A2_frame, BN2_frame, R2_frame, A3_frame, BN3_frame, R3_frame, A4_frame, BN4_frame, R4_frame, H1_frame, HB_frame, H2_frame]

theorem main_arg10_eq (V : Valuation τ sig (Elt Ideal)) : after (opsC (F := Ideal)) V (Proc.devRef .tc main_arg10) = V (Proc.devRef .tc main_arg10) := by
  simp (disch := decide) only [after_append, C0_frame, A1_frame, BN1_frame, R1_frame, A2_frame, BN2_frame, R2_frame, A3_frame, BN3_frame, R3_frame, A4_frame, BN4_frame, R4_frame, H1_frame, HB_frame, H2_frame]

/-- On every device, from any memory with zero counters: every weakly fair execution of the reference's @main
    terminates with the result buffer at the whole network of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v170) = RefOut.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v170).trans (by rw [opsP_eq_opsC]; exact out_eq _),
      (h c main_arg0).trans (by rw [opsP_eq_opsC]; exact main_arg0_eq _),
      (h c main_arg1).trans (by rw [opsP_eq_opsC]; exact main_arg1_eq _),
      (h c main_arg2).trans (by rw [opsP_eq_opsC]; exact main_arg2_eq _),
      (h c main_arg3).trans (by rw [opsP_eq_opsC]; exact main_arg3_eq _),
      (h c main_arg4).trans (by rw [opsP_eq_opsC]; exact main_arg4_eq _),
      (h c main_arg5).trans (by rw [opsP_eq_opsC]; exact main_arg5_eq _),
      (h c main_arg6).trans (by rw [opsP_eq_opsC]; exact main_arg6_eq _),
      (h c main_arg7).trans (by rw [opsP_eq_opsC]; exact main_arg7_eq _),
      (h c main_arg8).trans (by rw [opsP_eq_opsC]; exact main_arg8_eq _),
      (h c main_arg9).trans (by rw [opsP_eq_opsC]; exact main_arg9_eq _),
      (h c main_arg10).trans (by rw [opsP_eq_opsC]; exact main_arg10_eq _)⟩)
    (run_seq scopedRefs_eq scopedSems_eq defs main (fun _ => opsP) main_eq (fun _ => opsP_sub) m ρ (fun _ => opsP_fresh))

end Cert.ReferenceIdeal.RefRun

end
-- ==== Proof.LibColCast.lean ====
/-
  A vector made a column, two ways.

  A vector of length a can be turned into an a×1 column by reshaping it or by broadcasting it along the rows of a
  one-column matrix. Entry (r, 0) of either column is entry r of the vector, so the two columns are one array.
-/
import Idealize.ShloMosaic.Lib.ValueIdx
import Idealize.ShloMosaic.Lib.ValueLayout
import Idealize.ShloMosaic.Lib.Pipeline.Value

noncomputable section

namespace Cert.LibColCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector broadcast along the rows of a one-column matrix reads, at `(i, u)`, the vector at `i`. -/
theorem bcastCol_apply {a : ℕ} (ha : a ≠ 1) (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by show i.val = if a = 1 then 0 else i.val; rw [if_neg ha])

/-- The reshaped column and the broadcast column are the same array. -/
theorem castCol_eq {a : ℕ} (ha : a ≠ 1) (x : (⟨1, ![a]⟩ : Shape).Idx → α) (hc : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x hc = broadcastInDim ⟨2, ![a, 1]⟩ ![0] hb x := by
  funext j
  obtain ⟨i, u, rfl⟩ : ∃ (i : Fin a) (u : Fin 1), j = ix2 i u := ⟨j 0, j 1, eq_ix2 j⟩
  rw [shapeCast_a_a1_apply, bcastCol_apply ha]

end Cert.LibColCast

end
-- ==== Proof.Glue.lean ====
/-
  The two programs' host-side maps are the same maps.

  Both programs count the degrees, take the degree weights and sum neighbours' rows with the same operations, each
  printed with its own copy of the dimension records; and each makes a column from the weight vector and a row from a
  parameter vector, one by reshaping and the other by broadcasting. Entry by entry these are the same arrays.
-/
import proofs.«113157_j3616362463713_1_alg».proof.Proof.KDefs
import proofs.«113157_j3616362463713_1_alg».proof.Proof.RefOut
import proofs.«113157_j3616362463713_1_alg».proof.Proof.LibColCast
import proofs.«113157_j3616362463713_1_alg».proof.Proof.LibBiasRows

noncomputable section

namespace Cert.Glue

open Idealize.ShloMosaic

/-- The neighbour sums agree: the same gather and scatter-add. -/
theorem aggR_eq_aggK (src dst : Cert.KernelIdeal.KDefs.Idx) (p : FVec Ideal Cert.KernelIdeal.S50000x128 .f32) :
    Cert.ReferenceIdeal.RefOut.aggR src dst p = Cert.KernelIdeal.KDefs.aggK src dst p := rfl

/-- The degree columns agree: the reshaped weight vector is the broadcast one. -/
theorem nrmR_eq_nrmK (dst : Cert.KernelIdeal.KDefs.Idx) :
    Cert.ReferenceIdeal.RefOut.nrmR dst = Cert.KernelIdeal.KDefs.nrmK dst := by
  unfold Cert.ReferenceIdeal.RefOut.nrmR Cert.KernelIdeal.KDefs.nrmK
  exact (Cert.LibColCast.castCol_eq (a := 50000) (by decide) _ _ _).symm

/-- A parameter vector as a row, broadcast or reshaped. -/
theorem rowR_eq_rowK (g : FVec Ideal Cert.KernelIdeal.S128 .f32) :
    Cert.ReferenceIdeal.RefOut.rowR g = Cert.KernelIdeal.KDefs.rowK g := by
  unfold Cert.ReferenceIdeal.RefOut.rowR Cert.KernelIdeal.KDefs.rowK
  exact (Cert.LibBiasRows.castRow_eq (N := 128) g _ _).symm

/-- The last bias vector as a row, broadcast or reshaped. -/
theorem rowR40_eq_rowK40 (g : FVec Ideal Cert.KernelIdeal.S40 .f32) :
    Cert.ReferenceIdeal.RefOut.rowR40 g = Cert.KernelIdeal.KDefs.rowK40 g := by
  unfold Cert.ReferenceIdeal.RefOut.rowR40 Cert.KernelIdeal.KDefs.rowK40
  exact (Cert.LibBiasRows.castRow_eq (N := 40) g _ _).symm

end Cert.Glue

end
-- ==== Proof.Alg.lean ====
/-
  The two arrangements of the network agree on arrays of real numbers.

  For a column x_1 … x_n of real numbers with sum S, sum of squares Q and mean μ = S/n,

      Σ_r (x_r − μ)² = Q − 2μS + nμ² = Q − S²/n,      so      (Σ_r (x_r − μ)²)/n = Q/n − μ².

  The left side is the mean of the squared deviations, the right side the mean of the squares minus the
  square of the mean.  On the extended reals the identity needs every entry to be a real number (an infinite
  entry makes both sides junk of different kinds), so the proof carries along that every stage of the
  network maps real arrays to real arrays: products, sums, differences and maxima of reals are real, a
  quotient by 50000 is a product with 1/50000, and the variance of a real column is a real number ≥ 0, so
  variance + ε is a positive real and its inverse square root is real.
-/
import proofs.«113157_j3616362463713_1_alg».proof.Proof.SpecNet

noncomputable section

open scoped BigOperators

namespace Cert.Spec.Alg

open Idealize.ShloMosaic Idealize.ShloMosaic.ValueIdx

variable {M N K : Nat}

/-! ### The constants -/

/-- The printed number of rows is the real number 50000. -/
theorem n50k_eq : n50k = ((50000 : ℝ) : EReal) := by
  simp [Ideal.ofBits, Ideal.ieee, -EReal.coe_mul]; norm_num

/-- The printed zero is 0. -/
theorem z32_eq : z32 = 0 := by
  simp [Ideal.ofBits, Ideal.ieee]

/-- The variance offset ε is a positive real number (10995116 · 2⁻⁴⁰, about 10⁻⁵). -/
theorem eps_eq : ∃ e : ℝ, 0 < e ∧ eps = (e : EReal) := by
  refine ⟨10995116 * (2 : ℝ) ^ (-40 : ℤ), by positivity, ?_⟩
  simp [Ideal.ofBits, Ideal.ieee, -EReal.coe_mul]

/-! ### Real entries -/

/-- An extended real that is a real number. -/
def IsR (x : EReal) : Prop := x ≠ ⊤ ∧ x ≠ ⊥

theorem isR_coe (r : ℝ) : IsR (r : EReal) := ⟨EReal.coe_ne_top r, EReal.coe_ne_bot r⟩

theorem IsR.exists {x : EReal} (h : IsR x) : ∃ r : ℝ, x = (r : EReal) :=
  ⟨x.toReal, (EReal.coe_toReal h.1 h.2).symm⟩

theorem IsR.mul {x y : EReal} (hx : IsR x) (hy : IsR y) : IsR (x * y) := by
  obtain ⟨a, rfl⟩ := hx.exists
  obtain ⟨b, rfl⟩ := hy.exists
  rw [← EReal.coe_mul]; exact isR_coe _

theorem IsR.add {x y : EReal} (hx : IsR x) (hy : IsR y) : IsR (x + y) := by
  obtain ⟨a, rfl⟩ := hx.exists
  obtain ⟨b, rfl⟩ := hy.exists
  rw [← EReal.coe_add]; exact isR_coe _

theorem IsR.sub {x y : EReal} (hx : IsR x) (hy : IsR y) : IsR (x - y) := by
  obtain ⟨a, rfl⟩ := hx.exists
  obtain ⟨b, rfl⟩ := hy.exists
  rw [← EReal.coe_sub]; exact isR_coe _

theorem IsR.max {x y : EReal} (hx : IsR x) (hy : IsR y) : IsR (max x y) := by
  rcases max_choice x y with h | h <;> rw [h] <;> assumption

theorem isR_zero : IsR (0 : EReal) := by
  rw [← EReal.coe_zero]; exact isR_coe 0

theorem isR_z32 : IsR z32 := by
  rw [z32_eq]; exact isR_zero

/-- A finite sum of real numbers is real. -/
theorem isR_sum {ι : Type} (s : Finset ι) (f : ι → EReal) (h : ∀ i ∈ s, IsR (f i)) : IsR (∑ i ∈ s, f i) := by
  classical
  revert h
  refine Finset.induction_on s ?_ ?_
  · intro _
    rw [Finset.sum_empty]; exact isR_zero
  · intro a s ha ih h
    rw [Finset.sum_insert ha]
    exact (h a (Finset.mem_insert_self a s)).add (ih fun i hi => h i (Finset.mem_insert_of_mem hi))

/-- The inclusion of the reals commutes with finite sums. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A real number divided by the number of rows is real. -/
theorem isR_div_n {x : EReal} (hx : IsR x) : IsR (Ideal.div x n50k) := by
  rw [n50k_eq, Ideal.div_coe (by norm_num)]
  exact hx.mul (isR_coe _)

/-! ### The identity on one column -/

/-- Over the reals: mean of squares minus square of the mean is the mean of the squared deviations, when the
    divisor n is the number of terms. -/
theorem var_real (x : Fin M → ℝ) (n : ℝ) (hn : (M : ℝ) = n) (hn0 : n ≠ 0) :
    (∑ r, x r * x r) * (1 / n) - (∑ r, x r) * (1 / n) * ((∑ r, x r) * (1 / n))
      = (∑ r, (x r - (∑ r, x r) * (1 / n)) * (x r - (∑ r, x r) * (1 / n))) * (1 / n) := by
  have h1 : ∀ μ : ℝ, ∑ r, (x r - μ) * (x r - μ) = (∑ r, x r * x r) - 2 * μ * (∑ r, x r) + n * (μ * μ) := by
    intro μ
    have h2 : ∀ r, (x r - μ) * (x r - μ) = x r * x r - 2 * μ * x r + μ * μ := fun r => by ring
    simp only [h2, Finset.sum_add_distrib, Finset.sum_sub_distrib, ← Finset.mul_sum, Finset.sum_const,
      Finset.card_univ, Fintype.card_fin, nsmul_eq_mul, hn]
    ring
  rw [h1]
  field_simp
  ring

/-- The same on the extended reals, for a column of 50000 real numbers and the printed divisor. -/
theorem var_col (x : Fin 50000 → ℝ) :
    Ideal.div (∑ r, (x r : EReal) * (x r : EReal)) n50k
        - Ideal.div (∑ r, (x r : EReal)) n50k * Ideal.div (∑ r, (x r : EReal)) n50k
      = Ideal.div (∑ r, ((x r : EReal) - Ideal.div (∑ r, (x r : EReal)) n50k)
          * ((x r : EReal) - Ideal.div (∑ r, (x r : EReal)) n50k)) n50k := by
  have h5 : (50000 : ℝ) ≠ 0 := by norm_num
  rw [n50k_eq]
  simp only [Ideal.div_coe h5, ← coe_sum, ← EReal.coe_mul, ← EReal.coe_sub]
  exact congrArg (fun t : ℝ => (t : EReal)) (var_real x 50000 (by norm_num) h5)

/-! ### Every stage keeps arrays real -/

theorem kmean_apply (s : Mat 1 N) (j : (⟨2, ![1, N]⟩ : Shape).Idx) : kmean s j = Ideal.div (s j) n50k := rfl

theorem kvar_apply (s ss : Mat 1 N) (j : (⟨2, ![1, N]⟩ : Shape).Idx) :
    kvar s ss j = Ideal.div (ss j) n50k - kmean s j * kmean s j := rfl

theorem isReal_rowScale (X : Mat M N) (n : Mat M 1) (hX : IsReal X) (hn : IsReal n) : IsReal (rowScale X n) := by
  intro i
  obtain ⟨r, c, rfl⟩ : ∃ (r : Fin M) (c : Fin N), i = ix2 r c := ⟨i 0, i 1, eq_ix2 i⟩
  rw [rowScale_ix2]
  exact IsR.mul (hX _) (hn _)

theorem isReal_colSum (X : Mat M N) (hX : IsReal X) : IsReal (colSum X) := by
  intro j
  obtain ⟨u, c, rfl⟩ : ∃ (u : Fin 1) (c : Fin N), j = ix2 u c := ⟨j 0, j 1, eq_ix2 j⟩
  rw [colSum_ix2]
  exact isR_sum _ _ fun r _ => hX _

theorem isReal_colSumSq (X : Mat M N) (hX : IsReal X) : IsReal (colSumSq X) := by
  intro j
  obtain ⟨u, c, rfl⟩ : ∃ (u : Fin 1) (c : Fin N), j = ix2 u c := ⟨j 0, j 1, eq_ix2 j⟩
  rw [colSumSq_ix2]
  exact isR_sum _ _ fun r _ => IsR.mul (hX _) (hX _)

theorem isReal_kmean (s : Mat 1 N) (hs : IsReal s) : IsReal (kmean s) := fun j => isR_div_n (hs j)

/-- The mean of the squared deviations of a real column is a real number ≥ 0. -/
theorem dvar_nonneg (X : Mat M N) (hX : IsReal X) (j : (⟨2, ![1, N]⟩ : Shape).Idx) :
    ∃ v : ℝ, 0 ≤ v ∧ dvar X j = (v : EReal) := by
  obtain ⟨u, c, rfl⟩ : ∃ (u : Fin 1) (c : Fin N), j = ix2 u c := ⟨j 0, j 1, eq_ix2 j⟩
  obtain ⟨m, hm⟩ := IsR.exists (isReal_kmean _ (isReal_colSum X hX) (ix2 u c))
  choose x hx using fun r : Fin M => IsR.exists (x := X (ix2 r c)) (hX (ix2 r c))
  have key : dvar X (ix2 u c) = (((∑ r, (x r - m) * (x r - m)) * (1 / 50000) : ℝ) : EReal) := by
    rw [dvar_ix2, hm, n50k_eq, Ideal.div_coe (by norm_num)]
    simp only [hx, ← EReal.coe_sub, ← EReal.coe_mul, ← coe_sum]
  exact ⟨_, mul_nonneg (Finset.sum_nonneg fun r _ => mul_self_nonneg _) (by norm_num), key⟩

/-- One normalised entry is real when the variance is a real number ≥ 0. -/
theorem isR_bn1 {x μ v γ β : EReal} (hx : IsR x) (hμ : IsR μ) (hv : ∃ w : ℝ, 0 ≤ w ∧ v = (w : EReal))
    (hγ : IsR γ) (hβ : IsR β) : IsR (bn1 x μ v γ β) := by
  obtain ⟨w, hw, rfl⟩ := hv
  obtain ⟨e, he, hee⟩ := eps_eq
  have hpos : 0 < w + e := by linarith
  have hr : IsR (Ideal.rsqrt ((w : EReal) + eps)) := by
    rw [hee, ← EReal.coe_add, Ideal.rsqrt_coe, if_neg (not_lt.mpr hpos.le), if_neg hpos.ne']
    exact isR_coe _
  exact (((hx.sub hμ).mul hr).mul hγ).add hβ

theorem isReal_bn (X : Mat M N) (μ v γ β : Mat 1 N) (hX : IsReal X) (hμ : IsReal μ)
    (hv : ∀ j, ∃ w : ℝ, 0 ≤ w ∧ v j = (w : EReal)) (hγ : IsReal γ) (hβ : IsReal β) : IsReal (bn X μ v γ β) := by
  intro i
  obtain ⟨r, c, rfl⟩ : ∃ (r : Fin M) (c : Fin N), i = ix2 r c := ⟨i 0, i 1, eq_ix2 i⟩
  rw [bn_ix2]
  exact isR_bn1 (hX _) (hμ _) (hv _) (hγ _) (hβ _)

theorem isReal_bnRelu (X : Mat M N) (μ v γ β : Mat 1 N) (hX : IsReal X) (hμ : IsReal μ)
    (hv : ∀ j, ∃ w : ℝ, 0 ≤ w ∧ v j = (w : EReal)) (hγ : IsReal γ) (hβ : IsReal β) : IsReal (bnRelu X μ v γ β) := by
  intro i
  obtain ⟨r, c, rfl⟩ : ∃ (r : Fin M) (c : Fin N), i = ix2 r c := ⟨i 0, i 1, eq_ix2 i⟩
  rw [bnRelu_ix2]
  exact IsR.max (isR_bn1 (hX _) (hμ _) (hv _) (hγ _) (hβ _)) isR_z32

theorem isReal_linBias (X : Mat M K) (W : Mat K N) (b : Mat 1 N) (hX : IsReal X) (hW : IsReal W) (hb : IsReal b) :
    IsReal (linBias X W b) := by
  intro i
  obtain ⟨r, c, rfl⟩ : ∃ (r : Fin M) (c : Fin N), i = ix2 r c := ⟨i 0, i 1, eq_ix2 i⟩
  rw [linBias_ix2]
  exact IsR.add (isR_sum _ _ fun k _ => IsR.mul (hX _) (hW _)) (hb _)

theorem isReal_dAct (X : Mat M N) (γ β : Mat 1 N) (hX : IsReal X) (hγ : IsReal γ) (hβ : IsReal β) :
    IsReal (dAct X γ β) :=
  isReal_bnRelu X _ _ γ β hX (isReal_kmean _ (isReal_colSum X hX)) (dvar_nonneg X hX) hγ hβ

theorem isReal_dHead (H : Mat M K) (W1 : Mat K K) (b1 γ2 β2 : Mat 1 K) (W2 : Mat K N) (b2 : Mat 1 N)
    (hH : IsReal H) (hW1 : IsReal W1) (hb1 : IsReal b1) (hγ2 : IsReal γ2) (hβ2 : IsReal β2) (hW2 : IsReal W2)
    (hb2 : IsReal b2) : IsReal (dHead H W1 b1 γ2 β2 W2 b2) := by
  have hL : IsReal (linBias H W1 b1) := isReal_linBias H W1 b1 hH hW1 hb1
  exact isReal_linBias _ W2 b2
    (isReal_bn _ _ _ γ2 β2 hL (isReal_kmean _ (isReal_colSum _ hL)) (dvar_nonneg _ hL) hγ2 hβ2) hW2 hb2

/-! ### The two variances, activations, heads and networks agree -/

/-- On a real array of 50000 rows the two variance rows are equal. -/
theorem kvar_eq_dvar (X : Mat 50000 N) (hX : IsReal X) : kvar (colSum X) (colSumSq X) = dvar X := by
  funext j
  obtain ⟨u, c, rfl⟩ : ∃ (u : Fin 1) (c : Fin N), j = ix2 u c := ⟨j 0, j 1, eq_ix2 j⟩
  choose x hx using fun r : Fin 50000 => IsR.exists (x := X (ix2 r c)) (hX (ix2 r c))
  rw [kvar_apply, dvar_ix2, kmean_apply, colSum_ix2, colSumSq_ix2]
  simp only [hx]
  exact var_col x

theorem kAct_eq_dAct (X : Mat 50000 N) (γ β : Mat 1 N) (hX : IsReal X) : kAct X γ β = dAct X γ β := by
  unfold kAct dAct
  rw [kvar_eq_dvar X hX]

theorem kHead_eq_dHead (H : Mat 50000 K) (W1 : Mat K K) (b1 γ2 β2 : Mat 1 K) (W2 : Mat K N) (b2 : Mat 1 N)
    (hH : IsReal H) (hW1 : IsReal W1) (hb1 : IsReal b1) :
    kHead H W1 b1 γ2 β2 W2 b2 = dHead H W1 b1 γ2 β2 W2 b2 := by
  unfold kHead dHead
  rw [kvar_eq_dvar _ (isReal_linBias H W1 b1 hH hW1 hb1)]

end Cert.Spec.Alg

namespace Cert.Spec

open Idealize.ShloMosaic Idealize.ShloMosaic.ValueIdx Alg

/-- The two arrangements of the whole network agree on real arrays, for any neighbour sum that keeps arrays real. -/
theorem kNet_eq_dNet (agg : Mat 50000 128 → Mat 50000 128) (hagg : ∀ X, IsReal X → IsReal (agg X)) (nrm : Mat 50000 1) (hn : IsReal nrm)
    (h : Mat 50000 128) (hh : IsReal h) (γ β : Mat 1 128) (hγ : IsReal γ) (hβ : IsReal β) (W1 : Mat 128 128) (hW1 : IsReal W1)
    (b1 γ2 β2 : Mat 1 128) (hb1 : IsReal b1) (hγ2 : IsReal γ2) (hβ2 : IsReal β2) (W2 : Mat 128 40) (hW2 : IsReal W2) (b2 : Mat 1 40) (hb2 : IsReal b2) :
    kNet agg nrm h γ β W1 b1 γ2 β2 W2 b2 = dNet agg nrm h γ β W1 b1 γ2 β2 W2 b2 := by
  have L : ∀ p : Mat 50000 128, IsReal p →
      kAct (rowScale (agg p) nrm) γ β = dAct (rowScale (agg p) nrm) γ β
        ∧ IsReal (rowScale (dAct (rowScale (agg p) nrm) γ β) nrm) ∧ IsReal (dAct (rowScale (agg p) nrm) γ β) := by
    intro p hp
    have hx : IsReal (rowScale (agg p) nrm) := isReal_rowScale _ _ (hagg p hp) hn
    have hd : IsReal (dAct (rowScale (agg p) nrm) γ β) := isReal_dAct _ γ β hx hγ hβ
    exact ⟨kAct_eq_dAct _ γ β hx, isReal_rowScale _ _ hd hn, hd⟩
  have h0 : IsReal (rowScale h nrm) := isReal_rowScale _ _ hh hn
  obtain ⟨e1, r1, _⟩ := L _ h0
  obtain ⟨e2, r2, _⟩ := L _ r1
  obtain ⟨e3, r3, _⟩ := L _ r2
  obtain ⟨e4, _, r4⟩ := L _ r3
  simp only [kNet, dNet]
  rw [e1, e2, e3, e4]
  exact kHead_eq_dHead _ W1 b1 γ2 β2 W2 b2 r4 hW1 hb1

end Cert.Spec

end
-- ==== Proof.lean ====
/-
  A four-layer graph convolution network with a two-layer head, tiled over 50000 nodes, against its plain array form.

  Both programs scale the node features by the degree weights, sum neighbours' rows with the same gather and
  scatter-add, and normalise every feature column over the nodes. They differ in one place: the tiled program keeps,
  per column, the sum and the sum of squares accumulated over its ten blocks of rows and takes the variance as
  (sum of squares)/n − mean², where the array form takes the mean of the squared deviations. On real columns these
  are one number, and under the precondition every array the network meets is real: the inputs by hypothesis, a
  neighbour sum because it adds finitely many real entries, a degree weight because it is the inverse square root of
  a count that is at least one, a normalised column because its variance plus ε is positive.
-/
import proofs.«113157_j3616362463713_1_alg».proof.Defs
import proofs.«113157_j3616362463713_1_alg».proof.Proof.Gen.Kernel
import proofs.«113157_j3616362463713_1_alg».proof.Proof.Gen.Kernel.Frame
import proofs.«113157_j3616362463713_1_alg».proof.Proof.Gen.KernelIdeal
import proofs.«113157_j3616362463713_1_alg».proof.Proof.Gen.KernelIdeal.Frame
import proofs.«113157_j3616362463713_1_alg».proof.Proof.Gen.ReferenceIdeal
import proofs.«113157_j3616362463713_1_alg».proof.Proof.Gen.Pre_finite_inputs
import proofs.«113157_j3616362463713_1_alg».proof.Proof.KRun
import proofs.«113157_j3616362463713_1_alg».proof.Proof.KDefs
import proofs.«113157_j3616362463713_1_alg».proof.Proof.KFin
import proofs.«113157_j3616362463713_1_alg».proof.Proof.KChain
import proofs.«113157_j3616362463713_1_alg».proof.Proof.RefOut
import proofs.«113157_j3616362463713_1_alg».proof.Proof.RefNet
import proofs.«113157_j3616362463713_1_alg».proof.Proof.RefRun
import proofs.«113157_j3616362463713_1_alg».proof.Proof.Glue
import proofs.«113157_j3616362463713_1_alg».proof.Proof.Alg
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- The idealized program runs and leaves its arguments as launched. -/
theorem frame_ki : Cert.frame_KernelIdeal := fun m ρ _ => Cert.KernelIdeal.Gen.frame m ρ

/-- The array form runs and leaves its arguments as launched: its run with the result dropped. -/
theorem frame_ri : Cert.frame_ReferenceIdeal := fun m ρ _ =>
  (θ_run Cert.ReferenceIdeal.defs _ _).mono (fun _ h c => (h c).2) (Cert.ReferenceIdeal.RefRun.run m ρ)

/-- Nothing was rewritten on the way to the idealized program. -/
theorem preserves : Cert.preserves_Kernel_KernelIdeal := trivial

/-- The tiled network's result, as the arrangement with the variance from the two sums, is the array form's result:
    the arrays are real under the precondition, so the two arrangements agree, and the host-side maps of the two
    programs are the same maps. -/
theorem value_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.kNet (M := 50000) (K := 128) (N := 40) (Cert.KernelIdeal.KDefs.aggK (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.KernelIdeal.KDefs.nrmK (m ((c.tc : Thread Cert.KernelIdeal.nD Cert.KernelIdeal.τ).loc Cert.KernelIdeal.main_arg2))) (m ((c.tc : Thread Cert.KernelIdeal.nD Cert.KernelIdeal.τ).loc Cert.KernelIdeal.main_arg0)) (Cert.KernelIdeal.KDefs.rowK (m ((c.tc : Thread Cert.KernelIdeal.nD Cert.KernelIdeal.τ).loc Cert.KernelIdeal.main_arg3))) (Cert.KernelIdeal.KDefs.rowK (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (Cert.KernelIdeal.KDefs.rowK (m ((c.tc : Thread Cert.KernelIdeal.nD Cert.KernelIdeal.τ).loc Cert.KernelIdeal.main_arg6))) (Cert.KernelIdeal.KDefs.rowK (m ((c.tc : Thread Cert.KernelIdeal.nD Cert.KernelIdeal.τ).loc Cert.KernelIdeal.main_arg7))) (Cert.KernelIdeal.KDefs.rowK (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (Cert.KernelIdeal.KDefs.rowK40 (m ((c.tc : Thread Cert.KernelIdeal.nD Cert.KernelIdeal.τ).loc Cert.KernelIdeal.main_arg10)))
      = Cert.ReferenceIdeal.RefOut.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  obtain ⟨h0, h3, h4, h5, h6, h7, h8, h9, h10⟩ := Cert.KernelIdeal.KFin.args_real m hpre c
  rw [Cert.ReferenceIdeal.RefNet.out_eq]
  rw [Cert.Spec.kNet_eq_dNet _ (fun X hX => Cert.KernelIdeal.KFin.aggK_real _ _ X hX) _ (Cert.KernelIdeal.KFin.nrmK_real _)
    _ h0 _ _ (Cert.KernelIdeal.KFin.rowK_real _ h3) (Cert.KernelIdeal.KFin.rowK_real _ h4) _ h5 _ _ _
    (Cert.KernelIdeal.KFin.rowK_real _ h6) (Cert.KernelIdeal.KFin.rowK_real _ h7) (Cert.KernelIdeal.KFin.rowK_real _ h8) _ h9 _
    (Cert.KernelIdeal.KFin.rowK40_real _ h10)]
  rw [Cert.Glue.nrmR_eq_nrmK, Cert.Glue.rowR_eq_rowK, Cert.Glue.rowR_eq_rowK, Cert.Glue.rowR_eq_rowK, Cert.Glue.rowR_eq_rowK,
    Cert.Glue.rowR_eq_rowK, Cert.Glue.rowR40_eq_rowK40]
  rfl

/-- From memories agreeing on the arguments both programs end with the same result. -/
theorem algebraic : Cert.algebraic_KernelIdeal_ReferenceIdeal := by
  intro m ρ m' ρ' hpre hagree
  refine ⟨fun c => Cert.KernelIdeal.Gen.W21 (F := Ideal) m ρ c (Proc.devRef .tc Cert.KernelIdeal.main_v94),
    Cert.KernelIdeal.KRun.run_named m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8, e9, e10⟩ := hagree c
  rw [e0, e1, e2, e3, e4, e5, e6, e7, e8, e9, e10]
  exact ((Cert.KernelIdeal.KChain.kernel_value m ρ c).trans (value_eq m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
